-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S3x128 .f32) (main_arg3 : FVec F S3x128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128 .f32 := Host.absf main_arg2
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S3x128 : Shape := ⟨2, ![3, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128 : Shape := ⟨1, ![128]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 114
  | .vmem => 63
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128, .f32⟩
  | .hbm, ⟨3, _⟩ => ⟨S3x128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S100000x128, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S_, .f32⟩
  | .hbm, ⟨58, _⟩ => ⟨S128, .f32⟩
  | .hbm, ⟨59, _⟩ => ⟨S1x128, .f32⟩
  | .hbm, ⟨60, _⟩ => ⟨S100000x128, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S100000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S_, .f32⟩
  | .hbm, ⟨92, _⟩ => ⟨S128, .f32⟩
  | .hbm, ⟨93, _⟩ => ⟨S1x128, .f32⟩
  | .hbm, ⟨94, _⟩ => ⟨S100000x128, .f32⟩
  | .hbm, ⟨95, _⟩ => ⟨S1x128, .f32⟩
  | .hbm, ⟨96, _⟩ => ⟨S1x128, .f32⟩
  | .hbm, ⟨97, _⟩ => ⟨S_, .f32⟩
  | .hbm, ⟨98, _⟩ => ⟨S1x128, .f32⟩
  | .hbm, ⟨99, _⟩ => ⟨S1x128, .f32⟩
  | .hbm, ⟨100, _⟩ => ⟨S_, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S_, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S100000x128, .f32⟩
  | .hbm, ⟨112, _⟩ => ⟨S1x64, .f32⟩
  | .hbm, ⟨113, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S1x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S2000x128, .f32⟩
  | .local _ .vmem, ⟨50, _⟩ => ⟨S2000x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S128x64, .f32⟩
  | .local _ .vmem, ⟨60, _⟩ => ⟨S1x64, .f32⟩
  | .local _ .vmem, ⟨61, _⟩ => ⟨S2000x64, .f32⟩
  | .local _ .vmem, ⟨62, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v41_2 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_v65 : Ref sig .tc := ⟨.hbm, 93, rfl⟩
abbrev main_v66_0 : Ref sig .tc := ⟨.hbm, 94, rfl⟩
abbrev main_v66_1 : Ref sig .tc := ⟨.hbm, 95, rfl⟩
abbrev main_v66_2 : Ref sig .tc := ⟨.hbm, 96, rfl⟩
abbrev main_cst_16 : Ref sig .tc := ⟨.hbm, 97, rfl⟩
abbrev main_v67 : Ref sig .tc := ⟨.hbm, 98, rfl⟩
abbrev main_v68 : Ref sig .tc := ⟨.hbm, 99, rfl⟩
abbrev main_cst_17 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg5_0 : Ref sig .tc := ⟨.vmem, 46, rfl⟩
abbrev cc4_scratch0 : Ref sig .tc := ⟨.vmem, 47, rfl⟩
abbrev cc4_scratch1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg3_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem3_1 : DmaSem sig := 40
abbrev cc4_sem4_0 : DmaSem sig := 41
abbrev cc4_sem5_0 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem0_1 : DmaSem sig := 52
abbrev cc6_sem1_0 : DmaSem sig := 53
abbrev cc6_sem2_0 : DmaSem sig := 54
abbrev cc6_sem3_0 : DmaSem sig := 55
abbrev cc6_sem3_1 : DmaSem sig := 56

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v27 : BitVec 1 := Scalar.cmpi .eq arg0 c49_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v28 : BitVec 1 := Scalar.cmpi .eq arg0 c49_i32
  let v29 : BitVec 32 := Scalar.extui v28
  let c0_i32_17 : BitVec 32 := 0#32
  let v30 : BitVec 1 := Scalar.cmpi .ne v29 c0_i32_17
  v30

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v28 : BitVec 1 := Scalar.cmpi .eq arg0 c49_i32
  let v29 : BitVec 32 := Scalar.extui v28
  let c0_i32_17 : BitVec 32 := 0#32
  let v30 : BitVec 1 := Scalar.cmpi .ne v29 c0_i32_17
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  reducesTo_S100000x128_S128_d0 : S100000x128.ReducesTo [0] S128
  h_S_ : 0 < S_.numel
  bcast_S128_S1x128_1 : S128.BroadcastsInDim S1x128 (![1] : Fin 1 → Fin S1x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S128 : S2000x128.Reduces [0] S128
  shapeCasts_S128_S1x128 : S128.ShapeCasts S1x128
  bcast_S_S1x128 : S_.BroadcastsInDim S1x128 (![] : Fin 0 → Fin S1x128.rank)
  slices_S3x128_S1x128_0_0 : S3x128.Slices ![0, 0] S1x128
  slices_S3x128_S1x128_1_0 : S3x128.Slices ![1, 0] S1x128
  slices_S3x128_S1x128_2_0 : S3x128.Slices ![2, 0] S1x128
  shapeCasts_S64_S1x64 : S64.ShapeCasts S1x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S100000x64.size a
  hwx6_3 : ∀ i : grid6.Coords, EltTy.bits .f32 = 32 ∨ (Rect.block (s := S100000x64) S2000x64.size (cc6_transform_3 i) (hinb6_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v16_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41_0) S2000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v41_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v53) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66_0) S2000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v66_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v66_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v78) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v78) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S2000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128 : Shape := ⟨2, ![3, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128 : Shape := ⟨1, ![128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 224
  | .vmem => 0
  | .smem => 0
  | _ => 0

abbrev hbmTy0_0 (i : Nat) : BufTy := match i % 128 with
  | 0 => ⟨S100000x128, .f32⟩
  | 1 => ⟨S2x1600000, .i32⟩
  | 2 => ⟨S3x128, .f32⟩
  | 3 => ⟨S3x128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S_, .f32⟩
  | 24 => ⟨S128, .f32⟩
  | 25 => ⟨S1x128, .f32⟩
  | 26 => ⟨S100000x128, .f32⟩
  | 27 => ⟨S100000x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S_, .i32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S100000x128, .f32⟩
  | 42 => ⟨S100000x128, .f32⟩
  | 43 => ⟨S100000x128, .f32⟩
  | 44 => ⟨S_, .f32⟩
  | 45 => ⟨S_, .f32⟩
  | 46 => ⟨S_, .f32⟩
  | 47 => ⟨S_, .f32⟩
  | 48 => ⟨S128, .f32⟩
  | 49 => ⟨S128, .f32⟩
  | 50 => ⟨S128, .f32⟩
  | 51 => ⟨S_, .f32⟩
  | 52 => ⟨S_, .i1⟩
  | 53 => ⟨S_, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S_, .f32⟩
  | 94 => ⟨S128, .f32⟩
  | 95 => ⟨S1x128, .f32⟩
  | 96 => ⟨S100000x128, .f32⟩
  | 97 => ⟨S100000x128, .f32⟩
  | 98 => ⟨S100000x128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S100000x128, .f32⟩
  | 112 => ⟨S100000x128, .f32⟩
  | 113 => ⟨S100000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S128, .f32⟩
  | 4 => ⟨S128, .f32⟩
  | 5 => ⟨S128, .f32⟩
  | 6 => ⟨S1x128, .f32⟩
  | 7 => ⟨S100000x128, .f32⟩
  | 8 => ⟨S100000x128, .f32⟩
  | 9 => ⟨S1x128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S_, .f32⟩
  | 36 => ⟨S128, .f32⟩
  | 37 => ⟨S1x128, .f32⟩
  | 38 => ⟨S100000x128, .f32⟩
  | 39 => ⟨S100000x128, .f32⟩
  | 40 => ⟨S100000x128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S100000x128, .f32⟩
  | 54 => ⟨S100000x128, .f32⟩
  | 55 => ⟨S100000x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S100000x64, .f32⟩
  | 93 => ⟨S1x64, .f32⟩
  | 94 => ⟨S100000x64, .f32⟩
  | 95 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_cst_3 : Ref sig .tc := ⟨.hbm, 51, rfl⟩
abbrev main_call0_v12 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_call1_cst : Ref sig .tc := ⟨.hbm, 77, rfl⟩
abbrev main_call1_v0 : Ref sig .tc := ⟨.hbm, 78, rfl⟩
abbrev main_v42 : Ref sig .tc := ⟨.hbm, 79, rfl⟩
abbrev main_c_6 : Ref sig .tc := ⟨.hbm, 80, rfl⟩
abbrev main_v43 : Ref sig .tc := ⟨.hbm, 81, rfl⟩
abbrev main_v44 : Ref sig .tc := ⟨.hbm, 82, rfl⟩
abbrev main_c_7 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_8 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_9 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_10 : Ref sig .tc := ⟨.hbm, 99, rfl⟩
abbrev main_v58 : Ref sig .tc := ⟨.hbm, 100, rfl⟩
abbrev main_cst_11 : Ref sig .tc := ⟨.hbm, 101, rfl⟩
abbrev main_v59 : Ref sig .tc := ⟨.hbm, 102, rfl⟩
abbrev main_v60 : Ref sig .tc := ⟨.hbm, 103, rfl⟩
abbrev main_c_12 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_cst_1 : Ref sig .tc := ⟨.hbm, 115, rfl⟩
abbrev main_call2_v8 : Ref sig .tc := ⟨.hbm, 116, rfl⟩
abbrev main_call2_cst_2 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_cst_3 : Ref sig .tc := ⟨.hbm, 121, rfl⟩
abbrev main_call2_v12 : Ref sig .tc := ⟨.hbm, 122, rfl⟩
abbrev main_call2_cst_4 : Ref sig .tc := ⟨.hbm, 123, rfl⟩
abbrev main_call2_call0_v0 : Ref sig .tc := ⟨.hbm, 124, rfl⟩
abbrev main_call2_call0_v1 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_cst_13 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_call3_cst : Ref sig .tc := ⟨.hbm, 147, rfl⟩
abbrev main_call3_v0 : Ref sig .tc := ⟨.hbm, 148, rfl⟩
abbrev main_v81 : Ref sig .tc := ⟨.hbm, 149, rfl⟩
abbrev main_c_14 : Ref sig .tc := ⟨.hbm, 150, rfl⟩
abbrev main_v82 : Ref sig .tc := ⟨.hbm, 151, rfl⟩
abbrev main_v83 : Ref sig .tc := ⟨.hbm, 152, rfl⟩
abbrev main_c_15 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_cst_16 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_cst_17 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_cst_18 : Ref sig .tc := ⟨.hbm, 169, rfl⟩
abbrev main_v97 : Ref sig .tc := ⟨.hbm, 170, rfl⟩
abbrev main_cst_19 : Ref sig .tc := ⟨.hbm, 171, rfl⟩
abbrev main_v98 : Ref sig .tc := ⟨.hbm, 172, rfl⟩
abbrev main_v99 : Ref sig .tc := ⟨.hbm, 173, rfl⟩
abbrev main_c_20 : Ref sig .tc := ⟨.hbm, 174, rfl⟩
abbrev main_call4_cst : Ref sig .tc := ⟨.hbm, 175, rfl⟩
abbrev main_call4_v0 : Ref sig .tc := ⟨.hbm, 176, rfl⟩
abbrev main_call4_v1 : Ref sig .tc := ⟨.hbm, 177, rfl⟩
abbrev main_call4_cst_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_v7 : Ref sig .tc := ⟨.hbm, 184, rfl⟩
abbrev main_call4_cst_1 : Ref sig .tc := ⟨.hbm, 185, rfl⟩
abbrev main_call4_v8 : Ref sig .tc := ⟨.hbm, 186, rfl⟩
abbrev main_call4_cst_2 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_cst_3 : Ref sig .tc := ⟨.hbm, 191, rfl⟩
abbrev main_call4_v12 : Ref sig .tc := ⟨.hbm, 192, rfl⟩
abbrev main_call4_cst_4 : Ref sig .tc := ⟨.hbm, 193, rfl⟩
abbrev main_call4_call0_v0 : Ref sig .tc := ⟨.hbm, 194, rfl⟩
abbrev main_call4_call0_v1 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_cst_21 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_call5_cst : Ref sig .tc := ⟨.hbm, 217, rfl⟩
abbrev main_call5_v0 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  reducesTo_S100000x128_S128_d0 : S100000x128.ReducesTo [0] S128
  h_S_ : 0 < S_.numel
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S1x128 : S_.BroadcastsInDim S1x128 (![] : Fin 0 → Fin S1x128.rank)
  slices_S3x128_S1x128_0_0 : S3x128.Slices ![0, 0] S1x128
  shapeCasts_S1x128_S128 : S1x128.ShapeCasts S128
  slices_S3x128_S1x128_1_0 : S3x128.Slices ![1, 0] S1x128
  slices_S3x128_S1x128_2_0 : S3x128.Slices ![2, 0] S1x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.K.Reg0Runs.lean ====
/-
  Region 0 (the first combine-and-statistics call): what the three runs of its body share — the two branch
  conditions in closed form over the 50 grid points, where the two statistics windows are idle, the memrefs the body is
  called with, the entry invariant with the two accumulator rows split out — and the body's triple in each of the three
  control cases: the first point (accumulator rows zeroed, then the tile's column sums added), a middle point (column
  sums added), the last point (column sums added, then both rows copied to the statistics outputs).
-/
import proofs.«107997_j14224931684915_1_alg».proof.Proof.Gen.Kernel.Launch
import proofs.«107997_j14224931684915_1_alg».proof.Proof.Gen.Kernel.Skeleton
import proofs.«107997_j14224931684915_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional of the body (zero the two accumulator rows), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 50 = 0 :=
  (by decide +kernel : ∀ t : Fin grid0.N, cond0_0 (grid0.coords t) ↔ t.val % 50 = 0)

/-- The last conditional of the body (copy the accumulator rows to the two statistics outputs). -/
abbrev cond0_1 (i : grid0.Coords) : Prop := k0_cond2 i = 1#1
/-- It holds at the last point only. -/
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_3 : View sig .tc .vmem S2000x128 .f32 := (Memref.whole cc0_stg3_0 : Memref sig .tc .vmem S2000x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- The two accumulator rows: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The region's entry invariant with the two accumulator rows split out as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

set_option maxHeartbeats 4000000 in
/-- The body at the first point (accumulator rows zeroed first, statistics outputs not stored): on whole memrefs, the
    three inputs at their contents, the tile output and both accumulator rows at anything, the two statistics outputs at
    contents handed back untouched, the body runs to the continuation with each stored buffer at its pieces written. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__combine_stats_kernel_eq_skeleton]; unfold cc0__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at a middle point (neither conditional taken): the accumulator rows come in at what the point before left. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__combine_stats_kernel_eq_skeleton]; unfold cc0__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg5.eq_unread hf5; obtain rfl := harg6.eq_unread hf6
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at the last point (the accumulator rows copied to the statistics outputs at the end). -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__combine_stats_kernel_eq_skeleton]; unfold cc0__combine_stats_kernel_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.Reg0Frame.lean ====
/-
  Region 0 (the first combine-and-statistics call), the frame part: what each output window's buffer and the two
  accumulator rows hold after every grid point (`outsAt0`: the case the point is in — first, middle, last — run at the
  point's input blocks, the rows coming in at what the point before left), the pipeline's proof data `dat0` at any entry
  contents `V`, the body obligation at a generic point, and the two ends of the region invariant.
-/
import proofs.«107997_j14224931684915_1_alg».proof.Proof.K.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input's current staging buffer holds its block at every point, fetched there or not. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The stores into the tile output cover it; what they leave, read back. -/
theorem cover0_A_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) (y : S2000x128.Idx) :
    ∃ pc ∈ (kernelRun0_A c i arg1 harg1 arg2 harg2 arg3 harg3 arg4 harg4 arg5 harg5 arg6 harg6 arg7 harg7 arg8 harg8 hc0 hc1 xa xb xr).1, y ∈ pc.1.set :=
  View.cover_of_tiledL (kernelRun0_A c i arg1 harg1 arg2 harg2 arg3 harg3 arg4 harg4 arg5 harg5 arg6 harg6 arg7 harg7 arg8 harg8 hc0 hc1 xa xb xr).1 S2000x128.size (by sl_kernel_rfl) y

def out0_A_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) : Vec F S2000x128 .f32 :=
  VO0_3.read (Elt F) (VO0_3.writes (Elt F) VO0_3.junk (kernelRun0_A c i arg1 harg1 arg2 harg2 arg3 harg3 arg4 harg4 arg5 harg5 arg6 harg6 arg7 harg7 arg8 harg8 hc0 hc1 xa xb xr).1)

/-- The stores into the first accumulator row cover it; what they leave. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) (y : S1x128.Idx) :
    ∃ pc ∈ (kernelRun0_A c i arg1 harg1 arg2 harg2 arg3 harg3 arg4 harg4 arg5 harg5 arg6 harg6 arg7 harg7 arg8 harg8 hc0 hc1 xa xb xr).2.1, y ∈ pc.1.set :=
  View.cover_of_tiledL (kernelRun0_A c i arg1 harg1 arg2 harg2 arg3 harg3 arg4 harg4 arg5 harg5 arg6 harg6 arg7 harg7 arg8 harg8 hc0 hc1 xa xb xr).2.1 S1x128.size (by sl_kernel_rfl) y

def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 xa xb xr).2.1)

/-- The stores into the second accumulator row cover it; what they leave. -/
theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) (y : S1x128.Idx) :
    ∃ pc ∈ (kernelRun0_A c i arg1 harg1 arg2 harg2 arg3 harg3 arg4 harg4 arg5 harg5 arg6 harg6 arg7 harg7 arg8 harg8 hc0 hc1 xa xb xr).2.2.1, y ∈ pc.1.set :=
  View.cover_of_tiledL (kernelRun0_A c i arg1 harg1 arg2 harg2 arg3 harg3 arg4 harg4 arg5 harg5 arg6 harg6 arg7 harg7 arg8 harg8 hc0 hc1 xa xb xr).2.2.1 S1x128.size (by sl_kernel_rfl) y

def sout0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 xa xb xr).2.2.1)

/-- The stores into the tile output cover it; what they leave, read back. -/
theorem cover0_B_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun0_B c i arg1 harg1 arg2 harg2 arg3 harg3 arg4 harg4 arg5 harg5 arg6 harg6 arg7 harg7 arg8 harg8 hc0 hc1 xa xb xr xs0 xs1).1, y ∈ pc.1.set :=
  View.cover_of_tiledL (kernelRun0_B c i arg1 harg1 arg2 harg2 arg3 harg3 arg4 harg4 arg5 harg5 arg6 harg6 arg7 harg7 arg8 harg8 hc0 hc1 xa xb xr xs0 xs1).1 S2000x128.size (by sl_kernel_rfl) y

def out0_B_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) : Vec F S2000x128 .f32 :=
  VO0_3.read (Elt F) (VO0_3.writes (Elt F) VO0_3.junk (kernelRun0_B c i arg1 harg1 arg2 harg2 arg3 harg3 arg4 harg4 arg5 harg5 arg6 harg6 arg7 harg7 arg8 harg8 hc0 hc1 xa xb xr xs0 xs1).1)

/-- The stores into the first accumulator row cover it; what they leave. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 xa xb xr xs0 xs1).2.1, y ∈ pc.1.set :=
  View.cover_of_tiledL (kernelRun0_B c i arg1 harg1 arg2 harg2 arg3 harg3 arg4 harg4 arg5 harg5 arg6 harg6 arg7 harg7 arg8 harg8 hc0 hc1 xa xb xr xs0 xs1).2.1 S1x128.size (by sl_kernel_rfl) y

def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 xa xb xr xs0 xs1).2.1)

/-- The stores into the second accumulator row cover it; what they leave. -/
theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun0_B c i arg1 harg1 arg2 harg2 arg3 harg3 arg4 harg4 arg5 harg5 arg6 harg6 arg7 harg7 arg8 harg8 hc0 hc1 xa xb xr xs0 xs1).2.2.1 S1x128.size (by sl_kernel_rfl) y

def sout0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 xa xb xr xs0 xs1).2.2.1)

/-- The stores into the tile output cover it; what they leave, read back. -/
theorem cover0_C_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun0_C c i arg1 harg1 arg2 harg2 arg3 harg3 arg4 harg4 arg5 harg5 arg6 harg6 arg7 harg7 arg8 harg8 hc0 hc1 xa xb xr xs0 xs1).1, y ∈ pc.1.set :=
  View.cover_of_tiledL (kernelRun0_C c i arg1 harg1 arg2 harg2 arg3 harg3 arg4 harg4 arg5 harg5 arg6 harg6 arg7 harg7 arg8 harg8 hc0 hc1 xa xb xr xs0 xs1).1 S2000x128.size (by sl_kernel_rfl) y

def out0_C_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : Vec F S2000x128 .f32 :=
  VO0_3.read (Elt F) (VO0_3.writes (Elt F) VO0_3.junk (kernelRun0_C c i arg1 harg1 arg2 harg2 arg3 harg3 arg4 harg4 arg5 harg5 arg6 harg6 arg7 harg7 arg8 harg8 hc0 hc1 xa xb xr xs0 xs1).1)

/-- The store into the column-sum output covers it; what it leaves. -/
theorem cover0_C_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 xa xb xr xs0 xs1).2.1, y ∈ pc.1.set :=
  View.cover_of_tiledL (kernelRun0_C c i arg1 harg1 arg2 harg2 arg3 harg3 arg4 harg4 arg5 harg5 arg6 harg6 arg7 harg7 arg8 harg8 hc0 hc1 xa xb xr xs0 xs1).2.1 S1x128.size (by sl_kernel_rfl) y

def out0_C_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : Vec F S1x128 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 xa xb xr xs0 xs1).2.1)

/-- The store into the sum-of-squares output covers it; what it leaves. -/
theorem cover0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun0_C c i arg1 harg1 arg2 harg2 arg3 harg3 arg4 harg4 arg5 harg5 arg6 harg6 arg7 harg7 arg8 harg8 hc0 hc1 xa xb xr xs0 xs1).2.2.1 S1x128.size (by sl_kernel_rfl) y

def out0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : Vec F S1x128 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 xa xb xr xs0 xs1).2.2.1)

/-- The stores into the first accumulator row cover it; what they leave. -/
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 xa xb xr xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 xa xb xr xs0 xs1).2.2.2.1 S1x128.size (by sl_kernel_rfl) y

def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 xa xb xr xs0 xs1).2.2.2.1)

/-- The stores into the second accumulator row cover it; what they leave. -/
theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 xa xb xr xs0 xs1).2.2.2.2.1, y ∈ pc.1.set :=
  View.cover_of_tiledL (kernelRun0_C c i arg1 harg1 arg2 harg2 arg3 harg3 arg4 harg4 arg5 harg5 arg6 harg6 arg7 harg7 arg8 harg8 hc0 hc1 xa xb xr xs0 xs1).2.2.2.2.1 S1x128.size (by sl_kernel_rfl) y

def sout0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 xa xb xr xs0 xs1).2.2.2.2.1)

/-! ## What the outputs and the accumulator rows hold after each point -/

/-- After the body at position `n`: the tile output's buffer, the two statistics outputs' buffers (placeholders where the
    body does not store them), and the two accumulator rows — the case the point is in, run at the point's memrefs and
    input blocks, the accumulator rows coming in at what position `n - 1` left. -/
def outsAt0 (c : Dev nD) : (n : ℕ) → n < cfg0.N → Vec F S2000x128 .f32 × Vec F S1x128 .f32 × Vec F S1x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), (VO0_4.read (Elt F) (VO0_4.writes (Elt F) VO0_4.junk [])), (VO0_5.read (Elt F) (VO0_5.writes (Elt F) VO0_5.junk [])), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 50 = 0 then
      if h1 : (n + 1) % 50 = 49 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), (VO0_4.read (Elt F) (VO0_4.writes (Elt F) VO0_4.junk [])), (VO0_5.read (Elt F) (VO0_5.writes (Elt F) VO0_5.junk [])), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 50 = 49 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, (VO0_4.read (Elt F) (VO0_4.writes (Elt F) VO0_4.junk [])), (VO0_5.read (Elt F) (VO0_5.writes (Elt F) VO0_5.junk [])), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 50 = 0) (h1 : ¬t.val % 50 = 49) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), (VO0_4.read (Elt F) (VO0_4.writes (Elt F) VO0_4.junk [])), (VO0_5.read (Elt F) (VO0_5.writes (Elt F) VO0_5.junk [])), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 50 = 0) (h1 : ¬t.val % 50 = 49) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, (VO0_4.read (Elt F) (VO0_4.writes (Elt F) VO0_4.junk [])), (VO0_5.read (Elt F) (VO0_5.writes (Elt F) VO0_5.junk [])), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 50 = 0) (h1 : t.val % 50 = 49) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's entry the scoped rest at anything and the generator register at some state;
    afterwards the same with the two accumulator rows named — at what the point before left in them. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of the region on core `c`: the arrays as the region finds them; after the body at point `t` each input's
    buffer at its block, each output's at `outsAt0`'s component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; the
    invariant hands the body the accumulator rows at what the point before left (at anything at the first point) and takes
    them back at this point's contents; the statistics outputs are handed back untouched except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 50 = 0
  · by_cases h1 : t.val % 50 = 49
    · exfalso; omega
    ·
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold out0_A_3 sout0_A_0 sout0_A_1; (try dsimp only)
      by_cases hz : t.val = 0
      · rw [PhiS0_castSucc V c t, PhiS0_zero V c _ _ hz, PhiA0_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _)
        isplitl [H4]; · iexists _; iexact H4
        iexists _; iexact H5
      · exfalso; omega
  · by_cases h1 : t.val % 50 = 49
    ·
      rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_3 out0_C_4 out0_C_5 sout0_C_0 sout0_C_1; (try dsimp only)
      by_cases hz : t.val = 0
      · exfalso; omega
      · rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, ⟨%e3, H3⟩, ⟨%e4, H4⟩, ⟨%e5, H5⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _)
              · unfold owns; iexists _; isplitr
                swap; · iexact HS1
                ipureintro; exact View.read_writes_of_cover _ _ _ _ _ (scover0_C_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _)
    ·
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold out0_B_3 sout0_B_0 sout0_B_1; (try dsimp only)
      by_cases hz : t.val = 0
      · exfalso; omega
      · rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _)
              · unfold owns; iexists _; isplitr
                swap; · iexact HS1
                ipureintro; exact View.read_writes_of_cover _ _ _ _ _ (scover0_B_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _)
        isplitl [H4]; · iexists _; iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the accumulator rows' contents forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.K.Reg1Frame.lean ====
/-
  The second stage of a layer — subtract the mean, scale by the inverse deviation and by gamma, add beta, clamp
  below at zero — as the pipeline runs it, one tile of 2000 rows per grid point.

  The tile window (0) and the result window (5) move with the point; the four row windows (1..4: mean, inverse
  deviation, gamma, beta) have a constant block index, so they are fetched at the first point only and the body
  finds them unchanged at every later point. The body reads the five input buffers whole and writes the result
  buffer whole, so after the body at point t the result buffer is one function of the five blocks at t; the
  inputs' buffers are left as found.
-/
import proofs.«107997_j14224931684915_1_alg».proof.Proof.Gen.Kernel.Launch
import proofs.«107997_j14224931684915_1_alg».proof.Proof.Gen.Kernel.Skeleton
import proofs.«107997_j14224931684915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place: where it was not fetched the block
    index has not moved, so the block of the point before is this point's. The tile window is fetched at every
    point; the four row windows only at the first. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole tile, the whole row -/

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

/-! ## What the body leaves in the result window's buffer -/

/-- The result buffer after the body, from the five input blocks: its one store, of the clamped affine image of the
    tile, over the whole buffer. -/
def out1_5 (x0 : Vec F S2000x128 .f32) (x1 : Vec F S1x128 .f32) (x2 : Vec F S1x128 .f32) (x3 : Vec F S1x128 .f32) (x4 : Vec F S1x128 .f32) : Vec F S2000x128 .f32 :=
  View.canon [⟨r1_0, k1_pay1 (View.ld x0 r1_0) (View.ld x1 r1_1) (View.ld x2 r1_1) (View.ld x3 r1_1) (View.ld x4 r1_1)⟩]

/-- The one store is the whole buffer, so it covers it. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The body on whole staging buffers, the inputs' read as x0..x4 and the result's holding anything, runs to the
    continuation with the inputs' as they were and the result's at out1_5 of them. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__normalize_relu_kernel i arg1 harg1 arg2 harg2 arg3 harg3 arg4 harg4 arg5 harg5 arg6 harg6) K := by
  simp only [cc1__normalize_relu_kernel_eq_skeleton]; unfold cc1__normalize_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data on core c: the arrays as the region finds them; after the body at point t each input's buffer at
    its block and the result's at out1_5 of the five blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- The invariant does not depend on the point: entering and leaving the region it is the class's own. -/
theorem hin1 (c : Dev nD) : Pipeline.ΦA spec1 c ⊢ (dat1 V c).Φ 0 := Entails.refl _
theorem hout1 (c : Dev nD) : (dat1 V c).Φ (Fin.last cfg1.N) ⊢ Pipeline.ΦA spec1 c := Entails.refl _

end Cert.Kernel.Hand

end
-- ==== Proof.K.Reg2Runs.lean ====
/-
  Region 2 (the second combine-and-statistics call): what the three runs of its body share — the two branch
  conditions in closed form over the 50 grid points, where the two statistics windows are idle, the memrefs the body is
  called with, the entry invariant with the two accumulator rows split out — and the body's triple in each of the three
  control cases: the first point (accumulator rows zeroed, then the tile's column sums added), a middle point (column
  sums added), the last point (column sums added, then both rows copied to the statistics outputs).
-/
import proofs.«107997_j14224931684915_1_alg».proof.Proof.Gen.Kernel.Launch
import proofs.«107997_j14224931684915_1_alg».proof.Proof.Gen.Kernel.Skeleton
import proofs.«107997_j14224931684915_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional of the body (zero the two accumulator rows), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 50 = 0 :=
  (by decide +kernel : ∀ t : Fin grid2.N, cond2_0 (grid2.coords t) ↔ t.val % 50 = 0)

/-- The last conditional of the body (copy the accumulator rows to the two statistics outputs). -/
abbrev cond2_1 (i : grid2.Coords) : Prop := k2_cond2 i = 1#1
/-- It holds at the last point only. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The memrefs the body is called with -/

abbrev VO2_3 : View sig .tc .vmem S2000x128 .f32 := (Memref.whole cc2_stg3_0 : Memref sig .tc .vmem S2000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
/-- The two accumulator rows: whole scoped buffers of the kernel's own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The region's entry invariant with the two accumulator rows split out as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

set_option maxHeartbeats 4000000 in
/-- The body at the first point (accumulator rows zeroed first, statistics outputs not stored): on whole memrefs, the
    three inputs at their contents, the tile output and both accumulator rows at anything, the two statistics outputs at
    contents handed back untouched, the body runs to the continuation with each stored buffer at its pieces written. -/
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__combine_stats_kernel_eq_skeleton]; unfold cc2__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at a middle point (neither conditional taken): the accumulator rows come in at what the point before left. -/
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__combine_stats_kernel_eq_skeleton]; unfold cc2__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg5.eq_unread hf5; obtain rfl := harg6.eq_unread hf6
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at the last point (the accumulator rows copied to the statistics outputs at the end). -/
noncomputable def kernelRun2_C (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__combine_stats_kernel_eq_skeleton]; unfold cc2__combine_stats_kernel_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.Reg2Frame.lean ====
/-
  Region 2 (the second combine-and-statistics call), the frame part: what each output window's buffer and the two
  accumulator rows hold after every grid point (`outsAt2`: the case the point is in — first, middle, last — run at the
  point's input blocks, the rows coming in at what the point before left), the pipeline's proof data `dat2` at any entry
  contents `V`, the body obligation at a generic point, and the two ends of the region invariant.
-/
import proofs.«107997_j14224931684915_1_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's current staging buffer holds its block at every point, fetched there or not. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The stores into the tile output cover it; what they leave, read back. -/
theorem cover2_A_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) (y : S2000x128.Idx) :
    ∃ pc ∈ (kernelRun2_A c i arg1 harg1 arg2 harg2 arg3 harg3 arg4 harg4 arg5 harg5 arg6 harg6 arg7 harg7 arg8 harg8 hc0 hc1 xa xb xr).1, y ∈ pc.1.set :=
  View.cover_of_tiledL (kernelRun2_A c i arg1 harg1 arg2 harg2 arg3 harg3 arg4 harg4 arg5 harg5 arg6 harg6 arg7 harg7 arg8 harg8 hc0 hc1 xa xb xr).1 S2000x128.size (by sl_kernel_rfl) y

def out2_A_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) : Vec F S2000x128 .f32 :=
  VO2_3.read (Elt F) (VO2_3.writes (Elt F) VO2_3.junk (kernelRun2_A c i arg1 harg1 arg2 harg2 arg3 harg3 arg4 harg4 arg5 harg5 arg6 harg6 arg7 harg7 arg8 harg8 hc0 hc1 xa xb xr).1)

/-- The stores into the first accumulator row cover it; what they leave. -/
theorem scover2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) (y : S1x128.Idx) :
    ∃ pc ∈ (kernelRun2_A c i arg1 harg1 arg2 harg2 arg3 harg3 arg4 harg4 arg5 harg5 arg6 harg6 arg7 harg7 arg8 harg8 hc0 hc1 xa xb xr).2.1, y ∈ pc.1.set :=
  View.cover_of_tiledL (kernelRun2_A c i arg1 harg1 arg2 harg2 arg3 harg3 arg4 harg4 arg5 harg5 arg6 harg6 arg7 harg7 arg8 harg8 hc0 hc1 xa xb xr).2.1 S1x128.size (by sl_kernel_rfl) y

def sout2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 xa xb xr).2.1)

/-- The stores into the second accumulator row cover it; what they leave. -/
theorem scover2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) (y : S1x128.Idx) :
    ∃ pc ∈ (kernelRun2_A c i arg1 harg1 arg2 harg2 arg3 harg3 arg4 harg4 arg5 harg5 arg6 harg6 arg7 harg7 arg8 harg8 hc0 hc1 xa xb xr).2.2.1, y ∈ pc.1.set :=
  View.cover_of_tiledL (kernelRun2_A c i arg1 harg1 arg2 harg2 arg3 harg3 arg4 harg4 arg5 harg5 arg6 harg6 arg7 harg7 arg8 harg8 hc0 hc1 xa xb xr).2.2.1 S1x128.size (by sl_kernel_rfl) y

def sout2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 xa xb xr).2.2.1)

/-- The stores into the tile output cover it; what they leave, read back. -/
theorem cover2_B_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun2_B c i arg1 harg1 arg2 harg2 arg3 harg3 arg4 harg4 arg5 harg5 arg6 harg6 arg7 harg7 arg8 harg8 hc0 hc1 xa xb xr xs0 xs1).1, y ∈ pc.1.set :=
  View.cover_of_tiledL (kernelRun2_B c i arg1 harg1 arg2 harg2 arg3 harg3 arg4 harg4 arg5 harg5 arg6 harg6 arg7 harg7 arg8 harg8 hc0 hc1 xa xb xr xs0 xs1).1 S2000x128.size (by sl_kernel_rfl) y

def out2_B_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) : Vec F S2000x128 .f32 :=
  VO2_3.read (Elt F) (VO2_3.writes (Elt F) VO2_3.junk (kernelRun2_B c i arg1 harg1 arg2 harg2 arg3 harg3 arg4 harg4 arg5 harg5 arg6 harg6 arg7 harg7 arg8 harg8 hc0 hc1 xa xb xr xs0 xs1).1)

/-- The stores into the first accumulator row cover it; what they leave. -/
theorem scover2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 xa xb xr xs0 xs1).2.1, y ∈ pc.1.set :=
  View.cover_of_tiledL (kernelRun2_B c i arg1 harg1 arg2 harg2 arg3 harg3 arg4 harg4 arg5 harg5 arg6 harg6 arg7 harg7 arg8 harg8 hc0 hc1 xa xb xr xs0 xs1).2.1 S1x128.size (by sl_kernel_rfl) y

def sout2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 xa xb xr xs0 xs1).2.1)

/-- The stores into the second accumulator row cover it; what they leave. -/
theorem scover2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun2_B c i arg1 harg1 arg2 harg2 arg3 harg3 arg4 harg4 arg5 harg5 arg6 harg6 arg7 harg7 arg8 harg8 hc0 hc1 xa xb xr xs0 xs1).2.2.1 S1x128.size (by sl_kernel_rfl) y

def sout2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 xa xb xr xs0 xs1).2.2.1)

/-- The stores into the tile output cover it; what they leave, read back. -/
theorem cover2_C_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun2_C c i arg1 harg1 arg2 harg2 arg3 harg3 arg4 harg4 arg5 harg5 arg6 harg6 arg7 harg7 arg8 harg8 hc0 hc1 xa xb xr xs0 xs1).1, y ∈ pc.1.set :=
  View.cover_of_tiledL (kernelRun2_C c i arg1 harg1 arg2 harg2 arg3 harg3 arg4 harg4 arg5 harg5 arg6 harg6 arg7 harg7 arg8 harg8 hc0 hc1 xa xb xr xs0 xs1).1 S2000x128.size (by sl_kernel_rfl) y

def out2_C_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : Vec F S2000x128 .f32 :=
  VO2_3.read (Elt F) (VO2_3.writes (Elt F) VO2_3.junk (kernelRun2_C c i arg1 harg1 arg2 harg2 arg3 harg3 arg4 harg4 arg5 harg5 arg6 harg6 arg7 harg7 arg8 harg8 hc0 hc1 xa xb xr xs0 xs1).1)

/-- The store into the column-sum output covers it; what it leaves. -/
theorem cover2_C_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 xa xb xr xs0 xs1).2.1, y ∈ pc.1.set :=
  View.cover_of_tiledL (kernelRun2_C c i arg1 harg1 arg2 harg2 arg3 harg3 arg4 harg4 arg5 harg5 arg6 harg6 arg7 harg7 arg8 harg8 hc0 hc1 xa xb xr xs0 xs1).2.1 S1x128.size (by sl_kernel_rfl) y

def out2_C_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 xa xb xr xs0 xs1).2.1)

/-- The store into the sum-of-squares output covers it; what it leaves. -/
theorem cover2_C_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun2_C c i arg1 harg1 arg2 harg2 arg3 harg3 arg4 harg4 arg5 harg5 arg6 harg6 arg7 harg7 arg8 harg8 hc0 hc1 xa xb xr xs0 xs1).2.2.1 S1x128.size (by sl_kernel_rfl) y

def out2_C_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : Vec F S1x128 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 xa xb xr xs0 xs1).2.2.1)

/-- The stores into the first accumulator row cover it; what they leave. -/
theorem scover2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 xa xb xr xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 xa xb xr xs0 xs1).2.2.2.1 S1x128.size (by sl_kernel_rfl) y

def sout2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 xa xb xr xs0 xs1).2.2.2.1)

/-- The stores into the second accumulator row cover it; what they leave. -/
theorem scover2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 xa xb xr xs0 xs1).2.2.2.2.1, y ∈ pc.1.set :=
  View.cover_of_tiledL (kernelRun2_C c i arg1 harg1 arg2 harg2 arg3 harg3 arg4 harg4 arg5 harg5 arg6 harg6 arg7 harg7 arg8 harg8 hc0 hc1 xa xb xr xs0 xs1).2.2.2.2.1 S1x128.size (by sl_kernel_rfl) y

def sout2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 xa xb xr xs0 xs1).2.2.2.2.1)

/-! ## What the outputs and the accumulator rows hold after each point -/

/-- After the body at position `n`: the tile output's buffer, the two statistics outputs' buffers (placeholders where the
    body does not store them), and the two accumulator rows — the case the point is in, run at the point's memrefs and
    input blocks, the accumulator rows coming in at what position `n - 1` left. -/
def outsAt2 (c : Dev nD) : (n : ℕ) → n < cfg2.N → Vec F S2000x128 .f32 × Vec F S1x128 .f32 × Vec F S1x128 .f32 × Vec F S1x128 .f32 × Vec F S1x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), (VO2_4.read (Elt F) (VO2_4.writes (Elt F) VO2_4.junk [])), (VO2_5.read (Elt F) (VO2_5.writes (Elt F) VO2_5.junk [])), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 50 = 0 then
      if h1 : (n + 1) % 50 = 49 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), (VO2_4.read (Elt F) (VO2_4.writes (Elt F) VO2_4.junk [])), (VO2_5.read (Elt F) (VO2_5.writes (Elt F) VO2_5.junk [])), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 50 = 49 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, (VO2_4.read (Elt F) (VO2_4.writes (Elt F) VO2_4.junk [])), (VO2_5.read (Elt F) (VO2_5.writes (Elt F) VO2_5.junk [])), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val % 50 = 0) (h1 : ¬t.val % 50 = 49) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), (VO2_4.read (Elt F) (VO2_4.writes (Elt F) VO2_4.junk [])), (VO2_5.read (Elt F) (VO2_5.writes (Elt F) VO2_5.junk [])), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 50 = 0) (h1 : ¬t.val % 50 = 49) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, (VO2_4.read (Elt F) (VO2_4.writes (Elt F) VO2_4.junk [])), (VO2_5.read (Elt F) (VO2_5.writes (Elt F) VO2_5.junk [])), sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 50 = 0) (h1 : t.val % 50 = 49) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's entry the scoped rest at anything and the generator register at some state;
    afterwards the same with the two accumulator rows named — at what the point before left in them. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of the region on core `c`: the arrays as the region finds them; after the body at point `t` each input's
    buffer at its block, each output's at `outsAt2`'s component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in; the
    invariant hands the body the accumulator rows at what the point before left (at anything at the first point) and takes
    them back at this point's contents; the statistics outputs are handed back untouched except at the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 50 = 0
  · by_cases h1 : t.val % 50 = 49
    · exfalso; omega
    ·
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_A V c t h0 h1]
      unfold out2_A_3 sout2_A_0 sout2_A_1; (try dsimp only)
      by_cases hz : t.val = 0
      · rw [PhiS2_castSucc V c t, PhiS2_zero V c _ _ hz, PhiA2_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t)).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _)
              · unfold owns; iexists _; isplitr
                swap; · iexact HS1
                ipureintro; exact View.read_writes_of_cover _ _ _ _ _ (scover2_A_1 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover2_A_3 c _ _ _ _ _ _ _ _ _ _ _ _ _ _ _ _ _ _ _ _ _ _)
        isplitl [H4]; · iexists _; iexact H4
        iexists _; iexact H5
      · exfalso; omega
  · by_cases h1 : t.val % 50 = 49
    ·
      rw [show (dat2 V c).leavesExact 4 t = owns (c : Thread nD τ) (ms2_4 t) fullShare ((dat2 V c).after 4 t) from by
        unfold Dat.leavesExact; rw [liveAt2_4 t ((hcond2_1 t).mpr h1)], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_3 out2_C_4 out2_C_5 sout2_C_0 sout2_C_1; (try dsimp only)
      by_cases hz : t.val = 0
      · exfalso; omega
      · rw [PhiS2_castSucc V c t, PhiS2_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) _ _).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, ⟨%e3, H3⟩, ⟨%e4, H4⟩, ⟨%e5, H5⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _)
              · unfold owns; iexists _; isplitr
                swap; · iexact HS1
                ipureintro; exact View.read_writes_of_cover _ _ _ _ _ (scover2_C_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover2_C_3 c _ _ _ _ _ _ _ _ _ _ _ _ _ _ _ _ _ _ _ _ _ _ _ _)
        isplitl [H4]
        · unfold owns; iexists _; isplitr
          swap; · iexact H4
          ipureintro; exact View.read_writes_of_cover _ _ _ _ _ (cover2_C_4 c _ _ _ _ _ _ _ _ _ _ _ _ _ _ _ _ _ _ _ _ _ _ _ _)
        unfold owns; iexists _; isplitr
        swap; · iexact H5
        ipureintro; exact View.read_writes_of_cover _ _ _ _ _ (cover2_C_5 c _ _ _ _ _ _ _ _ _ _ _ _ _ _ _ _ _ _ _ _ _ _ _ _)
    ·
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold out2_B_3 sout2_B_0 sout2_B_1; (try dsimp only)
      by_cases hz : t.val = 0
      · exfalso; omega
      · rw [PhiS2_castSucc V c t, PhiS2_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) _ _).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _)
              · unfold owns; iexists _; isplitr
                swap; · iexact HS1
                ipureintro; exact View.read_writes_of_cover _ _ _ _ _ (scover2_B_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover2_B_3 c _ _ _ _ _ _ _ _ _ _ _ _ _ _ _ _ _ _ _ _ _ _ _ _)
        isplitl [H4]; · iexists _; iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the entry invariant back: the accumulator rows' contents forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Cert.Kernel.Hand

end
-- ==== Proof.K.Reg3Frame.lean ====
/-
  The second stage of a layer — subtract the mean, scale by the inverse deviation and by gamma, add beta, clamp
  below at zero — as the pipeline runs it, one tile of 2000 rows per grid point.

  The tile window (0) and the result window (5) move with the point; the four row windows (1..4: mean, inverse
  deviation, gamma, beta) have a constant block index, so they are fetched at the first point only and the body
  finds them unchanged at every later point. The body reads the five input buffers whole and writes the result
  buffer whole, so after the body at point t the result buffer is one function of the five blocks at t; the
  inputs' buffers are left as found.
-/
import proofs.«107997_j14224931684915_1_alg».proof.Proof.Gen.Kernel.Launch
import proofs.«107997_j14224931684915_1_alg».proof.Proof.Gen.Kernel.Skeleton
import proofs.«107997_j14224931684915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is the entry contents and whose body leaves the block in place: where it was not fetched the block
    index has not moved, so the block of the point before is this point's. The tile window is fetched at every
    point; the four row windows only at the first. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: the whole tile, the whole row -/

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-! ## What the body leaves in the result window's buffer -/

/-- The result buffer after the body, from the five input blocks: its one store, of the clamped affine image of the
    tile, over the whole buffer. -/
def out3_5 (x0 : Vec F S2000x128 .f32) (x1 : Vec F S1x128 .f32) (x2 : Vec F S1x128 .f32) (x3 : Vec F S1x128 .f32) (x4 : Vec F S1x128 .f32) : Vec F S2000x128 .f32 :=
  View.canon [⟨r3_0, k3_pay1 (View.ld x0 r3_0) (View.ld x1 r3_1) (View.ld x2 r3_1) (View.ld x3 r3_1) (View.ld x4 r3_1)⟩]

/-- The one store is the whole buffer, so it covers it. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The body on whole staging buffers, the inputs' read as x0..x4 and the result's holding anything, runs to the
    continuation with the inputs' as they were and the result's at out3_5 of them. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__normalize_relu_kernel i arg1 harg1 arg2 harg2 arg3 harg3 arg4 harg4 arg5 harg5 arg6 harg6) K := by
  simp only [cc3__normalize_relu_kernel_eq_skeleton]; unfold cc3__normalize_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data on core c: the arrays as the region finds them; after the body at point t each input's buffer at
    its block and the result's at out3_5 of the five blocks; the invariant is the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- The invariant does not depend on the point: entering and leaving the region it is the class's own. -/
theorem hin3 (c : Dev nD) : Pipeline.ΦA spec3 c ⊢ (dat3 V c).Φ 0 := Entails.refl _
theorem hout3 (c : Dev nD) : (dat3 V c).Φ (Fin.last cfg3.N) ⊢ Pipeline.ΦA spec3 c := Entails.refl _

end Cert.Kernel.Hand

end
-- ==== Proof.K.Reg4Runs.lean ====
/-
  Region 4 (the third combine-and-statistics call): what the three runs of its body share — the two branch
  conditions in closed form over the 50 grid points, where the two statistics windows are idle, the memrefs the body is
  called with, the entry invariant with the two accumulator rows split out — and the body's triple in each of the three
  control cases: the first point (accumulator rows zeroed, then the tile's column sums added), a middle point (column
  sums added), the last point (column sums added, then both rows copied to the statistics outputs).
-/
import proofs.«107997_j14224931684915_1_alg».proof.Proof.Gen.Kernel.Launch
import proofs.«107997_j14224931684915_1_alg».proof.Proof.Gen.Kernel.Skeleton
import proofs.«107997_j14224931684915_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional of the body (zero the two accumulator rows), from the grid coordinate. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 50 = 0 :=
  (by decide +kernel : ∀ t : Fin grid4.N, cond4_0 (grid4.coords t) ↔ t.val % 50 = 0)

/-- The last conditional of the body (copy the accumulator rows to the two statistics outputs). -/
abbrev cond4_1 (i : grid4.Coords) : Prop := k4_cond2 i = 1#1
/-- It holds at the last point only. -/
theorem hcond4_1 : ∀ t : Fin cfg4.N, cond4_1 (grid4.coords t) ↔ t.val % 50 = 49 :=
  (by decide +kernel : ∀ t : Fin grid4.N, cond4_1 (grid4.coords t) ↔ t.val % 50 = 49)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel

/-! ## The memrefs the body is called with -/

abbrev VO4_3 : View sig .tc .vmem S2000x128 .f32 := (Memref.whole cc4_stg3_0 : Memref sig .tc .vmem S2000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
/-- The two accumulator rows: whole scoped buffers of the kernel's own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The region's entry invariant with the two accumulator rows split out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

set_option maxHeartbeats 4000000 in
/-- The body at the first point (accumulator rows zeroed first, statistics outputs not stored): on whole memrefs, the
    three inputs at their contents, the tile output and both accumulator rows at anything, the two statistics outputs at
    contents handed back untouched, the body runs to the continuation with each stored buffer at its pieces written. -/
noncomputable def kernelRun4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__combine_stats_kernel_eq_skeleton]; unfold cc4__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at a middle point (neither conditional taken): the accumulator rows come in at what the point before left. -/
noncomputable def kernelRun4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__combine_stats_kernel_eq_skeleton]; unfold cc4__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg5.eq_unread hf5; obtain rfl := harg6.eq_unread hf6
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at the last point (the accumulator rows copied to the statistics outputs at the end). -/
noncomputable def kernelRun4_C (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc4__combine_stats_kernel_eq_skeleton]; unfold cc4__combine_stats_kernel_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.Reg4Frame.lean ====
/-
  Region 4 (the third combine-and-statistics call), the frame part: what each output window's buffer and the two
  accumulator rows hold after every grid point (`outsAt4`: the case the point is in — first, middle, last — run at the
  point's input blocks, the rows coming in at what the point before left), the pipeline's proof data `dat4` at any entry
  contents `V`, the body obligation at a generic point, and the two ends of the region invariant.
-/
import proofs.«107997_j14224931684915_1_alg».proof.Proof.K.Reg4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input's current staging buffer holds its block at every point, fetched there or not. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The stores into the tile output cover it; what they leave, read back. -/
theorem cover4_A_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) (y : S2000x128.Idx) :
    ∃ pc ∈ (kernelRun4_A c i arg1 harg1 arg2 harg2 arg3 harg3 arg4 harg4 arg5 harg5 arg6 harg6 arg7 harg7 arg8 harg8 hc0 hc1 xa xb xr).1, y ∈ pc.1.set :=
  View.cover_of_tiledL (kernelRun4_A c i arg1 harg1 arg2 harg2 arg3 harg3 arg4 harg4 arg5 harg5 arg6 harg6 arg7 harg7 arg8 harg8 hc0 hc1 xa xb xr).1 S2000x128.size (by sl_kernel_rfl) y

def out4_A_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) : Vec F S2000x128 .f32 :=
  VO4_3.read (Elt F) (VO4_3.writes (Elt F) VO4_3.junk (kernelRun4_A c i arg1 harg1 arg2 harg2 arg3 harg3 arg4 harg4 arg5 harg5 arg6 harg6 arg7 harg7 arg8 harg8 hc0 hc1 xa xb xr).1)

/-- The stores into the first accumulator row cover it; what they leave. -/
theorem scover4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) (y : S1x128.Idx) :
    ∃ pc ∈ (kernelRun4_A c i arg1 harg1 arg2 harg2 arg3 harg3 arg4 harg4 arg5 harg5 arg6 harg6 arg7 harg7 arg8 harg8 hc0 hc1 xa xb xr).2.1, y ∈ pc.1.set :=
  View.cover_of_tiledL (kernelRun4_A c i arg1 harg1 arg2 harg2 arg3 harg3 arg4 harg4 arg5 harg5 arg6 harg6 arg7 harg7 arg8 harg8 hc0 hc1 xa xb xr).2.1 S1x128.size (by sl_kernel_rfl) y

def sout4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 hc0 hc1 xa xb xr).2.1)

/-- The stores into the second accumulator row cover it; what they leave. -/
theorem scover4_A_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) (y : S1x128.Idx) :
    ∃ pc ∈ (kernelRun4_A c i arg1 harg1 arg2 harg2 arg3 harg3 arg4 harg4 arg5 harg5 arg6 harg6 arg7 harg7 arg8 harg8 hc0 hc1 xa xb xr).2.2.1, y ∈ pc.1.set :=
  View.cover_of_tiledL (kernelRun4_A c i arg1 harg1 arg2 harg2 arg3 harg3 arg4 harg4 arg5 harg5 arg6 harg6 arg7 harg7 arg8 harg8 hc0 hc1 xa xb xr).2.2.1 S1x128.size (by sl_kernel_rfl) y

def sout4_A_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 hc0 hc1 xa xb xr).2.2.1)

/-- The stores into the tile output cover it; what they leave, read back. -/
theorem cover4_B_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun4_B c i arg1 harg1 arg2 harg2 arg3 harg3 arg4 harg4 arg5 harg5 arg6 harg6 arg7 harg7 arg8 harg8 hc0 hc1 xa xb xr xs0 xs1).1, y ∈ pc.1.set :=
  View.cover_of_tiledL (kernelRun4_B c i arg1 harg1 arg2 harg2 arg3 harg3 arg4 harg4 arg5 harg5 arg6 harg6 arg7 harg7 arg8 harg8 hc0 hc1 xa xb xr xs0 xs1).1 S2000x128.size (by sl_kernel_rfl) y

def out4_B_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) : Vec F S2000x128 .f32 :=
  VO4_3.read (Elt F) (VO4_3.writes (Elt F) VO4_3.junk (kernelRun4_B c i arg1 harg1 arg2 harg2 arg3 harg3 arg4 harg4 arg5 harg5 arg6 harg6 arg7 harg7 arg8 harg8 hc0 hc1 xa xb xr xs0 xs1).1)

/-- The stores into the first accumulator row cover it; what they leave. -/
theorem scover4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 xa xb xr xs0 xs1).2.1, y ∈ pc.1.set :=
  View.cover_of_tiledL (kernelRun4_B c i arg1 harg1 arg2 harg2 arg3 harg3 arg4 harg4 arg5 harg5 arg6 harg6 arg7 harg7 arg8 harg8 hc0 hc1 xa xb xr xs0 xs1).2.1 S1x128.size (by sl_kernel_rfl) y

def sout4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 hc0 hc1 xa xb xr xs0 xs1).2.1)

/-- The stores into the second accumulator row cover it; what they leave. -/
theorem scover4_B_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun4_B c i arg1 harg1 arg2 harg2 arg3 harg3 arg4 harg4 arg5 harg5 arg6 harg6 arg7 harg7 arg8 harg8 hc0 hc1 xa xb xr xs0 xs1).2.2.1 S1x128.size (by sl_kernel_rfl) y

def sout4_B_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 hc0 hc1 xa xb xr xs0 xs1).2.2.1)

/-- The stores into the tile output cover it; what they leave, read back. -/
theorem cover4_C_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun4_C c i arg1 harg1 arg2 harg2 arg3 harg3 arg4 harg4 arg5 harg5 arg6 harg6 arg7 harg7 arg8 harg8 hc0 hc1 xa xb xr xs0 xs1).1, y ∈ pc.1.set :=
  View.cover_of_tiledL (kernelRun4_C c i arg1 harg1 arg2 harg2 arg3 harg3 arg4 harg4 arg5 harg5 arg6 harg6 arg7 harg7 arg8 harg8 hc0 hc1 xa xb xr xs0 xs1).1 S2000x128.size (by sl_kernel_rfl) y

def out4_C_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : Vec F S2000x128 .f32 :=
  VO4_3.read (Elt F) (VO4_3.writes (Elt F) VO4_3.junk (kernelRun4_C c i arg1 harg1 arg2 harg2 arg3 harg3 arg4 harg4 arg5 harg5 arg6 harg6 arg7 harg7 arg8 harg8 hc0 hc1 xa xb xr xs0 xs1).1)

/-- The store into the column-sum output covers it; what it leaves. -/
theorem cover4_C_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 xa xb xr xs0 xs1).2.1, y ∈ pc.1.set :=
  View.cover_of_tiledL (kernelRun4_C c i arg1 harg1 arg2 harg2 arg3 harg3 arg4 harg4 arg5 harg5 arg6 harg6 arg7 harg7 arg8 harg8 hc0 hc1 xa xb xr xs0 xs1).2.1 S1x128.size (by sl_kernel_rfl) y

def out4_C_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : Vec F S1x128 .f32 :=
  VO4_4.read (Elt F) (VO4_4.writes (Elt F) VO4_4.junk (kernelRun4_C c i arg1 harg1 arg2 harg2 arg3 harg3 arg4 harg4 arg5 harg5 arg6 harg6 arg7 harg7 arg8 harg8 hc0 hc1 xa xb xr xs0 xs1).2.1)

/-- The store into the sum-of-squares output covers it; what it leaves. -/
theorem cover4_C_5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun4_C c i arg1 harg1 arg2 harg2 arg3 harg3 arg4 harg4 arg5 harg5 arg6 harg6 arg7 harg7 arg8 harg8 hc0 hc1 xa xb xr xs0 xs1).2.2.1 S1x128.size (by sl_kernel_rfl) y

def out4_C_5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : Vec F S1x128 .f32 :=
  VO4_5.read (Elt F) (VO4_5.writes (Elt F) VO4_5.junk (kernelRun4_C c i arg1 harg1 arg2 harg2 arg3 harg3 arg4 harg4 arg5 harg5 arg6 harg6 arg7 harg7 arg8 harg8 hc0 hc1 xa xb xr xs0 xs1).2.2.1)

/-- The stores into the first accumulator row cover it; what they leave. -/
theorem scover4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 xa xb xr xs0 xs1).2.2.2.1, y ∈ pc.1.set :=
  View.cover_of_tiledL (kernelRun4_C c i arg1 harg1 arg2 harg2 arg3 harg3 arg4 harg4 arg5 harg5 arg6 harg6 arg7 harg7 arg8 harg8 hc0 hc1 xa xb xr xs0 xs1).2.2.2.1 S1x128.size (by sl_kernel_rfl) y

def sout4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 hc0 hc1 xa xb xr xs0 xs1).2.2.2.1)

/-- The stores into the second accumulator row cover it; what they leave. -/
theorem scover4_C_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 xa xb xr xs0 xs1).2.2.2.2.1, y ∈ pc.1.set :=
  View.cover_of_tiledL (kernelRun4_C c i arg1 harg1 arg2 harg2 arg3 harg3 arg4 harg4 arg5 harg5 arg6 harg6 arg7 harg7 arg8 harg8 hc0 hc1 xa xb xr xs0 xs1).2.2.2.2.1 S1x128.size (by sl_kernel_rfl) y

def sout4_C_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 hc0 hc1 xa xb xr xs0 xs1).2.2.2.2.1)

/-! ## What the outputs and the accumulator rows hold after each point -/

/-- After the body at position `n`: the tile output's buffer, the two statistics outputs' buffers (placeholders where the
    body does not store them), and the two accumulator rows — the case the point is in, run at the point's memrefs and
    input blocks, the accumulator rows coming in at what position `n - 1` left. -/
def outsAt4 (c : Dev nD) : (n : ℕ) → n < cfg4.N → Vec F S2000x128 .f32 × Vec F S1x128 .f32 × Vec F S1x128 .f32 × Vec F S1x128 .f32 × Vec F S1x128 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), (VO4_4.read (Elt F) (VO4_4.writes (Elt F) VO4_4.junk [])), (VO4_5.read (Elt F) (VO4_5.writes (Elt F) VO4_5.junk [])), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 50 = 0 then
      if h1 : (n + 1) % 50 = 49 then
        False.elim (by omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), (VO4_4.read (Elt F) (VO4_4.writes (Elt F) VO4_4.junk [])), (VO4_5.read (Elt F) (VO4_5.writes (Elt F) VO4_5.junk [])), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 50 = 49 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, (VO4_4.read (Elt F) (VO4_4.writes (Elt F) VO4_4.junk [])), (VO4_5.read (Elt F) (VO4_5.writes (Elt F) VO4_5.junk [])), sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)

theorem outsAt4_A (c : Dev nD) (t : Fin cfg4.N) (h0 : t.val % 50 = 0) (h1 : ¬t.val % 50 = 49) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), (VO4_4.read (Elt F) (VO4_4.writes (Elt F) VO4_4.junk [])), (VO4_5.read (Elt F) (VO4_5.writes (Elt F) VO4_5.junk [])), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 50 = 0) (h1 : ¬t.val % 50 = 49) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, (VO4_4.read (Elt F) (VO4_4.writes (Elt F) VO4_4.junk [])), (VO4_5.read (Elt F) (VO4_5.writes (Elt F) VO4_5.junk [])), sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 50 = 0) (h1 : t.val % 50 = 49) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's entry the scoped rest at anything and the generator register at some state;
    afterwards the same with the two accumulator rows named — at what the point before left in them. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of the region on core `c`: the arrays as the region finds them; after the body at point `t` each input's
    buffer at its block, each output's at `outsAt4`'s component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point: the inputs' memrefs hold their blocks; the closed forms say which case the point is in; the
    invariant hands the body the accumulator rows at what the point before left (at anything at the first point) and takes
    them back at this point's contents; the statistics outputs are handed back untouched except at the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases h0 : t.val % 50 = 0
  · by_cases h1 : t.val % 50 = 49
    · exfalso; omega
    ·
      rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_A V c t h0 h1]
      unfold out4_A_3 sout4_A_0 sout4_A_1; (try dsimp only)
      by_cases hz : t.val = 0
      · rw [PhiS4_castSucc V c t, PhiS4_zero V c _ _ hz, PhiA4_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t)).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _)
              · unfold owns; iexists _; isplitr
                swap; · iexact HS1
                ipureintro; exact View.read_writes_of_cover _ _ _ _ _ (scover4_A_1 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover4_A_3 c _ _ _ _ _ _ _ _ _ _ _ _ _ _ _ _ _ _ _ _ _ _)
        isplitl [H4]; · iexists _; iexact H4
        iexists _; iexact H5
      · exfalso; omega
  · by_cases h1 : t.val % 50 = 49
    ·
      rw [show (dat4 V c).leavesExact 4 t = owns (c : Thread nD τ) (ms4_4 t) fullShare ((dat4 V c).after 4 t) from by
        unfold Dat.leavesExact; rw [liveAt4_4 t ((hcond4_1 t).mpr h1)], after4_4]
      rw [show (dat4 V c).leavesExact 5 t = owns (c : Thread nD τ) (ms4_5 t) fullShare ((dat4 V c).after 5 t) from by
        unfold Dat.leavesExact; rw [liveAt4_5 t ((hcond4_1 t).mpr h1)], after4_5]
      rw [outsAt4_C V c t h0 h1]
      unfold out4_C_3 out4_C_4 out4_C_5 sout4_C_0 sout4_C_1; (try dsimp only)
      by_cases hz : t.val = 0
      · exfalso; omega
      · rw [PhiS4_castSucc V c t, PhiS4_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) _ _).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, ⟨%e3, H3⟩, ⟨%e4, H4⟩, ⟨%e5, H5⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _ _ _ _ _ _ _ _)
              · unfold owns; iexists _; isplitr
                swap; · iexact HS1
                ipureintro; exact View.read_writes_of_cover _ _ _ _ _ (scover4_C_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover4_C_3 c _ _ _ _ _ _ _ _ _ _ _ _ _ _ _ _ _ _ _ _ _ _ _ _)
        isplitl [H4]
        · unfold owns; iexists _; isplitr
          swap; · iexact H4
          ipureintro; exact View.read_writes_of_cover _ _ _ _ _ (cover4_C_4 c _ _ _ _ _ _ _ _ _ _ _ _ _ _ _ _ _ _ _ _ _ _ _ _)
        unfold owns; iexists _; isplitr
        swap; · iexact H5
        ipureintro; exact View.read_writes_of_cover _ _ _ _ _ (cover4_C_5 c _ _ _ _ _ _ _ _ _ _ _ _ _ _ _ _ _ _ _ _ _ _ _ _)
    ·
      rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_B V c t h0 h1]
      unfold out4_B_3 sout4_B_0 sout4_B_1; (try dsimp only)
      by_cases hz : t.val = 0
      · exfalso; omega
      · rw [PhiS4_castSucc V c t, PhiS4_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) _ _).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _ _ _ _ _ _ _ _)
              · unfold owns; iexists _; isplitr
                swap; · iexact HS1
                ipureintro; exact View.read_writes_of_cover _ _ _ _ _ (scover4_B_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover4_B_3 c _ _ _ _ _ _ _ _ _ _ _ _ _ _ _ _ _ _ _ _ _ _ _ _)
        isplitl [H4]; · iexists _; iexact H4
        iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the entry invariant back: the accumulator rows' contents forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout4 (c : Dev nD) : (dat4 V c).Φ (Fin.last cfg4.N) ⊢ Pipeline.ΦA spec4 c :=
  Phi_out4 V c _ (by rw [Fin.val_last]; have : cfg4.N = 50 := N_4; omega)

end Cert.Kernel.Hand

end
-- ==== Proof.K.Reg5Frame.lean ====
/-
  The second stage of a layer — subtract the mean, scale by the inverse deviation and by gamma, add beta, clamp
  below at zero — as the pipeline runs it, one tile of 2000 rows per grid point.

  The tile window (0) and the result window (5) move with the point; the four row windows (1..4: mean, inverse
  deviation, gamma, beta) have a constant block index, so they are fetched at the first point only and the body
  finds them unchanged at every later point. The body reads the five input buffers whole and writes the result
  buffer whole, so after the body at point t the result buffer is one function of the five blocks at t; the
  inputs' buffers are left as found.
-/
import proofs.«107997_j14224931684915_1_alg».proof.Proof.Gen.Kernel.Launch
import proofs.«107997_j14224931684915_1_alg».proof.Proof.Gen.Kernel.Skeleton
import proofs.«107997_j14224931684915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof data
    whose array is the entry contents and whose body leaves the block in place: where it was not fetched the block
    index has not moved, so the block of the point before is this point's. The tile window is fetched at every
    point; the four row windows only at the first. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: the whole tile, the whole row -/

abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-! ## What the body leaves in the result window's buffer -/

/-- The result buffer after the body, from the five input blocks: its one store, of the clamped affine image of the
    tile, over the whole buffer. -/
def out5_5 (x0 : Vec F S2000x128 .f32) (x1 : Vec F S1x128 .f32) (x2 : Vec F S1x128 .f32) (x3 : Vec F S1x128 .f32) (x4 : Vec F S1x128 .f32) : Vec F S2000x128 .f32 :=
  View.canon [⟨r5_0, k5_pay1 (View.ld x0 r5_0) (View.ld x1 r5_1) (View.ld x2 r5_1) (View.ld x3 r5_1) (View.ld x4 r5_1)⟩]

/-- The one store is the whole buffer, so it covers it. -/
theorem cover5_5 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The body on whole staging buffers, the inputs' read as x0..x4 and the result's holding anything, runs to the
    continuation with the inputs' as they were and the result's at out5_5 of them. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__normalize_relu_kernel i arg1 harg1 arg2 harg2 arg3 harg3 arg4 harg4 arg5 harg5 arg6 harg6) K := by
  simp only [cc5__normalize_relu_kernel_eq_skeleton]; unfold cc5__normalize_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data on core c: the arrays as the region finds them; after the body at point t each input's buffer at
    its block and the result's at out5_5 of the five blocks; the invariant is the scoped rest and the generator
    register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- The invariant does not depend on the point: entering and leaving the region it is the class's own. -/
theorem hin5 (c : Dev nD) : Pipeline.ΦA spec5 c ⊢ (dat5 V c).Φ 0 := Entails.refl _
theorem hout5 (c : Dev nD) : (dat5 V c).Φ (Fin.last cfg5.N) ⊢ Pipeline.ΦA spec5 c := Entails.refl _

end Cert.Kernel.Hand

end
-- ==== Proof.K.Reg6Frame.lean ====
/-
  The program's last region — the node-task head, features times weights plus the bias row, tile by tile —
  at the buffer contents the region is entered with: each window's block at a grid point, what the body leaves in the
  output window's buffer as a function of the three input blocks, the body's triple, and the pipeline's proof data
  with its body obligation.
-/
import proofs.«107997_j14224931684915_1_alg».proof.Proof.Gen.Kernel.Launch
import proofs.«107997_j14224931684915_1_alg».proof.Proof.Gen.Kernel.Skeleton
import proofs.«107997_j14224931684915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The feature tile's staging buffer holds the tile of the point: it is fetched at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weights' staging buffer holds the whole weight matrix at every point: fetched at the first point only, its
    block index never moves, and the body leaves it in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The bias row's staging buffer likewise holds the whole row at every point. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S2000x128 := Rect.unit (s := S2000x128) ![0, 0] S2000x128.size inb_S2000x128_S2000x128_0_0
abbrev r6_1 : Rect S128x64 := Rect.unit (s := S128x64) ![0, 0] S128x64.size inb_S128x64_S128x64_0_0
abbrev r6_2 : Rect S1x64 := Rect.unit (s := S1x64) ![0, 0] S1x64.size inb_S1x64_S1x64_0_0
abbrev r6_3 : Rect S2000x64 := Rect.unit (s := S2000x64) ![0, 0] S2000x64.size inb_S2000x64_S2000x64_0_0

/-! ## What the body leaves in the output window's buffer -/

/-- The output tile after the body, from the three input blocks: its one store, of the whole tile. -/
def out6_3 (x0 : Vec F S2000x128 .f32) (x1 : Vec F S128x64 .f32) (x2 : Vec F S1x64 .f32) : Vec F S2000x64 .f32 :=
  View.canon [⟨r6_3, k6_pay1 (View.ld x0 r6_0) (View.ld x1 r6_1) (View.ld x2 r6_2)⟩]

/-- The store covers the tile. -/
theorem cover6_3 (p0 : Vec F S2000x64 .f32) (y : S2000x64.Idx) :
    ∃ pc ∈ ([⟨r6_3, p0⟩] : List (View.Piece (Elt F) S2000x64 .f32)), y ∈ pc.1.set :=
  View.cover_of_tiled [⟨r6_3, p0⟩] S2000x64.size (by rfl) y

/-! ## The body's triple -/

set_option maxHeartbeats 1000000 in
/-- The body on whole staging memrefs, the inputs' holding x0, x1, x2 and the output's anything, runs to the
    continuation with the inputs' as they were and the output's at out6_3 of them. -/
theorem sound_kernel6 (c : Dev nD) (E : Set ℕ) (i : grid6.Coords) (arg1 : Memref sig .tc .vmem S2000x128 .f32) (harg1 : arg1.IsWhole)
    (arg2 : Memref sig .tc .vmem S128x64 .f32) (harg2 : arg2.IsWhole) (arg3 : Memref sig .tc .vmem S1x64 .f32) (harg3 : arg3.IsWhole)
    (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__final_matmul_kernel i arg1 harg1 arg2 harg2 arg3 harg3 arg4 harg4) K := by
  simp only [cc6__final_matmul_kernel_eq_skeleton]; unfold cc6__final_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of the pipeline on core c: the arrays as the region finds them; after the body at point t each
    input's buffer at its block and the output's at out6_3 of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

/-- The invariant at the region's entry is the class's, and so it is at the exit. -/
theorem hin6 (c : Dev nD) : Pipeline.ΦA spec6 c ⊢ (dat6 V c).Φ 0 := BI.Entails.refl _
theorem hout6 (c : Dev nD) : (dat6 V c).Φ (Fin.last cfg6.N) ⊢ Pipeline.ΦA spec6 c := BI.Entails.refl _

end Cert.Kernel.Hand

end
-- ==== Proof.K.Run.lean ====
/-
  The kernel program's run, read whole: @main is seven host stretches alternating with seven kernel regions.
  Between two items a core holds every unscoped buffer at a known valuation: the launch memory, then each
  host stretch's operations applied, then — after a region — the region's arrays replaced by what its
  pipeline leaves (each output array the fold of the write-backs of its blocks, each input array as entered).
  Every region is entered from that state, runs its pipeline from its proof data, and hands the buffers back at
  the next valuation; the last valuation is read against the final memory, which gives the result array and the
  six argument arrays, unchanged because no host operation writes one and no region has one as an output.
-/
import proofs.«107997_j14224931684915_1_alg».proof.Proof.Gen.Kernel.Launch
import proofs.«107997_j14224931684915_1_alg».proof.Proof.Gen.Kernel.Skeleton
import proofs.«107997_j14224931684915_1_alg».proof.Proof.Gen.Kernel.Points
import proofs.«107997_j14224931684915_1_alg».proof.Proof.Gen.Kernel.Regions
import proofs.«107997_j14224931684915_1_alg».proof.Proof.K.Reg0Frame
import proofs.«107997_j14224931684915_1_alg».proof.Proof.K.Reg1Frame
import proofs.«107997_j14224931684915_1_alg».proof.Proof.K.Reg2Frame
import proofs.«107997_j14224931684915_1_alg».proof.Proof.K.Reg3Frame
import proofs.«107997_j14224931684915_1_alg».proof.Proof.K.Reg4Frame
import proofs.«107997_j14224931684915_1_alg».proof.Proof.K.Reg5Frame
import proofs.«107997_j14224931684915_1_alg».proof.Proof.K.Reg6Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A buffer host stretch 0 does not write is as before it. -/
theorem W1_of (c : Dev nD) (r : Ref sig .tc) (h : r ∉ hostOps0_W) : W1 m ρ c r = W0 m ρ c r :=
  StableHlo.after_of_writes_sub hostOps0 _ hostOps0_writes h
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After host stretch 1: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- A buffer host stretch 1 does not write is as before it. -/
theorem W3_of (c : Dev nD) (r : Ref sig .tc) (h : r ∉ hostOps1_W) : W3 m ρ c r = W2 m ρ c r :=
  StableHlo.after_of_writes_sub hostOps1 _ hostOps1_writes h
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After host stretch 2: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- A buffer host stretch 2 does not write is as before it. -/
theorem W5_of (c : Dev nD) (r : Ref sig .tc) (h : r ∉ hostOps2_W) : W5 m ρ c r = W4 m ρ c r :=
  StableHlo.after_of_writes_sub hostOps2 _ hostOps2_writes h
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After host stretch 3: region 3's entry. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- A buffer host stretch 3 does not write is as before it. -/
theorem W7_of (c : Dev nD) (r : Ref sig .tc) (h : r ∉ hostOps3_W) : W7 m ρ c r = W6 m ρ c r :=
  StableHlo.after_of_writes_sub hostOps3 _ hostOps3_writes h
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array leaves region 3 as it entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-- After host stretch 4: region 4's entry. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- A buffer host stretch 4 does not write is as before it. -/
theorem W9_of (c : Dev nD) (r : Ref sig .tc) (h : r ∉ hostOps4_W) : W9 m ρ c r = W8 m ρ c r :=
  StableHlo.after_of_writes_sub hostOps4 _ hostOps4_writes h
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- An input window's array leaves region 4 as it entered. -/
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))

/-- After host stretch 5: region 5's entry. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- A buffer host stretch 5 does not write is as before it. -/
theorem W11_of (c : Dev nD) (r : Ref sig .tc) (h : r ∉ hostOps5_W) : W11 m ρ c r = W10 m ρ c r :=
  StableHlo.after_of_writes_sub hostOps5 _ hostOps5_writes h
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- An input window's array leaves region 5 as it entered. -/
theorem W12_in (c : Dev nD) (w : Fin cfg5.W) (hw : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hw _).trans (A_eq5 (V11 m ρ) c w))

/-- After host stretch 6: region 6's entry. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- A buffer host stretch 6 does not write is as before it. -/
theorem W13_of (c : Dev nD) (r : Ref sig .tc) (h : r ∉ hostOps6_W) : W13 m ρ c r = W12 m ρ c r :=
  StableHlo.after_of_writes_sub hostOps6 _ hostOps6_writes h
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- An input window's array leaves region 6 as it entered. -/
theorem W14_in (c : Dev nD) (w : Fin cfg6.W) (hw : (cfg6.win w).isOut = false) :
    W14 m ρ c (Proc.devRef .tc (Pipeline.arrRef spec6 w)) = W13 m ρ c (Proc.devRef .tc (Pipeline.arrRef spec6 w)) :=
  (W14_arr m ρ c w).trans (((dat6 (V13 m ρ) c).arrAt_in w hw _).trans (A_eq6 (V13 m ρ) c w))

/-! ## The arguments end as launched -/

theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := W14_of_ne m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl

theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = W12 m ρ c (Proc.devRef .tc main_arg3) := W13_of m ρ c main_arg3 (by decide)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := W14_in m ρ c 1 rfl
    _ = W12 m ρ c (Proc.devRef .tc main_arg4) := W13_of m ρ c main_arg4 (by decide)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := W14_of_ne m ρ c main_arg5 (by decide)
    _ = W12 m ρ c (Proc.devRef .tc main_arg5) := W13_of m ρ c main_arg5 (by decide)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- The result array at the end is what the last region's pipeline leaves in its output window's array. -/
theorem W14_main_v80 (c : Dev nD) : W14 m ρ c (Proc.devRef .tc main_v80) = (dat6 (V13 m ρ) c).arrAt 3 cfg6.N :=
  W14_arr m ρ c 3

/-! ## The proof data family and the thread state -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the pipeline's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the pipeline's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the pipeline's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    have h := hin2 (V5 m ρ) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dat2 (V5 m ρ) c).Φ (Fin.last cfg2.N) from rfl]
    have h := hout2 (V5 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the pipeline's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    have h := hin3 (V7 m ρ) c
    unfold Pipeline.ΦA at h
    iintro ⟨Hp, -, Hr⟩
    iapply h
    isplitl [Hr]; · iexact Hr
    iexact Hp
  hout c := by
    rw [Pipeline.ownSems0_none, show (pdats m ρ 3 c).Φ (Fin.last _) = (dat3 (V7 m ρ) c).Φ (Fin.last cfg3.N) from rfl]
    have h := hout3 (V7 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the pipeline's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    have h := hin4 (V9 m ρ) c
    unfold Pipeline.ΦA at h
    iintro ⟨Hp, -, Hr⟩
    iapply h
    isplitl [Hr]; · iexact Hr
    iexact Hp
  hout c := by
    rw [Pipeline.ownSems0_none, show (pdats m ρ 4 c).Φ (Fin.last _) = (dat4 (V9 m ρ) c).Φ (Fin.last cfg4.N) from rfl]
    have h := hout4 (V9 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split
    out of the unscoped buffers and put back at the exit contents; the generator register goes into the pipeline's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V11 m ρ) c).Φ 0 from rfl]
    have h := hin5 (V11 m ρ) c
    unfold Pipeline.ΦA at h
    iintro ⟨Hp, -, Hr⟩
    iapply h
    isplitl [Hr]; · iexact Hr
    iexact Hp
  hout c := by
    rw [Pipeline.ownSems0_none, show (pdats m ρ 5 c).Φ (Fin.last _) = (dat5 (V11 m ρ) c).Φ (Fin.last cfg5.N) from rfl]
    have h := hout5 (V11 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split
    out of the unscoped buffers and put back at the exit contents; the generator register goes into the pipeline's
    invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V13 m ρ) c).Φ 0 from rfl]
    have h := hin6 (V13 m ρ) c
    unfold Pipeline.ΦA at h
    iintro ⟨Hp, -, Hr⟩
    iapply h
    isplitl [Hr]; · iexact Hr
    iexact Hp
  hout c := by
    rw [Pipeline.ownSems0_none, show (pdats m ρ 6 c).Φ (Fin.last _) = (dat6 (V13 m ρ) c).Φ (Fin.last cfg6.N) from rfl]
    have h := hout6 (V13 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitr [HO]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds the result array at what region 6's pipeline leaves and the six argument arrays as launched. -/
theorem run : θ_run defs (onTc (τ := τ) (main (F := F))) ⟨m, fun _ => 0, ρ⟩ (fun r => ∀ c : Dev nD,
      r.2.mem ((c.tc : Thread nD τ).loc main_v80) = (dat6 (V13 m ρ) c).arrAt 3 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨(h c _ (mem_uc main_v80 (by decide))).trans (W14_main_v80 m ρ c),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.Kernel.Hand

end
-- ==== Proof.KI.Reg0Runs.lean ====
/-
  Region 0 (the first combine-and-statistics call): what the three runs of its body share — the two branch
  conditions in closed form over the 50 grid points, where the two statistics windows are idle, the memrefs the body is
  called with, the entry invariant with the two accumulator rows split out — and the body's triple in each of the three
  control cases: the first point (accumulator rows zeroed, then the tile's column sums added), a middle point (column
  sums added), the last point (column sums added, then both rows copied to the statistics outputs).
-/
import proofs.«107997_j14224931684915_1_alg».proof.Proof.Gen.KernelIdeal.Launch
import proofs.«107997_j14224931684915_1_alg».proof.Proof.Gen.KernelIdeal.Skeleton
import proofs.«107997_j14224931684915_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional of the body (zero the two accumulator rows), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 50 = 0 :=
  (by decide +kernel : ∀ t : Fin grid0.N, cond0_0 (grid0.coords t) ↔ t.val % 50 = 0)

/-- The last conditional of the body (copy the accumulator rows to the two statistics outputs). -/
abbrev cond0_1 (i : grid0.Coords) : Prop := k0_cond2 i = 1#1
/-- It holds at the last point only. -/
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_3 : View sig .tc .vmem S2000x128 .f32 := (Memref.whole cc0_stg3_0 : Memref sig .tc .vmem S2000x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- The two accumulator rows: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The region's entry invariant with the two accumulator rows split out as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

set_option maxHeartbeats 4000000 in
/-- The body at the first point (accumulator rows zeroed first, statistics outputs not stored): on whole memrefs, the
    three inputs at their contents, the tile output and both accumulator rows at anything, the two statistics outputs at
    contents handed back untouched, the body runs to the continuation with each stored buffer at its pieces written. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__combine_stats_kernel_eq_skeleton]; unfold cc0__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at a middle point (neither conditional taken): the accumulator rows come in at what the point before left. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__combine_stats_kernel_eq_skeleton]; unfold cc0__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg5.eq_unread hf5; obtain rfl := harg6.eq_unread hf6
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at the last point (the accumulator rows copied to the statistics outputs at the end). -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__combine_stats_kernel_eq_skeleton]; unfold cc0__combine_stats_kernel_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.Reg0Frame.lean ====
/-
  Region 0 (the first combine-and-statistics call), the frame part: what each output window's buffer and the two
  accumulator rows hold after every grid point (`outsAt0`: the case the point is in — first, middle, last — run at the
  point's input blocks, the rows coming in at what the point before left), the pipeline's proof data `dat0` at any entry
  contents `V`, the body obligation at a generic point, and the two ends of the region invariant.
-/
import proofs.«107997_j14224931684915_1_alg».proof.Proof.KI.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input's current staging buffer holds its block at every point, fetched there or not. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The stores into the tile output cover it; what they leave, read back. -/
theorem cover0_A_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) (y : S2000x128.Idx) :
    ∃ pc ∈ (kernelRun0_A c i arg1 harg1 arg2 harg2 arg3 harg3 arg4 harg4 arg5 harg5 arg6 harg6 arg7 harg7 arg8 harg8 hc0 hc1 xa xb xr).1, y ∈ pc.1.set :=
  View.cover_of_tiledL (kernelRun0_A c i arg1 harg1 arg2 harg2 arg3 harg3 arg4 harg4 arg5 harg5 arg6 harg6 arg7 harg7 arg8 harg8 hc0 hc1 xa xb xr).1 S2000x128.size (by sl_kernel_rfl) y

def out0_A_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) : Vec F S2000x128 .f32 :=
  VO0_3.read (Elt F) (VO0_3.writes (Elt F) VO0_3.junk (kernelRun0_A c i arg1 harg1 arg2 harg2 arg3 harg3 arg4 harg4 arg5 harg5 arg6 harg6 arg7 harg7 arg8 harg8 hc0 hc1 xa xb xr).1)

/-- The stores into the first accumulator row cover it; what they leave. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) (y : S1x128.Idx) :
    ∃ pc ∈ (kernelRun0_A c i arg1 harg1 arg2 harg2 arg3 harg3 arg4 harg4 arg5 harg5 arg6 harg6 arg7 harg7 arg8 harg8 hc0 hc1 xa xb xr).2.1, y ∈ pc.1.set :=
  View.cover_of_tiledL (kernelRun0_A c i arg1 harg1 arg2 harg2 arg3 harg3 arg4 harg4 arg5 harg5 arg6 harg6 arg7 harg7 arg8 harg8 hc0 hc1 xa xb xr).2.1 S1x128.size (by sl_kernel_rfl) y

def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 xa xb xr).2.1)

/-- The stores into the second accumulator row cover it; what they leave. -/
theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) (y : S1x128.Idx) :
    ∃ pc ∈ (kernelRun0_A c i arg1 harg1 arg2 harg2 arg3 harg3 arg4 harg4 arg5 harg5 arg6 harg6 arg7 harg7 arg8 harg8 hc0 hc1 xa xb xr).2.2.1, y ∈ pc.1.set :=
  View.cover_of_tiledL (kernelRun0_A c i arg1 harg1 arg2 harg2 arg3 harg3 arg4 harg4 arg5 harg5 arg6 harg6 arg7 harg7 arg8 harg8 hc0 hc1 xa xb xr).2.2.1 S1x128.size (by sl_kernel_rfl) y

def sout0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 xa xb xr).2.2.1)

/-- The stores into the tile output cover it; what they leave, read back. -/
theorem cover0_B_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun0_B c i arg1 harg1 arg2 harg2 arg3 harg3 arg4 harg4 arg5 harg5 arg6 harg6 arg7 harg7 arg8 harg8 hc0 hc1 xa xb xr xs0 xs1).1, y ∈ pc.1.set :=
  View.cover_of_tiledL (kernelRun0_B c i arg1 harg1 arg2 harg2 arg3 harg3 arg4 harg4 arg5 harg5 arg6 harg6 arg7 harg7 arg8 harg8 hc0 hc1 xa xb xr xs0 xs1).1 S2000x128.size (by sl_kernel_rfl) y

def out0_B_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) : Vec F S2000x128 .f32 :=
  VO0_3.read (Elt F) (VO0_3.writes (Elt F) VO0_3.junk (kernelRun0_B c i arg1 harg1 arg2 harg2 arg3 harg3 arg4 harg4 arg5 harg5 arg6 harg6 arg7 harg7 arg8 harg8 hc0 hc1 xa xb xr xs0 xs1).1)

/-- The stores into the first accumulator row cover it; what they leave. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 xa xb xr xs0 xs1).2.1, y ∈ pc.1.set :=
  View.cover_of_tiledL (kernelRun0_B c i arg1 harg1 arg2 harg2 arg3 harg3 arg4 harg4 arg5 harg5 arg6 harg6 arg7 harg7 arg8 harg8 hc0 hc1 xa xb xr xs0 xs1).2.1 S1x128.size (by sl_kernel_rfl) y

def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 xa xb xr xs0 xs1).2.1)

/-- The stores into the second accumulator row cover it; what they leave. -/
theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun0_B c i arg1 harg1 arg2 harg2 arg3 harg3 arg4 harg4 arg5 harg5 arg6 harg6 arg7 harg7 arg8 harg8 hc0 hc1 xa xb xr xs0 xs1).2.2.1 S1x128.size (by sl_kernel_rfl) y

def sout0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 xa xb xr xs0 xs1).2.2.1)

/-- The stores into the tile output cover it; what they leave, read back. -/
theorem cover0_C_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun0_C c i arg1 harg1 arg2 harg2 arg3 harg3 arg4 harg4 arg5 harg5 arg6 harg6 arg7 harg7 arg8 harg8 hc0 hc1 xa xb xr xs0 xs1).1, y ∈ pc.1.set :=
  View.cover_of_tiledL (kernelRun0_C c i arg1 harg1 arg2 harg2 arg3 harg3 arg4 harg4 arg5 harg5 arg6 harg6 arg7 harg7 arg8 harg8 hc0 hc1 xa xb xr xs0 xs1).1 S2000x128.size (by sl_kernel_rfl) y

def out0_C_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : Vec F S2000x128 .f32 :=
  VO0_3.read (Elt F) (VO0_3.writes (Elt F) VO0_3.junk (kernelRun0_C c i arg1 harg1 arg2 harg2 arg3 harg3 arg4 harg4 arg5 harg5 arg6 harg6 arg7 harg7 arg8 harg8 hc0 hc1 xa xb xr xs0 xs1).1)

/-- The store into the column-sum output covers it; what it leaves. -/
theorem cover0_C_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 xa xb xr xs0 xs1).2.1, y ∈ pc.1.set :=
  View.cover_of_tiledL (kernelRun0_C c i arg1 harg1 arg2 harg2 arg3 harg3 arg4 harg4 arg5 harg5 arg6 harg6 arg7 harg7 arg8 harg8 hc0 hc1 xa xb xr xs0 xs1).2.1 S1x128.size (by sl_kernel_rfl) y

def out0_C_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : Vec F S1x128 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 xa xb xr xs0 xs1).2.1)

/-- The store into the sum-of-squares output covers it; what it leaves. -/
theorem cover0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun0_C c i arg1 harg1 arg2 harg2 arg3 harg3 arg4 harg4 arg5 harg5 arg6 harg6 arg7 harg7 arg8 harg8 hc0 hc1 xa xb xr xs0 xs1).2.2.1 S1x128.size (by sl_kernel_rfl) y

def out0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : Vec F S1x128 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 xa xb xr xs0 xs1).2.2.1)

/-- The stores into the first accumulator row cover it; what they leave. -/
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 xa xb xr xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 xa xb xr xs0 xs1).2.2.2.1 S1x128.size (by sl_kernel_rfl) y

def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 xa xb xr xs0 xs1).2.2.2.1)

/-- The stores into the second accumulator row cover it; what they leave. -/
theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 xa xb xr xs0 xs1).2.2.2.2.1, y ∈ pc.1.set :=
  View.cover_of_tiledL (kernelRun0_C c i arg1 harg1 arg2 harg2 arg3 harg3 arg4 harg4 arg5 harg5 arg6 harg6 arg7 harg7 arg8 harg8 hc0 hc1 xa xb xr xs0 xs1).2.2.2.2.1 S1x128.size (by sl_kernel_rfl) y

def sout0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 xa xb xr xs0 xs1).2.2.2.2.1)

/-! ## What the outputs and the accumulator rows hold after each point -/

/-- After the body at position `n`: the tile output's buffer, the two statistics outputs' buffers (placeholders where the
    body does not store them), and the two accumulator rows — the case the point is in, run at the point's memrefs and
    input blocks, the accumulator rows coming in at what position `n - 1` left. -/
def outsAt0 (c : Dev nD) : (n : ℕ) → n < cfg0.N → Vec F S2000x128 .f32 × Vec F S1x128 .f32 × Vec F S1x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), (VO0_4.read (Elt F) (VO0_4.writes (Elt F) VO0_4.junk [])), (VO0_5.read (Elt F) (VO0_5.writes (Elt F) VO0_5.junk [])), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 50 = 0 then
      if h1 : (n + 1) % 50 = 49 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), (VO0_4.read (Elt F) (VO0_4.writes (Elt F) VO0_4.junk [])), (VO0_5.read (Elt F) (VO0_5.writes (Elt F) VO0_5.junk [])), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 50 = 49 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, (VO0_4.read (Elt F) (VO0_4.writes (Elt F) VO0_4.junk [])), (VO0_5.read (Elt F) (VO0_5.writes (Elt F) VO0_5.junk [])), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 50 = 0) (h1 : ¬t.val % 50 = 49) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), (VO0_4.read (Elt F) (VO0_4.writes (Elt F) VO0_4.junk [])), (VO0_5.read (Elt F) (VO0_5.writes (Elt F) VO0_5.junk [])), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 50 = 0) (h1 : ¬t.val % 50 = 49) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, (VO0_4.read (Elt F) (VO0_4.writes (Elt F) VO0_4.junk [])), (VO0_5.read (Elt F) (VO0_5.writes (Elt F) VO0_5.junk [])), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 50 = 0) (h1 : t.val % 50 = 49) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's entry the scoped rest at anything and the generator register at some state;
    afterwards the same with the two accumulator rows named — at what the point before left in them. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of the region on core `c`: the arrays as the region finds them; after the body at point `t` each input's
    buffer at its block, each output's at `outsAt0`'s component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; the
    invariant hands the body the accumulator rows at what the point before left (at anything at the first point) and takes
    them back at this point's contents; the statistics outputs are handed back untouched except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 50 = 0
  · by_cases h1 : t.val % 50 = 49
    · exfalso; omega
    ·
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold out0_A_3 sout0_A_0 sout0_A_1; (try dsimp only)
      by_cases hz : t.val = 0
      · rw [PhiS0_castSucc V c t, PhiS0_zero V c _ _ hz, PhiA0_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _)
        isplitl [H4]; · iexists _; iexact H4
        iexists _; iexact H5
      · exfalso; omega
  · by_cases h1 : t.val % 50 = 49
    ·
      rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_3 out0_C_4 out0_C_5 sout0_C_0 sout0_C_1; (try dsimp only)
      by_cases hz : t.val = 0
      · exfalso; omega
      · rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, ⟨%e3, H3⟩, ⟨%e4, H4⟩, ⟨%e5, H5⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _)
              · unfold owns; iexists _; isplitr
                swap; · iexact HS1
                ipureintro; exact View.read_writes_of_cover _ _ _ _ _ (scover0_C_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _)
    ·
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold out0_B_3 sout0_B_0 sout0_B_1; (try dsimp only)
      by_cases hz : t.val = 0
      · exfalso; omega
      · rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _)
              · unfold owns; iexists _; isplitr
                swap; · iexact HS1
                ipureintro; exact View.read_writes_of_cover _ _ _ _ _ (scover0_B_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _)
        isplitl [H4]; · iexists _; iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the accumulator rows' contents forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.KI.Reg1Frame.lean ====
/-
  The second stage of a layer — subtract the mean, scale by the inverse deviation and by gamma, add beta, clamp
  below at zero — as the pipeline runs it, one tile of 2000 rows per grid point.

  The tile window (0) and the result window (5) move with the point; the four row windows (1..4: mean, inverse
  deviation, gamma, beta) have a constant block index, so they are fetched at the first point only and the body
  finds them unchanged at every later point. The body reads the five input buffers whole and writes the result
  buffer whole, so after the body at point t the result buffer is one function of the five blocks at t; the
  inputs' buffers are left as found.
-/
import proofs.«107997_j14224931684915_1_alg».proof.Proof.Gen.KernelIdeal.Launch
import proofs.«107997_j14224931684915_1_alg».proof.Proof.Gen.KernelIdeal.Skeleton
import proofs.«107997_j14224931684915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place: where it was not fetched the block
    index has not moved, so the block of the point before is this point's. The tile window is fetched at every
    point; the four row windows only at the first. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole tile, the whole row -/

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

/-! ## What the body leaves in the result window's buffer -/

/-- The result buffer after the body, from the five input blocks: its one store, of the clamped affine image of the
    tile, over the whole buffer. -/
def out1_5 (x0 : Vec F S2000x128 .f32) (x1 : Vec F S1x128 .f32) (x2 : Vec F S1x128 .f32) (x3 : Vec F S1x128 .f32) (x4 : Vec F S1x128 .f32) : Vec F S2000x128 .f32 :=
  View.canon [⟨r1_0, k1_pay1 (View.ld x0 r1_0) (View.ld x1 r1_1) (View.ld x2 r1_1) (View.ld x3 r1_1) (View.ld x4 r1_1)⟩]

/-- The one store is the whole buffer, so it covers it. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The body on whole staging buffers, the inputs' read as x0..x4 and the result's holding anything, runs to the
    continuation with the inputs' as they were and the result's at out1_5 of them. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__normalize_relu_kernel i arg1 harg1 arg2 harg2 arg3 harg3 arg4 harg4 arg5 harg5 arg6 harg6) K := by
  simp only [cc1__normalize_relu_kernel_eq_skeleton]; unfold cc1__normalize_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data on core c: the arrays as the region finds them; after the body at point t each input's buffer at
    its block and the result's at out1_5 of the five blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- The invariant does not depend on the point: entering and leaving the region it is the class's own. -/
theorem hin1 (c : Dev nD) : Pipeline.ΦA spec1 c ⊢ (dat1 V c).Φ 0 := Entails.refl _
theorem hout1 (c : Dev nD) : (dat1 V c).Φ (Fin.last cfg1.N) ⊢ Pipeline.ΦA spec1 c := Entails.refl _

end Cert.KernelIdeal.Hand

end
-- ==== Proof.KI.Reg2Runs.lean ====
/-
  Region 2 (the second combine-and-statistics call): what the three runs of its body share — the two branch
  conditions in closed form over the 50 grid points, where the two statistics windows are idle, the memrefs the body is
  called with, the entry invariant with the two accumulator rows split out — and the body's triple in each of the three
  control cases: the first point (accumulator rows zeroed, then the tile's column sums added), a middle point (column
  sums added), the last point (column sums added, then both rows copied to the statistics outputs).
-/
import proofs.«107997_j14224931684915_1_alg».proof.Proof.Gen.KernelIdeal.Launch
import proofs.«107997_j14224931684915_1_alg».proof.Proof.Gen.KernelIdeal.Skeleton
import proofs.«107997_j14224931684915_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional of the body (zero the two accumulator rows), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 50 = 0 :=
  (by decide +kernel : ∀ t : Fin grid2.N, cond2_0 (grid2.coords t) ↔ t.val % 50 = 0)

/-- The last conditional of the body (copy the accumulator rows to the two statistics outputs). -/
abbrev cond2_1 (i : grid2.Coords) : Prop := k2_cond2 i = 1#1
/-- It holds at the last point only. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The memrefs the body is called with -/

abbrev VO2_3 : View sig .tc .vmem S2000x128 .f32 := (Memref.whole cc2_stg3_0 : Memref sig .tc .vmem S2000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
/-- The two accumulator rows: whole scoped buffers of the kernel's own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The region's entry invariant with the two accumulator rows split out as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

set_option maxHeartbeats 4000000 in
/-- The body at the first point (accumulator rows zeroed first, statistics outputs not stored): on whole memrefs, the
    three inputs at their contents, the tile output and both accumulator rows at anything, the two statistics outputs at
    contents handed back untouched, the body runs to the continuation with each stored buffer at its pieces written. -/
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__combine_stats_kernel_eq_skeleton]; unfold cc2__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at a middle point (neither conditional taken): the accumulator rows come in at what the point before left. -/
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__combine_stats_kernel_eq_skeleton]; unfold cc2__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg5.eq_unread hf5; obtain rfl := harg6.eq_unread hf6
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at the last point (the accumulator rows copied to the statistics outputs at the end). -/
noncomputable def kernelRun2_C (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__combine_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__combine_stats_kernel_eq_skeleton]; unfold cc2__combine_stats_kernel_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.Reg2Frame.lean ====
/-
  Region 2 (the second combine-and-statistics call), the frame part: what each output window's buffer and the two
  accumulator rows hold after every grid point (`outsAt2`: the case the point is in — first, middle, last — run at the
  point's input blocks, the rows coming in at what the point before left), the pipeline's proof data `dat2` at any entry
  contents `V`, the body obligation at a generic point, and the two ends of the region invariant.
-/
import proofs.«107997_j14224931684915_1_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's current staging buffer holds its block at every point, fetched there or not. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The stores into the tile output cover it; what they leave, read back. -/
theorem cover2_A_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) (y : S2000x128.Idx) :
    ∃ pc ∈ (kernelRun2_A c i arg1 harg1 arg2 harg2 arg3 harg3 arg4 harg4 arg5 harg5 arg6 harg6 arg7 harg7 arg8 harg8 hc0 hc1 xa xb xr).1, y ∈ pc.1.set :=
  View.cover_of_tiledL (kernelRun2_A c i arg1 harg1 arg2 harg2 arg3 harg3 arg4 harg4 arg5 harg5 arg6 harg6 arg7 harg7 arg8 harg8 hc0 hc1 xa xb xr).1 S2000x128.size (by sl_kernel_rfl) y

def out2_A_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) : Vec F S2000x128 .f32 :=
  VO2_3.read (Elt F) (VO2_3.writes (Elt F) VO2_3.junk (kernelRun2_A c i arg1 harg1 arg2 harg2 arg3 harg3 arg4 harg4 arg5 harg5 arg6 harg6 arg7 harg7 arg8 harg8 hc0 hc1 xa xb xr).1)

/-- The stores into the first accumulator row cover it; what they leave. -/
theorem scover2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) (y : S1x128.Idx) :
    ∃ pc ∈ (kernelRun2_A c i arg1 harg1 arg2 harg2 arg3 harg3 arg4 harg4 arg5 harg5 arg6 harg6 arg7 harg7 arg8 harg8 hc0 hc1 xa xb xr).2.1, y ∈ pc.1.set :=
  View.cover_of_tiledL (kernelRun2_A c i arg1 harg1 arg2 harg2 arg3 harg3 arg4 harg4 arg5 harg5 arg6 harg6 arg7 harg7 arg8 harg8 hc0 hc1 xa xb xr).2.1 S1x128.size (by sl_kernel_rfl) y

def sout2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 xa xb xr).2.1)

/-- The stores into the second accumulator row cover it; what they leave. -/
theorem scover2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) (y : S1x128.Idx) :
    ∃ pc ∈ (kernelRun2_A c i arg1 harg1 arg2 harg2 arg3 harg3 arg4 harg4 arg5 harg5 arg6 harg6 arg7 harg7 arg8 harg8 hc0 hc1 xa xb xr).2.2.1, y ∈ pc.1.set :=
  View.cover_of_tiledL (kernelRun2_A c i arg1 harg1 arg2 harg2 arg3 harg3 arg4 harg4 arg5 harg5 arg6 harg6 arg7 harg7 arg8 harg8 hc0 hc1 xa xb xr).2.2.1 S1x128.size (by sl_kernel_rfl) y

def sout2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 xa xb xr).2.2.1)

/-- The stores into the tile output cover it; what they leave, read back. -/
theorem cover2_B_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun2_B c i arg1 harg1 arg2 harg2 arg3 harg3 arg4 harg4 arg5 harg5 arg6 harg6 arg7 harg7 arg8 harg8 hc0 hc1 xa xb xr xs0 xs1).1, y ∈ pc.1.set :=
  View.cover_of_tiledL (kernelRun2_B c i arg1 harg1 arg2 harg2 arg3 harg3 arg4 harg4 arg5 harg5 arg6 harg6 arg7 harg7 arg8 harg8 hc0 hc1 xa xb xr xs0 xs1).1 S2000x128.size (by sl_kernel_rfl) y

def out2_B_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) : Vec F S2000x128 .f32 :=
  VO2_3.read (Elt F) (VO2_3.writes (Elt F) VO2_3.junk (kernelRun2_B c i arg1 harg1 arg2 harg2 arg3 harg3 arg4 harg4 arg5 harg5 arg6 harg6 arg7 harg7 arg8 harg8 hc0 hc1 xa xb xr xs0 xs1).1)

/-- The stores into the first accumulator row cover it; what they leave. -/
theorem scover2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 xa xb xr xs0 xs1).2.1, y ∈ pc.1.set :=
  View.cover_of_tiledL (kernelRun2_B c i arg1 harg1 arg2 harg2 arg3 harg3 arg4 harg4 arg5 harg5 arg6 harg6 arg7 harg7 arg8 harg8 hc0 hc1 xa xb xr xs0 xs1).2.1 S1x128.size (by sl_kernel_rfl) y

def sout2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 xa xb xr xs0 xs1).2.1)

/-- The stores into the second accumulator row cover it; what they leave. -/
theorem scover2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun2_B c i arg1 harg1 arg2 harg2 arg3 harg3 arg4 harg4 arg5 harg5 arg6 harg6 arg7 harg7 arg8 harg8 hc0 hc1 xa xb xr xs0 xs1).2.2.1 S1x128.size (by sl_kernel_rfl) y

def sout2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 xa xb xr xs0 xs1).2.2.1)

/-- The stores into the tile output cover it; what they leave, read back. -/
theorem cover2_C_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun2_C c i arg1 harg1 arg2 harg2 arg3 harg3 arg4 harg4 arg5 harg5 arg6 harg6 arg7 harg7 arg8 harg8 hc0 hc1 xa xb xr xs0 xs1).1, y ∈ pc.1.set :=
  View.cover_of_tiledL (kernelRun2_C c i arg1 harg1 arg2 harg2 arg3 harg3 arg4 harg4 arg5 harg5 arg6 harg6 arg7 harg7 arg8 harg8 hc0 hc1 xa xb xr xs0 xs1).1 S2000x128.size (by sl_kernel_rfl) y

def out2_C_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : Vec F S2000x128 .f32 :=
  VO2_3.read (Elt F) (VO2_3.writes (Elt F) VO2_3.junk (kernelRun2_C c i arg1 harg1 arg2 harg2 arg3 harg3 arg4 harg4 arg5 harg5 arg6 harg6 arg7 harg7 arg8 harg8 hc0 hc1 xa xb xr xs0 xs1).1)

/-- The store into the column-sum output covers it; what it leaves. -/
theorem cover2_C_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 xa xb xr xs0 xs1).2.1, y ∈ pc.1.set :=
  View.cover_of_tiledL (kernelRun2_C c i arg1 harg1 arg2 harg2 arg3 harg3 arg4 harg4 arg5 harg5 arg6 harg6 arg7 harg7 arg8 harg8 hc0 hc1 xa xb xr xs0 xs1).2.1 S1x128.size (by sl_kernel_rfl) y

def out2_C_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 xa xb xr xs0 xs1).2.1)

/-- The store into the sum-of-squares output covers it; what it leaves. -/
theorem cover2_C_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun2_C c i arg1 harg1 arg2 harg2 arg3 harg3 arg4 harg4 arg5 harg5 arg6 harg6 arg7 harg7 arg8 harg8 hc0 hc1 xa xb xr xs0 xs1).2.2.1 S1x128.size (by sl_kernel_rfl) y

def out2_C_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : Vec F S1x128 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 xa xb xr xs0 xs1).2.2.1)

/-- The stores into the first accumulator row cover it; what they leave. -/
theorem scover2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 xa xb xr xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 xa xb xr xs0 xs1).2.2.2.1 S1x128.size (by sl_kernel_rfl) y

def sout2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 xa xb xr xs0 xs1).2.2.2.1)

/-- The stores into the second accumulator row cover it; what they leave. -/
theorem scover2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 xa xb xr xs0 xs1).2.2.2.2.1, y ∈ pc.1.set :=
  View.cover_of_tiledL (kernelRun2_C c i arg1 harg1 arg2 harg2 arg3 harg3 arg4 harg4 arg5 harg5 arg6 harg6 arg7 harg7 arg8 harg8 hc0 hc1 xa xb xr xs0 xs1).2.2.2.2.1 S1x128.size (by sl_kernel_rfl) y

def sout2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 xa xb xr xs0 xs1).2.2.2.2.1)

/-! ## What the outputs and the accumulator rows hold after each point -/

/-- After the body at position `n`: the tile output's buffer, the two statistics outputs' buffers (placeholders where the
    body does not store them), and the two accumulator rows — the case the point is in, run at the point's memrefs and
    input blocks, the accumulator rows coming in at what position `n - 1` left. -/
def outsAt2 (c : Dev nD) : (n : ℕ) → n < cfg2.N → Vec F S2000x128 .f32 × Vec F S1x128 .f32 × Vec F S1x128 .f32 × Vec F S1x128 .f32 × Vec F S1x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), (VO2_4.read (Elt F) (VO2_4.writes (Elt F) VO2_4.junk [])), (VO2_5.read (Elt F) (VO2_5.writes (Elt F) VO2_5.junk [])), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 50 = 0 then
      if h1 : (n + 1) % 50 = 49 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), (VO2_4.read (Elt F) (VO2_4.writes (Elt F) VO2_4.junk [])), (VO2_5.read (Elt F) (VO2_5.writes (Elt F) VO2_5.junk [])), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 50 = 49 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, (VO2_4.read (Elt F) (VO2_4.writes (Elt F) VO2_4.junk [])), (VO2_5.read (Elt F) (VO2_5.writes (Elt F) VO2_5.junk [])), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val % 50 = 0) (h1 : ¬t.val % 50 = 49) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), (VO2_4.read (Elt F) (VO2_4.writes (Elt F) VO2_4.junk [])), (VO2_5.read (Elt F) (VO2_5.writes (Elt F) VO2_5.junk [])), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 50 = 0) (h1 : ¬t.val % 50 = 49) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, (VO2_4.read (Elt F) (VO2_4.writes (Elt F) VO2_4.junk [])), (VO2_5.read (Elt F) (VO2_5.writes (Elt F) VO2_5.junk [])), sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 50 = 0) (h1 : t.val % 50 = 49) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's entry the scoped rest at anything and the generator register at some state;
    afterwards the same with the two accumulator rows named — at what the point before left in them. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of the region on core `c`: the arrays as the region finds them; after the body at point `t` each input's
    buffer at its block, each output's at `outsAt2`'s component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in; the
    invariant hands the body the accumulator rows at what the point before left (at anything at the first point) and takes
    them back at this point's contents; the statistics outputs are handed back untouched except at the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 50 = 0
  · by_cases h1 : t.val % 50 = 49
    · exfalso; omega
    ·
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_A V c t h0 h1]
      unfold out2_A_3 sout2_A_0 sout2_A_1; (try dsimp only)
      by_cases hz : t.val = 0
      · rw [PhiS2_castSucc V c t, PhiS2_zero V c _ _ hz, PhiA2_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t)).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _)
              · unfold owns; iexists _; isplitr
                swap; · iexact HS1
                ipureintro; exact View.read_writes_of_cover _ _ _ _ _ (scover2_A_1 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover2_A_3 c _ _ _ _ _ _ _ _ _ _ _ _ _ _ _ _ _ _ _ _ _ _)
        isplitl [H4]; · iexists _; iexact H4
        iexists _; iexact H5
      · exfalso; omega
  · by_cases h1 : t.val % 50 = 49
    ·
      rw [show (dat2 V c).leavesExact 4 t = owns (c : Thread nD τ) (ms2_4 t) fullShare ((dat2 V c).after 4 t) from by
        unfold Dat.leavesExact; rw [liveAt2_4 t ((hcond2_1 t).mpr h1)], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_3 out2_C_4 out2_C_5 sout2_C_0 sout2_C_1; (try dsimp only)
      by_cases hz : t.val = 0
      · exfalso; omega
      · rw [PhiS2_castSucc V c t, PhiS2_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) _ _).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, ⟨%e3, H3⟩, ⟨%e4, H4⟩, ⟨%e5, H5⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _)
              · unfold owns; iexists _; isplitr
                swap; · iexact HS1
                ipureintro; exact View.read_writes_of_cover _ _ _ _ _ (scover2_C_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover2_C_3 c _ _ _ _ _ _ _ _ _ _ _ _ _ _ _ _ _ _ _ _ _ _ _ _)
        isplitl [H4]
        · unfold owns; iexists _; isplitr
          swap; · iexact H4
          ipureintro; exact View.read_writes_of_cover _ _ _ _ _ (cover2_C_4 c _ _ _ _ _ _ _ _ _ _ _ _ _ _ _ _ _ _ _ _ _ _ _ _)
        unfold owns; iexists _; isplitr
        swap; · iexact H5
        ipureintro; exact View.read_writes_of_cover _ _ _ _ _ (cover2_C_5 c _ _ _ _ _ _ _ _ _ _ _ _ _ _ _ _ _ _ _ _ _ _ _ _)
    ·
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold out2_B_3 sout2_B_0 sout2_B_1; (try dsimp only)
      by_cases hz : t.val = 0
      · exfalso; omega
      · rw [PhiS2_castSucc V c t, PhiS2_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) _ _).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _)
              · unfold owns; iexists _; isplitr
                swap; · iexact HS1
                ipureintro; exact View.read_writes_of_cover _ _ _ _ _ (scover2_B_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover2_B_3 c _ _ _ _ _ _ _ _ _ _ _ _ _ _ _ _ _ _ _ _ _ _ _ _)
        isplitl [H4]; · iexists _; iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the entry invariant back: the accumulator rows' contents forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Cert.KernelIdeal.Hand

end
-- ==== Proof.KI.Reg3Frame.lean ====
/-
  The second stage of a layer — subtract the mean, scale by the inverse deviation and by gamma, add beta, clamp
  below at zero — as the pipeline runs it, one tile of 2000 rows per grid point.

  The tile window (0) and the result window (5) move with the point; the four row windows (1..4: mean, inverse
  deviation, gamma, beta) have a constant block index, so they are fetched at the first point only and the body
  finds them unchanged at every later point. The body reads the five input buffers whole and writes the result
  buffer whole, so after the body at point t the result buffer is one function of the five blocks at t; the
  inputs' buffers are left as found.
-/
import proofs.«107997_j14224931684915_1_alg».proof.Proof.Gen.KernelIdeal.Launch
import proofs.«107997_j14224931684915_1_alg».proof.Proof.Gen.KernelIdeal.Skeleton
import proofs.«107997_j14224931684915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is the entry contents and whose body leaves the block in place: where it was not fetched the block
    index has not moved, so the block of the point before is this point's. The tile window is fetched at every
    point; the four row windows only at the first. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: the whole tile, the whole row -/

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-! ## What the body leaves in the result window's buffer -/

/-- The result buffer after the body, from the five input blocks: its one store, of the clamped affine image of the
    tile, over the whole buffer. -/
def out3_5 (x0 : Vec F S2000x128 .f32) (x1 : Vec F S1x128 .f32) (x2 : Vec F S1x128 .f32) (x3 : Vec F S1x128 .f32) (x4 : Vec F S1x128 .f32) : Vec F S2000x128 .f32 :=
  View.canon [⟨r3_0, k3_pay1 (View.ld x0 r3_0) (View.ld x1 r3_1) (View.ld x2 r3_1) (View.ld x3 r3_1) (View.ld x4 r3_1)⟩]

/-- The one store is the whole buffer, so it covers it. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The body on whole staging buffers, the inputs' read as x0..x4 and the result's holding anything, runs to the
    continuation with the inputs' as they were and the result's at out3_5 of them. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__normalize_relu_kernel i arg1 harg1 arg2 harg2 arg3 harg3 arg4 harg4 arg5 harg5 arg6 harg6) K := by
  simp only [cc3__normalize_relu_kernel_eq_skeleton]; unfold cc3__normalize_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data on core c: the arrays as the region finds them; after the body at point t each input's buffer at
    its block and the result's at out3_5 of the five blocks; the invariant is the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- The invariant does not depend on the point: entering and leaving the region it is the class's own. -/
theorem hin3 (c : Dev nD) : Pipeline.ΦA spec3 c ⊢ (dat3 V c).Φ 0 := Entails.refl _
theorem hout3 (c : Dev nD) : (dat3 V c).Φ (Fin.last cfg3.N) ⊢ Pipeline.ΦA spec3 c := Entails.refl _

end Cert.KernelIdeal.Hand

end
-- ==== Proof.KI.Reg4Runs.lean ====
/-
  Region 4 (the third combine-and-statistics call): what the three runs of its body share — the two branch
  conditions in closed form over the 50 grid points, where the two statistics windows are idle, the memrefs the body is
  called with, the entry invariant with the two accumulator rows split out — and the body's triple in each of the three
  control cases: the first point (accumulator rows zeroed, then the tile's column sums added), a middle point (column
  sums added), the last point (column sums added, then both rows copied to the statistics outputs).
-/
import proofs.«107997_j14224931684915_1_alg».proof.Proof.Gen.KernelIdeal.Launch
import proofs.«107997_j14224931684915_1_alg».proof.Proof.Gen.KernelIdeal.Skeleton
import proofs.«107997_j14224931684915_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional of the body (zero the two accumulator rows), from the grid coordinate. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 50 = 0 :=
  (by decide +kernel : ∀ t : Fin grid4.N, cond4_0 (grid4.coords t) ↔ t.val % 50 = 0)

/-- The last conditional of the body (copy the accumulator rows to the two statistics outputs). -/
abbrev cond4_1 (i : grid4.Coords) : Prop := k4_cond2 i = 1#1
/-- It holds at the last point only. -/
theorem hcond4_1 : ∀ t : Fin cfg4.N, cond4_1 (grid4.coords t) ↔ t.val % 50 = 49 :=
  (by decide +kernel : ∀ t : Fin grid4.N, cond4_1 (grid4.coords t) ↔ t.val % 50 = 49)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel

/-! ## The memrefs the body is called with -/

abbrev VO4_3 : View sig .tc .vmem S2000x128 .f32 := (Memref.whole cc4_stg3_0 : Memref sig .tc .vmem S2000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
/-- The two accumulator rows: whole scoped buffers of the kernel's own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The region's entry invariant with the two accumulator rows split out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

set_option maxHeartbeats 4000000 in
/-- The body at the first point (accumulator rows zeroed first, statistics outputs not stored): on whole memrefs, the
    three inputs at their contents, the tile output and both accumulator rows at anything, the two statistics outputs at
    contents handed back untouched, the body runs to the continuation with each stored buffer at its pieces written. -/
noncomputable def kernelRun4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__combine_stats_kernel_eq_skeleton]; unfold cc4__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at a middle point (neither conditional taken): the accumulator rows come in at what the point before left. -/
noncomputable def kernelRun4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__combine_stats_kernel_eq_skeleton]; unfold cc4__combine_stats_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg5.eq_unread hf5; obtain rfl := harg6.eq_unread hf6
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 4000000 in
/-- The body at the last point (the accumulator rows copied to the statistics outputs at the end). -/
noncomputable def kernelRun4_C (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) :
    Σ' (L3 : List (View.Piece (Elt F) S2000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare xa ∗ owns (c : Thread nD τ) arg2 fullShare xb ∗ owns (c : Thread nD τ) arg3 fullShare xr ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare xa ∗ owns (c : Thread nD τ) arg2 fullShare xb ∗ owns (c : Thread nD τ) arg3 fullShare xr ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc4__combine_stats_kernel_eq_skeleton]; unfold cc4__combine_stats_kernel_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg7.eq_unread hfs0; obtain rfl := harg8.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.Reg4Frame.lean ====
/-
  Region 4 (the third combine-and-statistics call), the frame part: what each output window's buffer and the two
  accumulator rows hold after every grid point (`outsAt4`: the case the point is in — first, middle, last — run at the
  point's input blocks, the rows coming in at what the point before left), the pipeline's proof data `dat4` at any entry
  contents `V`, the body obligation at a generic point, and the two ends of the region invariant.
-/
import proofs.«107997_j14224931684915_1_alg».proof.Proof.KI.Reg4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input's current staging buffer holds its block at every point, fetched there or not. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The stores into the tile output cover it; what they leave, read back. -/
theorem cover4_A_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) (y : S2000x128.Idx) :
    ∃ pc ∈ (kernelRun4_A c i arg1 harg1 arg2 harg2 arg3 harg3 arg4 harg4 arg5 harg5 arg6 harg6 arg7 harg7 arg8 harg8 hc0 hc1 xa xb xr).1, y ∈ pc.1.set :=
  View.cover_of_tiledL (kernelRun4_A c i arg1 harg1 arg2 harg2 arg3 harg3 arg4 harg4 arg5 harg5 arg6 harg6 arg7 harg7 arg8 harg8 hc0 hc1 xa xb xr).1 S2000x128.size (by sl_kernel_rfl) y

def out4_A_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) : Vec F S2000x128 .f32 :=
  VO4_3.read (Elt F) (VO4_3.writes (Elt F) VO4_3.junk (kernelRun4_A c i arg1 harg1 arg2 harg2 arg3 harg3 arg4 harg4 arg5 harg5 arg6 harg6 arg7 harg7 arg8 harg8 hc0 hc1 xa xb xr).1)

/-- The stores into the first accumulator row cover it; what they leave. -/
theorem scover4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) (y : S1x128.Idx) :
    ∃ pc ∈ (kernelRun4_A c i arg1 harg1 arg2 harg2 arg3 harg3 arg4 harg4 arg5 harg5 arg6 harg6 arg7 harg7 arg8 harg8 hc0 hc1 xa xb xr).2.1, y ∈ pc.1.set :=
  View.cover_of_tiledL (kernelRun4_A c i arg1 harg1 arg2 harg2 arg3 harg3 arg4 harg4 arg5 harg5 arg6 harg6 arg7 harg7 arg8 harg8 hc0 hc1 xa xb xr).2.1 S1x128.size (by sl_kernel_rfl) y

def sout4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 hc0 hc1 xa xb xr).2.1)

/-- The stores into the second accumulator row cover it; what they leave. -/
theorem scover4_A_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) (y : S1x128.Idx) :
    ∃ pc ∈ (kernelRun4_A c i arg1 harg1 arg2 harg2 arg3 harg3 arg4 harg4 arg5 harg5 arg6 harg6 arg7 harg7 arg8 harg8 hc0 hc1 xa xb xr).2.2.1, y ∈ pc.1.set :=
  View.cover_of_tiledL (kernelRun4_A c i arg1 harg1 arg2 harg2 arg3 harg3 arg4 harg4 arg5 harg5 arg6 harg6 arg7 harg7 arg8 harg8 hc0 hc1 xa xb xr).2.2.1 S1x128.size (by sl_kernel_rfl) y

def sout4_A_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 hc0 hc1 xa xb xr).2.2.1)

/-- The stores into the tile output cover it; what they leave, read back. -/
theorem cover4_B_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun4_B c i arg1 harg1 arg2 harg2 arg3 harg3 arg4 harg4 arg5 harg5 arg6 harg6 arg7 harg7 arg8 harg8 hc0 hc1 xa xb xr xs0 xs1).1, y ∈ pc.1.set :=
  View.cover_of_tiledL (kernelRun4_B c i arg1 harg1 arg2 harg2 arg3 harg3 arg4 harg4 arg5 harg5 arg6 harg6 arg7 harg7 arg8 harg8 hc0 hc1 xa xb xr xs0 xs1).1 S2000x128.size (by sl_kernel_rfl) y

def out4_B_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) : Vec F S2000x128 .f32 :=
  VO4_3.read (Elt F) (VO4_3.writes (Elt F) VO4_3.junk (kernelRun4_B c i arg1 harg1 arg2 harg2 arg3 harg3 arg4 harg4 arg5 harg5 arg6 harg6 arg7 harg7 arg8 harg8 hc0 hc1 xa xb xr xs0 xs1).1)

/-- The stores into the first accumulator row cover it; what they leave. -/
theorem scover4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 xa xb xr xs0 xs1).2.1, y ∈ pc.1.set :=
  View.cover_of_tiledL (kernelRun4_B c i arg1 harg1 arg2 harg2 arg3 harg3 arg4 harg4 arg5 harg5 arg6 harg6 arg7 harg7 arg8 harg8 hc0 hc1 xa xb xr xs0 xs1).2.1 S1x128.size (by sl_kernel_rfl) y

def sout4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 hc0 hc1 xa xb xr xs0 xs1).2.1)

/-- The stores into the second accumulator row cover it; what they leave. -/
theorem scover4_B_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun4_B c i arg1 harg1 arg2 harg2 arg3 harg3 arg4 harg4 arg5 harg5 arg6 harg6 arg7 harg7 arg8 harg8 hc0 hc1 xa xb xr xs0 xs1).2.2.1 S1x128.size (by sl_kernel_rfl) y

def sout4_B_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 hc0 hc1 xa xb xr xs0 xs1).2.2.1)

/-- The stores into the tile output cover it; what they leave, read back. -/
theorem cover4_C_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) (y : S2000x128.Idx) :
    ∃ pc ∈ (kernelRun4_C c i arg1 harg1 arg2 harg2 arg3 harg3 arg4 harg4 arg5 harg5 arg6 harg6 arg7 harg7 arg8 harg8 hc0 hc1 xa xb xr xs0 xs1).1, y ∈ pc.1.set :=
  View.cover_of_tiledL (kernelRun4_C c i arg1 harg1 arg2 harg2 arg3 harg3 arg4 harg4 arg5 harg5 arg6 harg6 arg7 harg7 arg8 harg8 hc0 hc1 xa xb xr xs0 xs1).1 S2000x128.size (by sl_kernel_rfl) y

def out4_C_3 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : Vec F S2000x128 .f32 :=
  VO4_3.read (Elt F) (VO4_3.writes (Elt F) VO4_3.junk (kernelRun4_C c i arg1 harg1 arg2 harg2 arg3 harg3 arg4 harg4 arg5 harg5 arg6 harg6 arg7 harg7 arg8 harg8 hc0 hc1 xa xb xr xs0 xs1).1)

/-- The store into the column-sum output covers it; what it leaves. -/
theorem cover4_C_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 xa xb xr xs0 xs1).2.1, y ∈ pc.1.set :=
  View.cover_of_tiledL (kernelRun4_C c i arg1 harg1 arg2 harg2 arg3 harg3 arg4 harg4 arg5 harg5 arg6 harg6 arg7 harg7 arg8 harg8 hc0 hc1 xa xb xr xs0 xs1).2.1 S1x128.size (by sl_kernel_rfl) y

def out4_C_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : Vec F S1x128 .f32 :=
  VO4_4.read (Elt F) (VO4_4.writes (Elt F) VO4_4.junk (kernelRun4_C c i arg1 harg1 arg2 harg2 arg3 harg3 arg4 harg4 arg5 harg5 arg6 harg6 arg7 harg7 arg8 harg8 hc0 hc1 xa xb xr xs0 xs1).2.1)

/-- The store into the sum-of-squares output covers it; what it leaves. -/
theorem cover4_C_5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 xa xb xr xs0 xs1).2.2.1, y ∈ pc.1.set :=
  View.cover_of_tiledL (kernelRun4_C c i arg1 harg1 arg2 harg2 arg3 harg3 arg4 harg4 arg5 harg5 arg6 harg6 arg7 harg7 arg8 harg8 hc0 hc1 xa xb xr xs0 xs1).2.2.1 S1x128.size (by sl_kernel_rfl) y

def out4_C_5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : Vec F S1x128 .f32 :=
  VO4_5.read (Elt F) (VO4_5.writes (Elt F) VO4_5.junk (kernelRun4_C c i arg1 harg1 arg2 harg2 arg3 harg3 arg4 harg4 arg5 harg5 arg6 harg6 arg7 harg7 arg8 harg8 hc0 hc1 xa xb xr xs0 xs1).2.2.1)

/-- The stores into the first accumulator row cover it; what they leave. -/
theorem scover4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 xa xb xr xs0 xs1).2.2.2.1, y ∈ pc.1.set :=
  View.cover_of_tiledL (kernelRun4_C c i arg1 harg1 arg2 harg2 arg3 harg3 arg4 harg4 arg5 harg5 arg6 harg6 arg7 harg7 arg8 harg8 hc0 hc1 xa xb xr xs0 xs1).2.2.2.1 S1x128.size (by sl_kernel_rfl) y

def sout4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 hc0 hc1 xa xb xr xs0 xs1).2.2.2.1)

/-- The stores into the second accumulator row cover it; what they leave. -/
theorem scover4_C_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 xa xb xr xs0 xs1).2.2.2.2.1, y ∈ pc.1.set :=
  View.cover_of_tiledL (kernelRun4_C c i arg1 harg1 arg2 harg2 arg3 harg3 arg4 harg4 arg5 harg5 arg6 harg6 arg7 harg7 arg8 harg8 hc0 hc1 xa xb xr xs0 xs1).2.2.2.2.1 S1x128.size (by sl_kernel_rfl) y

def sout4_C_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 hc0 hc1 xa xb xr xs0 xs1).2.2.2.2.1)

/-! ## What the outputs and the accumulator rows hold after each point -/

/-- After the body at position `n`: the tile output's buffer, the two statistics outputs' buffers (placeholders where the
    body does not store them), and the two accumulator rows — the case the point is in, run at the point's memrefs and
    input blocks, the accumulator rows coming in at what position `n - 1` left. -/
def outsAt4 (c : Dev nD) : (n : ℕ) → n < cfg4.N → Vec F S2000x128 .f32 × Vec F S1x128 .f32 × Vec F S1x128 .f32 × Vec F S1x128 .f32 × Vec F S1x128 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), (VO4_4.read (Elt F) (VO4_4.writes (Elt F) VO4_4.junk [])), (VO4_5.read (Elt F) (VO4_5.writes (Elt F) VO4_5.junk [])), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 50 = 0 then
      if h1 : (n + 1) % 50 = 49 then
        False.elim (by omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), (VO4_4.read (Elt F) (VO4_4.writes (Elt F) VO4_4.junk [])), (VO4_5.read (Elt F) (VO4_5.writes (Elt F) VO4_5.junk [])), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 50 = 49 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, (VO4_4.read (Elt F) (VO4_4.writes (Elt F) VO4_4.junk [])), (VO4_5.read (Elt F) (VO4_5.writes (Elt F) VO4_5.junk [])), sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)

theorem outsAt4_A (c : Dev nD) (t : Fin cfg4.N) (h0 : t.val % 50 = 0) (h1 : ¬t.val % 50 = 49) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), (VO4_4.read (Elt F) (VO4_4.writes (Elt F) VO4_4.junk [])), (VO4_5.read (Elt F) (VO4_5.writes (Elt F) VO4_5.junk [])), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 50 = 0) (h1 : ¬t.val % 50 = 49) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, (VO4_4.read (Elt F) (VO4_4.writes (Elt F) VO4_4.junk [])), (VO4_5.read (Elt F) (VO4_5.writes (Elt F) VO4_5.junk [])), sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 50 = 0) (h1 : t.val % 50 = 49) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's entry the scoped rest at anything and the generator register at some state;
    afterwards the same with the two accumulator rows named — at what the point before left in them. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of the region on core `c`: the arrays as the region finds them; after the body at point `t` each input's
    buffer at its block, each output's at `outsAt4`'s component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point: the inputs' memrefs hold their blocks; the closed forms say which case the point is in; the
    invariant hands the body the accumulator rows at what the point before left (at anything at the first point) and takes
    them back at this point's contents; the statistics outputs are handed back untouched except at the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases h0 : t.val % 50 = 0
  · by_cases h1 : t.val % 50 = 49
    · exfalso; omega
    ·
      rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_A V c t h0 h1]
      unfold out4_A_3 sout4_A_0 sout4_A_1; (try dsimp only)
      by_cases hz : t.val = 0
      · rw [PhiS4_castSucc V c t, PhiS4_zero V c _ _ hz, PhiA4_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t)).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _)
              · unfold owns; iexists _; isplitr
                swap; · iexact HS1
                ipureintro; exact View.read_writes_of_cover _ _ _ _ _ (scover4_A_1 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover4_A_3 c _ _ _ _ _ _ _ _ _ _ _ _ _ _ _ _ _ _ _ _ _ _)
        isplitl [H4]; · iexists _; iexact H4
        iexists _; iexact H5
      · exfalso; omega
  · by_cases h1 : t.val % 50 = 49
    ·
      rw [show (dat4 V c).leavesExact 4 t = owns (c : Thread nD τ) (ms4_4 t) fullShare ((dat4 V c).after 4 t) from by
        unfold Dat.leavesExact; rw [liveAt4_4 t ((hcond4_1 t).mpr h1)], after4_4]
      rw [show (dat4 V c).leavesExact 5 t = owns (c : Thread nD τ) (ms4_5 t) fullShare ((dat4 V c).after 5 t) from by
        unfold Dat.leavesExact; rw [liveAt4_5 t ((hcond4_1 t).mpr h1)], after4_5]
      rw [outsAt4_C V c t h0 h1]
      unfold out4_C_3 out4_C_4 out4_C_5 sout4_C_0 sout4_C_1; (try dsimp only)
      by_cases hz : t.val = 0
      · exfalso; omega
      · rw [PhiS4_castSucc V c t, PhiS4_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) _ _).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, ⟨%e3, H3⟩, ⟨%e4, H4⟩, ⟨%e5, H5⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _ _ _ _ _ _ _ _)
              · unfold owns; iexists _; isplitr
                swap; · iexact HS1
                ipureintro; exact View.read_writes_of_cover _ _ _ _ _ (scover4_C_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover4_C_3 c _ _ _ _ _ _ _ _ _ _ _ _ _ _ _ _ _ _ _ _ _ _ _ _)
        isplitl [H4]
        · unfold owns; iexists _; isplitr
          swap; · iexact H4
          ipureintro; exact View.read_writes_of_cover _ _ _ _ _ (cover4_C_4 c _ _ _ _ _ _ _ _ _ _ _ _ _ _ _ _ _ _ _ _ _ _ _ _)
        unfold owns; iexists _; isplitr
        swap; · iexact H5
        ipureintro; exact View.read_writes_of_cover _ _ _ _ _ (cover4_C_5 c _ _ _ _ _ _ _ _ _ _ _ _ _ _ _ _ _ _ _ _ _ _ _ _)
    ·
      rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_B V c t h0 h1]
      unfold out4_B_3 sout4_B_0 sout4_B_1; (try dsimp only)
      by_cases hz : t.val = 0
      · exfalso; omega
      · rw [PhiS4_castSucc V c t, PhiS4_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) _ _).2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _ _ _ _ _ _ _ _)
              · unfold owns; iexists _; isplitr
                swap; · iexact HS1
                ipureintro; exact View.read_writes_of_cover _ _ _ _ _ (scover4_B_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover4_B_3 c _ _ _ _ _ _ _ _ _ _ _ _ _ _ _ _ _ _ _ _ _ _ _ _)
        isplitl [H4]; · iexists _; iexact H4
        iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the entry invariant back: the accumulator rows' contents forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout4 (c : Dev nD) : (dat4 V c).Φ (Fin.last cfg4.N) ⊢ Pipeline.ΦA spec4 c :=
  Phi_out4 V c _ (by rw [Fin.val_last]; have : cfg4.N = 50 := N_4; omega)

end Cert.KernelIdeal.Hand

end
-- ==== Proof.KI.Reg5Frame.lean ====
/-
  The second stage of a layer — subtract the mean, scale by the inverse deviation and by gamma, add beta, clamp
  below at zero — as the pipeline runs it, one tile of 2000 rows per grid point.

  The tile window (0) and the result window (5) move with the point; the four row windows (1..4: mean, inverse
  deviation, gamma, beta) have a constant block index, so they are fetched at the first point only and the body
  finds them unchanged at every later point. The body reads the five input buffers whole and writes the result
  buffer whole, so after the body at point t the result buffer is one function of the five blocks at t; the
  inputs' buffers are left as found.
-/
import proofs.«107997_j14224931684915_1_alg».proof.Proof.Gen.KernelIdeal.Launch
import proofs.«107997_j14224931684915_1_alg».proof.Proof.Gen.KernelIdeal.Skeleton
import proofs.«107997_j14224931684915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof data
    whose array is the entry contents and whose body leaves the block in place: where it was not fetched the block
    index has not moved, so the block of the point before is this point's. The tile window is fetched at every
    point; the four row windows only at the first. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: the whole tile, the whole row -/

abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-! ## What the body leaves in the result window's buffer -/

/-- The result buffer after the body, from the five input blocks: its one store, of the clamped affine image of the
    tile, over the whole buffer. -/
def out5_5 (x0 : Vec F S2000x128 .f32) (x1 : Vec F S1x128 .f32) (x2 : Vec F S1x128 .f32) (x3 : Vec F S1x128 .f32) (x4 : Vec F S1x128 .f32) : Vec F S2000x128 .f32 :=
  View.canon [⟨r5_0, k5_pay1 (View.ld x0 r5_0) (View.ld x1 r5_1) (View.ld x2 r5_1) (View.ld x3 r5_1) (View.ld x4 r5_1)⟩]

/-- The one store is the whole buffer, so it covers it. -/
theorem cover5_5 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The body on whole staging buffers, the inputs' read as x0..x4 and the result's holding anything, runs to the
    continuation with the inputs' as they were and the result's at out5_5 of them. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__normalize_relu_kernel i arg1 harg1 arg2 harg2 arg3 harg3 arg4 harg4 arg5 harg5 arg6 harg6) K := by
  simp only [cc5__normalize_relu_kernel_eq_skeleton]; unfold cc5__normalize_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data on core c: the arrays as the region finds them; after the body at point t each input's buffer at
    its block and the result's at out5_5 of the five blocks; the invariant is the scoped rest and the generator
    register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- The invariant does not depend on the point: entering and leaving the region it is the class's own. -/
theorem hin5 (c : Dev nD) : Pipeline.ΦA spec5 c ⊢ (dat5 V c).Φ 0 := Entails.refl _
theorem hout5 (c : Dev nD) : (dat5 V c).Φ (Fin.last cfg5.N) ⊢ Pipeline.ΦA spec5 c := Entails.refl _

end Cert.KernelIdeal.Hand

end
-- ==== Proof.KI.Reg6Frame.lean ====
/-
  The program's last region — the node-task head, features times weights plus the bias row, tile by tile —
  at the buffer contents the region is entered with: each window's block at a grid point, what the body leaves in the
  output window's buffer as a function of the three input blocks, the body's triple, and the pipeline's proof data
  with its body obligation.
-/
import proofs.«107997_j14224931684915_1_alg».proof.Proof.Gen.KernelIdeal.Launch
import proofs.«107997_j14224931684915_1_alg».proof.Proof.Gen.KernelIdeal.Skeleton
import proofs.«107997_j14224931684915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The feature tile's staging buffer holds the tile of the point: it is fetched at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weights' staging buffer holds the whole weight matrix at every point: fetched at the first point only, its
    block index never moves, and the body leaves it in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The bias row's staging buffer likewise holds the whole row at every point. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S2000x128 := Rect.unit (s := S2000x128) ![0, 0] S2000x128.size inb_S2000x128_S2000x128_0_0
abbrev r6_1 : Rect S128x64 := Rect.unit (s := S128x64) ![0, 0] S128x64.size inb_S128x64_S128x64_0_0
abbrev r6_2 : Rect S1x64 := Rect.unit (s := S1x64) ![0, 0] S1x64.size inb_S1x64_S1x64_0_0
abbrev r6_3 : Rect S2000x64 := Rect.unit (s := S2000x64) ![0, 0] S2000x64.size inb_S2000x64_S2000x64_0_0

/-! ## What the body leaves in the output window's buffer -/

/-- The output tile after the body, from the three input blocks: its one store, of the whole tile. -/
def out6_3 (x0 : Vec F S2000x128 .f32) (x1 : Vec F S128x64 .f32) (x2 : Vec F S1x64 .f32) : Vec F S2000x64 .f32 :=
  View.canon [⟨r6_3, k6_pay1 (View.ld x0 r6_0) (View.ld x1 r6_1) (View.ld x2 r6_2)⟩]

/-- The store covers the tile. -/
theorem cover6_3 (p0 : Vec F S2000x64 .f32) (y : S2000x64.Idx) :
    ∃ pc ∈ ([⟨r6_3, p0⟩] : List (View.Piece (Elt F) S2000x64 .f32)), y ∈ pc.1.set :=
  View.cover_of_tiled [⟨r6_3, p0⟩] S2000x64.size (by rfl) y

/-! ## The body's triple -/

set_option maxHeartbeats 1000000 in
/-- The body on whole staging memrefs, the inputs' holding x0, x1, x2 and the output's anything, runs to the
    continuation with the inputs' as they were and the output's at out6_3 of them. -/
theorem sound_kernel6 (c : Dev nD) (E : Set ℕ) (i : grid6.Coords) (arg1 : Memref sig .tc .vmem S2000x128 .f32) (harg1 : arg1.IsWhole)
    (arg2 : Memref sig .tc .vmem S128x64 .f32) (harg2 : arg2.IsWhole) (arg3 : Memref sig .tc .vmem S1x64 .f32) (harg3 : arg3.IsWhole)
    (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__final_matmul_kernel i arg1 harg1 arg2 harg2 arg3 harg3 arg4 harg4) K := by
  simp only [cc6__final_matmul_kernel_eq_skeleton]; unfold cc6__final_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of the pipeline on core c: the arrays as the region finds them; after the body at point t each
    input's buffer at its block and the output's at out6_3 of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

/-- The invariant at the region's entry is the class's, and so it is at the exit. -/
theorem hin6 (c : Dev nD) : Pipeline.ΦA spec6 c ⊢ (dat6 V c).Φ 0 := BI.Entails.refl _
theorem hout6 (c : Dev nD) : (dat6 V c).Φ (Fin.last cfg6.N) ⊢ Pipeline.ΦA spec6 c := BI.Entails.refl _

end Cert.KernelIdeal.Hand

end
-- ==== Proof.KI.Run.lean ====
/-
  The kernel program's run, read whole: @main is seven host stretches alternating with seven kernel regions.
  Between two items a core holds every unscoped buffer at a known valuation: the launch memory, then each
  host stretch's operations applied, then — after a region — the region's arrays replaced by what its
  pipeline leaves (each output array the fold of the write-backs of its blocks, each input array as entered).
  Every region is entered from that state, runs its pipeline from its proof data, and hands the buffers back at
  the next valuation; the last valuation is read against the final memory, which gives the result array and the
  six argument arrays, unchanged because no host operation writes one and no region has one as an output.
-/
import proofs.«107997_j14224931684915_1_alg».proof.Proof.Gen.KernelIdeal.Launch
import proofs.«107997_j14224931684915_1_alg».proof.Proof.Gen.KernelIdeal.Skeleton
import proofs.«107997_j14224931684915_1_alg».proof.Proof.Gen.KernelIdeal.Points
import proofs.«107997_j14224931684915_1_alg».proof.Proof.Gen.KernelIdeal.Regions
import proofs.«107997_j14224931684915_1_alg».proof.Proof.KI.Reg0Frame
import proofs.«107997_j14224931684915_1_alg».proof.Proof.KI.Reg1Frame
import proofs.«107997_j14224931684915_1_alg».proof.Proof.KI.Reg2Frame
import proofs.«107997_j14224931684915_1_alg».proof.Proof.KI.Reg3Frame
import proofs.«107997_j14224931684915_1_alg».proof.Proof.KI.Reg4Frame
import proofs.«107997_j14224931684915_1_alg».proof.Proof.KI.Reg5Frame
import proofs.«107997_j14224931684915_1_alg».proof.Proof.KI.Reg6Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A buffer host stretch 0 does not write is as before it. -/
theorem W1_of (c : Dev nD) (r : Ref sig .tc) (h : r ∉ hostOps0_W) : W1 m ρ c r = W0 m ρ c r :=
  StableHlo.after_of_writes_sub hostOps0 _ hostOps0_writes h
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After host stretch 1: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- A buffer host stretch 1 does not write is as before it. -/
theorem W3_of (c : Dev nD) (r : Ref sig .tc) (h : r ∉ hostOps1_W) : W3 m ρ c r = W2 m ρ c r :=
  StableHlo.after_of_writes_sub hostOps1 _ hostOps1_writes h
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After host stretch 2: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- A buffer host stretch 2 does not write is as before it. -/
theorem W5_of (c : Dev nD) (r : Ref sig .tc) (h : r ∉ hostOps2_W) : W5 m ρ c r = W4 m ρ c r :=
  StableHlo.after_of_writes_sub hostOps2 _ hostOps2_writes h
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After host stretch 3: region 3's entry. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- A buffer host stretch 3 does not write is as before it. -/
theorem W7_of (c : Dev nD) (r : Ref sig .tc) (h : r ∉ hostOps3_W) : W7 m ρ c r = W6 m ρ c r :=
  StableHlo.after_of_writes_sub hostOps3 _ hostOps3_writes h
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array leaves region 3 as it entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-- After host stretch 4: region 4's entry. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- A buffer host stretch 4 does not write is as before it. -/
theorem W9_of (c : Dev nD) (r : Ref sig .tc) (h : r ∉ hostOps4_W) : W9 m ρ c r = W8 m ρ c r :=
  StableHlo.after_of_writes_sub hostOps4 _ hostOps4_writes h
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- An input window's array leaves region 4 as it entered. -/
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))

/-- After host stretch 5: region 5's entry. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- A buffer host stretch 5 does not write is as before it. -/
theorem W11_of (c : Dev nD) (r : Ref sig .tc) (h : r ∉ hostOps5_W) : W11 m ρ c r = W10 m ρ c r :=
  StableHlo.after_of_writes_sub hostOps5 _ hostOps5_writes h
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- An input window's array leaves region 5 as it entered. -/
theorem W12_in (c : Dev nD) (w : Fin cfg5.W) (hw : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hw _).trans (A_eq5 (V11 m ρ) c w))

/-- After host stretch 6: region 6's entry. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- A buffer host stretch 6 does not write is as before it. -/
theorem W13_of (c : Dev nD) (r : Ref sig .tc) (h : r ∉ hostOps6_W) : W13 m ρ c r = W12 m ρ c r :=
  StableHlo.after_of_writes_sub hostOps6 _ hostOps6_writes h
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- An input window's array leaves region 6 as it entered. -/
theorem W14_in (c : Dev nD) (w : Fin cfg6.W) (hw : (cfg6.win w).isOut = false) :
    W14 m ρ c (Proc.devRef .tc (Pipeline.arrRef spec6 w)) = W13 m ρ c (Proc.devRef .tc (Pipeline.arrRef spec6 w)) :=
  (W14_arr m ρ c w).trans (((dat6 (V13 m ρ) c).arrAt_in w hw _).trans (A_eq6 (V13 m ρ) c w))

/-! ## The arguments end as launched -/

theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := W14_of_ne m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl

theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = W12 m ρ c (Proc.devRef .tc main_arg3) := W13_of m ρ c main_arg3 (by decide)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := W14_in m ρ c 1 rfl
    _ = W12 m ρ c (Proc.devRef .tc main_arg4) := W13_of m ρ c main_arg4 (by decide)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := W14_of_ne m ρ c main_arg5 (by decide)
    _ = W12 m ρ c (Proc.devRef .tc main_arg5) := W13_of m ρ c main_arg5 (by decide)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- The result array at the end is what the last region's pipeline leaves in its output window's array. -/
theorem W14_main_v80 (c : Dev nD) : W14 m ρ c (Proc.devRef .tc main_v80) = (dat6 (V13 m ρ) c).arrAt 3 cfg6.N :=
  W14_arr m ρ c 3

/-! ## The proof data family and the thread state -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the pipeline's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the pipeline's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the pipeline's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    have h := hin2 (V5 m ρ) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dat2 (V5 m ρ) c).Φ (Fin.last cfg2.N) from rfl]
    have h := hout2 (V5 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the pipeline's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    have h := hin3 (V7 m ρ) c
    unfold Pipeline.ΦA at h
    iintro ⟨Hp, -, Hr⟩
    iapply h
    isplitl [Hr]; · iexact Hr
    iexact Hp
  hout c := by
    rw [Pipeline.ownSems0_none, show (pdats m ρ 3 c).Φ (Fin.last _) = (dat3 (V7 m ρ) c).Φ (Fin.last cfg3.N) from rfl]
    have h := hout3 (V7 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the pipeline's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    have h := hin4 (V9 m ρ) c
    unfold Pipeline.ΦA at h
    iintro ⟨Hp, -, Hr⟩
    iapply h
    isplitl [Hr]; · iexact Hr
    iexact Hp
  hout c := by
    rw [Pipeline.ownSems0_none, show (pdats m ρ 4 c).Φ (Fin.last _) = (dat4 (V9 m ρ) c).Φ (Fin.last cfg4.N) from rfl]
    have h := hout4 (V9 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split
    out of the unscoped buffers and put back at the exit contents; the generator register goes into the pipeline's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V11 m ρ) c).Φ 0 from rfl]
    have h := hin5 (V11 m ρ) c
    unfold Pipeline.ΦA at h
    iintro ⟨Hp, -, Hr⟩
    iapply h
    isplitl [Hr]; · iexact Hr
    iexact Hp
  hout c := by
    rw [Pipeline.ownSems0_none, show (pdats m ρ 5 c).Φ (Fin.last _) = (dat5 (V11 m ρ) c).Φ (Fin.last cfg5.N) from rfl]
    have h := hout5 (V11 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split
    out of the unscoped buffers and put back at the exit contents; the generator register goes into the pipeline's
    invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V13 m ρ) c).Φ 0 from rfl]
    have h := hin6 (V13 m ρ) c
    unfold Pipeline.ΦA at h
    iintro ⟨Hp, -, Hr⟩
    iapply h
    isplitl [Hr]; · iexact Hr
    iexact Hp
  hout c := by
    rw [Pipeline.ownSems0_none, show (pdats m ρ 6 c).Φ (Fin.last _) = (dat6 (V13 m ρ) c).Φ (Fin.last cfg6.N) from rfl]
    have h := hout6 (V13 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitr [HO]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds the result array at what region 6's pipeline leaves and the six argument arrays as launched. -/
theorem run : θ_run defs (onTc (τ := τ) (main (F := F))) ⟨m, fun _ => 0, ρ⟩ (fun r => ∀ c : Dev nD,
      r.2.mem ((c.tc : Thread nD τ).loc main_v80) = (dat6 (V13 m ρ) c).arrAt 3 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨(h c _ (mem_uc main_v80 (by decide))).trans (W14_main_v80 m ρ c),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.Hand

end
-- ==== Proof.KI.Reg0Facts.lean ====
/-
  Region 0, in closed form: each control case's stores are whole-buffer stores, so what they leave is the last payload
  over whole-buffer loads; hence, point by point, the tile output holds the combined tile of the point's input blocks,
  each accumulator row holds the tile's column sums (of the values, of their squares) added to what the point before
  left (to the zero row at the first point), and at the last point the two statistics outputs hold the two rows.
-/
import proofs.«107997_j14224931684915_1_alg».proof.Proof.KI.Reg0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents in closed form

Each case's pieces are single whole-buffer stores, so what they leave is the last payload; the loads the payloads are over
read whole buffers back. -/

theorem off00 : (![0, 0] : Fin 2 → ℕ) = fun _ => 0 := by
  funext a; fin_cases a <;> rfl

/-- A whole memref at contents `X`, loaded whole, reads `X`. -/
theorem readAt_unread_whole {S : Shape} {m : Memref sig .tc .vmem S .f32} (h : m.IsWhole) {off : Fin S.rank → ℕ}
    (ho : off = fun _ => 0) (inb : ∀ a, off a + S.size a ≤ S.size a) (X : Vec F S .f32) :
    View.readAt (Elt F) m.view (Rect.unit off S.size inb).toLoadRect (h.unread X) = X := by
  rw [View.readAt_eq_ld, h.read_unread, View.ld_unit_zero ho]

theorem out0_A_3_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) : out0_A_3 c i arg1 harg1 arg2 harg2 arg3 harg3 arg4 harg4 arg5 harg5 arg6 harg6 arg7 harg7 arg8 harg8 hc0 hc1 xa xb xr = k0_pay3 xa xb xr := by
  unfold out0_A_3 kernelRun0_A
  dsimp only
  rw [View.read_writes_junk_eq_canon, View.canon_cons_unit_zero off00, readAt_unread_whole harg1 off00, readAt_unread_whole harg2 off00, readAt_unread_whole harg3 off00]

theorem sout0_A_0_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) : sout0_A_0 c i arg1 harg1 arg2 harg2 arg3 harg3 arg4 harg4 arg5 harg5 arg6 harg6 arg7 harg7 arg8 harg8 hc0 hc1 xa xb xr = k0_pay4 xa xb xr k0_pay1 := by
  unfold sout0_A_0 kernelRun0_A
  dsimp only
  unfold kernelRun0_A.sl.v12 kernelRun0_A.sl.HS0_1
  rw [View.read_writes_junk_eq_canon, View.canon_cons_unit_zero off00, View.readCov_unit_zero _ off00, readAt_unread_whole harg1 off00, readAt_unread_whole harg2 off00, readAt_unread_whole harg3 off00]

theorem sout0_A_1_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (xa : Vec F S2000x128 .f32) (xb : Vec F S2000x128 .f32) (xr : Vec F S1x128 .f32) : sout0_A_1 c i arg1 harg1 arg2 harg2 arg3 harg3 arg4 harg4 arg5 harg5 arg6 harg6 arg7 harg7 arg8 harg8 hc0 hc1 xa xb xr = k0_pay5 xa xb xr k0_pay2 := by
  unfold sout0_A_1 kernelRun0_A
  dsimp only
  unfold kernelRun0_A.sl.v19 kernelRun0_A.sl.HS1_1
  rw [View.read_writes_junk_eq_canon, View.canon_cons_unit_zero off00, View.readCov_unit_zero _ off00, readAt_unread_whole harg1 off00, readAt_unread_whole harg2 off00, readAt_unread_whole harg3 off00]

theorem out0_B_3_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) : out0_B_3 c i arg1 harg1 arg2 harg2 arg3 harg3 arg4 harg4 arg5 harg5 arg6 harg6 arg7 harg7 arg8 harg8 hc0 hc1 xa xb xr xs0 xs1 = k0_pay3 xa xb xr := by
  unfold out0_B_3 kernelRun0_B
  dsimp only
  rw [View.read_writes_junk_eq_canon, View.canon_cons_unit_zero off00, readAt_unread_whole harg1 off00, readAt_unread_whole harg2 off00, readAt_unread_whole harg3 off00]

theorem sout0_B_0_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) : sout0_B_0 c i arg1 harg1 arg2 harg2 arg3 harg3 arg4 harg4 arg5 harg5 arg6 harg6 arg7 harg7 arg8 harg8 hc0 hc1 xa xb xr xs0 xs1 = k0_pay4 xa xb xr xs0 := by
  unfold sout0_B_0 kernelRun0_B
  dsimp only
  rw [View.read_writes_junk_eq_canon, View.canon_cons_unit_zero off00, readAt_unread_whole harg1 off00, readAt_unread_whole harg2 off00, readAt_unread_whole harg3 off00, readAt_unread_whole harg7 off00]

theorem sout0_B_1_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (xa : Vec F S2000x128 .f32) (xb : Vec F S2000x128 .f32) (xr : Vec F S1x128 .f32) (xs0 : Vec F S1x128 .f32) (xs1 : Vec F S1x128 .f32) : sout0_B_1 c i arg1 harg1 arg2 harg2 arg3 harg3 arg4 harg4 arg5 harg5 arg6 harg6 arg7 harg7 arg8 harg8 hc0 hc1 xa xb xr xs0 xs1 = k0_pay5 xa xb xr xs1 := by
  unfold sout0_B_1 kernelRun0_B
  dsimp only
  rw [View.read_writes_junk_eq_canon, View.canon_cons_unit_zero off00, readAt_unread_whole harg1 off00, readAt_unread_whole harg2 off00, readAt_unread_whole harg3 off00, readAt_unread_whole harg8 off00]

theorem out0_C_3_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : out0_C_3 c i arg1 harg1 arg2 harg2 arg3 harg3 arg4 harg4 arg5 harg5 arg6 harg6 arg7 harg7 arg8 harg8 hc0 hc1 xa xb xr xs0 xs1 = k0_pay3 xa xb xr := by
  unfold out0_C_3 kernelRun0_C
  dsimp only
  rw [View.read_writes_junk_eq_canon, View.canon_cons_unit_zero off00, readAt_unread_whole harg1 off00, readAt_unread_whole harg2 off00, readAt_unread_whole harg3 off00]

theorem sout0_C_0_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : sout0_C_0 c i arg1 harg1 arg2 harg2 arg3 harg3 arg4 harg4 arg5 harg5 arg6 harg6 arg7 harg7 arg8 harg8 hc0 hc1 xa xb xr xs0 xs1 = k0_pay4 xa xb xr xs0 := by
  unfold sout0_C_0 kernelRun0_C
  dsimp only
  unfold kernelRun0_C.sl.HS0_1
  rw [View.read_writes_junk_eq_canon, View.canon_cons_unit_zero off00, readAt_unread_whole harg1 off00, readAt_unread_whole harg2 off00, readAt_unread_whole harg3 off00, readAt_unread_whole harg7 off00]

theorem sout0_C_1_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : sout0_C_1 c i arg1 harg1 arg2 harg2 arg3 harg3 arg4 harg4 arg5 harg5 arg6 harg6 arg7 harg7 arg8 harg8 hc0 hc1 xa xb xr xs0 xs1 = k0_pay5 xa xb xr xs1 := by
  unfold sout0_C_1 kernelRun0_C
  dsimp only
  unfold kernelRun0_C.sl.HS1_1
  rw [View.read_writes_junk_eq_canon, View.canon_cons_unit_zero off00, readAt_unread_whole harg1 off00, readAt_unread_whole harg2 off00, readAt_unread_whole harg3 off00, readAt_unread_whole harg8 off00]

theorem out0_C_4_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : out0_C_4 c i arg1 harg1 arg2 harg2 arg3 harg3 arg4 harg4 arg5 harg5 arg6 harg6 arg7 harg7 arg8 harg8 hc0 hc1 xa xb xr xs0 xs1 = k0_pay4 xa xb xr xs0 := by
  unfold out0_C_4 kernelRun0_C
  dsimp only
  unfold kernelRun0_C.sl.v30 kernelRun0_C.sl.HS0_1
  rw [View.read_writes_junk_eq_canon, View.canon_cons_unit_zero off00, View.readCov_unit_zero _ off00, readAt_unread_whole harg1 off00, readAt_unread_whole harg2 off00, readAt_unread_whole harg3 off00, readAt_unread_whole harg7 off00]

theorem out0_C_5_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (xa : Vec F S2000x128 .f32) (xb : Vec F S2000x128 .f32) (xr : Vec F S1x128 .f32) (xs0 : Vec F S1x128 .f32) (xs1 : Vec F S1x128 .f32) : out0_C_5 c i arg1 harg1 arg2 harg2 arg3 harg3 arg4 harg4 arg5 harg5 arg6 harg6 arg7 harg7 arg8 harg8 hc0 hc1 xa xb xr xs0 xs1 = k0_pay5 xa xb xr xs1 := by
  unfold out0_C_5 kernelRun0_C
  dsimp only
  unfold kernelRun0_C.sl.v32 kernelRun0_C.sl.HS1_1
  rw [View.read_writes_junk_eq_canon, View.canon_cons_unit_zero off00, View.readCov_unit_zero _ off00, readAt_unread_whole harg1 off00, readAt_unread_whole harg2 off00, readAt_unread_whole harg3 off00, readAt_unread_whole harg8 off00]

variable (V : (c : Dev nD) → (b : Ref sig .tc) → Buf (Elt F) ((c : Thread nD τ).loc b))

/-! ## Point by point: the tile output, the two accumulator rows, the statistics outputs at the last point -/

/-- After every point the tile output's buffer holds the combined tile of the point's three input blocks. -/
theorem outsAt0_w3 (c : Dev nD) (t : Fin cfg0.N) :
    (outsAt0 V c t.val t.isLt).1 = k0_pay3 (iblk0 V c 0 t) (iblk0 V c 1 t) (iblk0 V c 2 t) := by
  by_cases h0 : t.val % 50 = 0
  · have h1 : ¬t.val % 50 = 49 := by omega
    rw [outsAt0_A V c t h0 h1]
    dsimp only
    exact out0_A_3_eq (F := F) c _ _ _ _ _ _ _ _ _ _ _ _ _ _ _ _ _ _ _ _ _ _
  · by_cases h1 : t.val % 50 = 49
    · rw [outsAt0_C V c t h0 h1]
      dsimp only
      exact out0_C_3_eq (F := F) c _ _ _ _ _ _ _ _ _ _ _ _ _ _ _ _ _ _ _ _ _ _ _ _
    · rw [outsAt0_B V c t h0 h1]
      dsimp only
      exact out0_B_3_eq (F := F) c _ _ _ _ _ _ _ _ _ _ _ _ _ _ _ _ _ _ _ _ _ _ _ _

/-- After the first point the first accumulator row holds the first tile's column sums added to the zero row. -/
theorem outsAt0_row0_zero (c : Dev nD) (h : 0 < cfg0.N) :
    (outsAt0 V c 0 h).2.2.2.1 = k0_pay4 (iblk0 V c 0 ⟨0, h⟩) (iblk0 V c 1 ⟨0, h⟩) (iblk0 V c 2 ⟨0, h⟩) k0_pay1 := by
  rw [show outsAt0 V c 0 h = _ from outsAt0_A V c ⟨0, h⟩ (Nat.zero_mod _) (by show ¬(0 % 50 = 49); decide)]
  dsimp only
  exact sout0_A_0_eq (F := F) c _ _ _ _ _ _ _ _ _ _ _ _ _ _ _ _ _ _ _ _ _ _

/-- After a later point it holds that tile's column sums added to what the point before left. -/
theorem outsAt0_row0_succ (c : Dev nD) (n : ℕ) (h : n + 1 < cfg0.N) :
    (outsAt0 V c (n + 1) h).2.2.2.1 = k0_pay4 (iblk0 V c 0 ⟨n + 1, h⟩) (iblk0 V c 1 ⟨n + 1, h⟩) (iblk0 V c 2 ⟨n + 1, h⟩) (outsAt0 V c n (Nat.lt_of_succ_lt h)).2.2.2.1 := by
  have hN : n + 1 < 50 := lt_of_lt_of_eq h (show cfg0.N = 50 from N_0)
  have h0 : ¬(n + 1) % 50 = 0 := by omega
  by_cases h1 : (n + 1) % 50 = 49
  · rw [show outsAt0 V c (n + 1) h = _ from outsAt0_C V c ⟨n + 1, h⟩ h0 h1]
    dsimp only
    exact sout0_C_0_eq (F := F) c _ _ _ _ _ _ _ _ _ _ _ _ _ _ _ _ _ _ _ _ _ _ _ _
  · rw [show outsAt0 V c (n + 1) h = _ from outsAt0_B V c ⟨n + 1, h⟩ h0 h1]
    dsimp only
    exact sout0_B_0_eq (F := F) c _ _ _ _ _ _ _ _ _ _ _ _ _ _ _ _ _ _ _ _ _ _ _ _

/-- The second accumulator row, likewise, with the column sums of the squares. -/
theorem outsAt0_row1_zero (c : Dev nD) (h : 0 < cfg0.N) :
    (outsAt0 V c 0 h).2.2.2.2 = k0_pay5 (iblk0 V c 0 ⟨0, h⟩) (iblk0 V c 1 ⟨0, h⟩) (iblk0 V c 2 ⟨0, h⟩) k0_pay2 := by
  rw [show outsAt0 V c 0 h = _ from outsAt0_A V c ⟨0, h⟩ (Nat.zero_mod _) (by show ¬(0 % 50 = 49); decide)]
  dsimp only
  exact sout0_A_1_eq (F := F) c _ _ _ _ _ _ _ _ _ _ _ _ _ _ _ _ _ _ _ _ _ _

theorem outsAt0_row1_succ (c : Dev nD) (n : ℕ) (h : n + 1 < cfg0.N) :
    (outsAt0 V c (n + 1) h).2.2.2.2 = k0_pay5 (iblk0 V c 0 ⟨n + 1, h⟩) (iblk0 V c 1 ⟨n + 1, h⟩) (iblk0 V c 2 ⟨n + 1, h⟩) (outsAt0 V c n (Nat.lt_of_succ_lt h)).2.2.2.2 := by
  have hN : n + 1 < 50 := lt_of_lt_of_eq h (show cfg0.N = 50 from N_0)
  have h0 : ¬(n + 1) % 50 = 0 := by omega
  by_cases h1 : (n + 1) % 50 = 49
  · rw [show outsAt0 V c (n + 1) h = _ from outsAt0_C V c ⟨n + 1, h⟩ h0 h1]
    dsimp only
    exact sout0_C_1_eq (F := F) c _ _ _ _ _ _ _ _ _ _ _ _ _ _ _ _ _ _ _ _ _ _ _ _
  · rw [show outsAt0 V c (n + 1) h = _ from outsAt0_B V c ⟨n + 1, h⟩ h0 h1]
    dsimp only
    exact sout0_B_1_eq (F := F) c _ _ _ _ _ _ _ _ _ _ _ _ _ _ _ _ _ _ _ _ _ _ _ _

/-- At the last point the two statistics outputs' buffers hold the two accumulator rows. -/
theorem outsAt0_w4_last (c : Dev nD) (t : Fin cfg0.N) (h : t.val % 50 = 49) :
    (outsAt0 V c t.val t.isLt).2.1 = (outsAt0 V c t.val t.isLt).2.2.2.1 := by
  have h0 : ¬t.val % 50 = 0 := by omega
  rw [outsAt0_C V c t h0 h]
  dsimp only
  exact (out0_C_4_eq (F := F) c _ _ _ _ _ _ _ _ _ _ _ _ _ _ _ _ _ _ _ _ _ _ _ _).trans (sout0_C_0_eq (F := F) c _ _ _ _ _ _ _ _ _ _ _ _ _ _ _ _ _ _ _ _ _ _ _ _).symm

theorem outsAt0_w5_last (c : Dev nD) (t : Fin cfg0.N) (h : t.val % 50 = 49) :
    (outsAt0 V c t.val t.isLt).2.2.1 = (outsAt0 V c t.val t.isLt).2.2.2.2 := by
  have h0 : ¬t.val % 50 = 0 := by omega
  rw [outsAt0_C V c t h0 h]
  dsimp only
  exact (out0_C_5_eq (F := F) c _ _ _ _ _ _ _ _ _ _ _ _ _ _ _ _ _ _ _ _ _ _ _ _).trans (sout0_C_1_eq (F := F) c _ _ _ _ _ _ _ _ _ _ _ _ _ _ _ _ _ _ _ _ _ _ _ _).symm

end Cert.KernelIdeal.Hand

end
-- ==== Proof.KI.Reg0Pay.lean ====
/-
  The arithmetic of the first kernel (combine + column statistics), read at an index over the extended reals,
  and the arithmetic of tiling a column sum over row blocks.
-/
import proofs.«107997_j14224931684915_1_alg».proof.Proof.Gen.KernelIdeal.Skeleton
import Idealize.ShloMosaic.Lib.ValueLayout
import Idealize.ShloMosaic.Lib.Pipeline.Value
import Idealize.ShloMosaic.PureOps.Ideal.Laws

noncomputable section

namespace Cert.KernelIdeal.HandV.Reg0

open Idealize.ShloMosaic Idealize.ShloMosaic.ValueIdx Cert.KernelIdeal Cert.KernelIdeal.Gen

/-! ### The payloads at an index -/

/-- The zero row the first point stores in the sum scratch. -/
theorem pay1_apply (i : S1x128.Idx) : k0_pay1 (F := Ideal) i = 0 := by
  unfold k0_pay1
  rw [shapeCast_self]
  exact Ideal.ofBits_zero_f32

/-- The zero row the first point stores in the sum-of-squares scratch. -/
theorem pay2_apply (i : S1x128.Idx) : k0_pay2 (F := Ideal) i = 0 := by
  unfold k0_pay2
  rw [shapeCast_self]
  exact Ideal.ofBits_zero_f32

/-- The combined block at (r, j): self + aggregate + the readout row at j. -/
theorem pay3_apply (x3 x4 : Vec Ideal S2000x128 .f32) (x6 : Vec Ideal S1x128 .f32) (r : Fin 2000) (j : Fin 128) :
    k0_pay3 x3 x4 x6 (ix2 r j) = x3 (ix2 r j) + x4 (ix2 r j) + x6 (ix2 0 j) := by
  unfold k0_pay3
  rw [shapeCast_self, shapeCast_self]
  show x3 (ix2 r j) + x4 (ix2 r j) + broadcastTo S2000x128 x6 broadcasts_S1x128_S2000x128 (ix2 r j) = _
  rw [broadcastTo_1b_ab_apply]

/-- A sum over the rows of a block, column by column: the reduction over axis 0 read at column j. -/
theorem colred_apply (src : FVec Ideal S2000x128 .f32) (j : Fin 128) :
    multiReduction .add [0] S128 src 0x00000000#32 reduces_S2000x128_S128 (.inl rfl) rfl (ix1 j)
      = ∑ r : Fin 2000, src (ix2 r j) := by
  refine (Ideal.multiReduction_add_single src 0x00000000#32 reduces_S2000x128_S128 (.inl rfl) rfl (ix1 j)).trans ?_
  refine Finset.sum_congr rfl fun r _ => congrArg src ?_
  funext a
  match a with
  | ⟨0, _⟩ => rfl
  | ⟨1, _⟩ => rfl

/-- The sum scratch after a point: what it held plus the column sums of the point's combined block. -/
theorem pay4_apply (x3 x4 : Vec Ideal S2000x128 .f32) (x6 s : Vec Ideal S1x128 .f32) (j : Fin 128) :
    k0_pay4 x3 x4 x6 s (ix2 0 j) = s (ix2 0 j) + ∑ r : Fin 2000, k0_pay3 x3 x4 x6 (ix2 r j) := by
  unfold k0_pay4
  rw [shapeCast_self]
  show s (ix2 0 j) + shapeCast S1x128 _ shapeCasts_S128_S1x128 (ix2 0 j) = _
  rw [shapeCast_a_1a_apply]
  exact congrArg (s (ix2 0 j) + ·) (colred_apply _ j)

/-- The sum-of-squares scratch after a point: what it held plus the column sums of the squares. -/
theorem pay5_apply (x3 x4 : Vec Ideal S2000x128 .f32) (x6 s : Vec Ideal S1x128 .f32) (j : Fin 128) :
    k0_pay5 x3 x4 x6 s (ix2 0 j)
      = s (ix2 0 j) + ∑ r : Fin 2000, k0_pay3 x3 x4 x6 (ix2 r j) * k0_pay3 x3 x4 x6 (ix2 r j) := by
  unfold k0_pay5
  rw [shapeCast_self]
  show s (ix2 0 j) + shapeCast S1x128 _ shapeCasts_S128_S1x128 (ix2 0 j) = _
  rw [shapeCast_a_1a_apply]
  exact congrArg (s (ix2 0 j) + ·) (colred_apply _ j)

/-! ### Tiling a sum over rows into blocks of rows -/

/-- A sum over a·b terms, block by block. -/
theorem sum_blocks {M : Type*} [AddCommMonoid M] (a b : ℕ) (f : Fin (a * b) → M) :
    ∑ i, f i = ∑ t : Fin a, ∑ r : Fin b, f (finProdFinEquiv (t, r)) :=
  (Equiv.sum_comp finProdFinEquiv f).symm.trans (Fintype.sum_prod_type fun p => f (finProdFinEquiv p))

/-- The 100000 rows as 50 blocks of 2000: row 2000·t + r is row r of block t. -/
theorem sum_rows {M : Type*} [AddCommMonoid M] (f : Fin 100000 → M) :
    ∑ i, f i = ∑ t : Fin 50, ∑ r : Fin 2000, f ⟨2000 * t.val + r.val, by omega⟩ := by
  refine (sum_blocks 50 2000 f).trans ?_
  refine Finset.sum_congr rfl fun t _ => Finset.sum_congr rfl fun r _ => congrArg f (Fin.ext ?_)
  show r.val + 2000 * t.val = 2000 * t.val + r.val
  omega

/-- A sum over the points of the grid as a sum over a range of naturals. -/
theorem sum_points {M : Type*} [AddCommMonoid M] (n : ℕ) (g : ℕ → M) :
    ∑ t : Fin n, g t.val = ∑ s ∈ Finset.range n, g s := Fin.sum_univ_eq_sum_range g n

/-- A running sum: starting from the first block and adding one block per point, what is held after point n is the
    sum of the blocks 0..n. -/
theorem acc_closed {M : Type*} [AddCommMonoid M] {N : ℕ} (blk sc : (n : ℕ) → n < N → M)
    (h0 : ∀ h, sc 0 h = 0 + blk 0 h)
    (hs : ∀ n h, sc (n + 1) h = sc n (Nat.lt_of_succ_lt h) + blk (n + 1) h) :
    ∀ (n : ℕ) (h : n < N), sc n h = ∑ s : Fin (n + 1), blk s.val (lt_of_le_of_lt (Nat.lt_succ_iff.mp s.isLt) h)
  | 0, h => by
    rw [h0, zero_add, Fin.sum_univ_one]
    rfl
  | n + 1, h => by
    rw [hs, acc_closed blk sc h0 hs n]
    exact (Fin.sum_univ_castSucc
      (fun s : Fin (n + 1 + 1) => blk s.val (lt_of_le_of_lt (Nat.lt_succ_iff.mp s.isLt) h))).symm

end Cert.KernelIdeal.HandV.Reg0

end
-- ==== Proof.Spec.lean ====
/-
  The mathematics of the certificate, free of any program: one graph-network layer over the extended reals
  — combine (self + aggregated neighbours + column sums), batch statistics, normalisation, ReLU —
  in the two arrangements the two programs compute it, and the law that joins them.

  The kernel accumulates the column sums of u and of u², and takes the variance as E[u²] − (E[u])²;
  the reference centres first and takes E[(u − E[u])²]. On FINITE entries the two are the same real number
  (expand the square and use Σ(u − μ) = 0), the variance is non-negative, so adding a positive ε keeps the
  reciprocal square root finite, and every entry of the layer's result is again finite: the law can be
  applied layer after layer.
-/
import Idealize.ShloMosaic.PureOps.Ideal
import Mathlib

noncomputable section

namespace Cert.Spec

open Idealize.ShloMosaic

/-- A node-by-feature array and a per-feature row, over the extended reals. -/
abbrev Mat (n d : ℕ) := Fin n → Fin d → EReal
abbrev Row (d : ℕ) := Fin d → EReal

variable {n d : ℕ}

/-- An extended real that is a real number. -/
def Fin' (x : EReal) : Prop := x ≠ ⊤ ∧ x ≠ ⊥
def MatFin (u : Mat n d) : Prop := ∀ i j, Fin' (u i j)
def RowFin (r : Row d) : Prop := ∀ j, Fin' (r j)

/-- The sum of every column. -/
def colSum (u : Mat n d) : Row d := fun j => ∑ i, u i j

/-- self + aggregated + readout (the readout row added to every node). -/
def combine (h a : Mat n d) (r : Row d) : Mat n d := fun i j => h i j + a i j + r j

/-- The column means: the column sums divided by the count `c` (an extended real: the programs' literal). -/
def meanOf (c : EReal) (u : Mat n d) : Row d := fun j => Ideal.div (colSum u j) c

/-- The variance as the kernel's host code takes it: E[u²] − (E[u])². -/
def varK (c : EReal) (u : Mat n d) : Row d :=
  fun j => Ideal.div (colSum (fun i j => u i j * u i j) j) c - meanOf c u j * meanOf c u j

/-- The variance as the reference takes it: E[(u − E[u])²]. -/
def varR (c : EReal) (u : Mat n d) : Row d :=
  fun j => Ideal.div (colSum (fun i j => (u i j - meanOf c u j) * (u i j - meanOf c u j)) j) c

/-- Normalise, scale, shift, clamp below at zero. -/
def normalize (u : Mat n d) (mean inv g b : Row d) : Mat n d :=
  fun i j => max ((u i j - mean j) * inv j * g j + b j) 0

/-- One layer with the variance `var` (either arrangement), from the entering features `h` and their aggregate `a`. -/
def layerWith (var : EReal → Mat n d → Row d) (c eps : EReal) (h a : Mat n d) (g b : Row d) : Mat n d :=
  normalize (combine h a (colSum h)) (meanOf c (combine h a (colSum h)))
    (fun j => Ideal.rsqrt (var c (combine h a (colSum h)) j + eps)) g b

def layerK (c eps : EReal) (h a : Mat n d) (g b : Row d) : Mat n d := layerWith varK c eps h a g b
def layerR (c eps : EReal) (h a : Mat n d) (g b : Row d) : Mat n d := layerWith varR c eps h a g b

/-! ### Finite entries are real numbers -/

theorem fin'_coe (r : ℝ) : Fin' (r : EReal) := ⟨EReal.coe_ne_top r, EReal.coe_ne_bot r⟩

theorem fin'_zero : Fin' (0 : EReal) := by
  have := fin'_coe 0
  rwa [EReal.coe_zero] at this

/-- A finite extended real is the image of a real number, and conversely. -/
theorem fin'_iff {x : EReal} : Fin' x ↔ ∃ r : ℝ, x = (r : EReal) := by
  constructor
  · rintro ⟨h1, h2⟩
    lift x to ℝ using ⟨h1, h2⟩
    exact ⟨x, rfl⟩
  · rintro ⟨r, rfl⟩
    exact fin'_coe r

theorem fin'_add {x y : EReal} (hx : Fin' x) (hy : Fin' y) : Fin' (x + y) := by
  obtain ⟨a, rfl⟩ := fin'_iff.mp hx
  obtain ⟨b, rfl⟩ := fin'_iff.mp hy
  rw [← EReal.coe_add]
  exact fin'_coe _

theorem fin'_sub {x y : EReal} (hx : Fin' x) (hy : Fin' y) : Fin' (x - y) := by
  obtain ⟨a, rfl⟩ := fin'_iff.mp hx
  obtain ⟨b, rfl⟩ := fin'_iff.mp hy
  rw [← EReal.coe_sub]
  exact fin'_coe _

theorem fin'_mul {x y : EReal} (hx : Fin' x) (hy : Fin' y) : Fin' (x * y) := by
  obtain ⟨a, rfl⟩ := fin'_iff.mp hx
  obtain ⟨b, rfl⟩ := fin'_iff.mp hy
  rw [← EReal.coe_mul]
  exact fin'_coe _

/-- The larger of two finite values is one of them. -/
theorem fin'_max {x y : EReal} (hx : Fin' x) (hy : Fin' y) : Fin' (max x y) := by
  rcases max_choice x y with h | h <;> rw [h] <;> assumption

/-- The coercion from the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite values is finite. -/
theorem sum_fin' {ι : Type} (s : Finset ι) (f : ι → EReal) (hf : ∀ i ∈ s, Fin' (f i)) :
    Fin' (∑ i ∈ s, f i) := by
  classical
  induction s using Finset.induction_on with
  | empty =>
    rw [Finset.sum_empty]
    exact fin'_zero
  | insert a s ha ih =>
    rw [Finset.sum_insert ha]
    exact fin'_add (hf a (Finset.mem_insert_self a s))
      (ih (fun i hi => hf i (Finset.mem_insert_of_mem hi)))

/-- A matrix of finite entries is the entrywise image of a real matrix. -/
theorem matFin_exists (u : Mat n d) (hu : MatFin u) :
    ∃ U : Fin n → Fin d → ℝ, u = fun i j => (U i j : EReal) := by
  choose U hU using fun i j => fin'_iff.mp (hu i j)
  exact ⟨U, funext fun i => funext fun j => hU i j⟩

theorem matFin_combine (h a : Mat n d) (hh : MatFin h) (ha : MatFin a) :
    MatFin (combine h a (colSum h)) := by
  intro i j
  unfold combine colSum
  exact fin'_add (fin'_add (hh i j) (ha i j)) (sum_fin' _ _ (fun k _ => hh k j))

/-! ### The statistics of a real matrix -/

theorem natCast_ne_zero (hn : 0 < n) : (n : ℝ) ≠ 0 := Nat.cast_ne_zero.mpr hn.ne'

/-- The mean of a real column, as a real. -/
theorem meanOf_coe (hn : 0 < n) (U : Fin n → Fin d → ℝ) (j : Fin d) :
    meanOf ((n : ℝ) : EReal) (fun i j => (U i j : EReal)) j
      = (((∑ i, U i j) * (1 / (n : ℝ)) : ℝ) : EReal) := by
  simp only [meanOf, colSum]
  rw [Ideal.div_coe (natCast_ne_zero hn), ← coe_sum, ← EReal.coe_mul]

/-- The kernel's variance of a real column, as a real: E[u²] − (E[u])². -/
theorem varK_coe (hn : 0 < n) (U : Fin n → Fin d → ℝ) (j : Fin d) :
    varK ((n : ℝ) : EReal) (fun i j => (U i j : EReal)) j
      = (((∑ i, U i j * U i j) * (1 / (n : ℝ))
          - ((∑ i, U i j) * (1 / (n : ℝ))) * ((∑ i, U i j) * (1 / (n : ℝ))) : ℝ) : EReal) := by
  simp only [varK, meanOf_coe hn]
  simp only [colSum, ← EReal.coe_mul, ← coe_sum]
  rw [Ideal.div_coe (natCast_ne_zero hn), ← EReal.coe_mul, ← EReal.coe_sub]

/-- The reference's variance of a real column, as a real: E[(u − E[u])²]. -/
theorem varR_coe (hn : 0 < n) (U : Fin n → Fin d → ℝ) (j : Fin d) :
    varR ((n : ℝ) : EReal) (fun i j => (U i j : EReal)) j
      = (((∑ i, (U i j - (∑ i, U i j) * (1 / (n : ℝ))) * (U i j - (∑ i, U i j) * (1 / (n : ℝ))))
          * (1 / (n : ℝ)) : ℝ) : EReal) := by
  simp only [varR, meanOf_coe hn]
  simp only [colSum, ← EReal.coe_sub, ← EReal.coe_mul, ← coe_sum]
  rw [Ideal.div_coe (natCast_ne_zero hn), ← EReal.coe_mul]

/-- E[x²] − (E[x])² = E[(x − E[x])²] for a real sample of positive size: expand the square;
    the cross term is −2μ·Σx = −2nμ² and the constant term is nμ². -/
theorem real_var_identity (hn : 0 < n) (x : Fin n → ℝ) :
    (∑ i, x i * x i) * (1 / (n : ℝ)) - ((∑ i, x i) * (1 / (n : ℝ))) * ((∑ i, x i) * (1 / (n : ℝ)))
      = (∑ i, (x i - (∑ i, x i) * (1 / (n : ℝ))) * (x i - (∑ i, x i) * (1 / (n : ℝ))))
          * (1 / (n : ℝ)) := by
  have hn' : (n : ℝ) ≠ 0 := natCast_ne_zero hn
  generalize hS : ∑ i, x i = S
  generalize hμ : S * (1 / (n : ℝ)) = μ
  have hexp : ∀ i, (x i - μ) * (x i - μ) = x i * x i - 2 * μ * x i + μ * μ := fun i => by ring
  have h1 : ∑ i, (x i - μ) * (x i - μ) = (∑ i, x i * x i) - 2 * μ * S + (n : ℝ) * (μ * μ) := by
    simp only [hexp, Finset.sum_add_distrib, Finset.sum_sub_distrib, ← Finset.mul_sum,
      Finset.sum_const, Finset.card_univ, Fintype.card_fin, nsmul_eq_mul, hS]
    ring
  rw [h1, ← hμ]
  field_simp
  ring

/-- On finite entries, with the count the real number of rows (positive), the two variances agree. -/
theorem varK_eq_varR (hn : 0 < n) (u : Mat n d) (hu : MatFin u) :
    varK ((n : ℝ) : EReal) u = varR ((n : ℝ) : EReal) u := by
  obtain ⟨U, rfl⟩ := matFin_exists u hu
  funext j
  rw [varK_coe hn, varR_coe hn, real_var_identity hn (fun i => U i j)]

/-- The reference's variance of finite entries is a non-negative real. -/
theorem varR_nonneg_fin (hn : 0 < n) (u : Mat n d) (hu : MatFin u) (j : Fin d) :
    ∃ v : ℝ, 0 ≤ v ∧ varR ((n : ℝ) : EReal) u j = (v : EReal) := by
  obtain ⟨U, rfl⟩ := matFin_exists u hu
  refine ⟨_, ?_, varR_coe hn U j⟩
  have hpos : (0 : ℝ) ≤ 1 / (n : ℝ) := by positivity
  exact mul_nonneg (Finset.sum_nonneg (fun i _ => mul_self_nonneg _)) hpos

/-- The two arrangements of a layer agree on finite data, for a positive real ε. -/
theorem layerK_eq_layerR (hn : 0 < n) (e : ℝ) (he : 0 < e) (h a : Mat n d) (g b : Row d)
    (hh : MatFin h) (ha : MatFin a) :
    layerK ((n : ℝ) : EReal) (e : EReal) h a g b = layerR ((n : ℝ) : EReal) (e : EReal) h a g b := by
  unfold layerK layerR layerWith
  rw [varK_eq_varR hn _ (matFin_combine h a hh ha)]

/-- The mean of finite entries is finite. -/
theorem meanOf_fin (hn : 0 < n) (u : Mat n d) (hu : MatFin u) (j : Fin d) :
    Fin' (meanOf ((n : ℝ) : EReal) u j) := by
  obtain ⟨U, rfl⟩ := matFin_exists u hu
  rw [meanOf_coe hn]
  exact fin'_coe _

/-- The reciprocal square root of a positive real is a real. -/
theorem rsqrt_pos (x : ℝ) (hx : 0 < x) : ∃ r : ℝ, Ideal.rsqrt (x : EReal) = (r : EReal) :=
  ⟨(Real.sqrt x)⁻¹, by rw [Ideal.rsqrt_coe, if_neg (not_lt.mpr hx.le), if_neg hx.ne']⟩

/-- With a positive ε added to the (non-negative) variance, the reciprocal square root is finite. -/
theorem rsqrt_varR_fin (hn : 0 < n) (e : ℝ) (he : 0 < e) (u : Mat n d) (hu : MatFin u) (j : Fin d) :
    Fin' (Ideal.rsqrt (varR ((n : ℝ) : EReal) u j + (e : EReal))) := by
  obtain ⟨v, hv, hvar⟩ := varR_nonneg_fin hn u hu j
  rw [hvar, ← EReal.coe_add]
  obtain ⟨r, hr⟩ := rsqrt_pos (v + e) (by linarith)
  rw [hr]
  exact fin'_coe r

/-- A layer of finite data is finite. -/
theorem layerR_fin (hn : 0 < n) (e : ℝ) (he : 0 < e) (h a : Mat n d) (g b : Row d)
    (hh : MatFin h) (ha : MatFin a) (hg : RowFin g) (hb : RowFin b) :
    MatFin (layerR ((n : ℝ) : EReal) (e : EReal) h a g b) := by
  have hu : MatFin (combine h a (colSum h)) := matFin_combine h a hh ha
  intro i j
  unfold layerR layerWith normalize
  exact fin'_max
    (fin'_add
      (fin'_mul
        (fin'_mul (fin'_sub (hu i j) (meanOf_fin hn _ hu j)) (rsqrt_varR_fin hn e he _ hu j))
        (hg j))
      (hb j))
    fin'_zero

end Cert.Spec

end
-- ==== Proof.Conv.lean ====
/-
  Reading a program's arrays (functions of a shape's index) as the node-by-feature matrices and
  feature rows the mathematics is stated over, and the node-task head.
-/
import proofs.«107997_j14224931684915_1_alg».proof.Proof.Spec
import Idealize.ShloMosaic.Lib.ValueIdx

noncomputable section

namespace Cert.Conv

open Idealize.ShloMosaic Idealize.ShloMosaic.ValueIdx Cert.Spec

/-- A rank-2 array as a matrix. -/
def toMat {n d : ℕ} (f : (⟨2, ![n, d]⟩ : Shape).Idx → EReal) : Mat n d := fun i j => f (ix2 i j)
/-- A [1, d] array as a row. -/
def toRow1 {d : ℕ} (f : (⟨2, ![1, d]⟩ : Shape).Idx → EReal) : Row d := fun j => f (ix2 0 j)
/-- A rank-1 array as a row. -/
def toRow {d : ℕ} (f : (⟨1, ![d]⟩ : Shape).Idx → EReal) : Row d := fun j => f (ix1 j)

theorem toMat_apply {n d : ℕ} (f : (⟨2, ![n, d]⟩ : Shape).Idx → EReal) (i : (⟨2, ![n, d]⟩ : Shape).Idx) :
    f i = toMat f (i 0) (i 1) :=
  congrArg f (eq_ix2 i)

/-- Two rank-2 arrays with the same matrix are the same array. -/
theorem toMat_inj {n d : ℕ} {f g : (⟨2, ![n, d]⟩ : Shape).Idx → EReal} (h : toMat f = toMat g) : f = g := by
  funext i; rw [toMat_apply f i, toMat_apply g i, h]

/-- The node-task head: features times weights plus the bias row. -/
def head {n k o : ℕ} (h : Mat n k) (W : Mat k o) (b : Row o) : Mat n o := fun i q => (∑ l, h i l * W l q) + b q

end Cert.Conv

end
-- ==== Proof.KI.Reg0Value.lean ====
/-
  The value of the first kernel of a layer over the extended reals: after its 50 grid points, the tile output holds
  the combined features u = self + aggregate + readout row, entry by entry, and the two row outputs hold the column
  sums of u and of u².

  The tile output is written back at every point: point t leaves rows 2000·t … 2000·t + 1999 of u, and the 50
  blocks tile the array. The two sums live in scratch rows carried from point to point: zeroed at point 0, then at
  every point the column sums of the point's block (of its squares) are added, so after point n a row holds the sums
  over the blocks 0..n; the last point copies the rows to their outputs, whose one block is the whole row. A sum
  over the 100000 rows is the sum over the 50 blocks of the sums over each block's 2000 rows.
-/
import proofs.«107997_j14224931684915_1_alg».proof.Proof.KI.Reg0Frame
import proofs.«107997_j14224931684915_1_alg».proof.Proof.KI.Reg0Facts
import proofs.«107997_j14224931684915_1_alg».proof.Proof.KI.Reg0Pay
import proofs.«107997_j14224931684915_1_alg».proof.Proof.Conv
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The mathematics' combined features, from the three entry arrays. -/
abbrev u0 (c : Dev nD) : Cert.Spec.Mat 100000 128 :=
  Cert.Spec.combine (Cert.Conv.toMat (V c (Pipeline.arrRef spec0 0))) (Cert.Conv.toMat (V c (Pipeline.arrRef spec0 1)))
    (Cert.Conv.toRow1 (V c (Pipeline.arrRef spec0 2)))

namespace Reg0

/-! ### Where the blocks sit in their arrays -/

theorem tlt (t : Fin cfg0.N) : t.val < 50 := lt_of_lt_of_eq t.isLt (show cfg0.N = 50 from N_0)

theorem h49 : 49 < cfg0.N := by rw [show cfg0.N = 50 from N_0]; decide

/-- The block indices of the six windows at every point: the row-tile windows (0, 1, 3) move with the point, the row
    windows (2, 4, 5) stay at block 0 (decided over the 50 points). -/
theorem idx0 : ∀ t : Fin cfg0.N, win0_0.index t 0 = t.val ∧ win0_0.index t 1 = 0
    ∧ win0_1.index t 0 = t.val ∧ win0_1.index t 1 = 0
    ∧ win0_2.index t 0 = 0 ∧ win0_2.index t 1 = 0
    ∧ win0_3.index t 0 = t.val ∧ win0_3.index t 1 = 0
    ∧ win0_4.index t 0 = 0 ∧ win0_4.index t 1 = 0
    ∧ win0_5.index t 0 = 0 ∧ win0_5.index t 1 = 0 :=
  (by decide +kernel : ∀ t : Fin grid0.N, _)

/-- Row r of the self-features' block at point t is row 2000·t + r of the array. -/
theorem iblk0_0_apply (c : Dev nD) (t : Fin cfg0.N) (r : Fin 2000) (j : Fin 128) :
    iblk0 V c 0 t (ix2 r j) = V c (Pipeline.arrRef spec0 0) (ix2 ⟨2000 * t.val + r.val, by have := tlt t; omega⟩ j) := by
  obtain ⟨e0, e1, -⟩ := idx0 t
  unfold iblk0
  rw [View.read_apply]
  refine congrArg (V c (Pipeline.arrRef spec0 0)) ?_
  funext a
  apply Fin.ext
  match a with
  | ⟨0, _⟩ => show win0_0.index t 0 * 2000 + 1 * r.val = 2000 * t.val + r.val; rw [e0]; omega
  | ⟨1, _⟩ => show win0_0.index t 1 * 128 + 1 * j.val = j.val; rw [e1]; omega

/-- Row r of the aggregate's block at point t is row 2000·t + r of the array. -/
theorem iblk0_1_apply (c : Dev nD) (t : Fin cfg0.N) (r : Fin 2000) (j : Fin 128) :
    iblk0 V c 1 t (ix2 r j) = V c (Pipeline.arrRef spec0 1) (ix2 ⟨2000 * t.val + r.val, by have := tlt t; omega⟩ j) := by
  obtain ⟨-, -, e0, e1, -⟩ := idx0 t
  unfold iblk0
  rw [View.read_apply]
  refine congrArg (V c (Pipeline.arrRef spec0 1)) ?_
  funext a
  apply Fin.ext
  match a with
  | ⟨0, _⟩ => show win0_1.index t 0 * 2000 + 1 * r.val = 2000 * t.val + r.val; rw [e0]; omega
  | ⟨1, _⟩ => show win0_1.index t 1 * 128 + 1 * j.val = j.val; rw [e1]; omega

/-- The readout row's block is the whole row, at every point. -/
theorem iblk0_2_apply (c : Dev nD) (t : Fin cfg0.N) (j : Fin 128) :
    iblk0 V c 2 t (ix2 0 j) = V c (Pipeline.arrRef spec0 2) (ix2 0 j) := by
  obtain ⟨-, -, -, -, e0, e1, -⟩ := idx0 t
  unfold iblk0
  rw [View.read_apply]
  refine congrArg (V c (Pipeline.arrRef spec0 2)) ?_
  funext a
  apply Fin.ext
  match a with
  | ⟨0, _⟩ => show win0_2.index t 0 * 1 + 1 * 0 = 0; rw [e0]
  | ⟨1, _⟩ => show win0_2.index t 1 * 128 + 1 * j.val = j.val; rw [e1]; omega

/-- The combined block of point t at (r, j) is the combined features at row 2000·t + r. -/
theorem pay3_blk (c : Dev nD) (t : Fin cfg0.N) (r : Fin 2000) (j : Fin 128) :
    k0_pay3 (iblk0 V c 0 t) (iblk0 V c 1 t) (iblk0 V c 2 t) (ix2 r j)
      = u0 V c ⟨2000 * t.val + r.val, by have := tlt t; omega⟩ j := by
  refine (pay3_apply (iblk0 V c 0 t) (iblk0 V c 1 t) (iblk0 V c 2 t) r j).trans ?_
  exact congrArg₂ (· + ·) (congrArg₂ (· + ·) (iblk0_0_apply V c t r j) (iblk0_1_apply V c t r j)) (iblk0_2_apply V c t j)

/-! ### Output 3: the combined features, tile by tile -/

/-- What output 3's array ends holding: the combined features, entry by entry. -/
def G3 (c : Dev nD) : (⟨2, ![100000, 128]⟩ : Shape).Idx → EReal := fun i => u0 V c (i 0) (i 1)

/-- What point t writes back to output 3 is block t of the combined features. -/
theorem flushed3_eq (c : Dev nD) (t : Fin cfg0.N) :
    (dat0 V c).flushed 3 t = ((cfg0.win 3).blk t).view.read (Elt Ideal) (G3 V c) := by
  obtain ⟨-, -, -, -, -, -, e0, e1, -⟩ := idx0 t
  show (cfg0.win 3).cut (grid0.coords t) ((dat0 V c).after 3 t) = _
  rw [after0_3, outsAt0_w3]
  funext y
  obtain ⟨r, j, rfl⟩ : ∃ (r : Fin 2000) (j : Fin 128), y = ix2 r j := ⟨y 0, y 1, eq_ix2 (n0 := 2000) (n1 := 128) y⟩
  rw [View.read_apply]
  refine (pay3_blk V c t r j).trans ?_
  show u0 V c _ j = u0 V c ((((cfg0.win 3).blk t).view.emb (ix2 r j)) 0) ((((cfg0.win 3).blk t).view.emb (ix2 r j)) 1)
  refine congrArg₂ (u0 V c) (Fin.ext ?_) (Fin.ext ?_)
  · show 2000 * t.val + r.val = win0_3.index t 0 * 2000 + 1 * r.val
    rw [e0]; omega
  · show j.val = win0_3.index t 1 * 128 + 1 * j.val
    rw [e1]; omega

/-- Every row of output 3 is in the block of the point its tile belongs to. -/
theorem cover3 (c : Dev nD) (i : ((cfg0.win 3).arr.view.loc ((c : Dev nD).tc : Thread nD τ)).2.ty.Idx) :
    ∃ t : Fin cfg0.N, (cfg0.win 3).flush t = true ∧ i ∈ ((cfg0.win 3).blk t).view.set := by
  have hi0 : (i 0 : Nat) < 100000 := (i 0).isLt
  have hi1 : (i 1 : Nat) < 128 := (i 1).isLt
  have hN : cfg0.N = 50 := N_0
  have hlt : (i 0 : Nat) / 2000 < cfg0.N := by rw [hN]; omega
  refine ⟨⟨(i 0 : Nat) / 2000, hlt⟩, flush0_3 _, ?_⟩
  obtain ⟨-, -, -, -, -, -, e0, e1, -⟩ := idx0 ⟨(i 0 : Nat) / 2000, hlt⟩
  show i ∈ ((View.whole main_v16_0).slice (win0_3.rect ⟨(i 0 : Nat) / 2000, hlt⟩)).set
  rw [View.set_slice_whole, Rect.mem_set_unit]
  intro a
  match a with
  | ⟨0, _⟩ =>
    show win0_3.index ⟨(i 0 : Nat) / 2000, hlt⟩ 0 * 2000 ≤ (i 0 : Nat) ∧ (i 0 : Nat) < win0_3.index ⟨(i 0 : Nat) / 2000, hlt⟩ 0 * 2000 + 2000
    rw [e0]; show (i 0 : Nat) / 2000 * 2000 ≤ (i 0 : Nat) ∧ (i 0 : Nat) < (i 0 : Nat) / 2000 * 2000 + 2000; omega
  | ⟨1, _⟩ =>
    show win0_3.index ⟨(i 0 : Nat) / 2000, hlt⟩ 1 * 128 ≤ (i 1 : Nat) ∧ (i 1 : Nat) < win0_3.index ⟨(i 0 : Nat) / 2000, hlt⟩ 1 * 128 + 128
    rw [e1]; omega

theorem arr3 (c : Dev nD) : (dat0 V c).arrAt 3 cfg0.N = G3 V c :=
  (dat0 V c).arrAt_eq_of_cover 3 (G3 V c) (fun t _ => flushed3_eq V c t) (cover3 c)

/-! ### Outputs 4 and 5: the column sums, accumulated over the points -/

/-- The sum row and the sum-of-squares row after point n. -/
def rowA (c : Dev nD) (n : ℕ) (h : n < cfg0.N) : Vec Ideal S1x128 .f32 := (outsAt0 V c n h).2.2.2.1
def rowB (c : Dev nD) (n : ℕ) (h : n < cfg0.N) : Vec Ideal S1x128 .f32 := (outsAt0 V c n h).2.2.2.2

theorem rowA_zero (c : Dev nD) (h : 0 < cfg0.N) :
    rowA V c 0 h = k0_pay4 (iblk0 V c 0 ⟨0, h⟩) (iblk0 V c 1 ⟨0, h⟩) (iblk0 V c 2 ⟨0, h⟩) (k0_pay1 (F := Ideal)) :=
  outsAt0_row0_zero V c h
theorem rowA_succ (c : Dev nD) (n : ℕ) (h : n + 1 < cfg0.N) :
    rowA V c (n + 1) h = k0_pay4 (iblk0 V c 0 ⟨n + 1, h⟩) (iblk0 V c 1 ⟨n + 1, h⟩) (iblk0 V c 2 ⟨n + 1, h⟩)
      (rowA V c n (Nat.lt_of_succ_lt h)) :=
  outsAt0_row0_succ V c n h
theorem rowB_zero (c : Dev nD) (h : 0 < cfg0.N) :
    rowB V c 0 h = k0_pay5 (iblk0 V c 0 ⟨0, h⟩) (iblk0 V c 1 ⟨0, h⟩) (iblk0 V c 2 ⟨0, h⟩) (k0_pay2 (F := Ideal)) :=
  outsAt0_row1_zero V c h
theorem rowB_succ (c : Dev nD) (n : ℕ) (h : n + 1 < cfg0.N) :
    rowB V c (n + 1) h = k0_pay5 (iblk0 V c 0 ⟨n + 1, h⟩) (iblk0 V c 1 ⟨n + 1, h⟩) (iblk0 V c 2 ⟨n + 1, h⟩)
      (rowB V c n (Nat.lt_of_succ_lt h)) :=
  outsAt0_row1_succ V c n h
/-- At the last point the two row outputs' buffers hold the two rows. -/
theorem w4_last (c : Dev nD) (t : Fin cfg0.N) (h : t.val % 50 = 49) :
    (outsAt0 V c t.val t.isLt).2.1 = rowA V c t.val t.isLt := outsAt0_w4_last V c t h
theorem w5_last (c : Dev nD) (t : Fin cfg0.N) (h : t.val % 50 = 49) :
    (outsAt0 V c t.val t.isLt).2.2.1 = rowB V c t.val t.isLt := outsAt0_w5_last V c t h

attribute [irreducible] rowA rowB

/-- The last point. -/
def tLast : Fin cfg0.N := ⟨49, h49⟩
theorem tLast_val : tLast.val = 49 := rfl
attribute [irreducible] tLast

/-- A running sum over the points, as a sum over a range: zero plus the first block, then one block per point. -/
theorem acc_range {M : Type*} [AddCommMonoid M] {N : ℕ} (blk : ℕ → M) (sc : (n : ℕ) → n < N → M)
    (h0 : ∀ h, sc 0 h = 0 + blk 0)
    (hs : ∀ n h, sc (n + 1) h = sc n (Nat.lt_of_succ_lt h) + blk (n + 1)) :
    ∀ (n : ℕ) (h : n < N), sc n h = ∑ s ∈ Finset.range (n + 1), blk s
  | 0, h => by rw [h0, zero_add, Finset.sum_range_one]
  | n + 1, h => by rw [hs, acc_range blk sc h0 hs n, Finset.sum_range_succ _ (n + 1)]

/-- The column sums of the combined block of point s at column j (zero past the grid). -/
def blkSum (c : Dev nD) (j : Fin 128) (s : ℕ) : EReal :=
  if h : s < cfg0.N then
    ∑ r : Fin 2000, u0 V c ⟨2000 * s + r.val, by have := lt_of_lt_of_eq h (show cfg0.N = 50 from N_0); omega⟩ j
  else 0

/-- The column sums of the squares of the combined block of point s at column j (zero past the grid). -/
def blkSq (c : Dev nD) (j : Fin 128) (s : ℕ) : EReal :=
  if h : s < cfg0.N then
    ∑ r : Fin 2000, u0 V c ⟨2000 * s + r.val, by have := lt_of_lt_of_eq h (show cfg0.N = 50 from N_0); omega⟩ j
      * u0 V c ⟨2000 * s + r.val, by have := lt_of_lt_of_eq h (show cfg0.N = 50 from N_0); omega⟩ j
  else 0

/-- One point's step of the sum row at column j. -/
theorem stepA (c : Dev nD) (j : Fin 128) (t : Fin cfg0.N) (s : Vec Ideal S1x128 .f32) :
    k0_pay4 (iblk0 V c 0 t) (iblk0 V c 1 t) (iblk0 V c 2 t) s (ix2 0 j) = s (ix2 0 j) + blkSum V c j t.val := by
  refine (pay4_apply (iblk0 V c 0 t) (iblk0 V c 1 t) (iblk0 V c 2 t) s j).trans ?_
  unfold blkSum
  rw [dif_pos t.isLt]
  exact congrArg (s (ix2 0 j) + ·) (Finset.sum_congr rfl fun r _ => pay3_blk V c t r j)

/-- One point's step of the sum-of-squares row at column j. -/
theorem stepB (c : Dev nD) (j : Fin 128) (t : Fin cfg0.N) (s : Vec Ideal S1x128 .f32) :
    k0_pay5 (iblk0 V c 0 t) (iblk0 V c 1 t) (iblk0 V c 2 t) s (ix2 0 j) = s (ix2 0 j) + blkSq V c j t.val := by
  refine (pay5_apply (iblk0 V c 0 t) (iblk0 V c 1 t) (iblk0 V c 2 t) s j).trans ?_
  unfold blkSq
  rw [dif_pos t.isLt]
  exact congrArg (s (ix2 0 j) + ·) (Finset.sum_congr rfl fun r _ =>
    congrArg₂ (· * ·) (pay3_blk V c t r j) (pay3_blk V c t r j))

/-- The sum row after point n holds the column sums of the blocks 0..n: zeroed at point 0, one block added per point. -/
theorem rowA_closed (c : Dev nD) (j : Fin 128) (n : ℕ) (h : n < cfg0.N) :
    rowA V c n h (ix2 0 j) = ∑ s ∈ Finset.range (n + 1), blkSum V c j s := by
  refine acc_range (blkSum V c j) (fun n h => rowA V c n h (ix2 0 j)) ?_ ?_ n h
  · intro h
    show rowA V c 0 h (ix2 0 j) = 0 + blkSum V c j 0
    rw [rowA_zero]
    refine (stepA V c j ⟨0, h⟩ (k0_pay1 (F := Ideal))).trans ?_
    rw [pay1_apply]
  · intro n h
    show rowA V c (n + 1) h (ix2 0 j) = rowA V c n (Nat.lt_of_succ_lt h) (ix2 0 j) + blkSum V c j (n + 1)
    rw [rowA_succ]
    exact stepA V c j ⟨n + 1, h⟩ (rowA V c n (Nat.lt_of_succ_lt h))

/-- The sum-of-squares row after point n holds the column sums of the squares of the blocks 0..n. -/
theorem rowB_closed (c : Dev nD) (j : Fin 128) (n : ℕ) (h : n < cfg0.N) :
    rowB V c n h (ix2 0 j) = ∑ s ∈ Finset.range (n + 1), blkSq V c j s := by
  refine acc_range (blkSq V c j) (fun n h => rowB V c n h (ix2 0 j)) ?_ ?_ n h
  · intro h
    show rowB V c 0 h (ix2 0 j) = 0 + blkSq V c j 0
    rw [rowB_zero]
    refine (stepB V c j ⟨0, h⟩ (k0_pay2 (F := Ideal))).trans ?_
    rw [pay2_apply]
  · intro n h
    show rowB V c (n + 1) h (ix2 0 j) = rowB V c n (Nat.lt_of_succ_lt h) (ix2 0 j) + blkSq V c j (n + 1)
    rw [rowB_succ]
    exact stepB V c j ⟨n + 1, h⟩ (rowB V c n (Nat.lt_of_succ_lt h))

/-- The 50 block sums are the sum over all the rows. -/
theorem sum_blkSum (c : Dev nD) (j : Fin 128) :
    ∑ s ∈ Finset.range 50, blkSum V c j s = ∑ i : Fin 100000, u0 V c i j := by
  rw [sum_rows (fun i => u0 V c i j), ← Fin.sum_univ_eq_sum_range (blkSum V c j) 50]
  refine Finset.sum_congr rfl fun t _ => ?_
  unfold blkSum
  rw [dif_pos (lt_of_lt_of_eq t.isLt (show cfg0.N = 50 from N_0).symm)]

theorem sum_blkSq (c : Dev nD) (j : Fin 128) :
    ∑ s ∈ Finset.range 50, blkSq V c j s = ∑ i : Fin 100000, u0 V c i j * u0 V c i j := by
  rw [sum_rows (fun i => u0 V c i j * u0 V c i j), ← Fin.sum_univ_eq_sum_range (blkSq V c j) 50]
  refine Finset.sum_congr rfl fun t _ => ?_
  unfold blkSq
  rw [dif_pos (lt_of_lt_of_eq t.isLt (show cfg0.N = 50 from N_0).symm)]

/-- After the last point the sum row holds the column sums over all the rows. -/
theorem rowA_last (c : Dev nD) (j : Fin 128) :
    rowA V c tLast.val tLast.isLt (ix2 0 j) = ∑ i : Fin 100000, u0 V c i j := by
  rw [rowA_closed V c j tLast.val tLast.isLt, tLast_val]
  exact sum_blkSum V c j

theorem rowB_last (c : Dev nD) (j : Fin 128) :
    rowB V c tLast.val tLast.isLt (ix2 0 j) = ∑ i : Fin 100000, u0 V c i j * u0 V c i j := by
  rw [rowB_closed V c j tLast.val tLast.isLt, tLast_val]
  exact sum_blkSq V c j

/-- Window 4's block is the whole row at every point: what is cut from its buffer is what is read off the array. -/
theorem cut_eq_read4 (t : Fin cfg0.N) (X : Vec Ideal S1x128 .f32) :
    (cfg0.win 4).cut (grid0.coords t) X = ((cfg0.win 4).blk t).view.read (Elt Ideal) X := by
  obtain ⟨-, -, -, -, -, -, -, -, e0, e1, -⟩ := idx0 t
  funext y
  obtain ⟨u, j, rfl⟩ : ∃ (u : Fin 1) (j : Fin 128), y = ix2 u j := ⟨y 0, y 1, eq_ix2 (n0 := 1) (n1 := 128) y⟩
  rw [View.read_apply]
  show X (ix2 u j) = X (((cfg0.win 4).blk t).view.emb (ix2 u j))
  refine congrArg X ?_
  funext a
  apply Fin.ext
  match a with
  | ⟨0, _⟩ => show u.val = win0_4.index t 0 * 1 + 1 * u.val; rw [e0]; omega
  | ⟨1, _⟩ => show j.val = win0_4.index t 1 * 128 + 1 * j.val; rw [e1]; omega

/-- The one write-back of output 4, at the last point, writes the row. -/
theorem flushed4_eq (c : Dev nD) (t : Fin cfg0.N) (hf : (cfg0.win 4).flush t = true) :
    (dat0 V c).flushed 4 t = ((cfg0.win 4).blk t).view.read (Elt Ideal) (rowA V c tLast.val tLast.isLt) := by
  have h := (flush0_4 t).mp hf
  have hlt := tlt t
  obtain rfl : t = tLast := Fin.ext (by rw [tLast_val]; omega)
  refine Eq.trans ?_ (cut_eq_read4 tLast (rowA V c tLast.val tLast.isLt))
  show (cfg0.win 4).cut (grid0.coords tLast) ((dat0 V c).after 4 tLast) = _
  rw [after0_4, w4_last V c tLast h]

/-- The last point's block of output 4 is the whole row. -/
theorem cover4 (c : Dev nD) (i : ((cfg0.win 4).arr.view.loc ((c : Dev nD).tc : Thread nD τ)).2.ty.Idx) :
    ∃ t : Fin cfg0.N, (cfg0.win 4).flush t = true ∧ i ∈ ((cfg0.win 4).blk t).view.set := by
  have hi0 : (i 0 : Nat) < 1 := (i 0).isLt
  have hi1 : (i 1 : Nat) < 128 := (i 1).isLt
  refine ⟨tLast, (flush0_4 _).mpr (by rw [tLast_val]), ?_⟩
  obtain ⟨-, -, -, -, -, -, -, -, e0, e1, -⟩ := idx0 tLast
  show i ∈ ((View.whole main_v16_1).slice (win0_4.rect tLast)).set
  rw [View.set_slice_whole, Rect.mem_set_unit]
  intro a
  match a with
  | ⟨0, _⟩ =>
    show win0_4.index tLast 0 * 1 ≤ (i 0 : Nat) ∧ (i 0 : Nat) < win0_4.index tLast 0 * 1 + 1
    rw [e0]; omega
  | ⟨1, _⟩ =>
    show win0_4.index tLast 1 * 128 ≤ (i 1 : Nat) ∧ (i 1 : Nat) < win0_4.index tLast 1 * 128 + 128
    rw [e1]; omega

theorem arr4 (c : Dev nD) : (dat0 V c).arrAt 4 cfg0.N = rowA V c tLast.val tLast.isLt :=
  (dat0 V c).arrAt_eq_of_cover 4 (rowA V c tLast.val tLast.isLt) (flushed4_eq V c) (cover4 c)

/-- Window 5's block is the whole row at every point: what is cut from its buffer is what is read off the array. -/
theorem cut_eq_read5 (t : Fin cfg0.N) (X : Vec Ideal S1x128 .f32) :
    (cfg0.win 5).cut (grid0.coords t) X = ((cfg0.win 5).blk t).view.read (Elt Ideal) X := by
  obtain ⟨-, -, -, -, -, -, -, -, -, -, e0, e1⟩ := idx0 t
  funext y
  obtain ⟨u, j, rfl⟩ : ∃ (u : Fin 1) (j : Fin 128), y = ix2 u j := ⟨y 0, y 1, eq_ix2 (n0 := 1) (n1 := 128) y⟩
  rw [View.read_apply]
  show X (ix2 u j) = X (((cfg0.win 5).blk t).view.emb (ix2 u j))
  refine congrArg X ?_
  funext a
  apply Fin.ext
  match a with
  | ⟨0, _⟩ => show u.val = win0_5.index t 0 * 1 + 1 * u.val; rw [e0]; omega
  | ⟨1, _⟩ => show j.val = win0_5.index t 1 * 128 + 1 * j.val; rw [e1]; omega

/-- The one write-back of output 5, at the last point, writes the row. -/
theorem flushed5_eq (c : Dev nD) (t : Fin cfg0.N) (hf : (cfg0.win 5).flush t = true) :
    (dat0 V c).flushed 5 t = ((cfg0.win 5).blk t).view.read (Elt Ideal) (rowB V c tLast.val tLast.isLt) := by
  have h := (flush0_5 t).mp hf
  have hlt := tlt t
  obtain rfl : t = tLast := Fin.ext (by rw [tLast_val]; omega)
  refine Eq.trans ?_ (cut_eq_read5 tLast (rowB V c tLast.val tLast.isLt))
  show (cfg0.win 5).cut (grid0.coords tLast) ((dat0 V c).after 5 tLast) = _
  rw [after0_5, w5_last V c tLast h]

/-- The last point's block of output 5 is the whole row. -/
theorem cover5 (c : Dev nD) (i : ((cfg0.win 5).arr.view.loc ((c : Dev nD).tc : Thread nD τ)).2.ty.Idx) :
    ∃ t : Fin cfg0.N, (cfg0.win 5).flush t = true ∧ i ∈ ((cfg0.win 5).blk t).view.set := by
  have hi0 : (i 0 : Nat) < 1 := (i 0).isLt
  have hi1 : (i 1 : Nat) < 128 := (i 1).isLt
  refine ⟨tLast, (flush0_5 _).mpr (by rw [tLast_val]), ?_⟩
  obtain ⟨-, -, -, -, -, -, -, -, -, -, e0, e1⟩ := idx0 tLast
  show i ∈ ((View.whole main_v16_2).slice (win0_5.rect tLast)).set
  rw [View.set_slice_whole, Rect.mem_set_unit]
  intro a
  match a with
  | ⟨0, _⟩ =>
    show win0_5.index tLast 0 * 1 ≤ (i 0 : Nat) ∧ (i 0 : Nat) < win0_5.index tLast 0 * 1 + 1
    rw [e0]; omega
  | ⟨1, _⟩ =>
    show win0_5.index tLast 1 * 128 ≤ (i 1 : Nat) ∧ (i 1 : Nat) < win0_5.index tLast 1 * 128 + 128
    rw [e1]; omega

theorem arr5 (c : Dev nD) : (dat0 V c).arrAt 5 cfg0.N = rowB V c tLast.val tLast.isLt :=
  (dat0 V c).arrAt_eq_of_cover 5 (rowB V c tLast.val tLast.isLt) (flushed5_eq V c) (cover5 c)

/-- A [1, d] array as a row, column by column. -/
theorem toRow1_eq_of {d : ℕ} {X : (⟨2, ![1, d]⟩ : Shape).Idx → EReal} {s : Cert.Spec.Row d}
    (h : ∀ j, X (ix2 0 j) = s j) : Cert.Conv.toRow1 X = s := funext h

end Reg0

/-! ### The three outputs -/

/-- Output 3 ends holding the combined features. -/
theorem final0_3 (c : Dev nD) : Cert.Conv.toMat ((dat0 (F := Ideal) V c).arrAt 3 cfg0.N) = u0 V c := by
  rw [Reg0.arr3]
  rfl

/-- Output 4 ends holding the column sums of the combined features: the 50 blocks of 2000 rows are all the rows. -/
theorem final0_4 (c : Dev nD) : Cert.Conv.toRow1 ((dat0 (F := Ideal) V c).arrAt 4 cfg0.N) = Cert.Spec.colSum (u0 V c) := by
  rw [Reg0.arr4]
  exact Reg0.toRow1_eq_of (fun j => Reg0.rowA_last V c j)

/-- Output 5 ends holding the column sums of the squares of the combined features. -/
theorem final0_5 (c : Dev nD) : Cert.Conv.toRow1 ((dat0 (F := Ideal) V c).arrAt 5 cfg0.N)
    = Cert.Spec.colSum (fun i j => u0 V c i j * u0 V c i j) := by
  rw [Reg0.arr5]
  exact Reg0.toRow1_eq_of (fun j => Reg0.rowB_last V c j)

end Cert.KernelIdeal.HandV

end
-- ==== Proof.KI.Reg1Value.lean ====
/-
  What the second stage of a layer leaves in its result array, as one function of the five arrays it reads.

  At grid point t the body reads rows 2000·t … 2000·t + 1999 of the features (window 0) and the four rows
  (mean, inverse deviation, gamma, beta: windows 1..4, whole), and writes the same rows of the result (window 5):
  entry (r, j) of the tile becomes max((u − mean j) · inv j · gamma j + beta j, 0) with u the feature entry at
  row 2000·t + r. So every point writes back the restriction to its rows of ONE whole-array function, the
  mathematics' normalize read at an index. Row i of the array lies in the block of point i / 2000, the 50 blocks
  fill the 100000 rows, and the array after the region is that function everywhere.
-/
import proofs.«107997_j14224931684915_1_alg».proof.Proof.KI.Reg1Frame
import proofs.«107997_j14224931684915_1_alg».proof.Proof.Conv
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's result at one entry of the tile -/

/-- The clamp's constant is the real number zero. -/
theorem pay1_zero : (Scalar.ofBits (F := Ideal) .f32 0x00000000#32 : EReal) = 0 := by
  show Ideal.ofBits .f32 0x00000000#32 = 0
  simp [Ideal.ofBits, Ideal.ieee]

/-- A row spread over the tile's 2000 rows, read at (p, q), is the row at q. -/
theorem pay1_bcast (x : Vec Ideal S1x128 .f32) (p : Fin 2000) (q : Fin 128) :
    broadcastTo S2000x128 x broadcasts_S1x128_S2000x128 (ix2 p q) = x (ix2 0 q) :=
  broadcastTo_apply x broadcasts_S1x128_S2000x128 (ix2 p q) (ix2 0 q) (fun a => by
    match a with
    | ⟨0, _⟩ => rfl
    | ⟨1, _⟩ => rfl)

/-- Entry (p, q) of what the body stores: centre, scale by the inverse deviation and by gamma, shift by beta, clamp. -/
theorem pay1_apply (x0 : Vec Ideal S2000x128 .f32) (x1 : Vec Ideal S1x128 .f32) (x2 : Vec Ideal S1x128 .f32) (x3 : Vec Ideal S1x128 .f32) (x4 : Vec Ideal S1x128 .f32)
    (p : Fin 2000) (q : Fin 128) :
    k1_pay1 x0 x1 x2 x3 x4 (ix2 p q) = max ((x0 (ix2 p q) - x1 (ix2 0 q)) * x2 (ix2 0 q) * x3 (ix2 0 q) + x4 (ix2 0 q)) 0 := by
  unfold k1_pay1
  simp only [shapeCast_self]
  rw [maximumf_apply, addf_apply, mulf_apply, mulf_apply, subf_apply, broadcast_apply, pay1_bcast, pay1_bcast, pay1_bcast, pay1_bcast, pay1_zero]

/-! ## The whole-array function -/

/-- The result array as a function of the five arrays read: the mathematics' normalize, entry by entry. -/
abbrev pay1_G (a0 : S100000x128.Idx → EReal) (a1 : S1x128.Idx → EReal) (a2 : S1x128.Idx → EReal) (a3 : S1x128.Idx → EReal) (a4 : S1x128.Idx → EReal) :
    S100000x128.Idx → EReal :=
  fun i => Cert.Spec.normalize (n := 100000) (d := 128) (Cert.Conv.toMat a0) (Cert.Conv.toRow1 a1) (Cert.Conv.toRow1 a2) (Cert.Conv.toRow1 a3) (Cert.Conv.toRow1 a4) (i 0) (i 1)

/-- One entry of a tile against one entry of the array: when the tile's entry y is the array's entry i (h0), the rows
    are the row arrays (h1..h4) and the two entries sit in the same column (hcol), the body's result at y is the
    whole-array function at i. -/
theorem pay1_point (x0 : Vec Ideal S2000x128 .f32) (x1 : Vec Ideal S1x128 .f32) (x2 : Vec Ideal S1x128 .f32) (x3 : Vec Ideal S1x128 .f32) (x4 : Vec Ideal S1x128 .f32)
    (a0 : S100000x128.Idx → EReal) (a1 : S1x128.Idx → EReal) (a2 : S1x128.Idx → EReal) (a3 : S1x128.Idx → EReal) (a4 : S1x128.Idx → EReal)
    (y : S2000x128.Idx) (i : S100000x128.Idx)
    (h0 : x0 y = a0 i) (h1 : ∀ z, x1 z = a1 z) (h2 : ∀ z, x2 z = a2 z) (h3 : ∀ z, x3 z = a3 z) (h4 : ∀ z, x4 z = a4 z)
    (hcol : (i 1).val = (y 1).val) :
    k1_pay1 x0 x1 x2 x3 x4 y = pay1_G a0 a1 a2 a3 a4 i := by
  obtain ⟨p, q, rfl⟩ : ∃ (p : Fin 2000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hcol
  subst hs
  rw [pay1_apply, h0, h1, h2, h3, h4]
  rfl

/-! ## Where the blocks sit -/

theorem pay1_hz : (![0, 0] : Fin 2 → Nat) = fun _ => 0 := funext fun a => by fin_cases a <;> rfl

/-- The printed index maps, decided over the 50 points: the tile and the result move together down the rows, one
    block per point, and stay in column block 0; the four rows never move. -/
theorem blkfacts1_5 : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Each row window's block is the whole row array at every point: its block index is (0, 0) throughout. -/
theorem rowblk1_1 (c : Dev nD) (t : Fin cfg1.N) (z : S1x128.Idx) : iblk1 V c 1 t z = V c (Pipeline.arrRef spec1 1) z := by
  obtain ⟨e00, e01, e10, e11, e20, e21, e30, e31, e40, e41, e50, e51⟩ := blkfacts1_5 t
  show V c (Pipeline.arrRef spec1 1) (((cfg1.win 1).blk t).view.emb z) = V c (Pipeline.arrRef spec1 1) z
  refine congrArg _ (funext fun a => Fin.ext ?_)
  match a with
  | ⟨0, _⟩ => show win1_1.index t (0 : Fin 2) * 1 + 1 * (z 0).val = (z 0).val; omega
  | ⟨1, _⟩ => show win1_1.index t (1 : Fin 2) * 128 + 1 * (z 1).val = (z 1).val; omega
theorem rowblk1_2 (c : Dev nD) (t : Fin cfg1.N) (z : S1x128.Idx) : iblk1 V c 2 t z = V c (Pipeline.arrRef spec1 2) z := by
  obtain ⟨e00, e01, e10, e11, e20, e21, e30, e31, e40, e41, e50, e51⟩ := blkfacts1_5 t
  show V c (Pipeline.arrRef spec1 2) (((cfg1.win 2).blk t).view.emb z) = V c (Pipeline.arrRef spec1 2) z
  refine congrArg _ (funext fun a => Fin.ext ?_)
  match a with
  | ⟨0, _⟩ => show win1_2.index t (0 : Fin 2) * 1 + 1 * (z 0).val = (z 0).val; omega
  | ⟨1, _⟩ => show win1_2.index t (1 : Fin 2) * 128 + 1 * (z 1).val = (z 1).val; omega
theorem rowblk1_3 (c : Dev nD) (t : Fin cfg1.N) (z : S1x128.Idx) : iblk1 V c 3 t z = V c (Pipeline.arrRef spec1 3) z := by
  obtain ⟨e00, e01, e10, e11, e20, e21, e30, e31, e40, e41, e50, e51⟩ := blkfacts1_5 t
  show V c (Pipeline.arrRef spec1 3) (((cfg1.win 3).blk t).view.emb z) = V c (Pipeline.arrRef spec1 3) z
  refine congrArg _ (funext fun a => Fin.ext ?_)
  match a with
  | ⟨0, _⟩ => show win1_3.index t (0 : Fin 2) * 1 + 1 * (z 0).val = (z 0).val; omega
  | ⟨1, _⟩ => show win1_3.index t (1 : Fin 2) * 128 + 1 * (z 1).val = (z 1).val; omega
theorem rowblk1_4 (c : Dev nD) (t : Fin cfg1.N) (z : S1x128.Idx) : iblk1 V c 4 t z = V c (Pipeline.arrRef spec1 4) z := by
  obtain ⟨e00, e01, e10, e11, e20, e21, e30, e31, e40, e41, e50, e51⟩ := blkfacts1_5 t
  show V c (Pipeline.arrRef spec1 4) (((cfg1.win 4).blk t).view.emb z) = V c (Pipeline.arrRef spec1 4) z
  refine congrArg _ (funext fun a => Fin.ext ?_)
  match a with
  | ⟨0, _⟩ => show win1_4.index t (0 : Fin 2) * 1 + 1 * (z 0).val = (z 0).val; omega
  | ⟨1, _⟩ => show win1_4.index t (1 : Fin 2) * 128 + 1 * (z 1).val = (z 1).val; omega

/-- The tile's block at point t sits where the result's block does: entry j of the one is entry j of the other's rows. -/
theorem tileblk1_0 (c : Dev nD) (t : Fin cfg1.N) (j : S2000x128.Idx) :
    iblk1 V c 0 t j = V c (Pipeline.arrRef spec1 0) (((cfg1.win 5).blk t).view.emb j) := by
  obtain ⟨e00, e01, e10, e11, e20, e21, e30, e31, e40, e41, e50, e51⟩ := blkfacts1_5 t
  show V c (Pipeline.arrRef spec1 0) (((cfg1.win 0).blk t).view.emb j) = V c (Pipeline.arrRef spec1 0) (((cfg1.win 5).blk t).view.emb j)
  refine congrArg _ (funext fun a => Fin.ext ?_)
  match a with
  | ⟨0, _⟩ => show win1_0.index t (0 : Fin 2) * 2000 + 1 * (j 0).val = win1_5.index t (0 : Fin 2) * 2000 + 1 * (j 0).val; omega
  | ⟨1, _⟩ => show win1_0.index t (1 : Fin 2) * 128 + 1 * (j 1).val = win1_5.index t (1 : Fin 2) * 128 + 1 * (j 1).val; omega

/-- The result's block keeps the column: it spans all 128 of them. -/
theorem colblk1_5 (t : Fin cfg1.N) (j : S2000x128.Idx) : ((((cfg1.win 5).blk t).view.emb j) 1).val = (j 1).val := by
  obtain ⟨e00, e01, e10, e11, e20, e21, e30, e31, e40, e41, e50, e51⟩ := blkfacts1_5 t
  show win1_5.index t (1 : Fin 2) * 128 + 1 * (j 1).val = (j 1).val
  omega

/-- What point t writes back is block t of the whole-array function of the arrays as the region finds them. -/
theorem flushed1_5 (c : Dev nD) (t : Fin cfg1.N) :
    (dat1 V c).flushed 5 t = ((cfg1.win 5).blk t).view.read (Elt Ideal)
      (pay1_G (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero pay1_hz]
  simp only [View.ld_unit_zero (S := S2000x128) pay1_hz, View.ld_unit_zero (S := S1x128) pay1_hz]
  funext j
  exact pay1_point _ _ _ _ _ _ _ _ _ _ _ _ (tileblk1_0 V c t _) (rowblk1_1 V c t) (rowblk1_2 V c t) (rowblk1_3 V c t) (rowblk1_4 V c t) (colblk1_5 t _)

/-- An index of the result array is in point t's block iff each coordinate is in the block's range on its axis. -/
theorem memblk1_5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole (Pipeline.arrRef spec1 5)).slice (win1_5.rect t)).set ↔ _
  rw [View.set_slice_whole, Rect.mem_set_unit]
  exact Iff.rfl

/-- Every entry of the result array is written back: row r lies in the block of point r / 2000. -/
theorem covered1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 2000 < cfg1.N := by
    show (i 0).val / 2000 < grid1.N
    rw [N_1]; omega
  obtain ⟨-, -, -, -, -, -, -, -, -, -, e50, e51⟩ := blkfacts1_5 ⟨(i 0).val / 2000, hlt⟩
  have e50' : win1_5.index ⟨(i 0).val / 2000, hlt⟩ (0 : Fin 2) = (i 0).val / 2000 := e50
  refine ⟨⟨(i 0).val / 2000, hlt⟩, flush1_5 _, ?_⟩
  rw [memblk1_5]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e50']; omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    rw [e51]; omega

/-! ## The result array after the region -/

/-- The result array after the region is the whole-array function of the arrays the region found. -/
theorem arr1_5 (c : Dev nD) :
    (dat1 (F := Ideal) V c).arrAt 5 cfg1.N
      = pay1_G (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_5 V c t) covered1_5

/-- Read as matrices and rows: the result is the mathematics' normalize of the features by the four rows. -/
theorem final1_5 (c : Dev nD) :
    Cert.Conv.toMat (n := 100000) (d := 128) ((dat1 (F := Ideal) V c).arrAt 5 cfg1.N)
      = Cert.Spec.normalize (Cert.Conv.toMat (n := 100000) (d := 128) (V c (Pipeline.arrRef spec1 0)))
          (Cert.Conv.toRow1 (d := 128) (V c (Pipeline.arrRef spec1 1))) (Cert.Conv.toRow1 (d := 128) (V c (Pipeline.arrRef spec1 2)))
          (Cert.Conv.toRow1 (d := 128) (V c (Pipeline.arrRef spec1 3))) (Cert.Conv.toRow1 (d := 128) (V c (Pipeline.arrRef spec1 4))) := by
  rw [arr1_5]
  rfl

end Cert.KernelIdeal.HandV

end
-- ==== Proof.KI.Reg2Facts.lean ====
/-
  Region 2, in closed form: each control case's stores are whole-buffer stores, so what they leave is the last payload
  over whole-buffer loads; hence, point by point, the tile output holds the combined tile of the point's input blocks,
  each accumulator row holds the tile's column sums (of the values, of their squares) added to what the point before
  left (to the zero row at the first point), and at the last point the two statistics outputs hold the two rows.
-/
import proofs.«107997_j14224931684915_1_alg».proof.Proof.KI.Reg2Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents in closed form

Each case's pieces are single whole-buffer stores, so what they leave is the last payload; the loads the payloads are over
read whole buffers back. -/

theorem off00_2 : (![0, 0] : Fin 2 → ℕ) = fun _ => 0 := by
  funext a; fin_cases a <;> rfl

/-- A whole memref at contents `X`, loaded whole, reads `X`. -/
theorem readAt_unread_whole2 {S : Shape} {m : Memref sig .tc .vmem S .f32} (h : m.IsWhole) {off : Fin S.rank → ℕ}
    (ho : off = fun _ => 0) (inb : ∀ a, off a + S.size a ≤ S.size a) (X : Vec F S .f32) :
    View.readAt (Elt F) m.view (Rect.unit off S.size inb).toLoadRect (h.unread X) = X := by
  rw [View.readAt_eq_ld, h.read_unread, View.ld_unit_zero ho]

theorem out2_A_3_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) : out2_A_3 c i arg1 harg1 arg2 harg2 arg3 harg3 arg4 harg4 arg5 harg5 arg6 harg6 arg7 harg7 arg8 harg8 hc0 hc1 xa xb xr = k2_pay3 xa xb xr := by
  unfold out2_A_3 kernelRun2_A
  dsimp only
  rw [View.read_writes_junk_eq_canon, View.canon_cons_unit_zero off00_2, readAt_unread_whole2 harg1 off00_2, readAt_unread_whole2 harg2 off00_2, readAt_unread_whole2 harg3 off00_2]

theorem sout2_A_0_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) : sout2_A_0 c i arg1 harg1 arg2 harg2 arg3 harg3 arg4 harg4 arg5 harg5 arg6 harg6 arg7 harg7 arg8 harg8 hc0 hc1 xa xb xr = k2_pay4 xa xb xr k2_pay1 := by
  unfold sout2_A_0 kernelRun2_A
  dsimp only
  unfold kernelRun2_A.sl.v13 kernelRun2_A.sl.HS0_1
  rw [View.read_writes_junk_eq_canon, View.canon_cons_unit_zero off00_2, View.readCov_unit_zero _ off00_2, readAt_unread_whole2 harg1 off00_2, readAt_unread_whole2 harg2 off00_2, readAt_unread_whole2 harg3 off00_2]

theorem sout2_A_1_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (xa : Vec F S2000x128 .f32) (xb : Vec F S2000x128 .f32) (xr : Vec F S1x128 .f32) : sout2_A_1 c i arg1 harg1 arg2 harg2 arg3 harg3 arg4 harg4 arg5 harg5 arg6 harg6 arg7 harg7 arg8 harg8 hc0 hc1 xa xb xr = k2_pay5 xa xb xr k2_pay2 := by
  unfold sout2_A_1 kernelRun2_A
  dsimp only
  unfold kernelRun2_A.sl.v20 kernelRun2_A.sl.HS1_1
  rw [View.read_writes_junk_eq_canon, View.canon_cons_unit_zero off00_2, View.readCov_unit_zero _ off00_2, readAt_unread_whole2 harg1 off00_2, readAt_unread_whole2 harg2 off00_2, readAt_unread_whole2 harg3 off00_2]

theorem out2_B_3_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) : out2_B_3 c i arg1 harg1 arg2 harg2 arg3 harg3 arg4 harg4 arg5 harg5 arg6 harg6 arg7 harg7 arg8 harg8 hc0 hc1 xa xb xr xs0 xs1 = k2_pay3 xa xb xr := by
  unfold out2_B_3 kernelRun2_B
  dsimp only
  rw [View.read_writes_junk_eq_canon, View.canon_cons_unit_zero off00_2, readAt_unread_whole2 harg1 off00_2, readAt_unread_whole2 harg2 off00_2, readAt_unread_whole2 harg3 off00_2]

theorem sout2_B_0_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) : sout2_B_0 c i arg1 harg1 arg2 harg2 arg3 harg3 arg4 harg4 arg5 harg5 arg6 harg6 arg7 harg7 arg8 harg8 hc0 hc1 xa xb xr xs0 xs1 = k2_pay4 xa xb xr xs0 := by
  unfold sout2_B_0 kernelRun2_B
  dsimp only
  rw [View.read_writes_junk_eq_canon, View.canon_cons_unit_zero off00_2, readAt_unread_whole2 harg1 off00_2, readAt_unread_whole2 harg2 off00_2, readAt_unread_whole2 harg3 off00_2, readAt_unread_whole2 harg7 off00_2]

theorem sout2_B_1_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (xa : Vec F S2000x128 .f32) (xb : Vec F S2000x128 .f32) (xr : Vec F S1x128 .f32) (xs0 : Vec F S1x128 .f32) (xs1 : Vec F S1x128 .f32) : sout2_B_1 c i arg1 harg1 arg2 harg2 arg3 harg3 arg4 harg4 arg5 harg5 arg6 harg6 arg7 harg7 arg8 harg8 hc0 hc1 xa xb xr xs0 xs1 = k2_pay5 xa xb xr xs1 := by
  unfold sout2_B_1 kernelRun2_B
  dsimp only
  rw [View.read_writes_junk_eq_canon, View.canon_cons_unit_zero off00_2, readAt_unread_whole2 harg1 off00_2, readAt_unread_whole2 harg2 off00_2, readAt_unread_whole2 harg3 off00_2, readAt_unread_whole2 harg8 off00_2]

theorem out2_C_3_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : out2_C_3 c i arg1 harg1 arg2 harg2 arg3 harg3 arg4 harg4 arg5 harg5 arg6 harg6 arg7 harg7 arg8 harg8 hc0 hc1 xa xb xr xs0 xs1 = k2_pay3 xa xb xr := by
  unfold out2_C_3 kernelRun2_C
  dsimp only
  rw [View.read_writes_junk_eq_canon, View.canon_cons_unit_zero off00_2, readAt_unread_whole2 harg1 off00_2, readAt_unread_whole2 harg2 off00_2, readAt_unread_whole2 harg3 off00_2]

theorem sout2_C_0_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : sout2_C_0 c i arg1 harg1 arg2 harg2 arg3 harg3 arg4 harg4 arg5 harg5 arg6 harg6 arg7 harg7 arg8 harg8 hc0 hc1 xa xb xr xs0 xs1 = k2_pay4 xa xb xr xs0 := by
  unfold sout2_C_0 kernelRun2_C
  dsimp only
  unfold kernelRun2_C.sl.HS0_1
  rw [View.read_writes_junk_eq_canon, View.canon_cons_unit_zero off00_2, readAt_unread_whole2 harg1 off00_2, readAt_unread_whole2 harg2 off00_2, readAt_unread_whole2 harg3 off00_2, readAt_unread_whole2 harg7 off00_2]

theorem sout2_C_1_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : sout2_C_1 c i arg1 harg1 arg2 harg2 arg3 harg3 arg4 harg4 arg5 harg5 arg6 harg6 arg7 harg7 arg8 harg8 hc0 hc1 xa xb xr xs0 xs1 = k2_pay5 xa xb xr xs1 := by
  unfold sout2_C_1 kernelRun2_C
  dsimp only
  unfold kernelRun2_C.sl.HS1_1
  rw [View.read_writes_junk_eq_canon, View.canon_cons_unit_zero off00_2, readAt_unread_whole2 harg1 off00_2, readAt_unread_whole2 harg2 off00_2, readAt_unread_whole2 harg3 off00_2, readAt_unread_whole2 harg8 off00_2]

theorem out2_C_4_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : out2_C_4 c i arg1 harg1 arg2 harg2 arg3 harg3 arg4 harg4 arg5 harg5 arg6 harg6 arg7 harg7 arg8 harg8 hc0 hc1 xa xb xr xs0 xs1 = k2_pay4 xa xb xr xs0 := by
  unfold out2_C_4 kernelRun2_C
  dsimp only
  unfold kernelRun2_C.sl.v31 kernelRun2_C.sl.HS0_1
  rw [View.read_writes_junk_eq_canon, View.canon_cons_unit_zero off00_2, View.readCov_unit_zero _ off00_2, readAt_unread_whole2 harg1 off00_2, readAt_unread_whole2 harg2 off00_2, readAt_unread_whole2 harg3 off00_2, readAt_unread_whole2 harg7 off00_2]

theorem out2_C_5_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (xa : Vec F S2000x128 .f32) (xb : Vec F S2000x128 .f32) (xr : Vec F S1x128 .f32) (xs0 : Vec F S1x128 .f32) (xs1 : Vec F S1x128 .f32) : out2_C_5 c i arg1 harg1 arg2 harg2 arg3 harg3 arg4 harg4 arg5 harg5 arg6 harg6 arg7 harg7 arg8 harg8 hc0 hc1 xa xb xr xs0 xs1 = k2_pay5 xa xb xr xs1 := by
  unfold out2_C_5 kernelRun2_C
  dsimp only
  unfold kernelRun2_C.sl.v33 kernelRun2_C.sl.HS1_1
  rw [View.read_writes_junk_eq_canon, View.canon_cons_unit_zero off00_2, View.readCov_unit_zero _ off00_2, readAt_unread_whole2 harg1 off00_2, readAt_unread_whole2 harg2 off00_2, readAt_unread_whole2 harg3 off00_2, readAt_unread_whole2 harg8 off00_2]

variable (V : (c : Dev nD) → (b : Ref sig .tc) → Buf (Elt F) ((c : Thread nD τ).loc b))

/-! ## Point by point: the tile output, the two accumulator rows, the statistics outputs at the last point -/

/-- After every point the tile output's buffer holds the combined tile of the point's three input blocks. -/
theorem outsAt2_w3 (c : Dev nD) (t : Fin cfg2.N) :
    (outsAt2 V c t.val t.isLt).1 = k2_pay3 (iblk2 V c 0 t) (iblk2 V c 1 t) (iblk2 V c 2 t) := by
  by_cases h0 : t.val % 50 = 0
  · have h1 : ¬t.val % 50 = 49 := by omega
    rw [outsAt2_A V c t h0 h1]
    dsimp only
    exact out2_A_3_eq (F := F) c _ _ _ _ _ _ _ _ _ _ _ _ _ _ _ _ _ _ _ _ _ _
  · by_cases h1 : t.val % 50 = 49
    · rw [outsAt2_C V c t h0 h1]
      dsimp only
      exact out2_C_3_eq (F := F) c _ _ _ _ _ _ _ _ _ _ _ _ _ _ _ _ _ _ _ _ _ _ _ _
    · rw [outsAt2_B V c t h0 h1]
      dsimp only
      exact out2_B_3_eq (F := F) c _ _ _ _ _ _ _ _ _ _ _ _ _ _ _ _ _ _ _ _ _ _ _ _

/-- After the first point the first accumulator row holds the first tile's column sums added to the zero row. -/
theorem outsAt2_row0_zero (c : Dev nD) (h : 0 < cfg2.N) :
    (outsAt2 V c 0 h).2.2.2.1 = k2_pay4 (iblk2 V c 0 ⟨0, h⟩) (iblk2 V c 1 ⟨0, h⟩) (iblk2 V c 2 ⟨0, h⟩) k2_pay1 := by
  rw [show outsAt2 V c 0 h = _ from outsAt2_A V c ⟨0, h⟩ (Nat.zero_mod _) (by show ¬(0 % 50 = 49); decide)]
  dsimp only
  exact sout2_A_0_eq (F := F) c _ _ _ _ _ _ _ _ _ _ _ _ _ _ _ _ _ _ _ _ _ _

/-- After a later point it holds that tile's column sums added to what the point before left. -/
theorem outsAt2_row0_succ (c : Dev nD) (n : ℕ) (h : n + 1 < cfg2.N) :
    (outsAt2 V c (n + 1) h).2.2.2.1 = k2_pay4 (iblk2 V c 0 ⟨n + 1, h⟩) (iblk2 V c 1 ⟨n + 1, h⟩) (iblk2 V c 2 ⟨n + 1, h⟩) (outsAt2 V c n (Nat.lt_of_succ_lt h)).2.2.2.1 := by
  have hN : n + 1 < 50 := lt_of_lt_of_eq h (show cfg2.N = 50 from N_2)
  have h0 : ¬(n + 1) % 50 = 0 := by omega
  by_cases h1 : (n + 1) % 50 = 49
  · rw [show outsAt2 V c (n + 1) h = _ from outsAt2_C V c ⟨n + 1, h⟩ h0 h1]
    dsimp only
    exact sout2_C_0_eq (F := F) c _ _ _ _ _ _ _ _ _ _ _ _ _ _ _ _ _ _ _ _ _ _ _ _
  · rw [show outsAt2 V c (n + 1) h = _ from outsAt2_B V c ⟨n + 1, h⟩ h0 h1]
    dsimp only
    exact sout2_B_0_eq (F := F) c _ _ _ _ _ _ _ _ _ _ _ _ _ _ _ _ _ _ _ _ _ _ _ _

/-- The second accumulator row, likewise, with the column sums of the squares. -/
theorem outsAt2_row1_zero (c : Dev nD) (h : 0 < cfg2.N) :
    (outsAt2 V c 0 h).2.2.2.2 = k2_pay5 (iblk2 V c 0 ⟨0, h⟩) (iblk2 V c 1 ⟨0, h⟩) (iblk2 V c 2 ⟨0, h⟩) k2_pay2 := by
  rw [show outsAt2 V c 0 h = _ from outsAt2_A V c ⟨0, h⟩ (Nat.zero_mod _) (by show ¬(0 % 50 = 49); decide)]
  dsimp only
  exact sout2_A_1_eq (F := F) c _ _ _ _ _ _ _ _ _ _ _ _ _ _ _ _ _ _ _ _ _ _

theorem outsAt2_row1_succ (c : Dev nD) (n : ℕ) (h : n + 1 < cfg2.N) :
    (outsAt2 V c (n + 1) h).2.2.2.2 = k2_pay5 (iblk2 V c 0 ⟨n + 1, h⟩) (iblk2 V c 1 ⟨n + 1, h⟩) (iblk2 V c 2 ⟨n + 1, h⟩) (outsAt2 V c n (Nat.lt_of_succ_lt h)).2.2.2.2 := by
  have hN : n + 1 < 50 := lt_of_lt_of_eq h (show cfg2.N = 50 from N_2)
  have h0 : ¬(n + 1) % 50 = 0 := by omega
  by_cases h1 : (n + 1) % 50 = 49
  · rw [show outsAt2 V c (n + 1) h = _ from outsAt2_C V c ⟨n + 1, h⟩ h0 h1]
    dsimp only
    exact sout2_C_1_eq (F := F) c _ _ _ _ _ _ _ _ _ _ _ _ _ _ _ _ _ _ _ _ _ _ _ _
  · rw [show outsAt2 V c (n + 1) h = _ from outsAt2_B V c ⟨n + 1, h⟩ h0 h1]
    dsimp only
    exact sout2_B_1_eq (F := F) c _ _ _ _ _ _ _ _ _ _ _ _ _ _ _ _ _ _ _ _ _ _ _ _

/-- At the last point the two statistics outputs' buffers hold the two accumulator rows. -/
theorem outsAt2_w4_last (c : Dev nD) (t : Fin cfg2.N) (h : t.val % 50 = 49) :
    (outsAt2 V c t.val t.isLt).2.1 = (outsAt2 V c t.val t.isLt).2.2.2.1 := by
  have h0 : ¬t.val % 50 = 0 := by omega
  rw [outsAt2_C V c t h0 h]
  dsimp only
  exact (out2_C_4_eq (F := F) c _ _ _ _ _ _ _ _ _ _ _ _ _ _ _ _ _ _ _ _ _ _ _ _).trans (sout2_C_0_eq (F := F) c _ _ _ _ _ _ _ _ _ _ _ _ _ _ _ _ _ _ _ _ _ _ _ _).symm

theorem outsAt2_w5_last (c : Dev nD) (t : Fin cfg2.N) (h : t.val % 50 = 49) :
    (outsAt2 V c t.val t.isLt).2.2.1 = (outsAt2 V c t.val t.isLt).2.2.2.2 := by
  have h0 : ¬t.val % 50 = 0 := by omega
  rw [outsAt2_C V c t h0 h]
  dsimp only
  exact (out2_C_5_eq (F := F) c _ _ _ _ _ _ _ _ _ _ _ _ _ _ _ _ _ _ _ _ _ _ _ _).trans (sout2_C_1_eq (F := F) c _ _ _ _ _ _ _ _ _ _ _ _ _ _ _ _ _ _ _ _ _ _ _ _).symm

end Cert.KernelIdeal.Hand

end
-- ==== Proof.KI.Reg2Pay.lean ====
/-
  The arithmetic of the first kernel (combine + column statistics), read at an index over the extended reals,
  and the arithmetic of tiling a column sum over row blocks.
-/
import proofs.«107997_j14224931684915_1_alg».proof.Proof.Gen.KernelIdeal.Skeleton
import Idealize.ShloMosaic.Lib.ValueLayout
import Idealize.ShloMosaic.Lib.Pipeline.Value
import Idealize.ShloMosaic.PureOps.Ideal.Laws

noncomputable section

namespace Cert.KernelIdeal.HandV.Reg2

open Idealize.ShloMosaic Idealize.ShloMosaic.ValueIdx Cert.KernelIdeal Cert.KernelIdeal.Gen

/-! ### The payloads at an index -/

/-- The zero row the first point stores in the sum scratch. -/
theorem pay1_apply (i : S1x128.Idx) : k2_pay1 (F := Ideal) i = 0 := by
  unfold k2_pay1
  rw [shapeCast_self]
  exact Ideal.ofBits_zero_f32

/-- The zero row the first point stores in the sum-of-squares scratch. -/
theorem pay2_apply (i : S1x128.Idx) : k2_pay2 (F := Ideal) i = 0 := by
  unfold k2_pay2
  rw [shapeCast_self]
  exact Ideal.ofBits_zero_f32

/-- The combined block at (r, j): self + aggregate + the readout row at j. -/
theorem pay3_apply (x3 x4 : Vec Ideal S2000x128 .f32) (x6 : Vec Ideal S1x128 .f32) (r : Fin 2000) (j : Fin 128) :
    k2_pay3 x3 x4 x6 (ix2 r j) = x3 (ix2 r j) + x4 (ix2 r j) + x6 (ix2 0 j) := by
  unfold k2_pay3
  rw [shapeCast_self, shapeCast_self, shapeCast_self]
  show x3 (ix2 r j) + x4 (ix2 r j) + broadcastTo S2000x128 x6 broadcasts_S1x128_S2000x128 (ix2 r j) = _
  rw [broadcastTo_1b_ab_apply]

/-- A sum over the rows of a block, column by column: the reduction over axis 0 read at column j. -/
theorem colred_apply (src : FVec Ideal S2000x128 .f32) (j : Fin 128) :
    multiReduction .add [0] S128 src 0x00000000#32 reduces_S2000x128_S128 (.inl rfl) rfl (ix1 j)
      = ∑ r : Fin 2000, src (ix2 r j) := by
  refine (Ideal.multiReduction_add_single src 0x00000000#32 reduces_S2000x128_S128 (.inl rfl) rfl (ix1 j)).trans ?_
  refine Finset.sum_congr rfl fun r _ => congrArg src ?_
  funext a
  match a with
  | ⟨0, _⟩ => rfl
  | ⟨1, _⟩ => rfl

/-- The sum scratch after a point: what it held plus the column sums of the point's combined block. -/
theorem pay4_apply (x3 x4 : Vec Ideal S2000x128 .f32) (x6 s : Vec Ideal S1x128 .f32) (j : Fin 128) :
    k2_pay4 x3 x4 x6 s (ix2 0 j) = s (ix2 0 j) + ∑ r : Fin 2000, k2_pay3 x3 x4 x6 (ix2 r j) := by
  unfold k2_pay4
  rw [shapeCast_self]
  show s (ix2 0 j) + shapeCast S1x128 _ shapeCasts_S128_S1x128 (ix2 0 j) = _
  rw [shapeCast_a_1a_apply]
  exact congrArg (s (ix2 0 j) + ·) (colred_apply _ j)

/-- The sum-of-squares scratch after a point: what it held plus the column sums of the squares. -/
theorem pay5_apply (x3 x4 : Vec Ideal S2000x128 .f32) (x6 s : Vec Ideal S1x128 .f32) (j : Fin 128) :
    k2_pay5 x3 x4 x6 s (ix2 0 j)
      = s (ix2 0 j) + ∑ r : Fin 2000, k2_pay3 x3 x4 x6 (ix2 r j) * k2_pay3 x3 x4 x6 (ix2 r j) := by
  unfold k2_pay5
  rw [shapeCast_self]
  show s (ix2 0 j) + shapeCast S1x128 _ shapeCasts_S128_S1x128 (ix2 0 j) = _
  rw [shapeCast_a_1a_apply]
  exact congrArg (s (ix2 0 j) + ·) (colred_apply _ j)

/-! ### Tiling a sum over rows into blocks of rows -/

/-- A sum over a·b terms, block by block. -/
theorem sum_blocks {M : Type*} [AddCommMonoid M] (a b : ℕ) (f : Fin (a * b) → M) :
    ∑ i, f i = ∑ t : Fin a, ∑ r : Fin b, f (finProdFinEquiv (t, r)) :=
  (Equiv.sum_comp finProdFinEquiv f).symm.trans (Fintype.sum_prod_type fun p => f (finProdFinEquiv p))

/-- The 100000 rows as 50 blocks of 2000: row 2000·t + r is row r of block t. -/
theorem sum_rows {M : Type*} [AddCommMonoid M] (f : Fin 100000 → M) :
    ∑ i, f i = ∑ t : Fin 50, ∑ r : Fin 2000, f ⟨2000 * t.val + r.val, by omega⟩ := by
  refine (sum_blocks 50 2000 f).trans ?_
  refine Finset.sum_congr rfl fun t _ => Finset.sum_congr rfl fun r _ => congrArg f (Fin.ext ?_)
  show r.val + 2000 * t.val = 2000 * t.val + r.val
  omega

/-- A sum over the points of the grid as a sum over a range of naturals. -/
theorem sum_points {M : Type*} [AddCommMonoid M] (n : ℕ) (g : ℕ → M) :
    ∑ t : Fin n, g t.val = ∑ s ∈ Finset.range n, g s := Fin.sum_univ_eq_sum_range g n

/-- A running sum: starting from the first block and adding one block per point, what is held after point n is the
    sum of the blocks 0..n. -/
theorem acc_closed {M : Type*} [AddCommMonoid M] {N : ℕ} (blk sc : (n : ℕ) → n < N → M)
    (h0 : ∀ h, sc 0 h = 0 + blk 0 h)
    (hs : ∀ n h, sc (n + 1) h = sc n (Nat.lt_of_succ_lt h) + blk (n + 1) h) :
    ∀ (n : ℕ) (h : n < N), sc n h = ∑ s : Fin (n + 1), blk s.val (lt_of_le_of_lt (Nat.lt_succ_iff.mp s.isLt) h)
  | 0, h => by
    rw [h0, zero_add, Fin.sum_univ_one]
    rfl
  | n + 1, h => by
    rw [hs, acc_closed blk sc h0 hs n]
    exact (Fin.sum_univ_castSucc
      (fun s : Fin (n + 1 + 1) => blk s.val (lt_of_le_of_lt (Nat.lt_succ_iff.mp s.isLt) h))).symm

end Cert.KernelIdeal.HandV.Reg2

end
-- ==== Proof.KI.Reg2Value.lean ====
/-
  The value of the first kernel of a layer over the extended reals: after its 50 grid points, the tile output holds
  the combined features u = self + aggregate + readout row, entry by entry, and the two row outputs hold the column
  sums of u and of u².

  The tile output is written back at every point: point t leaves rows 2000·t … 2000·t + 1999 of u, and the 50
  blocks tile the array. The two sums live in scratch rows carried from point to point: zeroed at point 0, then at
  every point the column sums of the point's block (of its squares) are added, so after point n a row holds the sums
  over the blocks 0..n; the last point copies the rows to their outputs, whose one block is the whole row. A sum
  over the 100000 rows is the sum over the 50 blocks of the sums over each block's 2000 rows.
-/
import proofs.«107997_j14224931684915_1_alg».proof.Proof.KI.Reg2Frame
import proofs.«107997_j14224931684915_1_alg».proof.Proof.KI.Reg2Facts
import proofs.«107997_j14224931684915_1_alg».proof.Proof.KI.Reg2Pay
import proofs.«107997_j14224931684915_1_alg».proof.Proof.Conv
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The mathematics' combined features, from the three entry arrays. -/
abbrev u2 (c : Dev nD) : Cert.Spec.Mat 100000 128 :=
  Cert.Spec.combine (Cert.Conv.toMat (V c (Pipeline.arrRef spec2 0))) (Cert.Conv.toMat (V c (Pipeline.arrRef spec2 1)))
    (Cert.Conv.toRow1 (V c (Pipeline.arrRef spec2 2)))

namespace Reg2

/-! ### Where the blocks sit in their arrays -/

theorem tlt (t : Fin cfg2.N) : t.val < 50 := lt_of_lt_of_eq t.isLt (show cfg2.N = 50 from N_2)

theorem h49 : 49 < cfg2.N := by rw [show cfg2.N = 50 from N_2]; decide

/-- The block indices of the six windows at every point: the row-tile windows (0, 1, 3) move with the point, the row
    windows (2, 4, 5) stay at block 0 (decided over the 50 points). -/
theorem idx0 : ∀ t : Fin cfg2.N, win2_0.index t 0 = t.val ∧ win2_0.index t 1 = 0
    ∧ win2_1.index t 0 = t.val ∧ win2_1.index t 1 = 0
    ∧ win2_2.index t 0 = 0 ∧ win2_2.index t 1 = 0
    ∧ win2_3.index t 0 = t.val ∧ win2_3.index t 1 = 0
    ∧ win2_4.index t 0 = 0 ∧ win2_4.index t 1 = 0
    ∧ win2_5.index t 0 = 0 ∧ win2_5.index t 1 = 0 :=
  (by decide +kernel : ∀ t : Fin grid2.N, _)

/-- Row r of the self-features' block at point t is row 2000·t + r of the array. -/
theorem iblk2_0_apply (c : Dev nD) (t : Fin cfg2.N) (r : Fin 2000) (j : Fin 128) :
    iblk2 V c 0 t (ix2 r j) = V c (Pipeline.arrRef spec2 0) (ix2 ⟨2000 * t.val + r.val, by have := tlt t; omega⟩ j) := by
  obtain ⟨e0, e1, -⟩ := idx0 t
  unfold iblk2
  rw [View.read_apply]
  refine congrArg (V c (Pipeline.arrRef spec2 0)) ?_
  funext a
  apply Fin.ext
  match a with
  | ⟨0, _⟩ => show win2_0.index t 0 * 2000 + 1 * r.val = 2000 * t.val + r.val; rw [e0]; omega
  | ⟨1, _⟩ => show win2_0.index t 1 * 128 + 1 * j.val = j.val; rw [e1]; omega

/-- Row r of the aggregate's block at point t is row 2000·t + r of the array. -/
theorem iblk2_1_apply (c : Dev nD) (t : Fin cfg2.N) (r : Fin 2000) (j : Fin 128) :
    iblk2 V c 1 t (ix2 r j) = V c (Pipeline.arrRef spec2 1) (ix2 ⟨2000 * t.val + r.val, by have := tlt t; omega⟩ j) := by
  obtain ⟨-, -, e0, e1, -⟩ := idx0 t
  unfold iblk2
  rw [View.read_apply]
  refine congrArg (V c (Pipeline.arrRef spec2 1)) ?_
  funext a
  apply Fin.ext
  match a with
  | ⟨0, _⟩ => show win2_1.index t 0 * 2000 + 1 * r.val = 2000 * t.val + r.val; rw [e0]; omega
  | ⟨1, _⟩ => show win2_1.index t 1 * 128 + 1 * j.val = j.val; rw [e1]; omega

/-- The readout row's block is the whole row, at every point. -/
theorem iblk2_2_apply (c : Dev nD) (t : Fin cfg2.N) (j : Fin 128) :
    iblk2 V c 2 t (ix2 0 j) = V c (Pipeline.arrRef spec2 2) (ix2 0 j) := by
  obtain ⟨-, -, -, -, e0, e1, -⟩ := idx0 t
  unfold iblk2
  rw [View.read_apply]
  refine congrArg (V c (Pipeline.arrRef spec2 2)) ?_
  funext a
  apply Fin.ext
  match a with
  | ⟨0, _⟩ => show win2_2.index t 0 * 1 + 1 * 0 = 0; rw [e0]
  | ⟨1, _⟩ => show win2_2.index t 1 * 128 + 1 * j.val = j.val; rw [e1]; omega

/-- The combined block of point t at (r, j) is the combined features at row 2000·t + r. -/
theorem pay3_blk (c : Dev nD) (t : Fin cfg2.N) (r : Fin 2000) (j : Fin 128) :
    k2_pay3 (iblk2 V c 0 t) (iblk2 V c 1 t) (iblk2 V c 2 t) (ix2 r j)
      = u2 V c ⟨2000 * t.val + r.val, by have := tlt t; omega⟩ j := by
  refine (pay3_apply (iblk2 V c 0 t) (iblk2 V c 1 t) (iblk2 V c 2 t) r j).trans ?_
  exact congrArg₂ (· + ·) (congrArg₂ (· + ·) (iblk2_0_apply V c t r j) (iblk2_1_apply V c t r j)) (iblk2_2_apply V c t j)

/-! ### Output 3: the combined features, tile by tile -/

/-- What output 3's array ends holding: the combined features, entry by entry. -/
def G3 (c : Dev nD) : (⟨2, ![100000, 128]⟩ : Shape).Idx → EReal := fun i => u2 V c (i 0) (i 1)

/-- What point t writes back to output 3 is block t of the combined features. -/
theorem flushed3_eq (c : Dev nD) (t : Fin cfg2.N) :
    (dat2 V c).flushed 3 t = ((cfg2.win 3).blk t).view.read (Elt Ideal) (G3 V c) := by
  obtain ⟨-, -, -, -, -, -, e0, e1, -⟩ := idx0 t
  show (cfg2.win 3).cut (grid2.coords t) ((dat2 V c).after 3 t) = _
  rw [after2_3, outsAt2_w3]
  funext y
  obtain ⟨r, j, rfl⟩ : ∃ (r : Fin 2000) (j : Fin 128), y = ix2 r j := ⟨y 0, y 1, eq_ix2 (n0 := 2000) (n1 := 128) y⟩
  rw [View.read_apply]
  refine (pay3_blk V c t r j).trans ?_
  show u2 V c _ j = u2 V c ((((cfg2.win 3).blk t).view.emb (ix2 r j)) 0) ((((cfg2.win 3).blk t).view.emb (ix2 r j)) 1)
  refine congrArg₂ (u2 V c) (Fin.ext ?_) (Fin.ext ?_)
  · show 2000 * t.val + r.val = win2_3.index t 0 * 2000 + 1 * r.val
    rw [e0]; omega
  · show j.val = win2_3.index t 1 * 128 + 1 * j.val
    rw [e1]; omega

/-- Every row of output 3 is in the block of the point its tile belongs to. -/
theorem cover3 (c : Dev nD) (i : ((cfg2.win 3).arr.view.loc ((c : Dev nD).tc : Thread nD τ)).2.ty.Idx) :
    ∃ t : Fin cfg2.N, (cfg2.win 3).flush t = true ∧ i ∈ ((cfg2.win 3).blk t).view.set := by
  have hi0 : (i 0 : Nat) < 100000 := (i 0).isLt
  have hi1 : (i 1 : Nat) < 128 := (i 1).isLt
  have hN : cfg2.N = 50 := N_2
  have hlt : (i 0 : Nat) / 2000 < cfg2.N := by rw [hN]; omega
  refine ⟨⟨(i 0 : Nat) / 2000, hlt⟩, flush2_3 _, ?_⟩
  obtain ⟨-, -, -, -, -, -, e0, e1, -⟩ := idx0 ⟨(i 0 : Nat) / 2000, hlt⟩
  show i ∈ ((View.whole main_v41_0).slice (win2_3.rect ⟨(i 0 : Nat) / 2000, hlt⟩)).set
  rw [View.set_slice_whole, Rect.mem_set_unit]
  intro a
  match a with
  | ⟨0, _⟩ =>
    show win2_3.index ⟨(i 0 : Nat) / 2000, hlt⟩ 0 * 2000 ≤ (i 0 : Nat) ∧ (i 0 : Nat) < win2_3.index ⟨(i 0 : Nat) / 2000, hlt⟩ 0 * 2000 + 2000
    rw [e0]; show (i 0 : Nat) / 2000 * 2000 ≤ (i 0 : Nat) ∧ (i 0 : Nat) < (i 0 : Nat) / 2000 * 2000 + 2000; omega
  | ⟨1, _⟩ =>
    show win2_3.index ⟨(i 0 : Nat) / 2000, hlt⟩ 1 * 128 ≤ (i 1 : Nat) ∧ (i 1 : Nat) < win2_3.index ⟨(i 0 : Nat) / 2000, hlt⟩ 1 * 128 + 128
    rw [e1]; omega

theorem arr3 (c : Dev nD) : (dat2 V c).arrAt 3 cfg2.N = G3 V c :=
  (dat2 V c).arrAt_eq_of_cover 3 (G3 V c) (fun t _ => flushed3_eq V c t) (cover3 c)

/-! ### Outputs 4 and 5: the column sums, accumulated over the points -/

/-- The sum row and the sum-of-squares row after point n. -/
def rowA (c : Dev nD) (n : ℕ) (h : n < cfg2.N) : Vec Ideal S1x128 .f32 := (outsAt2 V c n h).2.2.2.1
def rowB (c : Dev nD) (n : ℕ) (h : n < cfg2.N) : Vec Ideal S1x128 .f32 := (outsAt2 V c n h).2.2.2.2

theorem rowA_zero (c : Dev nD) (h : 0 < cfg2.N) :
    rowA V c 0 h = k2_pay4 (iblk2 V c 0 ⟨0, h⟩) (iblk2 V c 1 ⟨0, h⟩) (iblk2 V c 2 ⟨0, h⟩) (k2_pay1 (F := Ideal)) :=
  outsAt2_row0_zero V c h
theorem rowA_succ (c : Dev nD) (n : ℕ) (h : n + 1 < cfg2.N) :
    rowA V c (n + 1) h = k2_pay4 (iblk2 V c 0 ⟨n + 1, h⟩) (iblk2 V c 1 ⟨n + 1, h⟩) (iblk2 V c 2 ⟨n + 1, h⟩)
      (rowA V c n (Nat.lt_of_succ_lt h)) :=
  outsAt2_row0_succ V c n h
theorem rowB_zero (c : Dev nD) (h : 0 < cfg2.N) :
    rowB V c 0 h = k2_pay5 (iblk2 V c 0 ⟨0, h⟩) (iblk2 V c 1 ⟨0, h⟩) (iblk2 V c 2 ⟨0, h⟩) (k2_pay2 (F := Ideal)) :=
  outsAt2_row1_zero V c h
theorem rowB_succ (c : Dev nD) (n : ℕ) (h : n + 1 < cfg2.N) :
    rowB V c (n + 1) h = k2_pay5 (iblk2 V c 0 ⟨n + 1, h⟩) (iblk2 V c 1 ⟨n + 1, h⟩) (iblk2 V c 2 ⟨n + 1, h⟩)
      (rowB V c n (Nat.lt_of_succ_lt h)) :=
  outsAt2_row1_succ V c n h
/-- At the last point the two row outputs' buffers hold the two rows. -/
theorem w4_last (c : Dev nD) (t : Fin cfg2.N) (h : t.val % 50 = 49) :
    (outsAt2 V c t.val t.isLt).2.1 = rowA V c t.val t.isLt := outsAt2_w4_last V c t h
theorem w5_last (c : Dev nD) (t : Fin cfg2.N) (h : t.val % 50 = 49) :
    (outsAt2 V c t.val t.isLt).2.2.1 = rowB V c t.val t.isLt := outsAt2_w5_last V c t h

attribute [irreducible] rowA rowB

/-- The last point. -/
def tLast : Fin cfg2.N := ⟨49, h49⟩
theorem tLast_val : tLast.val = 49 := rfl
attribute [irreducible] tLast

/-- A running sum over the points, as a sum over a range: zero plus the first block, then one block per point. -/
theorem acc_range {M : Type*} [AddCommMonoid M] {N : ℕ} (blk : ℕ → M) (sc : (n : ℕ) → n < N → M)
    (h0 : ∀ h, sc 0 h = 0 + blk 0)
    (hs : ∀ n h, sc (n + 1) h = sc n (Nat.lt_of_succ_lt h) + blk (n + 1)) :
    ∀ (n : ℕ) (h : n < N), sc n h = ∑ s ∈ Finset.range (n + 1), blk s
  | 0, h => by rw [h0, zero_add, Finset.sum_range_one]
  | n + 1, h => by rw [hs, acc_range blk sc h0 hs n, Finset.sum_range_succ _ (n + 1)]

/-- The column sums of the combined block of point s at column j (zero past the grid). -/
def blkSum (c : Dev nD) (j : Fin 128) (s : ℕ) : EReal :=
  if h : s < cfg2.N then
    ∑ r : Fin 2000, u2 V c ⟨2000 * s + r.val, by have := lt_of_lt_of_eq h (show cfg2.N = 50 from N_2); omega⟩ j
  else 0

/-- The column sums of the squares of the combined block of point s at column j (zero past the grid). -/
def blkSq (c : Dev nD) (j : Fin 128) (s : ℕ) : EReal :=
  if h : s < cfg2.N then
    ∑ r : Fin 2000, u2 V c ⟨2000 * s + r.val, by have := lt_of_lt_of_eq h (show cfg2.N = 50 from N_2); omega⟩ j
      * u2 V c ⟨2000 * s + r.val, by have := lt_of_lt_of_eq h (show cfg2.N = 50 from N_2); omega⟩ j
  else 0

/-- One point's step of the sum row at column j. -/
theorem stepA (c : Dev nD) (j : Fin 128) (t : Fin cfg2.N) (s : Vec Ideal S1x128 .f32) :
    k2_pay4 (iblk2 V c 0 t) (iblk2 V c 1 t) (iblk2 V c 2 t) s (ix2 0 j) = s (ix2 0 j) + blkSum V c j t.val := by
  refine (pay4_apply (iblk2 V c 0 t) (iblk2 V c 1 t) (iblk2 V c 2 t) s j).trans ?_
  unfold blkSum
  rw [dif_pos t.isLt]
  exact congrArg (s (ix2 0 j) + ·) (Finset.sum_congr rfl fun r _ => pay3_blk V c t r j)

/-- One point's step of the sum-of-squares row at column j. -/
theorem stepB (c : Dev nD) (j : Fin 128) (t : Fin cfg2.N) (s : Vec Ideal S1x128 .f32) :
    k2_pay5 (iblk2 V c 0 t) (iblk2 V c 1 t) (iblk2 V c 2 t) s (ix2 0 j) = s (ix2 0 j) + blkSq V c j t.val := by
  refine (pay5_apply (iblk2 V c 0 t) (iblk2 V c 1 t) (iblk2 V c 2 t) s j).trans ?_
  unfold blkSq
  rw [dif_pos t.isLt]
  exact congrArg (s (ix2 0 j) + ·) (Finset.sum_congr rfl fun r _ =>
    congrArg₂ (· * ·) (pay3_blk V c t r j) (pay3_blk V c t r j))

/-- The sum row after point n holds the column sums of the blocks 0..n: zeroed at point 0, one block added per point. -/
theorem rowA_closed (c : Dev nD) (j : Fin 128) (n : ℕ) (h : n < cfg2.N) :
    rowA V c n h (ix2 0 j) = ∑ s ∈ Finset.range (n + 1), blkSum V c j s := by
  refine acc_range (blkSum V c j) (fun n h => rowA V c n h (ix2 0 j)) ?_ ?_ n h
  · intro h
    show rowA V c 0 h (ix2 0 j) = 0 + blkSum V c j 0
    rw [rowA_zero]
    refine (stepA V c j ⟨0, h⟩ (k2_pay1 (F := Ideal))).trans ?_
    rw [pay1_apply]
  · intro n h
    show rowA V c (n + 1) h (ix2 0 j) = rowA V c n (Nat.lt_of_succ_lt h) (ix2 0 j) + blkSum V c j (n + 1)
    rw [rowA_succ]
    exact stepA V c j ⟨n + 1, h⟩ (rowA V c n (Nat.lt_of_succ_lt h))

/-- The sum-of-squares row after point n holds the column sums of the squares of the blocks 0..n. -/
theorem rowB_closed (c : Dev nD) (j : Fin 128) (n : ℕ) (h : n < cfg2.N) :
    rowB V c n h (ix2 0 j) = ∑ s ∈ Finset.range (n + 1), blkSq V c j s := by
  refine acc_range (blkSq V c j) (fun n h => rowB V c n h (ix2 0 j)) ?_ ?_ n h
  · intro h
    show rowB V c 0 h (ix2 0 j) = 0 + blkSq V c j 0
    rw [rowB_zero]
    refine (stepB V c j ⟨0, h⟩ (k2_pay2 (F := Ideal))).trans ?_
    rw [pay2_apply]
  · intro n h
    show rowB V c (n + 1) h (ix2 0 j) = rowB V c n (Nat.lt_of_succ_lt h) (ix2 0 j) + blkSq V c j (n + 1)
    rw [rowB_succ]
    exact stepB V c j ⟨n + 1, h⟩ (rowB V c n (Nat.lt_of_succ_lt h))

/-- The 50 block sums are the sum over all the rows. -/
theorem sum_blkSum (c : Dev nD) (j : Fin 128) :
    ∑ s ∈ Finset.range 50, blkSum V c j s = ∑ i : Fin 100000, u2 V c i j := by
  rw [sum_rows (fun i => u2 V c i j), ← Fin.sum_univ_eq_sum_range (blkSum V c j) 50]
  refine Finset.sum_congr rfl fun t _ => ?_
  unfold blkSum
  rw [dif_pos (lt_of_lt_of_eq t.isLt (show cfg2.N = 50 from N_2).symm)]

theorem sum_blkSq (c : Dev nD) (j : Fin 128) :
    ∑ s ∈ Finset.range 50, blkSq V c j s = ∑ i : Fin 100000, u2 V c i j * u2 V c i j := by
  rw [sum_rows (fun i => u2 V c i j * u2 V c i j), ← Fin.sum_univ_eq_sum_range (blkSq V c j) 50]
  refine Finset.sum_congr rfl fun t _ => ?_
  unfold blkSq
  rw [dif_pos (lt_of_lt_of_eq t.isLt (show cfg2.N = 50 from N_2).symm)]

/-- After the last point the sum row holds the column sums over all the rows. -/
theorem rowA_last (c : Dev nD) (j : Fin 128) :
    rowA V c tLast.val tLast.isLt (ix2 0 j) = ∑ i : Fin 100000, u2 V c i j := by
  rw [rowA_closed V c j tLast.val tLast.isLt, tLast_val]
  exact sum_blkSum V c j

theorem rowB_last (c : Dev nD) (j : Fin 128) :
    rowB V c tLast.val tLast.isLt (ix2 0 j) = ∑ i : Fin 100000, u2 V c i j * u2 V c i j := by
  rw [rowB_closed V c j tLast.val tLast.isLt, tLast_val]
  exact sum_blkSq V c j

/-- Window 4's block is the whole row at every point: what is cut from its buffer is what is read off the array. -/
theorem cut_eq_read4 (t : Fin cfg2.N) (X : Vec Ideal S1x128 .f32) :
    (cfg2.win 4).cut (grid2.coords t) X = ((cfg2.win 4).blk t).view.read (Elt Ideal) X := by
  obtain ⟨-, -, -, -, -, -, -, -, e0, e1, -⟩ := idx0 t
  funext y
  obtain ⟨u, j, rfl⟩ : ∃ (u : Fin 1) (j : Fin 128), y = ix2 u j := ⟨y 0, y 1, eq_ix2 (n0 := 1) (n1 := 128) y⟩
  rw [View.read_apply]
  show X (ix2 u j) = X (((cfg2.win 4).blk t).view.emb (ix2 u j))
  refine congrArg X ?_
  funext a
  apply Fin.ext
  match a with
  | ⟨0, _⟩ => show u.val = win2_4.index t 0 * 1 + 1 * u.val; rw [e0]; omega
  | ⟨1, _⟩ => show j.val = win2_4.index t 1 * 128 + 1 * j.val; rw [e1]; omega

/-- The one write-back of output 4, at the last point, writes the row. -/
theorem flushed4_eq (c : Dev nD) (t : Fin cfg2.N) (hf : (cfg2.win 4).flush t = true) :
    (dat2 V c).flushed 4 t = ((cfg2.win 4).blk t).view.read (Elt Ideal) (rowA V c tLast.val tLast.isLt) := by
  have h := (flush2_4 t).mp hf
  have hlt := tlt t
  obtain rfl : t = tLast := Fin.ext (by rw [tLast_val]; omega)
  refine Eq.trans ?_ (cut_eq_read4 tLast (rowA V c tLast.val tLast.isLt))
  show (cfg2.win 4).cut (grid2.coords tLast) ((dat2 V c).after 4 tLast) = _
  rw [after2_4, w4_last V c tLast h]

/-- The last point's block of output 4 is the whole row. -/
theorem cover4 (c : Dev nD) (i : ((cfg2.win 4).arr.view.loc ((c : Dev nD).tc : Thread nD τ)).2.ty.Idx) :
    ∃ t : Fin cfg2.N, (cfg2.win 4).flush t = true ∧ i ∈ ((cfg2.win 4).blk t).view.set := by
  have hi0 : (i 0 : Nat) < 1 := (i 0).isLt
  have hi1 : (i 1 : Nat) < 128 := (i 1).isLt
  refine ⟨tLast, (flush2_4 _).mpr (by rw [tLast_val]), ?_⟩
  obtain ⟨-, -, -, -, -, -, -, -, e0, e1, -⟩ := idx0 tLast
  show i ∈ ((View.whole main_v41_1).slice (win2_4.rect tLast)).set
  rw [View.set_slice_whole, Rect.mem_set_unit]
  intro a
  match a with
  | ⟨0, _⟩ =>
    show win2_4.index tLast 0 * 1 ≤ (i 0 : Nat) ∧ (i 0 : Nat) < win2_4.index tLast 0 * 1 + 1
    rw [e0]; omega
  | ⟨1, _⟩ =>
    show win2_4.index tLast 1 * 128 ≤ (i 1 : Nat) ∧ (i 1 : Nat) < win2_4.index tLast 1 * 128 + 128
    rw [e1]; omega

theorem arr4 (c : Dev nD) : (dat2 V c).arrAt 4 cfg2.N = rowA V c tLast.val tLast.isLt :=
  (dat2 V c).arrAt_eq_of_cover 4 (rowA V c tLast.val tLast.isLt) (flushed4_eq V c) (cover4 c)

/-- Window 5's block is the whole row at every point: what is cut from its buffer is what is read off the array. -/
theorem cut_eq_read5 (t : Fin cfg2.N) (X : Vec Ideal S1x128 .f32) :
    (cfg2.win 5).cut (grid2.coords t) X = ((cfg2.win 5).blk t).view.read (Elt Ideal) X := by
  obtain ⟨-, -, -, -, -, -, -, -, -, -, e0, e1⟩ := idx0 t
  funext y
  obtain ⟨u, j, rfl⟩ : ∃ (u : Fin 1) (j : Fin 128), y = ix2 u j := ⟨y 0, y 1, eq_ix2 (n0 := 1) (n1 := 128) y⟩
  rw [View.read_apply]
  show X (ix2 u j) = X (((cfg2.win 5).blk t).view.emb (ix2 u j))
  refine congrArg X ?_
  funext a
  apply Fin.ext
  match a with
  | ⟨0, _⟩ => show u.val = win2_5.index t 0 * 1 + 1 * u.val; rw [e0]; omega
  | ⟨1, _⟩ => show j.val = win2_5.index t 1 * 128 + 1 * j.val; rw [e1]; omega

/-- The one write-back of output 5, at the last point, writes the row. -/
theorem flushed5_eq (c : Dev nD) (t : Fin cfg2.N) (hf : (cfg2.win 5).flush t = true) :
    (dat2 V c).flushed 5 t = ((cfg2.win 5).blk t).view.read (Elt Ideal) (rowB V c tLast.val tLast.isLt) := by
  have h := (flush2_5 t).mp hf
  have hlt := tlt t
  obtain rfl : t = tLast := Fin.ext (by rw [tLast_val]; omega)
  refine Eq.trans ?_ (cut_eq_read5 tLast (rowB V c tLast.val tLast.isLt))
  show (cfg2.win 5).cut (grid2.coords tLast) ((dat2 V c).after 5 tLast) = _
  rw [after2_5, w5_last V c tLast h]

/-- The last point's block of output 5 is the whole row. -/
theorem cover5 (c : Dev nD) (i : ((cfg2.win 5).arr.view.loc ((c : Dev nD).tc : Thread nD τ)).2.ty.Idx) :
    ∃ t : Fin cfg2.N, (cfg2.win 5).flush t = true ∧ i ∈ ((cfg2.win 5).blk t).view.set := by
  have hi0 : (i 0 : Nat) < 1 := (i 0).isLt
  have hi1 : (i 1 : Nat) < 128 := (i 1).isLt
  refine ⟨tLast, (flush2_5 _).mpr (by rw [tLast_val]), ?_⟩
  obtain ⟨-, -, -, -, -, -, -, -, -, -, e0, e1⟩ := idx0 tLast
  show i ∈ ((View.whole main_v41_2).slice (win2_5.rect tLast)).set
  rw [View.set_slice_whole, Rect.mem_set_unit]
  intro a
  match a with
  | ⟨0, _⟩ =>
    show win2_5.index tLast 0 * 1 ≤ (i 0 : Nat) ∧ (i 0 : Nat) < win2_5.index tLast 0 * 1 + 1
    rw [e0]; omega
  | ⟨1, _⟩ =>
    show win2_5.index tLast 1 * 128 ≤ (i 1 : Nat) ∧ (i 1 : Nat) < win2_5.index tLast 1 * 128 + 128
    rw [e1]; omega

theorem arr5 (c : Dev nD) : (dat2 V c).arrAt 5 cfg2.N = rowB V c tLast.val tLast.isLt :=
  (dat2 V c).arrAt_eq_of_cover 5 (rowB V c tLast.val tLast.isLt) (flushed5_eq V c) (cover5 c)

/-- A [1, d] array as a row, column by column. -/
theorem toRow1_eq_of {d : ℕ} {X : (⟨2, ![1, d]⟩ : Shape).Idx → EReal} {s : Cert.Spec.Row d}
    (h : ∀ j, X (ix2 0 j) = s j) : Cert.Conv.toRow1 X = s := funext h

end Reg2

/-! ### The three outputs -/

/-- Output 3 ends holding the combined features. -/
theorem final2_3 (c : Dev nD) : Cert.Conv.toMat ((dat2 (F := Ideal) V c).arrAt 3 cfg2.N) = u2 V c := by
  rw [Reg2.arr3]
  rfl

/-- Output 4 ends holding the column sums of the combined features: the 50 blocks of 2000 rows are all the rows. -/
theorem final2_4 (c : Dev nD) : Cert.Conv.toRow1 ((dat2 (F := Ideal) V c).arrAt 4 cfg2.N) = Cert.Spec.colSum (u2 V c) := by
  rw [Reg2.arr4]
  exact Reg2.toRow1_eq_of (fun j => Reg2.rowA_last V c j)

/-- Output 5 ends holding the column sums of the squares of the combined features. -/
theorem final2_5 (c : Dev nD) : Cert.Conv.toRow1 ((dat2 (F := Ideal) V c).arrAt 5 cfg2.N)
    = Cert.Spec.colSum (fun i j => u2 V c i j * u2 V c i j) := by
  rw [Reg2.arr5]
  exact Reg2.toRow1_eq_of (fun j => Reg2.rowB_last V c j)

end Cert.KernelIdeal.HandV

end
-- ==== Proof.KI.Reg3Value.lean ====
/-
  What the second stage of a layer leaves in its result array, as one function of the five arrays it reads.

  At grid point t the body reads rows 2000·t … 2000·t + 1999 of the features (window 0) and the four rows
  (mean, inverse deviation, gamma, beta: windows 1..4, whole), and writes the same rows of the result (window 5):
  entry (r, j) of the tile becomes max((u − mean j) · inv j · gamma j + beta j, 0) with u the feature entry at
  row 2000·t + r. So every point writes back the restriction to its rows of ONE whole-array function, the
  mathematics' normalize read at an index. Row i of the array lies in the block of point i / 2000, the 50 blocks
  fill the 100000 rows, and the array after the region is that function everywhere.
-/
import proofs.«107997_j14224931684915_1_alg».proof.Proof.KI.Reg3Frame
import proofs.«107997_j14224931684915_1_alg».proof.Proof.Conv
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's result at one entry of the tile -/

/-- The clamp's constant is the real number zero. -/
theorem pay3_zero : (Scalar.ofBits (F := Ideal) .f32 0x00000000#32 : EReal) = 0 := by
  show Ideal.ofBits .f32 0x00000000#32 = 0
  simp [Ideal.ofBits, Ideal.ieee]

/-- A row spread over the tile's 2000 rows, read at (p, q), is the row at q. -/
theorem pay3_bcast (x : Vec Ideal S1x128 .f32) (p : Fin 2000) (q : Fin 128) :
    broadcastTo S2000x128 x broadcasts_S1x128_S2000x128 (ix2 p q) = x (ix2 0 q) :=
  broadcastTo_apply x broadcasts_S1x128_S2000x128 (ix2 p q) (ix2 0 q) (fun a => by
    match a with
    | ⟨0, _⟩ => rfl
    | ⟨1, _⟩ => rfl)

/-- Entry (p, q) of what the body stores: centre, scale by the inverse deviation and by gamma, shift by beta, clamp. -/
theorem pay3_apply (x0 : Vec Ideal S2000x128 .f32) (x1 : Vec Ideal S1x128 .f32) (x2 : Vec Ideal S1x128 .f32) (x3 : Vec Ideal S1x128 .f32) (x4 : Vec Ideal S1x128 .f32)
    (p : Fin 2000) (q : Fin 128) :
    k3_pay1 x0 x1 x2 x3 x4 (ix2 p q) = max ((x0 (ix2 p q) - x1 (ix2 0 q)) * x2 (ix2 0 q) * x3 (ix2 0 q) + x4 (ix2 0 q)) 0 := by
  unfold k3_pay1
  simp only [shapeCast_self]
  rw [maximumf_apply, addf_apply, mulf_apply, mulf_apply, subf_apply, broadcast_apply, pay3_bcast, pay3_bcast, pay3_bcast, pay3_bcast, pay3_zero]

/-! ## The whole-array function -/

/-- The result array as a function of the five arrays read: the mathematics' normalize, entry by entry. -/
abbrev pay3_G (a0 : S100000x128.Idx → EReal) (a1 : S1x128.Idx → EReal) (a2 : S1x128.Idx → EReal) (a3 : S1x128.Idx → EReal) (a4 : S1x128.Idx → EReal) :
    S100000x128.Idx → EReal :=
  fun i => Cert.Spec.normalize (n := 100000) (d := 128) (Cert.Conv.toMat a0) (Cert.Conv.toRow1 a1) (Cert.Conv.toRow1 a2) (Cert.Conv.toRow1 a3) (Cert.Conv.toRow1 a4) (i 0) (i 1)

/-- One entry of a tile against one entry of the array: when the tile's entry y is the array's entry i (h0), the rows
    are the row arrays (h1..h4) and the two entries sit in the same column (hcol), the body's result at y is the
    whole-array function at i. -/
theorem pay3_point (x0 : Vec Ideal S2000x128 .f32) (x1 : Vec Ideal S1x128 .f32) (x2 : Vec Ideal S1x128 .f32) (x3 : Vec Ideal S1x128 .f32) (x4 : Vec Ideal S1x128 .f32)
    (a0 : S100000x128.Idx → EReal) (a1 : S1x128.Idx → EReal) (a2 : S1x128.Idx → EReal) (a3 : S1x128.Idx → EReal) (a4 : S1x128.Idx → EReal)
    (y : S2000x128.Idx) (i : S100000x128.Idx)
    (h0 : x0 y = a0 i) (h1 : ∀ z, x1 z = a1 z) (h2 : ∀ z, x2 z = a2 z) (h3 : ∀ z, x3 z = a3 z) (h4 : ∀ z, x4 z = a4 z)
    (hcol : (i 1).val = (y 1).val) :
    k3_pay1 x0 x1 x2 x3 x4 y = pay3_G a0 a1 a2 a3 a4 i := by
  obtain ⟨p, q, rfl⟩ : ∃ (p : Fin 2000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hcol
  subst hs
  rw [pay3_apply, h0, h1, h2, h3, h4]
  rfl

/-! ## Where the blocks sit -/

theorem pay3_hz : (![0, 0] : Fin 2 → Nat) = fun _ => 0 := funext fun a => by fin_cases a <;> rfl

/-- The printed index maps, decided over the 50 points: the tile and the result move together down the rows, one
    block per point, and stay in column block 0; the four rows never move. -/
theorem blkfacts3_5 : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Each row window's block is the whole row array at every point: its block index is (0, 0) throughout. -/
theorem rowblk3_1 (c : Dev nD) (t : Fin cfg3.N) (z : S1x128.Idx) : iblk3 V c 1 t z = V c (Pipeline.arrRef spec3 1) z := by
  obtain ⟨e00, e01, e10, e11, e20, e21, e30, e31, e40, e41, e50, e51⟩ := blkfacts3_5 t
  show V c (Pipeline.arrRef spec3 1) (((cfg3.win 1).blk t).view.emb z) = V c (Pipeline.arrRef spec3 1) z
  refine congrArg _ (funext fun a => Fin.ext ?_)
  match a with
  | ⟨0, _⟩ => show win3_1.index t (0 : Fin 2) * 1 + 1 * (z 0).val = (z 0).val; omega
  | ⟨1, _⟩ => show win3_1.index t (1 : Fin 2) * 128 + 1 * (z 1).val = (z 1).val; omega
theorem rowblk3_2 (c : Dev nD) (t : Fin cfg3.N) (z : S1x128.Idx) : iblk3 V c 2 t z = V c (Pipeline.arrRef spec3 2) z := by
  obtain ⟨e00, e01, e10, e11, e20, e21, e30, e31, e40, e41, e50, e51⟩ := blkfacts3_5 t
  show V c (Pipeline.arrRef spec3 2) (((cfg3.win 2).blk t).view.emb z) = V c (Pipeline.arrRef spec3 2) z
  refine congrArg _ (funext fun a => Fin.ext ?_)
  match a with
  | ⟨0, _⟩ => show win3_2.index t (0 : Fin 2) * 1 + 1 * (z 0).val = (z 0).val; omega
  | ⟨1, _⟩ => show win3_2.index t (1 : Fin 2) * 128 + 1 * (z 1).val = (z 1).val; omega
theorem rowblk3_3 (c : Dev nD) (t : Fin cfg3.N) (z : S1x128.Idx) : iblk3 V c 3 t z = V c (Pipeline.arrRef spec3 3) z := by
  obtain ⟨e00, e01, e10, e11, e20, e21, e30, e31, e40, e41, e50, e51⟩ := blkfacts3_5 t
  show V c (Pipeline.arrRef spec3 3) (((cfg3.win 3).blk t).view.emb z) = V c (Pipeline.arrRef spec3 3) z
  refine congrArg _ (funext fun a => Fin.ext ?_)
  match a with
  | ⟨0, _⟩ => show win3_3.index t (0 : Fin 2) * 1 + 1 * (z 0).val = (z 0).val; omega
  | ⟨1, _⟩ => show win3_3.index t (1 : Fin 2) * 128 + 1 * (z 1).val = (z 1).val; omega
theorem rowblk3_4 (c : Dev nD) (t : Fin cfg3.N) (z : S1x128.Idx) : iblk3 V c 4 t z = V c (Pipeline.arrRef spec3 4) z := by
  obtain ⟨e00, e01, e10, e11, e20, e21, e30, e31, e40, e41, e50, e51⟩ := blkfacts3_5 t
  show V c (Pipeline.arrRef spec3 4) (((cfg3.win 4).blk t).view.emb z) = V c (Pipeline.arrRef spec3 4) z
  refine congrArg _ (funext fun a => Fin.ext ?_)
  match a with
  | ⟨0, _⟩ => show win3_4.index t (0 : Fin 2) * 1 + 1 * (z 0).val = (z 0).val; omega
  | ⟨1, _⟩ => show win3_4.index t (1 : Fin 2) * 128 + 1 * (z 1).val = (z 1).val; omega

/-- The tile's block at point t sits where the result's block does: entry j of the one is entry j of the other's rows. -/
theorem tileblk3_0 (c : Dev nD) (t : Fin cfg3.N) (j : S2000x128.Idx) :
    iblk3 V c 0 t j = V c (Pipeline.arrRef spec3 0) (((cfg3.win 5).blk t).view.emb j) := by
  obtain ⟨e00, e01, e10, e11, e20, e21, e30, e31, e40, e41, e50, e51⟩ := blkfacts3_5 t
  show V c (Pipeline.arrRef spec3 0) (((cfg3.win 0).blk t).view.emb j) = V c (Pipeline.arrRef spec3 0) (((cfg3.win 5).blk t).view.emb j)
  refine congrArg _ (funext fun a => Fin.ext ?_)
  match a with
  | ⟨0, _⟩ => show win3_0.index t (0 : Fin 2) * 2000 + 1 * (j 0).val = win3_5.index t (0 : Fin 2) * 2000 + 1 * (j 0).val; omega
  | ⟨1, _⟩ => show win3_0.index t (1 : Fin 2) * 128 + 1 * (j 1).val = win3_5.index t (1 : Fin 2) * 128 + 1 * (j 1).val; omega

/-- The result's block keeps the column: it spans all 128 of them. -/
theorem colblk3_5 (t : Fin cfg3.N) (j : S2000x128.Idx) : ((((cfg3.win 5).blk t).view.emb j) 1).val = (j 1).val := by
  obtain ⟨e00, e01, e10, e11, e20, e21, e30, e31, e40, e41, e50, e51⟩ := blkfacts3_5 t
  show win3_5.index t (1 : Fin 2) * 128 + 1 * (j 1).val = (j 1).val
  omega

/-- What point t writes back is block t of the whole-array function of the arrays as the region finds them. -/
theorem flushed3_5 (c : Dev nD) (t : Fin cfg3.N) :
    (dat3 V c).flushed 5 t = ((cfg3.win 5).blk t).view.read (Elt Ideal)
      (pay3_G (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero pay3_hz]
  simp only [View.ld_unit_zero (S := S2000x128) pay3_hz, View.ld_unit_zero (S := S1x128) pay3_hz]
  funext j
  exact pay3_point _ _ _ _ _ _ _ _ _ _ _ _ (tileblk3_0 V c t _) (rowblk3_1 V c t) (rowblk3_2 V c t) (rowblk3_3 V c t) (rowblk3_4 V c t) (colblk3_5 t _)

/-- An index of the result array is in point t's block iff each coordinate is in the block's range on its axis. -/
theorem memblk3_5 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole (Pipeline.arrRef spec3 5)).slice (win3_5.rect t)).set ↔ _
  rw [View.set_slice_whole, Rect.mem_set_unit]
  exact Iff.rfl

/-- Every entry of the result array is written back: row r lies in the block of point r / 2000. -/
theorem covered3_5 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hlt : (i 0).val / 2000 < cfg3.N := by
    show (i 0).val / 2000 < grid3.N
    rw [N_3]; omega
  obtain ⟨-, -, -, -, -, -, -, -, -, -, e50, e51⟩ := blkfacts3_5 ⟨(i 0).val / 2000, hlt⟩
  have e50' : win3_5.index ⟨(i 0).val / 2000, hlt⟩ (0 : Fin 2) = (i 0).val / 2000 := e50
  refine ⟨⟨(i 0).val / 2000, hlt⟩, flush3_5 _, ?_⟩
  rw [memblk3_5]
  intro a
  match a with
  | ⟨0, _⟩ =>
    show win3_5.index ⟨(i 0).val / 2000, hlt⟩ (0 : Fin 2) * 2000 ≤ (i 0).val ∧ (i 0).val < win3_5.index ⟨(i 0).val / 2000, hlt⟩ (0 : Fin 2) * 2000 + 2000
    rw [e50']; omega
  | ⟨1, _⟩ =>
    show win3_5.index ⟨(i 0).val / 2000, hlt⟩ (1 : Fin 2) * 128 ≤ (i 1).val ∧ (i 1).val < win3_5.index ⟨(i 0).val / 2000, hlt⟩ (1 : Fin 2) * 128 + 128
    rw [e51]; omega

/-! ## The result array after the region -/

/-- The result array after the region is the whole-array function of the arrays the region found. -/
theorem arr3_5 (c : Dev nD) :
    (dat3 (F := Ideal) V c).arrAt 5 cfg3.N
      = pay3_G (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3_5 V c t) covered3_5

/-- Read as matrices and rows: the result is the mathematics' normalize of the features by the four rows. -/
theorem final3_5 (c : Dev nD) :
    Cert.Conv.toMat (n := 100000) (d := 128) ((dat3 (F := Ideal) V c).arrAt 5 cfg3.N)
      = Cert.Spec.normalize (Cert.Conv.toMat (n := 100000) (d := 128) (V c (Pipeline.arrRef spec3 0)))
          (Cert.Conv.toRow1 (d := 128) (V c (Pipeline.arrRef spec3 1))) (Cert.Conv.toRow1 (d := 128) (V c (Pipeline.arrRef spec3 2)))
          (Cert.Conv.toRow1 (d := 128) (V c (Pipeline.arrRef spec3 3))) (Cert.Conv.toRow1 (d := 128) (V c (Pipeline.arrRef spec3 4))) := by
  rw [arr3_5]
  rfl

end Cert.KernelIdeal.HandV

end
-- ==== Proof.KI.Reg4Facts.lean ====
/-
  Region 4, in closed form: each control case's stores are whole-buffer stores, so what they leave is the last payload
  over whole-buffer loads; hence, point by point, the tile output holds the combined tile of the point's input blocks,
  each accumulator row holds the tile's column sums (of the values, of their squares) added to what the point before
  left (to the zero row at the first point), and at the last point the two statistics outputs hold the two rows.
-/
import proofs.«107997_j14224931684915_1_alg».proof.Proof.KI.Reg4Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents in closed form

Each case's pieces are single whole-buffer stores, so what they leave is the last payload; the loads the payloads are over
read whole buffers back. -/

theorem off00_4 : (![0, 0] : Fin 2 → ℕ) = fun _ => 0 := by
  funext a; fin_cases a <;> rfl

/-- A whole memref at contents `X`, loaded whole, reads `X`. -/
theorem readAt_unread_whole4 {S : Shape} {m : Memref sig .tc .vmem S .f32} (h : m.IsWhole) {off : Fin S.rank → ℕ}
    (ho : off = fun _ => 0) (inb : ∀ a, off a + S.size a ≤ S.size a) (X : Vec F S .f32) :
    View.readAt (Elt F) m.view (Rect.unit off S.size inb).toLoadRect (h.unread X) = X := by
  rw [View.readAt_eq_ld, h.read_unread, View.ld_unit_zero ho]

theorem out4_A_3_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) : out4_A_3 c i arg1 harg1 arg2 harg2 arg3 harg3 arg4 harg4 arg5 harg5 arg6 harg6 arg7 harg7 arg8 harg8 hc0 hc1 xa xb xr = k4_pay3 xa xb xr := by
  unfold out4_A_3 kernelRun4_A
  dsimp only
  rw [View.read_writes_junk_eq_canon, View.canon_cons_unit_zero off00_4, readAt_unread_whole4 harg1 off00_4, readAt_unread_whole4 harg2 off00_4, readAt_unread_whole4 harg3 off00_4]

theorem sout4_A_0_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) : sout4_A_0 c i arg1 harg1 arg2 harg2 arg3 harg3 arg4 harg4 arg5 harg5 arg6 harg6 arg7 harg7 arg8 harg8 hc0 hc1 xa xb xr = k4_pay4 xa xb xr k4_pay1 := by
  unfold sout4_A_0 kernelRun4_A
  dsimp only
  unfold kernelRun4_A.sl.v13 kernelRun4_A.sl.HS0_1
  rw [View.read_writes_junk_eq_canon, View.canon_cons_unit_zero off00_4, View.readCov_unit_zero _ off00_4, readAt_unread_whole4 harg1 off00_4, readAt_unread_whole4 harg2 off00_4, readAt_unread_whole4 harg3 off00_4]

theorem sout4_A_1_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (xa : Vec F S2000x128 .f32) (xb : Vec F S2000x128 .f32) (xr : Vec F S1x128 .f32) : sout4_A_1 c i arg1 harg1 arg2 harg2 arg3 harg3 arg4 harg4 arg5 harg5 arg6 harg6 arg7 harg7 arg8 harg8 hc0 hc1 xa xb xr = k4_pay5 xa xb xr k4_pay2 := by
  unfold sout4_A_1 kernelRun4_A
  dsimp only
  unfold kernelRun4_A.sl.v20 kernelRun4_A.sl.HS1_1
  rw [View.read_writes_junk_eq_canon, View.canon_cons_unit_zero off00_4, View.readCov_unit_zero _ off00_4, readAt_unread_whole4 harg1 off00_4, readAt_unread_whole4 harg2 off00_4, readAt_unread_whole4 harg3 off00_4]

theorem out4_B_3_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) : out4_B_3 c i arg1 harg1 arg2 harg2 arg3 harg3 arg4 harg4 arg5 harg5 arg6 harg6 arg7 harg7 arg8 harg8 hc0 hc1 xa xb xr xs0 xs1 = k4_pay3 xa xb xr := by
  unfold out4_B_3 kernelRun4_B
  dsimp only
  rw [View.read_writes_junk_eq_canon, View.canon_cons_unit_zero off00_4, readAt_unread_whole4 harg1 off00_4, readAt_unread_whole4 harg2 off00_4, readAt_unread_whole4 harg3 off00_4]

theorem sout4_B_0_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) : sout4_B_0 c i arg1 harg1 arg2 harg2 arg3 harg3 arg4 harg4 arg5 harg5 arg6 harg6 arg7 harg7 arg8 harg8 hc0 hc1 xa xb xr xs0 xs1 = k4_pay4 xa xb xr xs0 := by
  unfold sout4_B_0 kernelRun4_B
  dsimp only
  rw [View.read_writes_junk_eq_canon, View.canon_cons_unit_zero off00_4, readAt_unread_whole4 harg1 off00_4, readAt_unread_whole4 harg2 off00_4, readAt_unread_whole4 harg3 off00_4, readAt_unread_whole4 harg7 off00_4]

theorem sout4_B_1_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (xa : Vec F S2000x128 .f32) (xb : Vec F S2000x128 .f32) (xr : Vec F S1x128 .f32) (xs0 : Vec F S1x128 .f32) (xs1 : Vec F S1x128 .f32) : sout4_B_1 c i arg1 harg1 arg2 harg2 arg3 harg3 arg4 harg4 arg5 harg5 arg6 harg6 arg7 harg7 arg8 harg8 hc0 hc1 xa xb xr xs0 xs1 = k4_pay5 xa xb xr xs1 := by
  unfold sout4_B_1 kernelRun4_B
  dsimp only
  rw [View.read_writes_junk_eq_canon, View.canon_cons_unit_zero off00_4, readAt_unread_whole4 harg1 off00_4, readAt_unread_whole4 harg2 off00_4, readAt_unread_whole4 harg3 off00_4, readAt_unread_whole4 harg8 off00_4]

theorem out4_C_3_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : out4_C_3 c i arg1 harg1 arg2 harg2 arg3 harg3 arg4 harg4 arg5 harg5 arg6 harg6 arg7 harg7 arg8 harg8 hc0 hc1 xa xb xr xs0 xs1 = k4_pay3 xa xb xr := by
  unfold out4_C_3 kernelRun4_C
  dsimp only
  rw [View.read_writes_junk_eq_canon, View.canon_cons_unit_zero off00_4, readAt_unread_whole4 harg1 off00_4, readAt_unread_whole4 harg2 off00_4, readAt_unread_whole4 harg3 off00_4]

theorem sout4_C_0_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : sout4_C_0 c i arg1 harg1 arg2 harg2 arg3 harg3 arg4 harg4 arg5 harg5 arg6 harg6 arg7 harg7 arg8 harg8 hc0 hc1 xa xb xr xs0 xs1 = k4_pay4 xa xb xr xs0 := by
  unfold sout4_C_0 kernelRun4_C
  dsimp only
  unfold kernelRun4_C.sl.HS0_1
  rw [View.read_writes_junk_eq_canon, View.canon_cons_unit_zero off00_4, readAt_unread_whole4 harg1 off00_4, readAt_unread_whole4 harg2 off00_4, readAt_unread_whole4 harg3 off00_4, readAt_unread_whole4 harg7 off00_4]

theorem sout4_C_1_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : sout4_C_1 c i arg1 harg1 arg2 harg2 arg3 harg3 arg4 harg4 arg5 harg5 arg6 harg6 arg7 harg7 arg8 harg8 hc0 hc1 xa xb xr xs0 xs1 = k4_pay5 xa xb xr xs1 := by
  unfold sout4_C_1 kernelRun4_C
  dsimp only
  unfold kernelRun4_C.sl.HS1_1
  rw [View.read_writes_junk_eq_canon, View.canon_cons_unit_zero off00_4, readAt_unread_whole4 harg1 off00_4, readAt_unread_whole4 harg2 off00_4, readAt_unread_whole4 harg3 off00_4, readAt_unread_whole4 harg8 off00_4]

theorem out4_C_4_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : out4_C_4 c i arg1 harg1 arg2 harg2 arg3 harg3 arg4 harg4 arg5 harg5 arg6 harg6 arg7 harg7 arg8 harg8 hc0 hc1 xa xb xr xs0 xs1 = k4_pay4 xa xb xr xs0 := by
  unfold out4_C_4 kernelRun4_C
  dsimp only
  unfold kernelRun4_C.sl.v31 kernelRun4_C.sl.HS0_1
  rw [View.read_writes_junk_eq_canon, View.canon_cons_unit_zero off00_4, View.readCov_unit_zero _ off00_4, readAt_unread_whole4 harg1 off00_4, readAt_unread_whole4 harg2 off00_4, readAt_unread_whole4 harg3 off00_4, readAt_unread_whole4 harg7 off00_4]

theorem out4_C_5_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (xa : Vec F S2000x128 .f32) (xb : Vec F S2000x128 .f32) (xr : Vec F S1x128 .f32) (xs0 : Vec F S1x128 .f32) (xs1 : Vec F S1x128 .f32) : out4_C_5 c i arg1 harg1 arg2 harg2 arg3 harg3 arg4 harg4 arg5 harg5 arg6 harg6 arg7 harg7 arg8 harg8 hc0 hc1 xa xb xr xs0 xs1 = k4_pay5 xa xb xr xs1 := by
  unfold out4_C_5 kernelRun4_C
  dsimp only
  unfold kernelRun4_C.sl.v33 kernelRun4_C.sl.HS1_1
  rw [View.read_writes_junk_eq_canon, View.canon_cons_unit_zero off00_4, View.readCov_unit_zero _ off00_4, readAt_unread_whole4 harg1 off00_4, readAt_unread_whole4 harg2 off00_4, readAt_unread_whole4 harg3 off00_4, readAt_unread_whole4 harg8 off00_4]

variable (V : (c : Dev nD) → (b : Ref sig .tc) → Buf (Elt F) ((c : Thread nD τ).loc b))

/-! ## Point by point: the tile output, the two accumulator rows, the statistics outputs at the last point -/

/-- After every point the tile output's buffer holds the combined tile of the point's three input blocks. -/
theorem outsAt4_w3 (c : Dev nD) (t : Fin cfg4.N) :
    (outsAt4 V c t.val t.isLt).1 = k4_pay3 (iblk4 V c 0 t) (iblk4 V c 1 t) (iblk4 V c 2 t) := by
  by_cases h0 : t.val % 50 = 0
  · have h1 : ¬t.val % 50 = 49 := by omega
    rw [outsAt4_A V c t h0 h1]
    dsimp only
    exact out4_A_3_eq (F := F) c _ _ _ _ _ _ _ _ _ _ _ _ _ _ _ _ _ _ _ _ _ _
  · by_cases h1 : t.val % 50 = 49
    · rw [outsAt4_C V c t h0 h1]
      dsimp only
      exact out4_C_3_eq (F := F) c _ _ _ _ _ _ _ _ _ _ _ _ _ _ _ _ _ _ _ _ _ _ _ _
    · rw [outsAt4_B V c t h0 h1]
      dsimp only
      exact out4_B_3_eq (F := F) c _ _ _ _ _ _ _ _ _ _ _ _ _ _ _ _ _ _ _ _ _ _ _ _

/-- After the first point the first accumulator row holds the first tile's column sums added to the zero row. -/
theorem outsAt4_row0_zero (c : Dev nD) (h : 0 < cfg4.N) :
    (outsAt4 V c 0 h).2.2.2.1 = k4_pay4 (iblk4 V c 0 ⟨0, h⟩) (iblk4 V c 1 ⟨0, h⟩) (iblk4 V c 2 ⟨0, h⟩) k4_pay1 := by
  rw [show outsAt4 V c 0 h = _ from outsAt4_A V c ⟨0, h⟩ (Nat.zero_mod _) (by show ¬(0 % 50 = 49); decide)]
  dsimp only
  exact sout4_A_0_eq (F := F) c _ _ _ _ _ _ _ _ _ _ _ _ _ _ _ _ _ _ _ _ _ _

/-- After a later point it holds that tile's column sums added to what the point before left. -/
theorem outsAt4_row0_succ (c : Dev nD) (n : ℕ) (h : n + 1 < cfg4.N) :
    (outsAt4 V c (n + 1) h).2.2.2.1 = k4_pay4 (iblk4 V c 0 ⟨n + 1, h⟩) (iblk4 V c 1 ⟨n + 1, h⟩) (iblk4 V c 2 ⟨n + 1, h⟩) (outsAt4 V c n (Nat.lt_of_succ_lt h)).2.2.2.1 := by
  have hN : n + 1 < 50 := lt_of_lt_of_eq h (show cfg4.N = 50 from N_4)
  have h0 : ¬(n + 1) % 50 = 0 := by omega
  by_cases h1 : (n + 1) % 50 = 49
  · rw [show outsAt4 V c (n + 1) h = _ from outsAt4_C V c ⟨n + 1, h⟩ h0 h1]
    dsimp only
    exact sout4_C_0_eq (F := F) c _ _ _ _ _ _ _ _ _ _ _ _ _ _ _ _ _ _ _ _ _ _ _ _
  · rw [show outsAt4 V c (n + 1) h = _ from outsAt4_B V c ⟨n + 1, h⟩ h0 h1]
    dsimp only
    exact sout4_B_0_eq (F := F) c _ _ _ _ _ _ _ _ _ _ _ _ _ _ _ _ _ _ _ _ _ _ _ _

/-- The second accumulator row, likewise, with the column sums of the squares. -/
theorem outsAt4_row1_zero (c : Dev nD) (h : 0 < cfg4.N) :
    (outsAt4 V c 0 h).2.2.2.2 = k4_pay5 (iblk4 V c 0 ⟨0, h⟩) (iblk4 V c 1 ⟨0, h⟩) (iblk4 V c 2 ⟨0, h⟩) k4_pay2 := by
  rw [show outsAt4 V c 0 h = _ from outsAt4_A V c ⟨0, h⟩ (Nat.zero_mod _) (by show ¬(0 % 50 = 49); decide)]
  dsimp only
  exact sout4_A_1_eq (F := F) c _ _ _ _ _ _ _ _ _ _ _ _ _ _ _ _ _ _ _ _ _ _

theorem outsAt4_row1_succ (c : Dev nD) (n : ℕ) (h : n + 1 < cfg4.N) :
    (outsAt4 V c (n + 1) h).2.2.2.2 = k4_pay5 (iblk4 V c 0 ⟨n + 1, h⟩) (iblk4 V c 1 ⟨n + 1, h⟩) (iblk4 V c 2 ⟨n + 1, h⟩) (outsAt4 V c n (Nat.lt_of_succ_lt h)).2.2.2.2 := by
  have hN : n + 1 < 50 := lt_of_lt_of_eq h (show cfg4.N = 50 from N_4)
  have h0 : ¬(n + 1) % 50 = 0 := by omega
  by_cases h1 : (n + 1) % 50 = 49
  · rw [show outsAt4 V c (n + 1) h = _ from outsAt4_C V c ⟨n + 1, h⟩ h0 h1]
    dsimp only
    exact sout4_C_1_eq (F := F) c _ _ _ _ _ _ _ _ _ _ _ _ _ _ _ _ _ _ _ _ _ _ _ _
  · rw [show outsAt4 V c (n + 1) h = _ from outsAt4_B V c ⟨n + 1, h⟩ h0 h1]
    dsimp only
    exact sout4_B_1_eq (F := F) c _ _ _ _ _ _ _ _ _ _ _ _ _ _ _ _ _ _ _ _ _ _ _ _

/-- At the last point the two statistics outputs' buffers hold the two accumulator rows. -/
theorem outsAt4_w4_last (c : Dev nD) (t : Fin cfg4.N) (h : t.val % 50 = 49) :
    (outsAt4 V c t.val t.isLt).2.1 = (outsAt4 V c t.val t.isLt).2.2.2.1 := by
  have h0 : ¬t.val % 50 = 0 := by omega
  rw [outsAt4_C V c t h0 h]
  dsimp only
  exact (out4_C_4_eq (F := F) c _ _ _ _ _ _ _ _ _ _ _ _ _ _ _ _ _ _ _ _ _ _ _ _).trans (sout4_C_0_eq (F := F) c _ _ _ _ _ _ _ _ _ _ _ _ _ _ _ _ _ _ _ _ _ _ _ _).symm

theorem outsAt4_w5_last (c : Dev nD) (t : Fin cfg4.N) (h : t.val % 50 = 49) :
    (outsAt4 V c t.val t.isLt).2.2.1 = (outsAt4 V c t.val t.isLt).2.2.2.2 := by
  have h0 : ¬t.val % 50 = 0 := by omega
  rw [outsAt4_C V c t h0 h]
  dsimp only
  exact (out4_C_5_eq (F := F) c _ _ _ _ _ _ _ _ _ _ _ _ _ _ _ _ _ _ _ _ _ _ _ _).trans (sout4_C_1_eq (F := F) c _ _ _ _ _ _ _ _ _ _ _ _ _ _ _ _ _ _ _ _ _ _ _ _).symm

end Cert.KernelIdeal.Hand

end
-- ==== Proof.KI.Reg4Pay.lean ====
/-
  The arithmetic of the first kernel (combine + column statistics), read at an index over the extended reals,
  and the arithmetic of tiling a column sum over row blocks.
-/
import proofs.«107997_j14224931684915_1_alg».proof.Proof.Gen.KernelIdeal.Skeleton
import Idealize.ShloMosaic.Lib.ValueLayout
import Idealize.ShloMosaic.Lib.Pipeline.Value
import Idealize.ShloMosaic.PureOps.Ideal.Laws

noncomputable section

namespace Cert.KernelIdeal.HandV.Reg4

open Idealize.ShloMosaic Idealize.ShloMosaic.ValueIdx Cert.KernelIdeal Cert.KernelIdeal.Gen

/-! ### The payloads at an index -/

/-- The zero row the first point stores in the sum scratch. -/
theorem pay1_apply (i : S1x128.Idx) : k4_pay1 (F := Ideal) i = 0 := by
  unfold k4_pay1
  rw [shapeCast_self]
  exact Ideal.ofBits_zero_f32

/-- The zero row the first point stores in the sum-of-squares scratch. -/
theorem pay2_apply (i : S1x128.Idx) : k4_pay2 (F := Ideal) i = 0 := by
  unfold k4_pay2
  rw [shapeCast_self]
  exact Ideal.ofBits_zero_f32

/-- The combined block at (r, j): self + aggregate + the readout row at j. -/
theorem pay3_apply (x3 x4 : Vec Ideal S2000x128 .f32) (x6 : Vec Ideal S1x128 .f32) (r : Fin 2000) (j : Fin 128) :
    k4_pay3 x3 x4 x6 (ix2 r j) = x3 (ix2 r j) + x4 (ix2 r j) + x6 (ix2 0 j) := by
  unfold k4_pay3
  rw [shapeCast_self, shapeCast_self, shapeCast_self]
  show x3 (ix2 r j) + x4 (ix2 r j) + broadcastTo S2000x128 x6 broadcasts_S1x128_S2000x128 (ix2 r j) = _
  rw [broadcastTo_1b_ab_apply]

/-- A sum over the rows of a block, column by column: the reduction over axis 0 read at column j. -/
theorem colred_apply (src : FVec Ideal S2000x128 .f32) (j : Fin 128) :
    multiReduction .add [0] S128 src 0x00000000#32 reduces_S2000x128_S128 (.inl rfl) rfl (ix1 j)
      = ∑ r : Fin 2000, src (ix2 r j) := by
  refine (Ideal.multiReduction_add_single src 0x00000000#32 reduces_S2000x128_S128 (.inl rfl) rfl (ix1 j)).trans ?_
  refine Finset.sum_congr rfl fun r _ => congrArg src ?_
  funext a
  match a with
  | ⟨0, _⟩ => rfl
  | ⟨1, _⟩ => rfl

/-- The sum scratch after a point: what it held plus the column sums of the point's combined block. -/
theorem pay4_apply (x3 x4 : Vec Ideal S2000x128 .f32) (x6 s : Vec Ideal S1x128 .f32) (j : Fin 128) :
    k4_pay4 x3 x4 x6 s (ix2 0 j) = s (ix2 0 j) + ∑ r : Fin 2000, k4_pay3 x3 x4 x6 (ix2 r j) := by
  unfold k4_pay4
  rw [shapeCast_self]
  show s (ix2 0 j) + shapeCast S1x128 _ shapeCasts_S128_S1x128 (ix2 0 j) = _
  rw [shapeCast_a_1a_apply]
  exact congrArg (s (ix2 0 j) + ·) (colred_apply _ j)

/-- The sum-of-squares scratch after a point: what it held plus the column sums of the squares. -/
theorem pay5_apply (x3 x4 : Vec Ideal S2000x128 .f32) (x6 s : Vec Ideal S1x128 .f32) (j : Fin 128) :
    k4_pay5 x3 x4 x6 s (ix2 0 j)
      = s (ix2 0 j) + ∑ r : Fin 2000, k4_pay3 x3 x4 x6 (ix2 r j) * k4_pay3 x3 x4 x6 (ix2 r j) := by
  unfold k4_pay5
  rw [shapeCast_self]
  show s (ix2 0 j) + shapeCast S1x128 _ shapeCasts_S128_S1x128 (ix2 0 j) = _
  rw [shapeCast_a_1a_apply]
  exact congrArg (s (ix2 0 j) + ·) (colred_apply _ j)

/-! ### Tiling a sum over rows into blocks of rows -/

/-- A sum over a·b terms, block by block. -/
theorem sum_blocks {M : Type*} [AddCommMonoid M] (a b : ℕ) (f : Fin (a * b) → M) :
    ∑ i, f i = ∑ t : Fin a, ∑ r : Fin b, f (finProdFinEquiv (t, r)) :=
  (Equiv.sum_comp finProdFinEquiv f).symm.trans (Fintype.sum_prod_type fun p => f (finProdFinEquiv p))

/-- The 100000 rows as 50 blocks of 2000: row 2000·t + r is row r of block t. -/
theorem sum_rows {M : Type*} [AddCommMonoid M] (f : Fin 100000 → M) :
    ∑ i, f i = ∑ t : Fin 50, ∑ r : Fin 2000, f ⟨2000 * t.val + r.val, by omega⟩ := by
  refine (sum_blocks 50 2000 f).trans ?_
  refine Finset.sum_congr rfl fun t _ => Finset.sum_congr rfl fun r _ => congrArg f (Fin.ext ?_)
  show r.val + 2000 * t.val = 2000 * t.val + r.val
  omega

/-- A sum over the points of the grid as a sum over a range of naturals. -/
theorem sum_points {M : Type*} [AddCommMonoid M] (n : ℕ) (g : ℕ → M) :
    ∑ t : Fin n, g t.val = ∑ s ∈ Finset.range n, g s := Fin.sum_univ_eq_sum_range g n

/-- A running sum: starting from the first block and adding one block per point, what is held after point n is the
    sum of the blocks 0..n. -/
theorem acc_closed {M : Type*} [AddCommMonoid M] {N : ℕ} (blk sc : (n : ℕ) → n < N → M)
    (h0 : ∀ h, sc 0 h = 0 + blk 0 h)
    (hs : ∀ n h, sc (n + 1) h = sc n (Nat.lt_of_succ_lt h) + blk (n + 1) h) :
    ∀ (n : ℕ) (h : n < N), sc n h = ∑ s : Fin (n + 1), blk s.val (lt_of_le_of_lt (Nat.lt_succ_iff.mp s.isLt) h)
  | 0, h => by
    rw [h0, zero_add, Fin.sum_univ_one]
    rfl
  | n + 1, h => by
    rw [hs, acc_closed blk sc h0 hs n]
    exact (Fin.sum_univ_castSucc
      (fun s : Fin (n + 1 + 1) => blk s.val (lt_of_le_of_lt (Nat.lt_succ_iff.mp s.isLt) h))).symm

end Cert.KernelIdeal.HandV.Reg4

end
-- ==== Proof.KI.Reg4Value.lean ====
/-
  The value of the first kernel of a layer over the extended reals: after its 50 grid points, the tile output holds
  the combined features u = self + aggregate + readout row, entry by entry, and the two row outputs hold the column
  sums of u and of u².

  The tile output is written back at every point: point t leaves rows 2000·t … 2000·t + 1999 of u, and the 50
  blocks tile the array. The two sums live in scratch rows carried from point to point: zeroed at point 0, then at
  every point the column sums of the point's block (of its squares) are added, so after point n a row holds the sums
  over the blocks 0..n; the last point copies the rows to their outputs, whose one block is the whole row. A sum
  over the 100000 rows is the sum over the 50 blocks of the sums over each block's 2000 rows.
-/
import proofs.«107997_j14224931684915_1_alg».proof.Proof.KI.Reg4Frame
import proofs.«107997_j14224931684915_1_alg».proof.Proof.KI.Reg4Facts
import proofs.«107997_j14224931684915_1_alg».proof.Proof.KI.Reg4Pay
import proofs.«107997_j14224931684915_1_alg».proof.Proof.Conv
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The mathematics' combined features, from the three entry arrays. -/
abbrev u4 (c : Dev nD) : Cert.Spec.Mat 100000 128 :=
  Cert.Spec.combine (Cert.Conv.toMat (V c (Pipeline.arrRef spec4 0))) (Cert.Conv.toMat (V c (Pipeline.arrRef spec4 1)))
    (Cert.Conv.toRow1 (V c (Pipeline.arrRef spec4 2)))

namespace Reg4

/-! ### Where the blocks sit in their arrays -/

theorem tlt (t : Fin cfg4.N) : t.val < 50 := lt_of_lt_of_eq t.isLt (show cfg4.N = 50 from N_4)

theorem h49 : 49 < cfg4.N := by rw [show cfg4.N = 50 from N_4]; decide

/-- The block indices of the six windows at every point: the row-tile windows (0, 1, 3) move with the point, the row
    windows (2, 4, 5) stay at block 0 (decided over the 50 points). -/
theorem idx0 : ∀ t : Fin cfg4.N, win4_0.index t 0 = t.val ∧ win4_0.index t 1 = 0
    ∧ win4_1.index t 0 = t.val ∧ win4_1.index t 1 = 0
    ∧ win4_2.index t 0 = 0 ∧ win4_2.index t 1 = 0
    ∧ win4_3.index t 0 = t.val ∧ win4_3.index t 1 = 0
    ∧ win4_4.index t 0 = 0 ∧ win4_4.index t 1 = 0
    ∧ win4_5.index t 0 = 0 ∧ win4_5.index t 1 = 0 :=
  (by decide +kernel : ∀ t : Fin grid4.N, _)

/-- Row r of the self-features' block at point t is row 2000·t + r of the array. -/
theorem iblk4_0_apply (c : Dev nD) (t : Fin cfg4.N) (r : Fin 2000) (j : Fin 128) :
    iblk4 V c 0 t (ix2 r j) = V c (Pipeline.arrRef spec4 0) (ix2 ⟨2000 * t.val + r.val, by have := tlt t; omega⟩ j) := by
  obtain ⟨e0, e1, -⟩ := idx0 t
  unfold iblk4
  rw [View.read_apply]
  refine congrArg (V c (Pipeline.arrRef spec4 0)) ?_
  funext a
  apply Fin.ext
  match a with
  | ⟨0, _⟩ => show win4_0.index t 0 * 2000 + 1 * r.val = 2000 * t.val + r.val; rw [e0]; omega
  | ⟨1, _⟩ => show win4_0.index t 1 * 128 + 1 * j.val = j.val; rw [e1]; omega

/-- Row r of the aggregate's block at point t is row 2000·t + r of the array. -/
theorem iblk4_1_apply (c : Dev nD) (t : Fin cfg4.N) (r : Fin 2000) (j : Fin 128) :
    iblk4 V c 1 t (ix2 r j) = V c (Pipeline.arrRef spec4 1) (ix2 ⟨2000 * t.val + r.val, by have := tlt t; omega⟩ j) := by
  obtain ⟨-, -, e0, e1, -⟩ := idx0 t
  unfold iblk4
  rw [View.read_apply]
  refine congrArg (V c (Pipeline.arrRef spec4 1)) ?_
  funext a
  apply Fin.ext
  match a with
  | ⟨0, _⟩ => show win4_1.index t 0 * 2000 + 1 * r.val = 2000 * t.val + r.val; rw [e0]; omega
  | ⟨1, _⟩ => show win4_1.index t 1 * 128 + 1 * j.val = j.val; rw [e1]; omega

/-- The readout row's block is the whole row, at every point. -/
theorem iblk4_2_apply (c : Dev nD) (t : Fin cfg4.N) (j : Fin 128) :
    iblk4 V c 2 t (ix2 0 j) = V c (Pipeline.arrRef spec4 2) (ix2 0 j) := by
  obtain ⟨-, -, -, -, e0, e1, -⟩ := idx0 t
  unfold iblk4
  rw [View.read_apply]
  refine congrArg (V c (Pipeline.arrRef spec4 2)) ?_
  funext a
  apply Fin.ext
  match a with
  | ⟨0, _⟩ => show win4_2.index t 0 * 1 + 1 * 0 = 0; rw [e0]
  | ⟨1, _⟩ => show win4_2.index t 1 * 128 + 1 * j.val = j.val; rw [e1]; omega

/-- The combined block of point t at (r, j) is the combined features at row 2000·t + r. -/
theorem pay3_blk (c : Dev nD) (t : Fin cfg4.N) (r : Fin 2000) (j : Fin 128) :
    k4_pay3 (iblk4 V c 0 t) (iblk4 V c 1 t) (iblk4 V c 2 t) (ix2 r j)
      = u4 V c ⟨2000 * t.val + r.val, by have := tlt t; omega⟩ j := by
  refine (pay3_apply (iblk4 V c 0 t) (iblk4 V c 1 t) (iblk4 V c 2 t) r j).trans ?_
  exact congrArg₂ (· + ·) (congrArg₂ (· + ·) (iblk4_0_apply V c t r j) (iblk4_1_apply V c t r j)) (iblk4_2_apply V c t j)

/-! ### Output 3: the combined features, tile by tile -/

/-- What output 3's array ends holding: the combined features, entry by entry. -/
def G3 (c : Dev nD) : (⟨2, ![100000, 128]⟩ : Shape).Idx → EReal := fun i => u4 V c (i 0) (i 1)

/-- What point t writes back to output 3 is block t of the combined features. -/
theorem flushed3_eq (c : Dev nD) (t : Fin cfg4.N) :
    (dat4 V c).flushed 3 t = ((cfg4.win 3).blk t).view.read (Elt Ideal) (G3 V c) := by
  obtain ⟨-, -, -, -, -, -, e0, e1, -⟩ := idx0 t
  show (cfg4.win 3).cut (grid4.coords t) ((dat4 V c).after 3 t) = _
  rw [after4_3, outsAt4_w3]
  funext y
  obtain ⟨r, j, rfl⟩ : ∃ (r : Fin 2000) (j : Fin 128), y = ix2 r j := ⟨y 0, y 1, eq_ix2 (n0 := 2000) (n1 := 128) y⟩
  rw [View.read_apply]
  refine (pay3_blk V c t r j).trans ?_
  show u4 V c _ j = u4 V c ((((cfg4.win 3).blk t).view.emb (ix2 r j)) 0) ((((cfg4.win 3).blk t).view.emb (ix2 r j)) 1)
  refine congrArg₂ (u4 V c) (Fin.ext ?_) (Fin.ext ?_)
  · show 2000 * t.val + r.val = win4_3.index t 0 * 2000 + 1 * r.val
    rw [e0]; omega
  · show j.val = win4_3.index t 1 * 128 + 1 * j.val
    rw [e1]; omega

/-- Every row of output 3 is in the block of the point its tile belongs to. -/
theorem cover3 (c : Dev nD) (i : ((cfg4.win 3).arr.view.loc ((c : Dev nD).tc : Thread nD τ)).2.ty.Idx) :
    ∃ t : Fin cfg4.N, (cfg4.win 3).flush t = true ∧ i ∈ ((cfg4.win 3).blk t).view.set := by
  have hi0 : (i 0 : Nat) < 100000 := (i 0).isLt
  have hi1 : (i 1 : Nat) < 128 := (i 1).isLt
  have hN : cfg4.N = 50 := N_4
  have hlt : (i 0 : Nat) / 2000 < cfg4.N := by rw [hN]; omega
  refine ⟨⟨(i 0 : Nat) / 2000, hlt⟩, flush4_3 _, ?_⟩
  obtain ⟨-, -, -, -, -, -, e0, e1, -⟩ := idx0 ⟨(i 0 : Nat) / 2000, hlt⟩
  show i ∈ ((View.whole main_v66_0).slice (win4_3.rect ⟨(i 0 : Nat) / 2000, hlt⟩)).set
  rw [View.set_slice_whole, Rect.mem_set_unit]
  intro a
  match a with
  | ⟨0, _⟩ =>
    show win4_3.index ⟨(i 0 : Nat) / 2000, hlt⟩ 0 * 2000 ≤ (i 0 : Nat) ∧ (i 0 : Nat) < win4_3.index ⟨(i 0 : Nat) / 2000, hlt⟩ 0 * 2000 + 2000
    rw [e0]; show (i 0 : Nat) / 2000 * 2000 ≤ (i 0 : Nat) ∧ (i 0 : Nat) < (i 0 : Nat) / 2000 * 2000 + 2000; omega
  | ⟨1, _⟩ =>
    show win4_3.index ⟨(i 0 : Nat) / 2000, hlt⟩ 1 * 128 ≤ (i 1 : Nat) ∧ (i 1 : Nat) < win4_3.index ⟨(i 0 : Nat) / 2000, hlt⟩ 1 * 128 + 128
    rw [e1]; omega

theorem arr3 (c : Dev nD) : (dat4 V c).arrAt 3 cfg4.N = G3 V c :=
  (dat4 V c).arrAt_eq_of_cover 3 (G3 V c) (fun t _ => flushed3_eq V c t) (cover3 c)

/-! ### Outputs 4 and 5: the column sums, accumulated over the points -/

/-- The sum row and the sum-of-squares row after point n. -/
def rowA (c : Dev nD) (n : ℕ) (h : n < cfg4.N) : Vec Ideal S1x128 .f32 := (outsAt4 V c n h).2.2.2.1
def rowB (c : Dev nD) (n : ℕ) (h : n < cfg4.N) : Vec Ideal S1x128 .f32 := (outsAt4 V c n h).2.2.2.2

theorem rowA_zero (c : Dev nD) (h : 0 < cfg4.N) :
    rowA V c 0 h = k4_pay4 (iblk4 V c 0 ⟨0, h⟩) (iblk4 V c 1 ⟨0, h⟩) (iblk4 V c 2 ⟨0, h⟩) (k4_pay1 (F := Ideal)) :=
  outsAt4_row0_zero V c h
theorem rowA_succ (c : Dev nD) (n : ℕ) (h : n + 1 < cfg4.N) :
    rowA V c (n + 1) h = k4_pay4 (iblk4 V c 0 ⟨n + 1, h⟩) (iblk4 V c 1 ⟨n + 1, h⟩) (iblk4 V c 2 ⟨n + 1, h⟩)
      (rowA V c n (Nat.lt_of_succ_lt h)) :=
  outsAt4_row0_succ V c n h
theorem rowB_zero (c : Dev nD) (h : 0 < cfg4.N) :
    rowB V c 0 h = k4_pay5 (iblk4 V c 0 ⟨0, h⟩) (iblk4 V c 1 ⟨0, h⟩) (iblk4 V c 2 ⟨0, h⟩) (k4_pay2 (F := Ideal)) :=
  outsAt4_row1_zero V c h
theorem rowB_succ (c : Dev nD) (n : ℕ) (h : n + 1 < cfg4.N) :
    rowB V c (n + 1) h = k4_pay5 (iblk4 V c 0 ⟨n + 1, h⟩) (iblk4 V c 1 ⟨n + 1, h⟩) (iblk4 V c 2 ⟨n + 1, h⟩)
      (rowB V c n (Nat.lt_of_succ_lt h)) :=
  outsAt4_row1_succ V c n h
/-- At the last point the two row outputs' buffers hold the two rows. -/
theorem w4_last (c : Dev nD) (t : Fin cfg4.N) (h : t.val % 50 = 49) :
    (outsAt4 V c t.val t.isLt).2.1 = rowA V c t.val t.isLt := outsAt4_w4_last V c t h
theorem w5_last (c : Dev nD) (t : Fin cfg4.N) (h : t.val % 50 = 49) :
    (outsAt4 V c t.val t.isLt).2.2.1 = rowB V c t.val t.isLt := outsAt4_w5_last V c t h

attribute [irreducible] rowA rowB

/-- The last point. -/
def tLast : Fin cfg4.N := ⟨49, h49⟩
theorem tLast_val : tLast.val = 49 := rfl
attribute [irreducible] tLast

/-- A running sum over the points, as a sum over a range: zero plus the first block, then one block per point. -/
theorem acc_range {M : Type*} [AddCommMonoid M] {N : ℕ} (blk : ℕ → M) (sc : (n : ℕ) → n < N → M)
    (h0 : ∀ h, sc 0 h = 0 + blk 0)
    (hs : ∀ n h, sc (n + 1) h = sc n (Nat.lt_of_succ_lt h) + blk (n + 1)) :
    ∀ (n : ℕ) (h : n < N), sc n h = ∑ s ∈ Finset.range (n + 1), blk s
  | 0, h => by rw [h0, zero_add, Finset.sum_range_one]
  | n + 1, h => by rw [hs, acc_range blk sc h0 hs n, Finset.sum_range_succ _ (n + 1)]

/-- The column sums of the combined block of point s at column j (zero past the grid). -/
def blkSum (c : Dev nD) (j : Fin 128) (s : ℕ) : EReal :=
  if h : s < cfg4.N then
    ∑ r : Fin 2000, u4 V c ⟨2000 * s + r.val, by have := lt_of_lt_of_eq h (show cfg4.N = 50 from N_4); omega⟩ j
  else 0

/-- The column sums of the squares of the combined block of point s at column j (zero past the grid). -/
def blkSq (c : Dev nD) (j : Fin 128) (s : ℕ) : EReal :=
  if h : s < cfg4.N then
    ∑ r : Fin 2000, u4 V c ⟨2000 * s + r.val, by have := lt_of_lt_of_eq h (show cfg4.N = 50 from N_4); omega⟩ j
      * u4 V c ⟨2000 * s + r.val, by have := lt_of_lt_of_eq h (show cfg4.N = 50 from N_4); omega⟩ j
  else 0

/-- One point's step of the sum row at column j. -/
theorem stepA (c : Dev nD) (j : Fin 128) (t : Fin cfg4.N) (s : Vec Ideal S1x128 .f32) :
    k4_pay4 (iblk4 V c 0 t) (iblk4 V c 1 t) (iblk4 V c 2 t) s (ix2 0 j) = s (ix2 0 j) + blkSum V c j t.val := by
  refine (pay4_apply (iblk4 V c 0 t) (iblk4 V c 1 t) (iblk4 V c 2 t) s j).trans ?_
  unfold blkSum
  rw [dif_pos t.isLt]
  exact congrArg (s (ix2 0 j) + ·) (Finset.sum_congr rfl fun r _ => pay3_blk V c t r j)

/-- One point's step of the sum-of-squares row at column j. -/
theorem stepB (c : Dev nD) (j : Fin 128) (t : Fin cfg4.N) (s : Vec Ideal S1x128 .f32) :
    k4_pay5 (iblk4 V c 0 t) (iblk4 V c 1 t) (iblk4 V c 2 t) s (ix2 0 j) = s (ix2 0 j) + blkSq V c j t.val := by
  refine (pay5_apply (iblk4 V c 0 t) (iblk4 V c 1 t) (iblk4 V c 2 t) s j).trans ?_
  unfold blkSq
  rw [dif_pos t.isLt]
  exact congrArg (s (ix2 0 j) + ·) (Finset.sum_congr rfl fun r _ =>
    congrArg₂ (· * ·) (pay3_blk V c t r j) (pay3_blk V c t r j))

/-- The sum row after point n holds the column sums of the blocks 0..n: zeroed at point 0, one block added per point. -/
theorem rowA_closed (c : Dev nD) (j : Fin 128) (n : ℕ) (h : n < cfg4.N) :
    rowA V c n h (ix2 0 j) = ∑ s ∈ Finset.range (n + 1), blkSum V c j s := by
  refine acc_range (blkSum V c j) (fun n h => rowA V c n h (ix2 0 j)) ?_ ?_ n h
  · intro h
    show rowA V c 0 h (ix2 0 j) = 0 + blkSum V c j 0
    rw [rowA_zero]
    refine (stepA V c j ⟨0, h⟩ (k4_pay1 (F := Ideal))).trans ?_
    rw [pay1_apply]
  · intro n h
    show rowA V c (n + 1) h (ix2 0 j) = rowA V c n (Nat.lt_of_succ_lt h) (ix2 0 j) + blkSum V c j (n + 1)
    rw [rowA_succ]
    exact stepA V c j ⟨n + 1, h⟩ (rowA V c n (Nat.lt_of_succ_lt h))

/-- The sum-of-squares row after point n holds the column sums of the squares of the blocks 0..n. -/
theorem rowB_closed (c : Dev nD) (j : Fin 128) (n : ℕ) (h : n < cfg4.N) :
    rowB V c n h (ix2 0 j) = ∑ s ∈ Finset.range (n + 1), blkSq V c j s := by
  refine acc_range (blkSq V c j) (fun n h => rowB V c n h (ix2 0 j)) ?_ ?_ n h
  · intro h
    show rowB V c 0 h (ix2 0 j) = 0 + blkSq V c j 0
    rw [rowB_zero]
    refine (stepB V c j ⟨0, h⟩ (k4_pay2 (F := Ideal))).trans ?_
    rw [pay2_apply]
  · intro n h
    show rowB V c (n + 1) h (ix2 0 j) = rowB V c n (Nat.lt_of_succ_lt h) (ix2 0 j) + blkSq V c j (n + 1)
    rw [rowB_succ]
    exact stepB V c j ⟨n + 1, h⟩ (rowB V c n (Nat.lt_of_succ_lt h))

/-- The 50 block sums are the sum over all the rows. -/
theorem sum_blkSum (c : Dev nD) (j : Fin 128) :
    ∑ s ∈ Finset.range 50, blkSum V c j s = ∑ i : Fin 100000, u4 V c i j := by
  rw [sum_rows (fun i => u4 V c i j), ← Fin.sum_univ_eq_sum_range (blkSum V c j) 50]
  refine Finset.sum_congr rfl fun t _ => ?_
  unfold blkSum
  rw [dif_pos (lt_of_lt_of_eq t.isLt (show cfg4.N = 50 from N_4).symm)]

theorem sum_blkSq (c : Dev nD) (j : Fin 128) :
    ∑ s ∈ Finset.range 50, blkSq V c j s = ∑ i : Fin 100000, u4 V c i j * u4 V c i j := by
  rw [sum_rows (fun i => u4 V c i j * u4 V c i j), ← Fin.sum_univ_eq_sum_range (blkSq V c j) 50]
  refine Finset.sum_congr rfl fun t _ => ?_
  unfold blkSq
  rw [dif_pos (lt_of_lt_of_eq t.isLt (show cfg4.N = 50 from N_4).symm)]

/-- After the last point the sum row holds the column sums over all the rows. -/
theorem rowA_last (c : Dev nD) (j : Fin 128) :
    rowA V c tLast.val tLast.isLt (ix2 0 j) = ∑ i : Fin 100000, u4 V c i j := by
  rw [rowA_closed V c j tLast.val tLast.isLt, tLast_val]
  exact sum_blkSum V c j

theorem rowB_last (c : Dev nD) (j : Fin 128) :
    rowB V c tLast.val tLast.isLt (ix2 0 j) = ∑ i : Fin 100000, u4 V c i j * u4 V c i j := by
  rw [rowB_closed V c j tLast.val tLast.isLt, tLast_val]
  exact sum_blkSq V c j

/-- Window 4's block is the whole row at every point: what is cut from its buffer is what is read off the array. -/
theorem cut_eq_read4 (t : Fin cfg4.N) (X : Vec Ideal S1x128 .f32) :
    (cfg4.win 4).cut (grid4.coords t) X = ((cfg4.win 4).blk t).view.read (Elt Ideal) X := by
  obtain ⟨-, -, -, -, -, -, -, -, e0, e1, -⟩ := idx0 t
  funext y
  obtain ⟨u, j, rfl⟩ : ∃ (u : Fin 1) (j : Fin 128), y = ix2 u j := ⟨y 0, y 1, eq_ix2 (n0 := 1) (n1 := 128) y⟩
  rw [View.read_apply]
  show X (ix2 u j) = X (((cfg4.win 4).blk t).view.emb (ix2 u j))
  refine congrArg X ?_
  funext a
  apply Fin.ext
  match a with
  | ⟨0, _⟩ => show u.val = win4_4.index t 0 * 1 + 1 * u.val; rw [e0]; omega
  | ⟨1, _⟩ => show j.val = win4_4.index t 1 * 128 + 1 * j.val; rw [e1]; omega

/-- The one write-back of output 4, at the last point, writes the row. -/
theorem flushed4_eq (c : Dev nD) (t : Fin cfg4.N) (hf : (cfg4.win 4).flush t = true) :
    (dat4 V c).flushed 4 t = ((cfg4.win 4).blk t).view.read (Elt Ideal) (rowA V c tLast.val tLast.isLt) := by
  have h := (flush4_4 t).mp hf
  have hlt := tlt t
  obtain rfl : t = tLast := Fin.ext (by rw [tLast_val]; omega)
  refine Eq.trans ?_ (cut_eq_read4 tLast (rowA V c tLast.val tLast.isLt))
  show (cfg4.win 4).cut (grid4.coords tLast) ((dat4 V c).after 4 tLast) = _
  rw [after4_4, w4_last V c tLast h]

/-- The last point's block of output 4 is the whole row. -/
theorem cover4 (c : Dev nD) (i : ((cfg4.win 4).arr.view.loc ((c : Dev nD).tc : Thread nD τ)).2.ty.Idx) :
    ∃ t : Fin cfg4.N, (cfg4.win 4).flush t = true ∧ i ∈ ((cfg4.win 4).blk t).view.set := by
  have hi0 : (i 0 : Nat) < 1 := (i 0).isLt
  have hi1 : (i 1 : Nat) < 128 := (i 1).isLt
  refine ⟨tLast, (flush4_4 _).mpr (by rw [tLast_val]), ?_⟩
  obtain ⟨-, -, -, -, -, -, -, -, e0, e1, -⟩ := idx0 tLast
  show i ∈ ((View.whole main_v66_1).slice (win4_4.rect tLast)).set
  rw [View.set_slice_whole, Rect.mem_set_unit]
  intro a
  match a with
  | ⟨0, _⟩ =>
    show win4_4.index tLast 0 * 1 ≤ (i 0 : Nat) ∧ (i 0 : Nat) < win4_4.index tLast 0 * 1 + 1
    rw [e0]; omega
  | ⟨1, _⟩ =>
    show win4_4.index tLast 1 * 128 ≤ (i 1 : Nat) ∧ (i 1 : Nat) < win4_4.index tLast 1 * 128 + 128
    rw [e1]; omega

theorem arr4 (c : Dev nD) : (dat4 V c).arrAt 4 cfg4.N = rowA V c tLast.val tLast.isLt :=
  (dat4 V c).arrAt_eq_of_cover 4 (rowA V c tLast.val tLast.isLt) (flushed4_eq V c) (cover4 c)

/-- Window 5's block is the whole row at every point: what is cut from its buffer is what is read off the array. -/
theorem cut_eq_read5 (t : Fin cfg4.N) (X : Vec Ideal S1x128 .f32) :
    (cfg4.win 5).cut (grid4.coords t) X = ((cfg4.win 5).blk t).view.read (Elt Ideal) X := by
  obtain ⟨-, -, -, -, -, -, -, -, -, -, e0, e1⟩ := idx0 t
  funext y
  obtain ⟨u, j, rfl⟩ : ∃ (u : Fin 1) (j : Fin 128), y = ix2 u j := ⟨y 0, y 1, eq_ix2 (n0 := 1) (n1 := 128) y⟩
  rw [View.read_apply]
  show X (ix2 u j) = X (((cfg4.win 5).blk t).view.emb (ix2 u j))
  refine congrArg X ?_
  funext a
  apply Fin.ext
  match a with
  | ⟨0, _⟩ => show u.val = win4_5.index t 0 * 1 + 1 * u.val; rw [e0]; omega
  | ⟨1, _⟩ => show j.val = win4_5.index t 1 * 128 + 1 * j.val; rw [e1]; omega

/-- The one write-back of output 5, at the last point, writes the row. -/
theorem flushed5_eq (c : Dev nD) (t : Fin cfg4.N) (hf : (cfg4.win 5).flush t = true) :
    (dat4 V c).flushed 5 t = ((cfg4.win 5).blk t).view.read (Elt Ideal) (rowB V c tLast.val tLast.isLt) := by
  have h := (flush4_5 t).mp hf
  have hlt := tlt t
  obtain rfl : t = tLast := Fin.ext (by rw [tLast_val]; omega)
  refine Eq.trans ?_ (cut_eq_read5 tLast (rowB V c tLast.val tLast.isLt))
  show (cfg4.win 5).cut (grid4.coords tLast) ((dat4 V c).after 5 tLast) = _
  rw [after4_5, w5_last V c tLast h]

/-- The last point's block of output 5 is the whole row. -/
theorem cover5 (c : Dev nD) (i : ((cfg4.win 5).arr.view.loc ((c : Dev nD).tc : Thread nD τ)).2.ty.Idx) :
    ∃ t : Fin cfg4.N, (cfg4.win 5).flush t = true ∧ i ∈ ((cfg4.win 5).blk t).view.set := by
  have hi0 : (i 0 : Nat) < 1 := (i 0).isLt
  have hi1 : (i 1 : Nat) < 128 := (i 1).isLt
  refine ⟨tLast, (flush4_5 _).mpr (by rw [tLast_val]), ?_⟩
  obtain ⟨-, -, -, -, -, -, -, -, -, -, e0, e1⟩ := idx0 tLast
  show i ∈ ((View.whole main_v66_2).slice (win4_5.rect tLast)).set
  rw [View.set_slice_whole, Rect.mem_set_unit]
  intro a
  match a with
  | ⟨0, _⟩ =>
    show win4_5.index tLast 0 * 1 ≤ (i 0 : Nat) ∧ (i 0 : Nat) < win4_5.index tLast 0 * 1 + 1
    rw [e0]; omega
  | ⟨1, _⟩ =>
    show win4_5.index tLast 1 * 128 ≤ (i 1 : Nat) ∧ (i 1 : Nat) < win4_5.index tLast 1 * 128 + 128
    rw [e1]; omega

theorem arr5 (c : Dev nD) : (dat4 V c).arrAt 5 cfg4.N = rowB V c tLast.val tLast.isLt :=
  (dat4 V c).arrAt_eq_of_cover 5 (rowB V c tLast.val tLast.isLt) (flushed5_eq V c) (cover5 c)

/-- A [1, d] array as a row, column by column. -/
theorem toRow1_eq_of {d : ℕ} {X : (⟨2, ![1, d]⟩ : Shape).Idx → EReal} {s : Cert.Spec.Row d}
    (h : ∀ j, X (ix2 0 j) = s j) : Cert.Conv.toRow1 X = s := funext h

end Reg4

/-! ### The three outputs -/

/-- Output 3 ends holding the combined features. -/
theorem final4_3 (c : Dev nD) : Cert.Conv.toMat ((dat4 (F := Ideal) V c).arrAt 3 cfg4.N) = u4 V c := by
  rw [Reg4.arr3]
  rfl

/-- Output 4 ends holding the column sums of the combined features: the 50 blocks of 2000 rows are all the rows. -/
theorem final4_4 (c : Dev nD) : Cert.Conv.toRow1 ((dat4 (F := Ideal) V c).arrAt 4 cfg4.N) = Cert.Spec.colSum (u4 V c) := by
  rw [Reg4.arr4]
  exact Reg4.toRow1_eq_of (fun j => Reg4.rowA_last V c j)

/-- Output 5 ends holding the column sums of the squares of the combined features. -/
theorem final4_5 (c : Dev nD) : Cert.Conv.toRow1 ((dat4 (F := Ideal) V c).arrAt 5 cfg4.N)
    = Cert.Spec.colSum (fun i j => u4 V c i j * u4 V c i j) := by
  rw [Reg4.arr5]
  exact Reg4.toRow1_eq_of (fun j => Reg4.rowB_last V c j)

end Cert.KernelIdeal.HandV

end
-- ==== Proof.KI.Reg5Value.lean ====
/-
  What the second stage of a layer leaves in its result array, as one function of the five arrays it reads.

  At grid point t the body reads rows 2000·t … 2000·t + 1999 of the features (window 0) and the four rows
  (mean, inverse deviation, gamma, beta: windows 1..4, whole), and writes the same rows of the result (window 5):
  entry (r, j) of the tile becomes max((u − mean j) · inv j · gamma j + beta j, 0) with u the feature entry at
  row 2000·t + r. So every point writes back the restriction to its rows of ONE whole-array function, the
  mathematics' normalize read at an index. Row i of the array lies in the block of point i / 2000, the 50 blocks
  fill the 100000 rows, and the array after the region is that function everywhere.
-/
import proofs.«107997_j14224931684915_1_alg».proof.Proof.KI.Reg5Frame
import proofs.«107997_j14224931684915_1_alg».proof.Proof.Conv
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's result at one entry of the tile -/

/-- The clamp's constant is the real number zero. -/
theorem pay5_zero : (Scalar.ofBits (F := Ideal) .f32 0x00000000#32 : EReal) = 0 := by
  show Ideal.ofBits .f32 0x00000000#32 = 0
  simp [Ideal.ofBits, Ideal.ieee]

/-- A row spread over the tile's 2000 rows, read at (p, q), is the row at q. -/
theorem pay5_bcast (x : Vec Ideal S1x128 .f32) (p : Fin 2000) (q : Fin 128) :
    broadcastTo S2000x128 x broadcasts_S1x128_S2000x128 (ix2 p q) = x (ix2 0 q) :=
  broadcastTo_apply x broadcasts_S1x128_S2000x128 (ix2 p q) (ix2 0 q) (fun a => by
    match a with
    | ⟨0, _⟩ => rfl
    | ⟨1, _⟩ => rfl)

/-- Entry (p, q) of what the body stores: centre, scale by the inverse deviation and by gamma, shift by beta, clamp. -/
theorem pay5_apply (x0 : Vec Ideal S2000x128 .f32) (x1 : Vec Ideal S1x128 .f32) (x2 : Vec Ideal S1x128 .f32) (x3 : Vec Ideal S1x128 .f32) (x4 : Vec Ideal S1x128 .f32)
    (p : Fin 2000) (q : Fin 128) :
    k5_pay1 x0 x1 x2 x3 x4 (ix2 p q) = max ((x0 (ix2 p q) - x1 (ix2 0 q)) * x2 (ix2 0 q) * x3 (ix2 0 q) + x4 (ix2 0 q)) 0 := by
  unfold k5_pay1
  simp only [shapeCast_self]
  rw [maximumf_apply, addf_apply, mulf_apply, mulf_apply, subf_apply, broadcast_apply, pay5_bcast, pay5_bcast, pay5_bcast, pay5_bcast, pay5_zero]

/-! ## The whole-array function -/

/-- The result array as a function of the five arrays read: the mathematics' normalize, entry by entry. -/
abbrev pay5_G (a0 : S100000x128.Idx → EReal) (a1 : S1x128.Idx → EReal) (a2 : S1x128.Idx → EReal) (a3 : S1x128.Idx → EReal) (a4 : S1x128.Idx → EReal) :
    S100000x128.Idx → EReal :=
  fun i => Cert.Spec.normalize (n := 100000) (d := 128) (Cert.Conv.toMat a0) (Cert.Conv.toRow1 a1) (Cert.Conv.toRow1 a2) (Cert.Conv.toRow1 a3) (Cert.Conv.toRow1 a4) (i 0) (i 1)

/-- One entry of a tile against one entry of the array: when the tile's entry y is the array's entry i (h0), the rows
    are the row arrays (h1..h4) and the two entries sit in the same column (hcol), the body's result at y is the
    whole-array function at i. -/
theorem pay5_point (x0 : Vec Ideal S2000x128 .f32) (x1 : Vec Ideal S1x128 .f32) (x2 : Vec Ideal S1x128 .f32) (x3 : Vec Ideal S1x128 .f32) (x4 : Vec Ideal S1x128 .f32)
    (a0 : S100000x128.Idx → EReal) (a1 : S1x128.Idx → EReal) (a2 : S1x128.Idx → EReal) (a3 : S1x128.Idx → EReal) (a4 : S1x128.Idx → EReal)
    (y : S2000x128.Idx) (i : S100000x128.Idx)
    (h0 : x0 y = a0 i) (h1 : ∀ z, x1 z = a1 z) (h2 : ∀ z, x2 z = a2 z) (h3 : ∀ z, x3 z = a3 z) (h4 : ∀ z, x4 z = a4 z)
    (hcol : (i 1).val = (y 1).val) :
    k5_pay1 x0 x1 x2 x3 x4 y = pay5_G a0 a1 a2 a3 a4 i := by
  obtain ⟨p, q, rfl⟩ : ∃ (p : Fin 2000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hcol
  subst hs
  rw [pay5_apply, h0, h1, h2, h3, h4]
  rfl

/-! ## Where the blocks sit -/

theorem pay5_hz : (![0, 0] : Fin 2 → Nat) = fun _ => 0 := funext fun a => by fin_cases a <;> rfl

/-- The printed index maps, decided over the 50 points: the tile and the result move together down the rows, one
    block per point, and stay in column block 0; the four rows never move. -/
theorem blkfacts5_5 : ∀ t : Fin cfg5.N,
    win5_0.index t (0 : Fin 2) = win5_5.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Each row window's block is the whole row array at every point: its block index is (0, 0) throughout. -/
theorem rowblk5_1 (c : Dev nD) (t : Fin cfg5.N) (z : S1x128.Idx) : iblk5 V c 1 t z = V c (Pipeline.arrRef spec5 1) z := by
  obtain ⟨e00, e01, e10, e11, e20, e21, e30, e31, e40, e41, e50, e51⟩ := blkfacts5_5 t
  show V c (Pipeline.arrRef spec5 1) (((cfg5.win 1).blk t).view.emb z) = V c (Pipeline.arrRef spec5 1) z
  refine congrArg _ (funext fun a => Fin.ext ?_)
  match a with
  | ⟨0, _⟩ => show win5_1.index t (0 : Fin 2) * 1 + 1 * (z 0).val = (z 0).val; omega
  | ⟨1, _⟩ => show win5_1.index t (1 : Fin 2) * 128 + 1 * (z 1).val = (z 1).val; omega
theorem rowblk5_2 (c : Dev nD) (t : Fin cfg5.N) (z : S1x128.Idx) : iblk5 V c 2 t z = V c (Pipeline.arrRef spec5 2) z := by
  obtain ⟨e00, e01, e10, e11, e20, e21, e30, e31, e40, e41, e50, e51⟩ := blkfacts5_5 t
  show V c (Pipeline.arrRef spec5 2) (((cfg5.win 2).blk t).view.emb z) = V c (Pipeline.arrRef spec5 2) z
  refine congrArg _ (funext fun a => Fin.ext ?_)
  match a with
  | ⟨0, _⟩ => show win5_2.index t (0 : Fin 2) * 1 + 1 * (z 0).val = (z 0).val; omega
  | ⟨1, _⟩ => show win5_2.index t (1 : Fin 2) * 128 + 1 * (z 1).val = (z 1).val; omega
theorem rowblk5_3 (c : Dev nD) (t : Fin cfg5.N) (z : S1x128.Idx) : iblk5 V c 3 t z = V c (Pipeline.arrRef spec5 3) z := by
  obtain ⟨e00, e01, e10, e11, e20, e21, e30, e31, e40, e41, e50, e51⟩ := blkfacts5_5 t
  show V c (Pipeline.arrRef spec5 3) (((cfg5.win 3).blk t).view.emb z) = V c (Pipeline.arrRef spec5 3) z
  refine congrArg _ (funext fun a => Fin.ext ?_)
  match a with
  | ⟨0, _⟩ => show win5_3.index t (0 : Fin 2) * 1 + 1 * (z 0).val = (z 0).val; omega
  | ⟨1, _⟩ => show win5_3.index t (1 : Fin 2) * 128 + 1 * (z 1).val = (z 1).val; omega
theorem rowblk5_4 (c : Dev nD) (t : Fin cfg5.N) (z : S1x128.Idx) : iblk5 V c 4 t z = V c (Pipeline.arrRef spec5 4) z := by
  obtain ⟨e00, e01, e10, e11, e20, e21, e30, e31, e40, e41, e50, e51⟩ := blkfacts5_5 t
  show V c (Pipeline.arrRef spec5 4) (((cfg5.win 4).blk t).view.emb z) = V c (Pipeline.arrRef spec5 4) z
  refine congrArg _ (funext fun a => Fin.ext ?_)
  match a with
  | ⟨0, _⟩ => show win5_4.index t (0 : Fin 2) * 1 + 1 * (z 0).val = (z 0).val; omega
  | ⟨1, _⟩ => show win5_4.index t (1 : Fin 2) * 128 + 1 * (z 1).val = (z 1).val; omega

/-- The tile's block at point t sits where the result's block does: entry j of the one is entry j of the other's rows. -/
theorem tileblk5_0 (c : Dev nD) (t : Fin cfg5.N) (j : S2000x128.Idx) :
    iblk5 V c 0 t j = V c (Pipeline.arrRef spec5 0) (((cfg5.win 5).blk t).view.emb j) := by
  obtain ⟨e00, e01, e10, e11, e20, e21, e30, e31, e40, e41, e50, e51⟩ := blkfacts5_5 t
  show V c (Pipeline.arrRef spec5 0) (((cfg5.win 0).blk t).view.emb j) = V c (Pipeline.arrRef spec5 0) (((cfg5.win 5).blk t).view.emb j)
  refine congrArg _ (funext fun a => Fin.ext ?_)
  match a with
  | ⟨0, _⟩ => show win5_0.index t (0 : Fin 2) * 2000 + 1 * (j 0).val = win5_5.index t (0 : Fin 2) * 2000 + 1 * (j 0).val; omega
  | ⟨1, _⟩ => show win5_0.index t (1 : Fin 2) * 128 + 1 * (j 1).val = win5_5.index t (1 : Fin 2) * 128 + 1 * (j 1).val; omega

/-- The result's block keeps the column: it spans all 128 of them. -/
theorem colblk5_5 (t : Fin cfg5.N) (j : S2000x128.Idx) : ((((cfg5.win 5).blk t).view.emb j) 1).val = (j 1).val := by
  obtain ⟨e00, e01, e10, e11, e20, e21, e30, e31, e40, e41, e50, e51⟩ := blkfacts5_5 t
  show win5_5.index t (1 : Fin 2) * 128 + 1 * (j 1).val = (j 1).val
  omega

/-- What point t writes back is block t of the whole-array function of the arrays as the region finds them. -/
theorem flushed5_5 (c : Dev nD) (t : Fin cfg5.N) :
    (dat5 V c).flushed 5 t = ((cfg5.win 5).blk t).view.read (Elt Ideal)
      (pay5_G (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero pay5_hz]
  simp only [View.ld_unit_zero (S := S2000x128) pay5_hz, View.ld_unit_zero (S := S1x128) pay5_hz]
  funext j
  exact pay5_point _ _ _ _ _ _ _ _ _ _ _ _ (tileblk5_0 V c t _) (rowblk5_1 V c t) (rowblk5_2 V c t) (rowblk5_3 V c t) (rowblk5_4 V c t) (colblk5_5 t _)

/-- An index of the result array is in point t's block iff each coordinate is in the block's range on its axis. -/
theorem memblk5_5 (t : Fin cfg5.N) (i : S100000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole (Pipeline.arrRef spec5 5)).slice (win5_5.rect t)).set ↔ _
  rw [View.set_slice_whole, Rect.mem_set_unit]
  exact Iff.rfl

/-- Every entry of the result array is written back: row r lies in the block of point r / 2000. -/
theorem covered5_5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hlt : (i 0).val / 2000 < cfg5.N := by
    show (i 0).val / 2000 < grid5.N
    rw [N_5]; omega
  obtain ⟨-, -, -, -, -, -, -, -, -, -, e50, e51⟩ := blkfacts5_5 ⟨(i 0).val / 2000, hlt⟩
  have e50' : win5_5.index ⟨(i 0).val / 2000, hlt⟩ (0 : Fin 2) = (i 0).val / 2000 := e50
  refine ⟨⟨(i 0).val / 2000, hlt⟩, flush5_5 _, ?_⟩
  rw [memblk5_5]
  intro a
  match a with
  | ⟨0, _⟩ =>
    show win5_5.index ⟨(i 0).val / 2000, hlt⟩ (0 : Fin 2) * 2000 ≤ (i 0).val ∧ (i 0).val < win5_5.index ⟨(i 0).val / 2000, hlt⟩ (0 : Fin 2) * 2000 + 2000
    rw [e50']; omega
  | ⟨1, _⟩ =>
    show win5_5.index ⟨(i 0).val / 2000, hlt⟩ (1 : Fin 2) * 128 ≤ (i 1).val ∧ (i 1).val < win5_5.index ⟨(i 0).val / 2000, hlt⟩ (1 : Fin 2) * 128 + 128
    rw [e51]; omega

/-! ## The result array after the region -/

/-- The result array after the region is the whole-array function of the arrays the region found. -/
theorem arr5_5 (c : Dev nD) :
    (dat5 (F := Ideal) V c).arrAt 5 cfg5.N
      = pay5_G (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 _ (fun t _ => flushed5_5 V c t) covered5_5

/-- Read as matrices and rows: the result is the mathematics' normalize of the features by the four rows. -/
theorem final5_5 (c : Dev nD) :
    Cert.Conv.toMat (n := 100000) (d := 128) ((dat5 (F := Ideal) V c).arrAt 5 cfg5.N)
      = Cert.Spec.normalize (Cert.Conv.toMat (n := 100000) (d := 128) (V c (Pipeline.arrRef spec5 0)))
          (Cert.Conv.toRow1 (d := 128) (V c (Pipeline.arrRef spec5 1))) (Cert.Conv.toRow1 (d := 128) (V c (Pipeline.arrRef spec5 2)))
          (Cert.Conv.toRow1 (d := 128) (V c (Pipeline.arrRef spec5 3))) (Cert.Conv.toRow1 (d := 128) (V c (Pipeline.arrRef spec5 4))) := by
  rw [arr5_5]
  rfl

end Cert.KernelIdeal.HandV

end
-- ==== Proof.KI.Reg6Value.lean ====
/-
  What the program's last region leaves in its output array, as one function of the arrays it is entered with: the
  node-task head, features times weights plus the bias row. On each 2000-row tile the body computes the head of the
  tile (the narrowing casts are the identity on the extended reals; the product into a zero accumulator is the bare
  sum over the 128 features); the tiles of the 50 grid points cover the 100000 rows, row r lying in tile r / 2000.
-/
import proofs.«107997_j14224931684915_1_alg».proof.Proof.KI.Reg6Frame
import proofs.«107997_j14224931684915_1_alg».proof.Proof.Conv
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open Cert.Spec Cert.Conv

variable (V : (c : Dev nD) → (b : Ref sig .tc) → Buf (Elt Ideal) ((c : Thread nD τ).loc b))

/-! ## The product's operand indices

The product contracts the features' second axis with the weights' first: at the output index (r, c) and the
contraction position k the operands are read at (r, k) and (k, c). -/

theorem lhs_row (i : S2000x64.Idx) (k : dot_S2000x128_S128x64_S2000x64_1_0_0_1_n_n.contr.Idx) : (dot_S2000x128_S128x64_S2000x64_1_0_0_1_n_n.lhsIdx i k 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl

theorem lhs_col (i : S2000x64.Idx) (k : dot_S2000x128_S128x64_S2000x64_1_0_0_1_n_n.contr.Idx) : (dot_S2000x128_S128x64_S2000x64_1_0_0_1_n_n.lhsIdx i k 1).val = (k ⟨0, by decide⟩).val :=
  dot_S2000x128_S128x64_S2000x64_1_0_0_1_n_n.lhsIdx_val_of_single rfl i k

theorem rhs_row (i : S2000x64.Idx) (k : dot_S2000x128_S128x64_S2000x64_1_0_0_1_n_n.contr.Idx) : (dot_S2000x128_S128x64_S2000x64_1_0_0_1_n_n.rhsIdx i k 0).val = (k ⟨0, by decide⟩).val :=
  dot_S2000x128_S128x64_S2000x64_1_0_0_1_n_n.rhsIdx_val_of_single rfl i k

theorem rhs_col (i : S2000x64.Idx) (k : dot_S2000x128_S128x64_S2000x64_1_0_0_1_n_n.contr.Idx) : (dot_S2000x128_S128x64_S2000x64_1_0_0_1_n_n.rhsIdx i k 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-! ## The body's arithmetic on one tile -/

/-- On a tile the body computes the head: entry (p, q) is the p-th feature row times the q-th weight column, plus
    the q-th bias. The narrowing casts are the identity on the extended reals, and the product into the zero
    accumulator is the bare sum. -/
theorem head_tile (x0 : Vec Ideal S2000x128 .f32) (x1 : Vec Ideal S128x64 .f32) (x2 : Vec Ideal S1x64 .f32) (p : Fin 2000) (q : Fin 64) :
    k6_pay1 x0 x1 x2 (ix2 p q) = (∑ l : Fin 128, x0 (ix2 p l) * x1 (ix2 l q)) + x2 (ix2 0 q) := by
  unfold k6_pay1
  show (matmul (F := Ideal) dot_S2000x128_S128x64_S2000x64_1_0_0_1_n_n none (truncf (F := Ideal) .bf16 (shapeCast S2000x128 x0 shapeCasts_S2000x128_S2000x128) bitsLt_bf16_f32)
        (truncf (F := Ideal) .bf16 x1 bitsLt_bf16_f32) (constant (F := Ideal) S2000x64 .f32 0x00000000#32)) (ix2 p q)
      + broadcastTo S2000x64 (shapeCast S1x64 x2 shapeCasts_S1x64_S1x64) broadcasts_S1x64_S2000x64 (ix2 p q) = _
  refine congrArg₂ (· + ·) ?_ ?_
  · refine (Ideal.matmul_constant_zero_apply dot_S2000x128_S128x64_S2000x64_1_0_0_1_n_n none _ _ (ix2 p q)).trans ?_
    refine (Equiv.sum_comp (contrEquiv1 dot_S2000x128_S128x64_S2000x64_1_0_0_1_n_n 128 rfl rfl).symm _).symm.trans ?_
    refine Finset.sum_congr rfl fun k _ => ?_
    have hk := contrEquiv1_symm_val dot_S2000x128_S128x64_S2000x64_1_0_0_1_n_n 128 rfl rfl k
    have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
      match a with
      | ⟨0, _⟩ => exact lhs_row _ _
      | ⟨1, _⟩ => exact (lhs_col _ _).trans hk)
    have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
      match a with
      | ⟨0, _⟩ => exact (rhs_row _ _).trans hk
      | ⟨1, _⟩ => exact rhs_col _ _)
    refine congrArg₂ (· * ·) ?_ ?_
    · show shapeCast S2000x128 x0 shapeCasts_S2000x128_S2000x128 _ = _
      rw [shapeCast_self, el]
    · show x1 _ = _
      rw [er]
  · refine (broadcastTo_apply _ _ (ix2 p q) (ix2 0 q) ?_).trans ?_
    · intro a
      match a with
      | ⟨0, _⟩ => rfl
      | ⟨1, _⟩ => rfl
    · rw [shapeCast_self]

/-! ## From tiles to the array -/

theorem hz : (![0, 0] : Fin 2 → Nat) = fun _ => 0 := funext fun a => by fin_cases a <;> rfl

/-- The head of the whole arrays, as an array over the output's shape. -/
def headArr (a0 : S100000x128.Idx → EReal) (a1 : S128x64.Idx → EReal) (a2 : S1x64.Idx → EReal) : S100000x64.Idx → EReal :=
  fun i => head (toMat a0) (toMat a1) (toRow1 a2) (i 0) (i 1)

/-- The block index maps, decided over the grid: the feature tile and the output tile are the point's, along the
    rows; the weights and the bias are whole at every point. -/
theorem idx_facts : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) ≤ 49 :=
  (by decide +kernel : ∀ t : Fin grid6.N, _)

/-- Every row tile of the output is some point's. -/
theorem idx_onto : ∀ q0 : Fin 50, ∃ t : Fin cfg6.N, win6_3.index t = ![q0.val, 0] :=
  (by decide +kernel : ∀ q0 : Fin 50, ∃ t : Fin grid6.N, win6_3.index t = ![q0.val, 0])

/-- The three input blocks at a point, read where the output tile's entry (p, q) needs them, are the whole arrays
    read at the entry's row and column: the feature tile and the output tile are the same rows; the weights and the
    bias are whole. A block's coordinate is its block index times the block's extent plus the coordinate inside. -/
theorem emb_feat (t : Fin cfg6.N) (p : Fin 2000) (l : Fin 128) (q : Fin 64) :
    ((cfg6.win 0).blk t).view.emb (ix2 p l) = (ix2 ((((cfg6.win 3).blk t).view.emb (ix2 p q)) 0) l : S100000x128.Idx) := by
  obtain ⟨e00, e01, e10, e11, e20, e21, e31, e30⟩ := idx_facts t
  funext a; apply Fin.ext
  match a with
  | ⟨0, _⟩ => show win6_0.index t (0 : Fin 2) * 2000 + 1 * p.val = win6_3.index t (0 : Fin 2) * 2000 + 1 * p.val; omega
  | ⟨1, _⟩ => show win6_0.index t (1 : Fin 2) * 128 + 1 * l.val = l.val; omega

theorem emb_wt (t : Fin cfg6.N) (p : Fin 2000) (l : Fin 128) (q : Fin 64) :
    ((cfg6.win 1).blk t).view.emb (ix2 l q) = (ix2 l ((((cfg6.win 3).blk t).view.emb (ix2 p q)) 1) : S128x64.Idx) := by
  obtain ⟨e00, e01, e10, e11, e20, e21, e31, e30⟩ := idx_facts t
  funext a; apply Fin.ext
  match a with
  | ⟨0, _⟩ => show win6_1.index t (0 : Fin 2) * 128 + 1 * l.val = l.val; omega
  | ⟨1, _⟩ => show win6_1.index t (1 : Fin 2) * 64 + 1 * q.val = win6_3.index t (1 : Fin 2) * 64 + 1 * q.val; omega

theorem emb_bias (t : Fin cfg6.N) (p : Fin 2000) (q : Fin 64) :
    ((cfg6.win 2).blk t).view.emb (ix2 0 q) = (ix2 0 ((((cfg6.win 3).blk t).view.emb (ix2 p q)) 1) : S1x64.Idx) := by
  obtain ⟨e00, e01, e10, e11, e20, e21, e31, e30⟩ := idx_facts t
  funext a; apply Fin.ext
  match a with
  | ⟨0, _⟩ => show win6_2.index t (0 : Fin 2) * 1 + 1 * 0 = 0; omega
  | ⟨1, _⟩ => show win6_2.index t (1 : Fin 2) * 64 + 1 * q.val = win6_3.index t (1 : Fin 2) * 64 + 1 * q.val; omega

/-- The body's value at a tile's entry (p, q) is the head of the whole arrays at the array index i, once the blocks
    read there what the arrays hold at i's row and column. -/
theorem tile_eq (X0 : S100000x128.Idx → EReal) (X1 : S128x64.Idx → EReal) (X2 : S1x64.Idx → EReal)
    (x0 : Vec Ideal S2000x128 .f32) (x1 : Vec Ideal S128x64 .f32) (x2 : Vec Ideal S1x64 .f32)
    (p : Fin 2000) (q : Fin 64) (i : S100000x64.Idx)
    (h0 : ∀ l : Fin 128, x0 (ix2 p l) = X0 (ix2 (i 0) l))
    (h1 : ∀ l : Fin 128, x1 (ix2 l q) = X1 (ix2 l (i 1)))
    (h2 : x2 (ix2 0 q) = X2 (ix2 0 (i 1))) :
    k6_pay1 x0 x1 x2 (ix2 p q) = headArr X0 X1 X2 i := by
  refine (head_tile x0 x1 x2 p q).trans ?_
  unfold headArr head toMat toRow1
  refine congrArg₂ (· + ·) (Finset.sum_congr rfl fun l _ => congrArg₂ (· * ·) (h0 l) (h1 l)) h2

set_option maxHeartbeats 400000 in
/-- What point t writes back is tile t of the head of the arrays the region finds. -/
theorem flushed_eq (c : Dev nD) (t : Fin cfg6.N) :
    (dat6 V c).flushed 3 t = ((cfg6.win 3).blk t).view.read (Elt Ideal)
      (headArr (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S2000x128) hz, View.ld_unit_zero (S := S128x64) hz, View.ld_unit_zero (S := S1x64) hz]
  funext j
  obtain ⟨p, q, rfl⟩ : ∃ (p : Fin 2000) (q : Fin 64), j = ix2 p q := ⟨j 0, j 1, eq_ix2 j⟩
  exact tile_eq (V c (Pipeline.arrRef spec6 0)) (V c (Pipeline.arrRef spec6 1)) (V c (Pipeline.arrRef spec6 2))
    (iblk6 V c 0 t) (iblk6 V c 1 t) (iblk6 V c 2 t) p q (((cfg6.win 3).blk t).view.emb (ix2 p q))
    (fun l => congrArg (V c (Pipeline.arrRef spec6 0)) (emb_feat t p l q))
    (fun l => congrArg (V c (Pipeline.arrRef spec6 1)) (emb_wt t p l q))
    (congrArg (V c (Pipeline.arrRef spec6 2)) (emb_bias t p q))

/-- An index of the output is in point t's tile iff each coordinate is in the tile's range. -/
theorem mem_blk (t : Fin cfg6.N) (i : S100000x64.Idx) :
    i ∈ ((cfg6.win 3).blk t).view.set ↔ ∀ a : Fin 2, win6_3.index t a * S2000x64.size a ≤ (i a).val ∧ (i a).val < win6_3.index t a * S2000x64.size a + S2000x64.size a := by
  show i ∈ ((View.whole main_v80).slice (win6_3.rect t)).set ↔ _
  rw [View.set_slice_whole, Rect.mem_set_unit]
  exact Iff.rfl

/-- Row r of the output is in the tile of point r / 2000. -/
theorem cover (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, ht⟩ := idx_onto ⟨(i 0).val / 2000, by omega⟩
  have q0 : win6_3.index t (0 : Fin 2) = (i 0).val / 2000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 64 ≤ (i 1).val ∧ (i 1).val < win6_3.index t (1 : Fin 2) * 64 + 64; omega

/-- After the region the output array holds the head of the arrays the region found: features times weights plus
    the bias row. -/
theorem final6_3 (c : Dev nD) :
    toMat ((dat6 (F := Ideal) V c).arrAt 3 cfg6.N)
      = head (toMat (V c (Pipeline.arrRef spec6 0))) (toMat (V c (Pipeline.arrRef spec6 1))) (toRow1 (V c (Pipeline.arrRef spec6 2))) := by
  rw [(dat6 V c).arrAt_eq_of_cover 3
    (headArr (V c (Pipeline.arrRef spec6 0)) (V c (Pipeline.arrRef spec6 1)) (V c (Pipeline.arrRef spec6 2)))
    (fun t _ => flushed_eq V c t) cover]
  rfl

end Cert.KernelIdeal.HandV

end
-- ==== Proof.LibRows.lean ====
/-
  Row gather and row scatter-add, read at an index.

  `x[idx]` along axis 0 of a two-dimensional array `x : [N, D]` at a column `idx : [E, 1]` of row numbers takes,
  for each of the `E` entries, the whole row the entry names: entry `e` is read as a signed integer and clamped
  into `[0, N − 1]`. The accumulating scatter with the same dimension numbers adds row `e` of the updates
  `[E, D]` into the row of the operand that entry `e` names, and drops it when the entry names no row (the start
  is read signed and is not clamped). Neither the row a gather reads nor the set of updates landing on a row
  depends on the width `D`.
-/
import Idealize.ShloMosaic.PureOps.Ideal
import Idealize.ShloMosaic.Lib.ValueIdx

noncomputable section

open scoped BigOperators

namespace Cert.Lib

open Idealize.ShloMosaic Idealize.ShloMosaic.ValueIdx

/-- The dimension numbers of a gather of whole rows of `[N, D]` at row numbers `[E, 1]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row entry `e` of the row numbers reads: the entry as a signed integer, clamped into `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

/-- THE ROW GATHER READ AT `(e, j)`: column `j` of the row that entry `e` names. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (rowOf hN idx e) j) := by
  unfold Host.gather
  congr 1
  funext a
  refine Fin.ext ?_
  match a with
  | ⟨0, _⟩ =>
    -- axis 0 is collapsed and named by the start index map: the clamped start alone
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e j) ⟨List.idxOf (0 : Fin 2) (rowGatherDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the offset axis: start 0, and the result's coordinate on its own axis 1
    show (rowGatherDims N E D wf).start (ix2 e j) idx 1 + (rowGatherDims N E D wf).batchCoord (ix2 e j) 1
      + (rowGatherDims N E D wf).offCoord (ix2 e j) 1 = _
    have hne : (1 : Fin 2) ∉ [(0 : Fin 2)] := by decide
    have hstart : (rowGatherDims N E D wf).start (ix2 e j) idx 1 = 0 := by
      unfold GatherDims.start
      rw [dif_neg (show (1 : Fin 2) ∉ (rowGatherDims N E D wf).startIndexMap from hne)]
    have hk : (1 : Fin 2) ∈ (rowGatherDims N E D wf).sKept :=
      (GatherDims.mem_sKept _ _).mpr ⟨hne, List.not_mem_nil⟩
    have hoff : (rowGatherDims N E D wf).offCoord (ix2 e j) 1 = j.val := by
      unfold GatherDims.offCoord
      rw [dif_pos hk]
      rfl
    rw [hstart, GatherDims.batchCoord_eq_zero _ _ _ List.not_mem_nil, hoff]
    show 0 + 0 + j.val = j.val
    omega

/-- The dimension numbers of a scatter of whole rows `[E, D]` into `[N, D]` at row numbers `[E, 1]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-! The start and the window coordinate of update index `(e, k)` on the operand's two axes. -/

/-- On axis 0 the window starts at entry `e` of the row numbers, read signed. -/
private theorem start0 {N E D w : Nat}
    (wf : ScatterDims.WF ⟨2, ![N, D]⟩ ⟨2, ![E, 1]⟩ ⟨2, ![E, D]⟩ [1] [0] [0] 1)
    (idx : IVec ⟨2, ![E, 1]⟩ w) (e : Fin E) (k : Fin D) :
    (rowScatterDims N E D wf).start (ix2 e k) idx (0 : Fin 2) = (idx (ix2 e (0 : Fin 1))).toInt := by
  unfold ScatterDims.start
  rw [dif_pos (show (0 : Fin 2) ∈ (rowScatterDims N E D wf).scatterDimsToOperandDims from List.mem_singleton.mpr rfl)]
  have hsi : (rowScatterDims N E D wf).siIdx (ix2 e k)
      ⟨List.idxOf (0 : Fin 2) (rowScatterDims N E D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 is not named by the scatter-dims-to-operand-dims map: the window starts at 0. -/
private theorem start1 {N E D w : Nat}
    (wf : ScatterDims.WF ⟨2, ![N, D]⟩ ⟨2, ![E, 1]⟩ ⟨2, ![E, D]⟩ [1] [0] [0] 1)
    (idx : IVec ⟨2, ![E, 1]⟩ w) (e : Fin E) (k : Fin D) :
    (rowScatterDims N E D wf).start (ix2 e k) idx (1 : Fin 2) = 0 := by
  have hne : (1 : Fin 2) ∉ [(0 : Fin 2)] := by decide
  unfold ScatterDims.start
  rw [dif_neg (show (1 : Fin 2) ∉ (rowScatterDims N E D wf).scatterDimsToOperandDims from hne)]

/-- Axis 0 is an inserted window axis: its window coordinate is 0. -/
private theorem window0 {N E D : Nat}
    (wf : ScatterDims.WF ⟨2, ![N, D]⟩ ⟨2, ![E, 1]⟩ ⟨2, ![E, D]⟩ [1] [0] [0] 1) (e : Fin E) (k : Fin D) :
    (rowScatterDims N E D wf).window (ix2 e k) (0 : Fin 2) = 0 := by
  have hne : (0 : Fin 2) ∉ (List.finRange 2).filter (· ∉ [(0 : Fin 2)]) := by decide
  unfold ScatterDims.window
  rw [dif_neg (show (0 : Fin 2) ∉ (rowScatterDims N E D wf).sKept from hne)]

/-- Axis 1 is the one kept axis: its window coordinate is the update's column. -/
private theorem window1 {N E D : Nat}
    (wf : ScatterDims.WF ⟨2, ![N, D]⟩ ⟨2, ![E, 1]⟩ ⟨2, ![E, D]⟩ [1] [0] [0] 1) (e : Fin E) (k : Fin D) :
    (rowScatterDims N E D wf).window (ix2 e k) (1 : Fin 2) = k.val := by
  have hmem : (1 : Fin 2) ∈ (List.finRange 2).filter (· ∉ [(0 : Fin 2)]) := by decide
  unfold ScatterDims.window
  rw [dif_pos (show (1 : Fin 2) ∈ (rowScatterDims N E D wf).sKept from hmem)]
  rfl

/-- The entries whose row number, read signed, is exactly `r`: the updates that land on row `r`. -/
def landing {N E w : Nat} (idx : IVec ⟨2, ![E, 1]⟩ w) (r : Fin N) : Finset (Fin E) :=
  Finset.univ.filter fun e => (idx (ix2 e (0 : Fin 1))).toInt = (r.val : Int)

/-- Update index `(e, k)` lands on operand index `(r, j)` exactly when entry `e`, read signed, is `r` and the
    columns agree: on axis 0 the result coordinate is the unclamped start, on axis 1 it is the update's column. -/
private theorem resultIdx_eq_some_iff {N E D w : Nat}
    (wf : ScatterDims.WF ⟨2, ![N, D]⟩ ⟨2, ![E, 1]⟩ ⟨2, ![E, D]⟩ [1] [0] [0] 1)
    (idx : IVec ⟨2, ![E, 1]⟩ w) (e : Fin E) (k : Fin D) (r : Fin N) (j : Fin D) :
    (rowScatterDims N E D wf).resultIdx? (ix2 e k) idx = some (ix2 r j)
      ↔ (idx (ix2 e (0 : Fin 1))).toInt = (r.val : Int) ∧ k = j := by
  unfold ScatterDims.resultIdx?
  constructor
  · intro h
    split at h
    · rename_i hall
      have hf := Option.some.inj h
      have h0 : ((rowScatterDims N E D wf).start (ix2 e k) idx (0 : Fin 2)
          + ((rowScatterDims N E D wf).window (ix2 e k) (0 : Fin 2) : Int)).toNat = r.val :=
        congrArg (fun f => (f (0 : Fin 2)).val) hf
      have h1 : ((rowScatterDims N E D wf).start (ix2 e k) idx (1 : Fin 2)
          + ((rowScatterDims N E D wf).window (ix2 e k) (1 : Fin 2) : Int)).toNat = j.val :=
        congrArg (fun f => (f (1 : Fin 2)).val) hf
      have a0 : 0 ≤ (rowScatterDims N E D wf).start (ix2 e k) idx (0 : Fin 2)
          + ((rowScatterDims N E D wf).window (ix2 e k) (0 : Fin 2) : Int) := (hall (0 : Fin 2)).1
      rw [start0, window0] at h0 a0
      rw [start1, window1] at h1
      exact ⟨by omega, Fin.ext (by omega)⟩
    · exact absurd h (by simp)
  · rintro ⟨ht, rfl⟩
    have hall : ∀ a, 0 ≤ (rowScatterDims N E D wf).start (ix2 e k) idx a + ((rowScatterDims N E D wf).window (ix2 e k) a : Int)
        ∧ (rowScatterDims N E D wf).start (ix2 e k) idx a + ((rowScatterDims N E D wf).window (ix2 e k) a : Int)
          < ((⟨2, ![N, D]⟩ : Shape).size a : Int) := by
      intro a
      match a with
      | ⟨0, _⟩ =>
        show 0 ≤ (rowScatterDims N E D wf).start (ix2 e k) idx (0 : Fin 2)
            + ((rowScatterDims N E D wf).window (ix2 e k) (0 : Fin 2) : Int)
          ∧ (rowScatterDims N E D wf).start (ix2 e k) idx (0 : Fin 2)
            + ((rowScatterDims N E D wf).window (ix2 e k) (0 : Fin 2) : Int) < (N : Int)
        rw [start0, window0, ht]
        have := r.isLt
        omega
      | ⟨1, _⟩ =>
        show 0 ≤ (rowScatterDims N E D wf).start (ix2 e k) idx (1 : Fin 2)
            + ((rowScatterDims N E D wf).window (ix2 e k) (1 : Fin 2) : Int)
          ∧ (rowScatterDims N E D wf).start (ix2 e k) idx (1 : Fin 2)
            + ((rowScatterDims N E D wf).window (ix2 e k) (1 : Fin 2) : Int) < (D : Int)
        rw [start1, window1]
        have := k.isLt
        omega
    rw [dif_pos hall]
    congr 1
    funext a
    refine Fin.ext ?_
    match a with
    | ⟨0, _⟩ =>
      show ((rowScatterDims N E D wf).start (ix2 e k) idx (0 : Fin 2)
          + ((rowScatterDims N E D wf).window (ix2 e k) (0 : Fin 2) : Int)).toNat = r.val
      rw [start0, window0, ht]
      omega
    | ⟨1, _⟩ =>
      show ((rowScatterDims N E D wf).start (ix2 e k) idx (1 : Fin 2)
          + ((rowScatterDims N E D wf).window (ix2 e k) (1 : Fin 2) : Int)).toNat = k.val
      rw [start1, window1]
      omega

/-- THE ACCUMULATING ROW SCATTER READ AT `(r, j)`, over the extended reals: the operand's entry plus column `j`
    of every update row landing on row `r`. -/
theorem scatterAdd_rows_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (r : Fin N) (j : Fin D) :
    Ideal.hostScatterAdd (rowScatterDims N E D wf) x idx upd (ix2 r j)
      = x (ix2 r j) + ∑ e ∈ landing idx r, upd (ix2 e j) := by
  unfold Ideal.hostScatterAdd
  congr 1
  -- the update indices landing on `(r, j)` are the `(e, j)` with `e` landing on row `r`: re-index by `e`
  have key : ∀ u : (⟨2, ![E, D]⟩ : Shape).Idx,
      (rowScatterDims N E D wf).resultIdx? u idx = some (ix2 r j)
        ↔ (idx (ix2 (u 0) (0 : Fin 1))).toInt = (r.val : Int) ∧ u 1 = j := by
    intro u
    conv_lhs => rw [eq_ix2 u]
    exact resultIdx_eq_some_iff wf idx (u 0) (u 1) r j
  refine Finset.sum_nbij' (fun u => u 0) (fun e => ix2 e j) ?_ ?_ ?_ ?_ ?_
  · intro u hu
    have h := (key u).mp (Finset.mem_filter.mp hu).2
    exact Finset.mem_filter.mpr ⟨Finset.mem_univ _, h.1⟩
  · intro e he
    have h := (Finset.mem_filter.mp he).2
    exact Finset.mem_filter.mpr ⟨Finset.mem_univ _, (key (ix2 e j)).mpr ⟨h, rfl⟩⟩
  · intro u hu
    have h := (key u).mp (Finset.mem_filter.mp hu).2
    rw [← h.2]
    exact (eq_ix2 u).symm
  · intro e _
    rfl
  · intro u hu
    have h := (key u).mp (Finset.mem_filter.mp hu).2
    rw [← h.2]
    exact congrArg upd (eq_ix2 u)

end Cert.Lib

end
-- ==== Proof.LibKeepdims.lean ====
/-
  Layout facts for a row-wise reduction that keeps its axis as a unit axis.

  A reduction of an [a, b] matrix along its columns gives a vector [a].  The kernel then views the vector as a column
  [a, 1] (a shape cast: entry (p, 0) is entry p of the vector) and spreads the column over the b columns again (a
  broadcast: entry (p, c) is entry (p, 0) of the column).  The reduced index p with column k put back is (p, k).
  These three facts are stated here for any extents, with every index written by its coordinates; the reference writes
  the same two layout steps (and the spreading of the one bias row over all rows) as `broadcast_in_dim`, read likewise.
-/
import Idealize.ShloMosaic.Lib.ValueLayout
import Idealize.ShloMosaic.PureOps.Ideal.Laws

namespace Cert.Net

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` of a reduction along the columns, with column `k` put back, is `(p, k)`. -/
theorem lift_cols_ix2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-! ## The same three facts for the reference's `broadcast_in_dim` -/

/-- A vector `[a]` laid along the rows of a column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` spread over `b` columns reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]

/-- One row `[1, b]` spread over `a` rows reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => show 0 = if (1 : ℕ) = 1 then 0 else p.val; rw [if_pos rfl]
  | ⟨1, _⟩ =>
    show c.val = if b = 1 then 0 else c.val
    split
    · have := c.isLt; omega
    · rfl

end Cert.Net
-- ==== Proof.HostSpec.lean ====
/-
  The host-side operations of the graph network, read at an index over the extended reals.

  The neighbour aggregate: a row number that is negative counts from the end (the node count is added to it), the
  rows so named are gathered (a row number past either end is clamped), and each gathered row is added into the row
  of a zero array that the destination names (a destination that names no row is dropped). At (r, j) this is the sum,
  over the edges whose destination is r, of column j of the row the edge's source names. Then the literals (the node
  count, the ε of the normalisation), and the small layout and pointwise steps the statistics are spelled with.
-/
import proofs.«107997_j14224931684915_1_alg».proof.Proof.Spec
import proofs.«107997_j14224931684915_1_alg».proof.Proof.Conv
import proofs.«107997_j14224931684915_1_alg».proof.Proof.LibRows
import proofs.«107997_j14224931684915_1_alg».proof.Proof.LibKeepdims
import Idealize.ShloMosaic.Lib.IdealHost
import Idealize.ShloMosaic.Lib.ValueLayout

noncomputable section

open scoped BigOperators

namespace Cert.HostSpec

open Idealize.ShloMosaic Idealize.ShloMosaic.ValueIdx Cert.Spec Cert.Conv

/-! ## The aggregate -/

/-- A row number as the gather reads it: a negative one counts from the end. -/
def normIdx (x : BitVec 32) : BitVec 32 := Scalar.select (IntOp.cmpi .slt x 0#32) (IntOp.addi x 100000#32) x

/-- The row that edge e reads: its normalised source, read signed and clamped into the rows. -/
def gatherRow (src : (⟨1, ![1600000]⟩ : Shape).Idx → BitVec 32) (e : Fin 1600000) : Fin 100000 :=
  ⟨min (normIdx (src (ix1 e))).toInt.toNat (100000 - 1), by omega⟩

/-- The edges whose destination, read signed, is row r. -/
def landing (dst : (⟨1, ![1600000]⟩ : Shape).Idx → BitVec 32) (r : Fin 100000) : Finset (Fin 1600000) :=
  Finset.univ.filter fun e => (dst (ix1 e)).toInt = (r.val : Int)

/-- The aggregate: row r collects the source rows of the edges that end at r. -/
def AggOf (dst src : (⟨1, ![1600000]⟩ : Shape).Idx → BitVec 32) (h : Mat 100000 128) : Mat 100000 128 :=
  fun r j => ∑ e ∈ landing dst r, h (gatherRow src e) j

/-- A finite sum of finite entries. -/
theorem AggOf_fin (dst src : (⟨1, ![1600000]⟩ : Shape).Idx → BitVec 32) (h : Mat 100000 128) (hh : MatFin h) :
    MatFin (AggOf dst src h) := fun r j => sum_fin' _ _ (fun e _ => hh (gatherRow src e) j)

/-- Row 0 (the destinations) and row 1 (the sources) of the edge list, as vectors of row numbers. -/
def dstOf (ei : (⟨2, ![2, 1600000]⟩ : Shape).Idx → BitVec 32) : (⟨1, ![1600000]⟩ : Shape).Idx → BitVec 32 :=
  fun i => ei (ix2 (0 : Fin 2) (i 0))
def srcOf (ei : (⟨2, ![2, 1600000]⟩ : Shape).Idx → BitVec 32) : (⟨1, ![1600000]⟩ : Shape).Idx → BitVec 32 :=
  fun i => ei (ix2 (1 : Fin 2) (i 0))

/-- A row of the edge list cut out and flattened reads, at e, that row at e. -/
theorem edgeRow_at (ei : (⟨2, ![2, 1600000]⟩ : Shape).Idx → BitVec 32) (k : Fin 2)
    (hs : (⟨2, ![2, 1600000]⟩ : Shape).Slices ![k.val, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![k.val, 0] ei hs) hc (ix1 e)
      = ei (ix2 k e) := by
  rw [shapeCast_1a_a_apply, slice2_axis0_apply k.val ei hs (0 : Fin 1) e k (by simp)]

/-- So the whole flattened row is that row of the edge list. -/
theorem edgeRow_apply (ei : (⟨2, ![2, 1600000]⟩ : Shape).Idx → BitVec 32) (k : Fin 2)
    (hs : (⟨2, ![2, 1600000]⟩ : Shape).Slices ![k.val, 0] ⟨2, ![1, 1600000]⟩)
    (hc : (⟨2, ![1, 1600000]⟩ : Shape).ShapeCasts ⟨1, ![1600000]⟩) :
    shapeCast ⟨1, ![1600000]⟩ (extractStridedSlice ⟨2, ![1, 1600000]⟩ ![k.val, 0] ei hs) hc
      = fun i => ei (ix2 k (i 0)) := by
  funext i
  exact (congrArg _ (eq_ix1 i)).trans (edgeRow_at ei k hs hc (i 0))

/-- The normalisation of a vector of row numbers, at an index. -/
theorem normIdx_apply {s : Shape} (h0 h1 : (⟨0, ![]⟩ : Shape).BroadcastsInDim s ![]) (x : IVec s 32) (i : s.Idx) :
    select (cmpi .slt x (broadcastInDim s ![] h0 (constantI ⟨0, ![]⟩ 32 0#32)))
      (addi x (broadcastInDim s ![] h1 (constantI ⟨0, ![]⟩ 32 100000#32))) x i = normIdx (x i) := rfl

/-- THE AGGREGATE AS THE PROGRAMS SPELL IT: the sources normalised and laid out as a column, the rows gathered, and
    scattered with addition into a zero array at the destinations laid out as a column. -/
theorem agg_apply
    (wfG : GatherDims.WF ⟨2, ![100000, 128]⟩ ⟨2, ![1600000, 1]⟩ ⟨2, ![1600000, 128]⟩ [1] [0] [] [0] [] 1 ![1, 128])
    (wfS : ScatterDims.WF ⟨2, ![100000, 128]⟩ ⟨2, ![1600000, 1]⟩ ⟨2, ![1600000, 128]⟩ [1] [0] [0] 1)
    (x z : (⟨2, ![100000, 128]⟩ : Shape).Idx → EReal) (hz : ∀ i, z i = 0)
    (si di : IVec ⟨2, ![1600000, 1]⟩ 32) (src dst : (⟨1, ![1600000]⟩ : Shape).Idx → BitVec 32)
    (hsi : ∀ e : Fin 1600000, si (ix2 e (0 : Fin 1)) = normIdx (src (ix1 e)))
    (hdi : ∀ e : Fin 1600000, di (ix2 e (0 : Fin 1)) = dst (ix1 e)) :
    toMat (Host.scatterAdd (F := Ideal) (φ := .f32) (Cert.Lib.rowScatterDims 100000 1600000 128 wfS) z di
        (Host.gather (Cert.Lib.rowGatherDims 100000 1600000 128 wfG) x si))
      = AggOf dst src (toMat x) := by
  funext r j
  show Ideal.hostScatterAdd (Cert.Lib.rowScatterDims 100000 1600000 128 wfS) z di
      (Host.gather (Cert.Lib.rowGatherDims 100000 1600000 128 wfG) x si) (ix2 r j) = _
  rw [Cert.Lib.scatterAdd_rows_apply, hz, zero_add]
  have hl : Cert.Lib.landing di r = landing dst r := by
    unfold Cert.Lib.landing landing
    refine Finset.filter_congr fun e _ => ?_
    rw [hdi]
  rw [hl]
  unfold AggOf
  refine Finset.sum_congr rfl fun e _ => ?_
  rw [Cert.Lib.gather_rows_apply (hN := by decide)]
  have hr : Cert.Lib.rowOf (N := 100000) (by decide) si e = gatherRow src e := by
    unfold Cert.Lib.rowOf gatherRow
    simp only [hsi]
  rw [hr]
  rfl

/-- The same with every layout step written out, as both programs print it. -/
theorem agg_chain
    (wfG : GatherDims.WF ⟨2, ![100000, 128]⟩ ⟨2, ![1600000, 1]⟩ ⟨2, ![1600000, 128]⟩ [1] [0] [] [0] [] 1 ![1, 128])
    (wfS : ScatterDims.WF ⟨2, ![100000, 128]⟩ ⟨2, ![1600000, 1]⟩ ⟨2, ![1600000, 128]⟩ [1] [0] [0] 1)
    (h0 h1 : (⟨0, ![]⟩ : Shape).BroadcastsInDim ⟨1, ![1600000]⟩ ![])
    (hc hc' : (⟨1, ![1600000]⟩ : Shape).BroadcastsInDim ⟨2, ![1600000, 1]⟩ ![0])
    (hz : (⟨0, ![]⟩ : Shape).BroadcastsInDim ⟨2, ![100000, 128]⟩ ![])
    (x : (⟨2, ![100000, 128]⟩ : Shape).Idx → EReal) (dst src : (⟨1, ![1600000]⟩ : Shape).Idx → BitVec 32) :
    toMat (Host.scatterAdd (F := Ideal) (φ := .f32) (Cert.Lib.rowScatterDims 100000 1600000 128 wfS)
        (broadcastInDim ⟨2, ![100000, 128]⟩ ![] hz (constant (F := Ideal) ⟨0, ![]⟩ .f32 0x00000000#32))
        (broadcastInDim ⟨2, ![1600000, 1]⟩ ![0] hc dst)
        (Host.gather (Cert.Lib.rowGatherDims 100000 1600000 128 wfG) x
          (broadcastInDim ⟨2, ![1600000, 1]⟩ ![0] hc'
            (select (cmpi .slt src (broadcastInDim ⟨1, ![1600000]⟩ ![] h0 (constantI ⟨0, ![]⟩ 32 0#32)))
              (addi src (broadcastInDim ⟨1, ![1600000]⟩ ![] h1 (constantI ⟨0, ![]⟩ 32 100000#32))) src))))
      = AggOf dst src (toMat x) := by
  refine agg_apply wfG wfS x _ (fun i => ?_) _ _ src dst (fun e => ?_) (fun e => ?_)
  · rw [broadcastInDim_scalar_apply, constant_apply, Ideal.ofBits_zero_f32]
  · rw [Cert.Net.broadcastInDim_a_a1_apply, normIdx_apply]
  · rw [Cert.Net.broadcastInDim_a_a1_apply]

/-! ## The literals -/

/-- The ε of the normalisation: the single-precision number nearest 1e-5. -/
def epsR : ℝ := 10995116 / 1099511627776

theorem epsR_pos : 0 < epsR := by unfold epsR; norm_num

theorem ofBits_eps : Ideal.ofBits .f32 0x3727C5AC#32 = ((epsR : ℝ) : EReal) := by
  unfold epsR
  simp [Ideal.ofBits, Ideal.ieee, -EReal.coe_mul]; norm_num

/-- The node count, 1.0e5. -/
theorem ofBits_n : Ideal.ofBits .f32 0x47C35000#32 = (((100000 : ℕ) : ℝ) : EReal) := by
  simp [Ideal.ofBits, Ideal.ieee, -EReal.coe_mul]; norm_num

/-- The node count and ε as the extended reals the programs' literals denote. -/
abbrev cE : EReal := (((100000 : ℕ) : ℝ) : EReal)
abbrev eE : EReal := ((epsR : ℝ) : EReal)

/-! ## Layout steps at an index -/

section Layout

variable {α : Type}

/-- A vector [b] laid along the columns of a one-row array [1, b] reads, at (u, j), the vector at j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- Row k of an [m, b] array cut out as a one-row array reads, at (0, j), the array at (k, j). -/
theorem sliceRow_apply {m b : ℕ} (k : Fin m) (X : (⟨2, ![m, b]⟩ : Shape).Idx → α)
    (h : (⟨2, ![m, b]⟩ : Shape).Slices ![k.val, 0] ⟨2, ![1, b]⟩) (j : Fin b) :
    extractStridedSlice ⟨2, ![1, b]⟩ ![k.val, 0] X h (ix2 (0 : Fin 1) j) = X (ix2 k j) :=
  slice2_axis0_apply k.val X h (0 : Fin 1) j k (by simp)

end Layout

/-! ## The column sums and the statistics at an index -/

/-- The host's sum over the rows of an [n, d] array, from the initial value, at column j. -/
theorem reduceRows_apply {n d : ℕ} (x : (⟨2, ![n, d]⟩ : Shape).Idx → EReal) (init : (⟨0, ![]⟩ : Shape).Idx → EReal)
    (h' : (⟨2, ![n, d]⟩ : Shape).ReducesTo [0] ⟨1, ![d]⟩) (h : (⟨2, ![n, d]⟩ : Shape).Reduces [0] ⟨1, ![d]⟩)
    (hu : 0 < (⟨0, ![]⟩ : Shape).numel) (j : Fin d) :
    Host.reduceAdd (F := Ideal) (φ := .f32) x init h' hu (ix1 j) = init ix0 + ∑ i : Fin n, x (ix2 i j) := by
  rw [hostReduceAdd_apply, Ideal.hostReduceAdd_single h' h]
  congr 1
  · exact congrArg init (eq_ix0 _)
  · refine Finset.sum_congr rfl fun i _ => congrArg x ?_
    funext c; apply Fin.ext
    fin_cases c <;> rfl

/-- The column sums as the programs spell them: the sum over the rows from a zero, laid out as one row. -/
theorem colSum_chain {n d : ℕ} (x : (⟨2, ![n, d]⟩ : Shape).Idx → EReal)
    (h' : (⟨2, ![n, d]⟩ : Shape).ReducesTo [0] ⟨1, ![d]⟩) (h : (⟨2, ![n, d]⟩ : Shape).Reduces [0] ⟨1, ![d]⟩)
    (hu : 0 < (⟨0, ![]⟩ : Shape).numel) (hb : (⟨1, ![d]⟩ : Shape).BroadcastsInDim ⟨2, ![1, d]⟩ ![1]) :
    toRow1 (broadcastInDim ⟨2, ![1, d]⟩ ![1] hb
        (Host.reduceAdd (F := Ideal) (φ := .f32) x (constant (F := Ideal) ⟨0, ![]⟩ .f32 0x00000000#32) h' hu))
      = colSum (toMat x) := by
  funext j
  simp only [toRow1]
  rw [bcast_b_1b_apply, reduceRows_apply x _ h' h hu, constant_apply, Ideal.ofBits_zero_f32, zero_add]
  rfl

/-- A one-row array divided by the node count spread over it. -/
theorem divN_apply {s : Shape} (x : s.Idx → EReal) (hb : (⟨0, ![]⟩ : Shape).BroadcastsInDim s ![]) (i : s.Idx) :
    Host.divf (F := Ideal) (φ := .f32) x (broadcastInDim s ![] hb (constant (F := Ideal) ⟨0, ![]⟩ .f32 0x47C35000#32)) i
      = Ideal.div (x i) cE := by
  rw [hostDivf_apply, broadcastInDim_scalar_apply, constant_apply, ofBits_n]

/-- ε spread over an array and added. -/
theorem addEps_apply {s : Shape} (x : s.Idx → EReal) (hb : (⟨0, ![]⟩ : Shape).BroadcastsInDim s ![]) (i : s.Idx) :
    addf (F := Ideal) (φ := .f32) x (broadcastInDim s ![] hb (constant (F := Ideal) ⟨0, ![]⟩ .f32 0x3727C5AC#32)) i
      = x i + eE := by
  rw [addf_apply, broadcastInDim_scalar_apply, constant_apply, ofBits_eps]

/-- The host's reciprocal square root at an index. -/
theorem hostRsqrt_apply {s : Shape} (x : s.Idx → EReal) (i : s.Idx) :
    Host.rsqrt (F := Ideal) (φ := .f32) x i = Ideal.rsqrt (x i) := rfl

/-! ## The reference's variance: its count, its guard and its select -/

/-- The node count is positive. -/
theorem cE_pos : (0 : EReal) < cE := by
  show (0 : EReal) < (((100000 : ℕ) : ℝ) : EReal)
  exact_mod_cast (by norm_num : (0 : ℝ) < ((100000 : ℕ) : ℝ))

/-- The integer zero converted to a float is zero. -/
theorem sitofp_zero_apply (i : (⟨0, ![]⟩ : Shape).Idx) :
    sitofp (F := Ideal) .f32 (constantI ⟨0, ![]⟩ 32 0#32) i = 0 := by
  show (((0#32 : BitVec 32).toInt : ℝ) : EReal) = 0
  simp

/-- The count the reference's variance divides by: the node count less zero degrees of freedom. -/
theorem countLessZero_apply (i : (⟨0, ![]⟩ : Shape).Idx) :
    subf (F := Ideal) (φ := .f32) (constant (F := Ideal) ⟨0, ![]⟩ .f32 0x47C35000#32)
      (sitofp (F := Ideal) .f32 (constantI ⟨0, ![]⟩ 32 0#32)) i = cE := by
  rw [subf_apply, sitofp_zero_apply, constant_apply, ofBits_n, sub_zero]

/-- A sum divided by that count, spread over the array. -/
theorem divCount_apply {s : Shape} (x : s.Idx → EReal) (hb : (⟨0, ![]⟩ : Shape).BroadcastsInDim s ![]) (i : s.Idx) :
    Host.divf (F := Ideal) (φ := .f32) x (broadcastInDim s ![] hb
      (subf (F := Ideal) (φ := .f32) (constant (F := Ideal) ⟨0, ![]⟩ .f32 0x47C35000#32)
        (sitofp (F := Ideal) .f32 (constantI ⟨0, ![]⟩ 32 0#32)))) i = Ideal.div (x i) cE := by
  rw [hostDivf_apply, broadcastInDim_scalar_apply, countLessZero_apply]

/-- The count is greater than zero, so the guarded select takes its first branch. -/
theorem whereCount_apply {s : Shape} (a b : s.Idx → EReal) (hb : (⟨0, ![]⟩ : Shape).BroadcastsInDim s ![]) (i : s.Idx) :
    select (broadcastInDim s ![] hb
      (cmpf (F := Ideal) (φ := .f32) .ogt
        (subf (F := Ideal) (φ := .f32) (constant (F := Ideal) ⟨0, ![]⟩ .f32 0x47C35000#32)
          (sitofp (F := Ideal) .f32 (constantI ⟨0, ![]⟩ 32 0#32)))
        (constant (F := Ideal) ⟨0, ![]⟩ .f32 0x00000000#32))) a b i = a i := by
  rw [select_apply, broadcastInDim_scalar_apply, cmpf_apply, countLessZero_apply, constant_apply,
    Ideal.ofBits_zero_f32]
  have h : FloatOps.cmpf (F := Ideal) (φ := .f32) .ogt cE 0 = 1#1 := by
    show BitVec.ofBool (decide ((0 : EReal) < cE)) = 1#1
    rw [decide_eq_true cE_pos]; rfl
  rw [h, select_one]

/-- The larger of an entry and a zero spread over the array. -/
theorem maxZero_apply {s : Shape} (x : s.Idx → EReal) (hb : (⟨0, ![]⟩ : Shape).BroadcastsInDim s ![]) (i : s.Idx) :
    maximumf (F := Ideal) (φ := .f32) x (broadcastInDim s ![] hb (constant (F := Ideal) ⟨0, ![]⟩ .f32 0x00000000#32)) i
      = max (x i) 0 := by
  rw [maximumf_apply, broadcastInDim_scalar_apply, constant_apply, Ideal.ofBits_zero_f32]

end Cert.HostSpec

end
-- ==== Proof.KI.Host.lean ====
/-
  The host stretches of the kernel program, read at an index.

  Before each combine call the host gathers and scatter-adds the neighbour aggregate and sums the columns for the
  readout; after it, from the two accumulated rows (the column sums of the combined features and of their squares),
  it takes the mean, the variance as E[u²] − (E[u])², the reciprocal square root of the variance plus ε, and cuts the
  layer's row out of the scale and shift tables; before the last call it views the bias as one row. Each is read
  from whatever the buffers hold on entry.
-/
import proofs.«107997_j14224931684915_1_alg».proof.Proof.Gen.KernelIdeal.Launch
import proofs.«107997_j14224931684915_1_alg».proof.Proof.HostSpec

set_option maxRecDepth 1220

noncomputable section

namespace Cert.KernelIdeal.HandV

open Idealize.ShloMosaic Idealize.ShloMosaic.ValueIdx Idealize.ShloMosaic.TcCoe Idealize.ShloMosaic.StableHlo
open Cert.KernelIdeal Cert.KernelIdeal.Gen Cert.Spec Cert.Conv Cert.HostSpec

variable (W : Valuation τ sig (Elt Ideal))

/-! ## Stretch 0: the edge list's rows, the first aggregate and readout -/

theorem stretch0_dst :
    (StableHlo.after hostOps0 W main_v1 : S1600000.Idx → BitVec 32) = dstOf (W main_arg1) := by
  after_results
  exact edgeRow_apply (W main_arg1) 0 _ _

theorem stretch0_src :
    (StableHlo.after hostOps0 W main_v3 : S1600000.Idx → BitVec 32) = srcOf (W main_arg1) := by
  after_results
  exact edgeRow_apply (W main_arg1) 1 _ _

theorem stretch0_agg :
    toMat (StableHlo.after hostOps0 W main_v13 : S100000x128.Idx → EReal)
      = AggOf (dstOf (W main_arg1)) (srcOf (W main_arg1)) (toMat (W main_arg0 : S100000x128.Idx → EReal)) := by
  after_results_simp
  refine (agg_chain _ _ _ _ _ _ _ (W main_arg0) _ _).trans ?_
  congr 1
  · exact edgeRow_apply (W main_arg1) 0 _ _
  · exact edgeRow_apply (W main_arg1) 1 _ _

theorem stretch0_readout :
    toRow1 (StableHlo.after hostOps0 W main_v15 : S1x128.Idx → EReal)
      = colSum (toMat (W main_arg0 : S100000x128.Idx → EReal)) := by
  after_results
  exact colSum_chain (W main_arg0) _ (by decide) _ _

/-! ## Stretches 2 and 4: the later aggregates and readouts -/

theorem stretch2_agg :
    toMat (StableHlo.after hostOps2 W main_v38 : S100000x128.Idx → EReal)
      = AggOf (W main_v1) (W main_v3) (toMat (W main_v28 : S100000x128.Idx → EReal)) := by
  after_results_simp
  exact agg_chain _ _ _ _ _ _ _ (W main_v28) (W main_v1) (W main_v3)

theorem stretch2_readout :
    toRow1 (StableHlo.after hostOps2 W main_v40 : S1x128.Idx → EReal)
      = colSum (toMat (W main_v28 : S100000x128.Idx → EReal)) := by
  after_results
  exact colSum_chain (W main_v28) _ (by decide) _ _

theorem stretch4_agg :
    toMat (StableHlo.after hostOps4 W main_v63 : S100000x128.Idx → EReal)
      = AggOf (W main_v1) (W main_v3) (toMat (W main_v53 : S100000x128.Idx → EReal)) := by
  after_results_simp
  exact agg_chain _ _ _ _ _ _ _ (W main_v53) (W main_v1) (W main_v3)

theorem stretch4_readout :
    toRow1 (StableHlo.after hostOps4 W main_v65 : S1x128.Idx → EReal)
      = colSum (toMat (W main_v53 : S100000x128.Idx → EReal)) := by
  after_results
  exact colSum_chain (W main_v53) _ (by decide) _ _

/-! ## Stretches 1, 3 and 5: the statistics and the layer's scale and shift rows -/

theorem stretch1_mean :
    toRow1 (StableHlo.after hostOps1 W main_v18 : S1x128.Idx → EReal)
      = fun j => Ideal.div (toRow1 (W main_v16_1 : S1x128.Idx → EReal) j) cE := by
  after_results
  funext j
  exact divN_apply _ _ _

theorem stretch1_inv :
    toRow1 (StableHlo.after hostOps1 W main_v25 : S1x128.Idx → EReal)
      = fun j => Ideal.rsqrt (Ideal.div (toRow1 (W main_v16_2 : S1x128.Idx → EReal) j) cE
          - Ideal.div (toRow1 (W main_v16_1 : S1x128.Idx → EReal) j) cE
            * Ideal.div (toRow1 (W main_v16_1 : S1x128.Idx → EReal) j) cE + eE) := by
  after_results
  funext j
  simp only [toRow1]
  rw [hostRsqrt_apply, addEps_apply, subf_apply, mulf_apply, divN_apply, divN_apply]

theorem stretch1_gamma :
    toRow1 (StableHlo.after hostOps1 W main_v26 : S1x128.Idx → EReal)
      = fun j => toMat (W main_arg2 : S3x128.Idx → EReal) 0 j := by
  after_results
  funext j
  exact sliceRow_apply (0 : Fin 3) (W main_arg2) _ j

theorem stretch1_beta :
    toRow1 (StableHlo.after hostOps1 W main_v27 : S1x128.Idx → EReal)
      = fun j => toMat (W main_arg3 : S3x128.Idx → EReal) 0 j := by
  after_results
  funext j
  exact sliceRow_apply (0 : Fin 3) (W main_arg3) _ j

theorem stretch3_mean :
    toRow1 (StableHlo.after hostOps3 W main_v43 : S1x128.Idx → EReal)
      = fun j => Ideal.div (toRow1 (W main_v41_1 : S1x128.Idx → EReal) j) cE := by
  after_results
  funext j
  exact divN_apply _ _ _

theorem stretch3_inv :
    toRow1 (StableHlo.after hostOps3 W main_v50 : S1x128.Idx → EReal)
      = fun j => Ideal.rsqrt (Ideal.div (toRow1 (W main_v41_2 : S1x128.Idx → EReal) j) cE
          - Ideal.div (toRow1 (W main_v41_1 : S1x128.Idx → EReal) j) cE
            * Ideal.div (toRow1 (W main_v41_1 : S1x128.Idx → EReal) j) cE + eE) := by
  after_results
  funext j
  simp only [toRow1]
  rw [hostRsqrt_apply, addEps_apply, subf_apply, mulf_apply, divN_apply, divN_apply]

theorem stretch3_gamma :
    toRow1 (StableHlo.after hostOps3 W main_v51 : S1x128.Idx → EReal)
      = fun j => toMat (W main_arg2 : S3x128.Idx → EReal) 1 j := by
  after_results
  funext j
  exact sliceRow_apply (1 : Fin 3) (W main_arg2) _ j

theorem stretch3_beta :
    toRow1 (StableHlo.after hostOps3 W main_v52 : S1x128.Idx → EReal)
      = fun j => toMat (W main_arg3 : S3x128.Idx → EReal) 1 j := by
  after_results
  funext j
  exact sliceRow_apply (1 : Fin 3) (W main_arg3) _ j

theorem stretch5_mean :
    toRow1 (StableHlo.after hostOps5 W main_v68 : S1x128.Idx → EReal)
      = fun j => Ideal.div (toRow1 (W main_v66_1 : S1x128.Idx → EReal) j) cE := by
  after_results
  funext j
  exact divN_apply _ _ _

theorem stretch5_inv :
    toRow1 (StableHlo.after hostOps5 W main_v75 : S1x128.Idx → EReal)
      = fun j => Ideal.rsqrt (Ideal.div (toRow1 (W main_v66_2 : S1x128.Idx → EReal) j) cE
          - Ideal.div (toRow1 (W main_v66_1 : S1x128.Idx → EReal) j) cE
            * Ideal.div (toRow1 (W main_v66_1 : S1x128.Idx → EReal) j) cE + eE) := by
  after_results
  funext j
  simp only [toRow1]
  rw [hostRsqrt_apply, addEps_apply, subf_apply, mulf_apply, divN_apply, divN_apply]

theorem stretch5_gamma :
    toRow1 (StableHlo.after hostOps5 W main_v76 : S1x128.Idx → EReal)
      = fun j => toMat (W main_arg2 : S3x128.Idx → EReal) 2 j := by
  after_results
  funext j
  exact sliceRow_apply (2 : Fin 3) (W main_arg2) _ j

theorem stretch5_beta :
    toRow1 (StableHlo.after hostOps5 W main_v77 : S1x128.Idx → EReal)
      = fun j => toMat (W main_arg3 : S3x128.Idx → EReal) 2 j := by
  after_results
  funext j
  exact sliceRow_apply (2 : Fin 3) (W main_arg3) _ j

/-! ## Stretch 6: the bias as one row -/

theorem stretch6_bias :
    toRow1 (StableHlo.after hostOps6 W main_v79 : S1x64.Idx → EReal) = toRow (W main_arg5 : S64.Idx → EReal) := by
  after_results
  funext j
  exact shapeCast_a_1a_apply (W main_arg5) _ 0 j

end Cert.KernelIdeal.HandV

end
-- ==== Proof.Net.lean ====
/-
  The whole network as mathematics: three layers, each fed its own aggregate, scale row and shift row,
  then the node-task head. It is written once over the way the variance is taken; the two programs
  instantiate it with E[u²] − (E[u])² and with E[(u − E[u])²]. On finite inputs, with an aggregation that
  keeps entries finite, the two instances are the same matrix: each layer's two arrangements agree and
  hand finite entries to the next layer, so the agreement can be applied three times in a row.
-/
import proofs.«107997_j14224931684915_1_alg».proof.Proof.Spec
import proofs.«107997_j14224931684915_1_alg».proof.Proof.Conv

noncomputable section

namespace Cert.Net3

open Idealize.ShloMosaic Cert.Spec

/-- Three layers (layer `k` uses row `k` of the scales `G` and of the shifts `B`, and aggregates its own
    entering features with `agg`), then features times weights plus bias. -/
def net {n d o : ℕ} (var : EReal → Cert.Spec.Mat n d → Cert.Spec.Row d) (c eps : EReal)
    (agg : Cert.Spec.Mat n d → Cert.Spec.Mat n d) (x : Cert.Spec.Mat n d) (G B : Cert.Spec.Mat 3 d)
    (W : Cert.Spec.Mat d o) (b : Cert.Spec.Row o) : Cert.Spec.Mat n o :=
  let l := fun (k : Fin 3) (h : Cert.Spec.Mat n d) => Cert.Spec.layerWith var c eps h (agg h) (G k) (B k)
  Cert.Conv.head (l 2 (l 1 (l 0 x))) W b

/-- One layer of the network on finite entering features: the two arrangements agree, and the result is
    finite again. -/
theorem layer_step {n d : ℕ} (hn : 0 < n) (e : ℝ) (he : 0 < e)
    (agg : Cert.Spec.Mat n d → Cert.Spec.Mat n d)
    (hagg : ∀ h, Cert.Spec.MatFin h → Cert.Spec.MatFin (agg h))
    (G B : Cert.Spec.Mat 3 d) (hG : MatFin G) (hB : MatFin B) (k : Fin 3)
    (h : Cert.Spec.Mat n d) (hh : MatFin h) :
    layerWith varK ((n : ℝ) : EReal) (e : EReal) h (agg h) (G k) (B k)
        = layerWith varR ((n : ℝ) : EReal) (e : EReal) h (agg h) (G k) (B k)
      ∧ MatFin (layerWith varR ((n : ℝ) : EReal) (e : EReal) h (agg h) (G k) (B k)) :=
  ⟨layerK_eq_layerR hn e he h (agg h) (G k) (B k) hh (hagg h hh),
   layerR_fin hn e he h (agg h) (G k) (B k) hh (hagg h hh) (fun j => hG k j) (fun j => hB k j)⟩

/-- The network with the kernel's variance is the network with the reference's variance. -/
theorem net_eq {n d o : ℕ} (hn : 0 < n) (e : ℝ) (he : 0 < e)
    (agg : Cert.Spec.Mat n d → Cert.Spec.Mat n d)
    (hagg : ∀ h, Cert.Spec.MatFin h → Cert.Spec.MatFin (agg h))
    (x : Cert.Spec.Mat n d) (G B : Cert.Spec.Mat 3 d) (W : Cert.Spec.Mat d o) (b : Cert.Spec.Row o)
    (hx : MatFin x) (hG : MatFin G) (hB : MatFin B) :
    net Cert.Spec.varK ((n : ℝ) : EReal) (e : EReal) agg x G B W b
      = net Cert.Spec.varR ((n : ℝ) : EReal) (e : EReal) agg x G B W b := by
  have s0 := layer_step hn e he agg hagg G B hG hB 0 x hx
  have s1 := layer_step hn e he agg hagg G B hG hB 1 _ s0.2
  have s2 := layer_step hn e he agg hagg G B hG hB 2 _ s1.2
  simp only [net]
  rw [s0.1, s1.1, s2.1]

end Cert.Net3

end
-- ==== Proof.KI.Value.lean ====
/-
  The kernel program's result as one function of its arguments.

  The program is seven host stretches alternating with seven regions. Walking back from the last region's output:
  it is the head (features times weights plus bias) of what the sixth region left; a normalising region leaves the
  normalisation of the combined features by the four rows the stretch before it computed — the mean and the
  reciprocal deviation from the two accumulated rows, the layer's scale and shift rows cut from their tables —;
  a combining region leaves the combined features with their column sums and the column sums of their squares,
  from the entering features, their aggregate and their readout row, which the stretch before it computed. Put
  together, each pair of regions with its two stretches is one layer in the arrangement E[u²] − (E[u])² of the
  variance, applied to the features the previous layer left; the edge list's rows, the two tables, the weights
  and the bias are read where they are needed exactly as they were at launch, since nothing in between writes them.
-/
import proofs.«107997_j14224931684915_1_alg».proof.Proof.KI.Run
import proofs.«107997_j14224931684915_1_alg».proof.Proof.KI.Reg0Value
import proofs.«107997_j14224931684915_1_alg».proof.Proof.KI.Reg1Value
import proofs.«107997_j14224931684915_1_alg».proof.Proof.KI.Reg2Value
import proofs.«107997_j14224931684915_1_alg».proof.Proof.KI.Reg3Value
import proofs.«107997_j14224931684915_1_alg».proof.Proof.KI.Reg4Value
import proofs.«107997_j14224931684915_1_alg».proof.Proof.KI.Reg5Value
import proofs.«107997_j14224931684915_1_alg».proof.Proof.KI.Reg6Value
import proofs.«107997_j14224931684915_1_alg».proof.Proof.KI.Host
import proofs.«107997_j14224931684915_1_alg».proof.Proof.HostSpec
import proofs.«107997_j14224931684915_1_alg».proof.Proof.Net

set_option maxRecDepth 16384

noncomputable section

namespace Cert.KernelIdeal.HandV

open Idealize.ShloMosaic Idealize.ShloMosaic.ValueIdx Idealize.ShloMosaic.TcCoe Idealize.ShloMosaic.StableHlo
open Cert.KernelIdeal Cert.KernelIdeal.Gen Cert.KernelIdeal.Hand Cert.Spec Cert.Conv Cert.HostSpec
open Idealize.ShloMosaic.Pipeline (Dat Cfg Window)

/-! ## One layer as mathematics -/

/-- The kernel's arrangement of a layer, assembled from its pieces: the readout row is the column sums of the
    entering features, the combined features are read with their column sums and the column sums of their squares,
    the mean and the reciprocal deviation are taken from those two rows, and the result is the normalisation. -/
theorem layer_math {n d : ℕ} (c e : EReal) (H A A' : Mat n d) (r : Row d) (U : Mat n d)
    (s1 s2 mean inv g b G B : Row d) (out : Mat n d)
    (hA : A = A') (hr : r = colSum H) (hU : U = combine H A r) (hs1 : s1 = colSum U)
    (hs2 : s2 = colSum (fun i j => U i j * U i j))
    (hmean : mean = fun j => Ideal.div (s1 j) c)
    (hinv : inv = fun j => Ideal.rsqrt (Ideal.div (s2 j) c - Ideal.div (s1 j) c * Ideal.div (s1 j) c + e))
    (hg : g = G) (hb : b = B) (hout : out = normalize U mean inv g b) :
    out = layerWith varK c e H A' G B := by
  subst hA hr hU hs1 hs2 hmean hinv hg hb hout
  rfl

variable (m : (ℓ : Loc nD τ sig) → Buf (Elt Ideal) ℓ) (ρ : Dev nD → PrngReg) (c : Dev nD)

/-! ## Buffers carried unchanged across the boundaries

A host stretch leaves a buffer it does not write as it was; a region leaves a buffer that is none of its windows' arrays
as it was. So the edge list's two rows (read once, in the first stretch), the scale and shift tables, the weights and
the bias reach every later boundary as they were at launch. -/

theorem keep_main_v1_1 : (W1 m ρ c main_v1 : S1600000.Idx → BitVec 32) = dstOf (m ((c : Thread nD τ).loc main_arg1)) := stretch0_dst (W0 m ρ c)
theorem keep_main_v1_2 : (W2 m ρ c main_v1 : S1600000.Idx → BitVec 32) = dstOf (m ((c : Thread nD τ).loc main_arg1)) := (W2_of_ne m ρ c main_v1 (by decide)).trans (keep_main_v1_1 m ρ c)
theorem keep_main_v1_3 : (W3 m ρ c main_v1 : S1600000.Idx → BitVec 32) = dstOf (m ((c : Thread nD τ).loc main_arg1)) := (W3_of m ρ c main_v1 (by decide)).trans (keep_main_v1_2 m ρ c)
theorem keep_main_v1_4 : (W4 m ρ c main_v1 : S1600000.Idx → BitVec 32) = dstOf (m ((c : Thread nD τ).loc main_arg1)) := (W4_of_ne m ρ c main_v1 (by decide)).trans (keep_main_v1_3 m ρ c)
theorem keep_main_v1_5 : (W5 m ρ c main_v1 : S1600000.Idx → BitVec 32) = dstOf (m ((c : Thread nD τ).loc main_arg1)) := (W5_of m ρ c main_v1 (by decide)).trans (keep_main_v1_4 m ρ c)
theorem keep_main_v1_6 : (W6 m ρ c main_v1 : S1600000.Idx → BitVec 32) = dstOf (m ((c : Thread nD τ).loc main_arg1)) := (W6_of_ne m ρ c main_v1 (by decide)).trans (keep_main_v1_5 m ρ c)
theorem keep_main_v1_7 : (W7 m ρ c main_v1 : S1600000.Idx → BitVec 32) = dstOf (m ((c : Thread nD τ).loc main_arg1)) := (W7_of m ρ c main_v1 (by decide)).trans (keep_main_v1_6 m ρ c)
theorem keep_main_v1_8 : (W8 m ρ c main_v1 : S1600000.Idx → BitVec 32) = dstOf (m ((c : Thread nD τ).loc main_arg1)) := (W8_of_ne m ρ c main_v1 (by decide)).trans (keep_main_v1_7 m ρ c)
theorem keep_main_v3_1 : (W1 m ρ c main_v3 : S1600000.Idx → BitVec 32) = srcOf (m ((c : Thread nD τ).loc main_arg1)) := stretch0_src (W0 m ρ c)
theorem keep_main_v3_2 : (W2 m ρ c main_v3 : S1600000.Idx → BitVec 32) = srcOf (m ((c : Thread nD τ).loc main_arg1)) := (W2_of_ne m ρ c main_v3 (by decide)).trans (keep_main_v3_1 m ρ c)
theorem keep_main_v3_3 : (W3 m ρ c main_v3 : S1600000.Idx → BitVec 32) = srcOf (m ((c : Thread nD τ).loc main_arg1)) := (W3_of m ρ c main_v3 (by decide)).trans (keep_main_v3_2 m ρ c)
theorem keep_main_v3_4 : (W4 m ρ c main_v3 : S1600000.Idx → BitVec 32) = srcOf (m ((c : Thread nD τ).loc main_arg1)) := (W4_of_ne m ρ c main_v3 (by decide)).trans (keep_main_v3_3 m ρ c)
theorem keep_main_v3_5 : (W5 m ρ c main_v3 : S1600000.Idx → BitVec 32) = srcOf (m ((c : Thread nD τ).loc main_arg1)) := (W5_of m ρ c main_v3 (by decide)).trans (keep_main_v3_4 m ρ c)
theorem keep_main_v3_6 : (W6 m ρ c main_v3 : S1600000.Idx → BitVec 32) = srcOf (m ((c : Thread nD τ).loc main_arg1)) := (W6_of_ne m ρ c main_v3 (by decide)).trans (keep_main_v3_5 m ρ c)
theorem keep_main_v3_7 : (W7 m ρ c main_v3 : S1600000.Idx → BitVec 32) = srcOf (m ((c : Thread nD τ).loc main_arg1)) := (W7_of m ρ c main_v3 (by decide)).trans (keep_main_v3_6 m ρ c)
theorem keep_main_v3_8 : (W8 m ρ c main_v3 : S1600000.Idx → BitVec 32) = srcOf (m ((c : Thread nD τ).loc main_arg1)) := (W8_of_ne m ρ c main_v3 (by decide)).trans (keep_main_v3_7 m ρ c)
theorem keep_main_arg2_0 : (W0 m ρ c main_arg2 : S3x128.Idx → EReal) = (m ((c : Thread nD τ).loc main_arg2)) := rfl
theorem keep_main_arg2_1 : (W1 m ρ c main_arg2 : S3x128.Idx → EReal) = (m ((c : Thread nD τ).loc main_arg2)) := (W1_of m ρ c main_arg2 (by decide)).trans (keep_main_arg2_0 m ρ c)
theorem keep_main_arg2_2 : (W2 m ρ c main_arg2 : S3x128.Idx → EReal) = (m ((c : Thread nD τ).loc main_arg2)) := (W2_of_ne m ρ c main_arg2 (by decide)).trans (keep_main_arg2_1 m ρ c)
theorem keep_main_arg2_3 : (W3 m ρ c main_arg2 : S3x128.Idx → EReal) = (m ((c : Thread nD τ).loc main_arg2)) := (W3_of m ρ c main_arg2 (by decide)).trans (keep_main_arg2_2 m ρ c)
theorem keep_main_arg2_4 : (W4 m ρ c main_arg2 : S3x128.Idx → EReal) = (m ((c : Thread nD τ).loc main_arg2)) := (W4_of_ne m ρ c main_arg2 (by decide)).trans (keep_main_arg2_3 m ρ c)
theorem keep_main_arg2_5 : (W5 m ρ c main_arg2 : S3x128.Idx → EReal) = (m ((c : Thread nD τ).loc main_arg2)) := (W5_of m ρ c main_arg2 (by decide)).trans (keep_main_arg2_4 m ρ c)
theorem keep_main_arg2_6 : (W6 m ρ c main_arg2 : S3x128.Idx → EReal) = (m ((c : Thread nD τ).loc main_arg2)) := (W6_of_ne m ρ c main_arg2 (by decide)).trans (keep_main_arg2_5 m ρ c)
theorem keep_main_arg2_7 : (W7 m ρ c main_arg2 : S3x128.Idx → EReal) = (m ((c : Thread nD τ).loc main_arg2)) := (W7_of m ρ c main_arg2 (by decide)).trans (keep_main_arg2_6 m ρ c)
theorem keep_main_arg2_8 : (W8 m ρ c main_arg2 : S3x128.Idx → EReal) = (m ((c : Thread nD τ).loc main_arg2)) := (W8_of_ne m ρ c main_arg2 (by decide)).trans (keep_main_arg2_7 m ρ c)
theorem keep_main_arg2_9 : (W9 m ρ c main_arg2 : S3x128.Idx → EReal) = (m ((c : Thread nD τ).loc main_arg2)) := (W9_of m ρ c main_arg2 (by decide)).trans (keep_main_arg2_8 m ρ c)
theorem keep_main_arg2_10 : (W10 m ρ c main_arg2 : S3x128.Idx → EReal) = (m ((c : Thread nD τ).loc main_arg2)) := (W10_of_ne m ρ c main_arg2 (by decide)).trans (keep_main_arg2_9 m ρ c)
theorem keep_main_arg3_0 : (W0 m ρ c main_arg3 : S3x128.Idx → EReal) = (m ((c : Thread nD τ).loc main_arg3)) := rfl
theorem keep_main_arg3_1 : (W1 m ρ c main_arg3 : S3x128.Idx → EReal) = (m ((c : Thread nD τ).loc main_arg3)) := (W1_of m ρ c main_arg3 (by decide)).trans (keep_main_arg3_0 m ρ c)
theorem keep_main_arg3_2 : (W2 m ρ c main_arg3 : S3x128.Idx → EReal) = (m ((c : Thread nD τ).loc main_arg3)) := (W2_of_ne m ρ c main_arg3 (by decide)).trans (keep_main_arg3_1 m ρ c)
theorem keep_main_arg3_3 : (W3 m ρ c main_arg3 : S3x128.Idx → EReal) = (m ((c : Thread nD τ).loc main_arg3)) := (W3_of m ρ c main_arg3 (by decide)).trans (keep_main_arg3_2 m ρ c)
theorem keep_main_arg3_4 : (W4 m ρ c main_arg3 : S3x128.Idx → EReal) = (m ((c : Thread nD τ).loc main_arg3)) := (W4_of_ne m ρ c main_arg3 (by decide)).trans (keep_main_arg3_3 m ρ c)
theorem keep_main_arg3_5 : (W5 m ρ c main_arg3 : S3x128.Idx → EReal) = (m ((c : Thread nD τ).loc main_arg3)) := (W5_of m ρ c main_arg3 (by decide)).trans (keep_main_arg3_4 m ρ c)
theorem keep_main_arg3_6 : (W6 m ρ c main_arg3 : S3x128.Idx → EReal) = (m ((c : Thread nD τ).loc main_arg3)) := (W6_of_ne m ρ c main_arg3 (by decide)).trans (keep_main_arg3_5 m ρ c)
theorem keep_main_arg3_7 : (W7 m ρ c main_arg3 : S3x128.Idx → EReal) = (m ((c : Thread nD τ).loc main_arg3)) := (W7_of m ρ c main_arg3 (by decide)).trans (keep_main_arg3_6 m ρ c)
theorem keep_main_arg3_8 : (W8 m ρ c main_arg3 : S3x128.Idx → EReal) = (m ((c : Thread nD τ).loc main_arg3)) := (W8_of_ne m ρ c main_arg3 (by decide)).trans (keep_main_arg3_7 m ρ c)
theorem keep_main_arg3_9 : (W9 m ρ c main_arg3 : S3x128.Idx → EReal) = (m ((c : Thread nD τ).loc main_arg3)) := (W9_of m ρ c main_arg3 (by decide)).trans (keep_main_arg3_8 m ρ c)
theorem keep_main_arg3_10 : (W10 m ρ c main_arg3 : S3x128.Idx → EReal) = (m ((c : Thread nD τ).loc main_arg3)) := (W10_of_ne m ρ c main_arg3 (by decide)).trans (keep_main_arg3_9 m ρ c)
theorem keep_main_arg4_0 : (W0 m ρ c main_arg4 : S128x64.Idx → EReal) = (m ((c : Thread nD τ).loc main_arg4)) := rfl
theorem keep_main_arg4_1 : (W1 m ρ c main_arg4 : S128x64.Idx → EReal) = (m ((c : Thread nD τ).loc main_arg4)) := (W1_of m ρ c main_arg4 (by decide)).trans (keep_main_arg4_0 m ρ c)
theorem keep_main_arg4_2 : (W2 m ρ c main_arg4 : S128x64.Idx → EReal) = (m ((c : Thread nD τ).loc main_arg4)) := (W2_of_ne m ρ c main_arg4 (by decide)).trans (keep_main_arg4_1 m ρ c)
theorem keep_main_arg4_3 : (W3 m ρ c main_arg4 : S128x64.Idx → EReal) = (m ((c : Thread nD τ).loc main_arg4)) := (W3_of m ρ c main_arg4 (by decide)).trans (keep_main_arg4_2 m ρ c)
theorem keep_main_arg4_4 : (W4 m ρ c main_arg4 : S128x64.Idx → EReal) = (m ((c : Thread nD τ).loc main_arg4)) := (W4_of_ne m ρ c main_arg4 (by decide)).trans (keep_main_arg4_3 m ρ c)
theorem keep_main_arg4_5 : (W5 m ρ c main_arg4 : S128x64.Idx → EReal) = (m ((c : Thread nD τ).loc main_arg4)) := (W5_of m ρ c main_arg4 (by decide)).trans (keep_main_arg4_4 m ρ c)
theorem keep_main_arg4_6 : (W6 m ρ c main_arg4 : S128x64.Idx → EReal) = (m ((c : Thread nD τ).loc main_arg4)) := (W6_of_ne m ρ c main_arg4 (by decide)).trans (keep_main_arg4_5 m ρ c)
theorem keep_main_arg4_7 : (W7 m ρ c main_arg4 : S128x64.Idx → EReal) = (m ((c : Thread nD τ).loc main_arg4)) := (W7_of m ρ c main_arg4 (by decide)).trans (keep_main_arg4_6 m ρ c)
theorem keep_main_arg4_8 : (W8 m ρ c main_arg4 : S128x64.Idx → EReal) = (m ((c : Thread nD τ).loc main_arg4)) := (W8_of_ne m ρ c main_arg4 (by decide)).trans (keep_main_arg4_7 m ρ c)
theorem keep_main_arg4_9 : (W9 m ρ c main_arg4 : S128x64.Idx → EReal) = (m ((c : Thread nD τ).loc main_arg4)) := (W9_of m ρ c main_arg4 (by decide)).trans (keep_main_arg4_8 m ρ c)
theorem keep_main_arg4_10 : (W10 m ρ c main_arg4 : S128x64.Idx → EReal) = (m ((c : Thread nD τ).loc main_arg4)) := (W10_of_ne m ρ c main_arg4 (by decide)).trans (keep_main_arg4_9 m ρ c)
theorem keep_main_arg4_11 : (W11 m ρ c main_arg4 : S128x64.Idx → EReal) = (m ((c : Thread nD τ).loc main_arg4)) := (W11_of m ρ c main_arg4 (by decide)).trans (keep_main_arg4_10 m ρ c)
theorem keep_main_arg4_12 : (W12 m ρ c main_arg4 : S128x64.Idx → EReal) = (m ((c : Thread nD τ).loc main_arg4)) := (W12_of_ne m ρ c main_arg4 (by decide)).trans (keep_main_arg4_11 m ρ c)
theorem keep_main_arg4_13 : (W13 m ρ c main_arg4 : S128x64.Idx → EReal) = (m ((c : Thread nD τ).loc main_arg4)) := (W13_of m ρ c main_arg4 (by decide)).trans (keep_main_arg4_12 m ρ c)
theorem keep_main_arg5_0 : (W0 m ρ c main_arg5 : S64.Idx → EReal) = (m ((c : Thread nD τ).loc main_arg5)) := rfl
theorem keep_main_arg5_1 : (W1 m ρ c main_arg5 : S64.Idx → EReal) = (m ((c : Thread nD τ).loc main_arg5)) := (W1_of m ρ c main_arg5 (by decide)).trans (keep_main_arg5_0 m ρ c)
theorem keep_main_arg5_2 : (W2 m ρ c main_arg5 : S64.Idx → EReal) = (m ((c : Thread nD τ).loc main_arg5)) := (W2_of_ne m ρ c main_arg5 (by decide)).trans (keep_main_arg5_1 m ρ c)
theorem keep_main_arg5_3 : (W3 m ρ c main_arg5 : S64.Idx → EReal) = (m ((c : Thread nD τ).loc main_arg5)) := (W3_of m ρ c main_arg5 (by decide)).trans (keep_main_arg5_2 m ρ c)
theorem keep_main_arg5_4 : (W4 m ρ c main_arg5 : S64.Idx → EReal) = (m ((c : Thread nD τ).loc main_arg5)) := (W4_of_ne m ρ c main_arg5 (by decide)).trans (keep_main_arg5_3 m ρ c)
theorem keep_main_arg5_5 : (W5 m ρ c main_arg5 : S64.Idx → EReal) = (m ((c : Thread nD τ).loc main_arg5)) := (W5_of m ρ c main_arg5 (by decide)).trans (keep_main_arg5_4 m ρ c)
theorem keep_main_arg5_6 : (W6 m ρ c main_arg5 : S64.Idx → EReal) = (m ((c : Thread nD τ).loc main_arg5)) := (W6_of_ne m ρ c main_arg5 (by decide)).trans (keep_main_arg5_5 m ρ c)
theorem keep_main_arg5_7 : (W7 m ρ c main_arg5 : S64.Idx → EReal) = (m ((c : Thread nD τ).loc main_arg5)) := (W7_of m ρ c main_arg5 (by decide)).trans (keep_main_arg5_6 m ρ c)
theorem keep_main_arg5_8 : (W8 m ρ c main_arg5 : S64.Idx → EReal) = (m ((c : Thread nD τ).loc main_arg5)) := (W8_of_ne m ρ c main_arg5 (by decide)).trans (keep_main_arg5_7 m ρ c)
theorem keep_main_arg5_9 : (W9 m ρ c main_arg5 : S64.Idx → EReal) = (m ((c : Thread nD τ).loc main_arg5)) := (W9_of m ρ c main_arg5 (by decide)).trans (keep_main_arg5_8 m ρ c)
theorem keep_main_arg5_10 : (W10 m ρ c main_arg5 : S64.Idx → EReal) = (m ((c : Thread nD τ).loc main_arg5)) := (W10_of_ne m ρ c main_arg5 (by decide)).trans (keep_main_arg5_9 m ρ c)
theorem keep_main_arg5_11 : (W11 m ρ c main_arg5 : S64.Idx → EReal) = (m ((c : Thread nD τ).loc main_arg5)) := (W11_of m ρ c main_arg5 (by decide)).trans (keep_main_arg5_10 m ρ c)
theorem keep_main_arg5_12 : (W12 m ρ c main_arg5 : S64.Idx → EReal) = (m ((c : Thread nD τ).loc main_arg5)) := (W12_of_ne m ρ c main_arg5 (by decide)).trans (keep_main_arg5_11 m ρ c)

/-! ## The three layers -/

/-- Layer 0, region 0: the combined features and the two accumulated rows, as region 0 leaves them. -/
theorem comb0_raw : toMat (n := 100000) (d := 128) (W2 m ρ c main_v16_0 : S100000x128.Idx → EReal) = u0 (V1 m ρ) c :=
  (congrArg (toMat (n := 100000) (d := 128)) (W2_arr m ρ c 3)).trans (final0_3 (V1 m ρ) c)
theorem sum0_raw : toRow1 (d := 128) (W2 m ρ c main_v16_1 : S1x128.Idx → EReal) = colSum (u0 (V1 m ρ) c) :=
  (congrArg (toRow1 (d := 128)) (W2_arr m ρ c 4)).trans (final0_4 (V1 m ρ) c)
theorem sumsq0_raw : toRow1 (d := 128) (W2 m ρ c main_v16_2 : S1x128.Idx → EReal)
    = colSum (fun i j => u0 (V1 m ρ) c i j * u0 (V1 m ρ) c i j) :=
  (congrArg (toRow1 (d := 128)) (W2_arr m ρ c 5)).trans (final0_5 (V1 m ρ) c)
/-- Layer 0, region 1: the normalised features, as region 1 leaves them. -/
theorem norm0_raw : toMat (n := 100000) (d := 128) (W4 m ρ c main_v28 : S100000x128.Idx → EReal)
    = normalize (toMat (n := 100000) (d := 128) (W3 m ρ c main_v16_0 : S100000x128.Idx → EReal)) (toRow1 (d := 128) (W3 m ρ c main_v18 : S1x128.Idx → EReal))
        (toRow1 (d := 128) (W3 m ρ c main_v25 : S1x128.Idx → EReal)) (toRow1 (d := 128) (W3 m ρ c main_v26 : S1x128.Idx → EReal)) (toRow1 (d := 128) (W3 m ρ c main_v27 : S1x128.Idx → EReal)) :=
  (congrArg (toMat (n := 100000) (d := 128)) (W4_arr m ρ c 5)).trans (final1_5 (V3 m ρ) c)

/-- Layer 0 whole: what leaves region 1 is the kernel's arrangement of the layer applied to what entered stretch 0. -/
theorem layer0 : toMat (n := 100000) (d := 128) (W4 m ρ c main_v28 : S100000x128.Idx → EReal)
    = layerWith varK cE eE (toMat (n := 100000) (d := 128) (W0 m ρ c main_arg0 : S100000x128.Idx → EReal))
        (AggOf (dstOf (m ((c : Thread nD τ).loc main_arg1))) (srcOf (m ((c : Thread nD τ).loc main_arg1))) (toMat (n := 100000) (d := 128) (W0 m ρ c main_arg0 : S100000x128.Idx → EReal)))
        (toMat (n := 3) (d := 128) (m ((c : Thread nD τ).loc main_arg2)) 0) (toMat (n := 3) (d := 128) (m ((c : Thread nD τ).loc main_arg3)) 0) := by
  have e_in : (W1 m ρ c main_arg0 : S100000x128.Idx → EReal) = W0 m ρ c main_arg0 := W1_of m ρ c main_arg0 (by decide)
  have e_o3 : (W3 m ρ c main_v16_0 : S100000x128.Idx → EReal) = W2 m ρ c main_v16_0 := W3_of m ρ c main_v16_0 (by decide)
  refine layer_math cE eE (toMat (n := 100000) (d := 128) (W0 m ρ c main_arg0 : S100000x128.Idx → EReal)) (toMat (n := 100000) (d := 128) (W1 m ρ c main_v13 : S100000x128.Idx → EReal)) _
    (toRow1 (d := 128) (W1 m ρ c main_v15 : S1x128.Idx → EReal)) (toMat (n := 100000) (d := 128) (W2 m ρ c main_v16_0 : S100000x128.Idx → EReal))
    (toRow1 (d := 128) (W2 m ρ c main_v16_1 : S1x128.Idx → EReal)) (toRow1 (d := 128) (W2 m ρ c main_v16_2 : S1x128.Idx → EReal))
    (toRow1 (d := 128) (W3 m ρ c main_v18 : S1x128.Idx → EReal)) (toRow1 (d := 128) (W3 m ρ c main_v25 : S1x128.Idx → EReal))
    (toRow1 (d := 128) (W3 m ρ c main_v26 : S1x128.Idx → EReal)) (toRow1 (d := 128) (W3 m ρ c main_v27 : S1x128.Idx → EReal)) _ _ _
    ?hA ?hr ?hU ?hs1 ?hs2 ?hmean ?hinv ?hg ?hb ?hout
  case hA => exact stretch0_agg (W0 m ρ c)
  case hr => exact stretch0_readout (W0 m ρ c)
  case hU =>
    exact (comb0_raw m ρ c).trans
      (congrArg (fun x : S100000x128.Idx → EReal => combine (toMat (n := 100000) (d := 128) x) (toMat (n := 100000) (d := 128) (W1 m ρ c main_v13 : S100000x128.Idx → EReal))
        (toRow1 (d := 128) (W1 m ρ c main_v15 : S1x128.Idx → EReal))) e_in)
  case hs1 => exact (sum0_raw m ρ c).trans (congrArg colSum (comb0_raw m ρ c).symm)
  case hs2 =>
    exact (sumsq0_raw m ρ c).trans
      (congrArg (fun U : Mat 100000 128 => colSum (fun i j => U i j * U i j)) (comb0_raw m ρ c).symm)
  case hmean => exact stretch1_mean (W2 m ρ c)
  case hinv => exact stretch1_inv (W2 m ρ c)
  case hg =>
    exact (stretch1_gamma (W2 m ρ c)).trans
      (congrArg (fun x : S3x128.Idx → EReal => toMat (n := 3) (d := 128) x 0) (keep_main_arg2_2 m ρ c))
  case hb =>
    exact (stretch1_beta (W2 m ρ c)).trans
      (congrArg (fun x : S3x128.Idx → EReal => toMat (n := 3) (d := 128) x 0) (keep_main_arg3_2 m ρ c))
  case hout =>
    exact (norm0_raw m ρ c).trans
      (congrArg (fun x : S100000x128.Idx → EReal => normalize (toMat (n := 100000) (d := 128) x) (toRow1 (d := 128) (W3 m ρ c main_v18 : S1x128.Idx → EReal))
        (toRow1 (d := 128) (W3 m ρ c main_v25 : S1x128.Idx → EReal)) (toRow1 (d := 128) (W3 m ρ c main_v26 : S1x128.Idx → EReal)) (toRow1 (d := 128) (W3 m ρ c main_v27 : S1x128.Idx → EReal))) e_o3)

/-- Layer 1, region 2: the combined features and the two accumulated rows, as region 2 leaves them. -/
theorem comb1_raw : toMat (n := 100000) (d := 128) (W6 m ρ c main_v41_0 : S100000x128.Idx → EReal) = u2 (V5 m ρ) c :=
  (congrArg (toMat (n := 100000) (d := 128)) (W6_arr m ρ c 3)).trans (final2_3 (V5 m ρ) c)
theorem sum1_raw : toRow1 (d := 128) (W6 m ρ c main_v41_1 : S1x128.Idx → EReal) = colSum (u2 (V5 m ρ) c) :=
  (congrArg (toRow1 (d := 128)) (W6_arr m ρ c 4)).trans (final2_4 (V5 m ρ) c)
theorem sumsq1_raw : toRow1 (d := 128) (W6 m ρ c main_v41_2 : S1x128.Idx → EReal)
    = colSum (fun i j => u2 (V5 m ρ) c i j * u2 (V5 m ρ) c i j) :=
  (congrArg (toRow1 (d := 128)) (W6_arr m ρ c 5)).trans (final2_5 (V5 m ρ) c)
/-- Layer 1, region 3: the normalised features, as region 3 leaves them. -/
theorem norm1_raw : toMat (n := 100000) (d := 128) (W8 m ρ c main_v53 : S100000x128.Idx → EReal)
    = normalize (toMat (n := 100000) (d := 128) (W7 m ρ c main_v41_0 : S100000x128.Idx → EReal)) (toRow1 (d := 128) (W7 m ρ c main_v43 : S1x128.Idx → EReal))
        (toRow1 (d := 128) (W7 m ρ c main_v50 : S1x128.Idx → EReal)) (toRow1 (d := 128) (W7 m ρ c main_v51 : S1x128.Idx → EReal)) (toRow1 (d := 128) (W7 m ρ c main_v52 : S1x128.Idx → EReal)) :=
  (congrArg (toMat (n := 100000) (d := 128)) (W8_arr m ρ c 5)).trans (final3_5 (V7 m ρ) c)

/-- Layer 1 whole: what leaves region 3 is the kernel's arrangement of the layer applied to what entered stretch 2. -/
theorem layer1 : toMat (n := 100000) (d := 128) (W8 m ρ c main_v53 : S100000x128.Idx → EReal)
    = layerWith varK cE eE (toMat (n := 100000) (d := 128) (W4 m ρ c main_v28 : S100000x128.Idx → EReal))
        (AggOf (dstOf (m ((c : Thread nD τ).loc main_arg1))) (srcOf (m ((c : Thread nD τ).loc main_arg1))) (toMat (n := 100000) (d := 128) (W4 m ρ c main_v28 : S100000x128.Idx → EReal)))
        (toMat (n := 3) (d := 128) (m ((c : Thread nD τ).loc main_arg2)) 1) (toMat (n := 3) (d := 128) (m ((c : Thread nD τ).loc main_arg3)) 1) := by
  have e_in : (W5 m ρ c main_v28 : S100000x128.Idx → EReal) = W4 m ρ c main_v28 := W5_of m ρ c main_v28 (by decide)
  have e_o3 : (W7 m ρ c main_v41_0 : S100000x128.Idx → EReal) = W6 m ρ c main_v41_0 := W7_of m ρ c main_v41_0 (by decide)
  refine layer_math cE eE (toMat (n := 100000) (d := 128) (W4 m ρ c main_v28 : S100000x128.Idx → EReal)) (toMat (n := 100000) (d := 128) (W5 m ρ c main_v38 : S100000x128.Idx → EReal)) _
    (toRow1 (d := 128) (W5 m ρ c main_v40 : S1x128.Idx → EReal)) (toMat (n := 100000) (d := 128) (W6 m ρ c main_v41_0 : S100000x128.Idx → EReal))
    (toRow1 (d := 128) (W6 m ρ c main_v41_1 : S1x128.Idx → EReal)) (toRow1 (d := 128) (W6 m ρ c main_v41_2 : S1x128.Idx → EReal))
    (toRow1 (d := 128) (W7 m ρ c main_v43 : S1x128.Idx → EReal)) (toRow1 (d := 128) (W7 m ρ c main_v50 : S1x128.Idx → EReal))
    (toRow1 (d := 128) (W7 m ρ c main_v51 : S1x128.Idx → EReal)) (toRow1 (d := 128) (W7 m ρ c main_v52 : S1x128.Idx → EReal)) _ _ _
    ?hA ?hr ?hU ?hs1 ?hs2 ?hmean ?hinv ?hg ?hb ?hout
  case hA => exact (stretch2_agg (W4 m ρ c)).trans (by rw [keep_main_v1_4 m ρ c, keep_main_v3_4 m ρ c])
  case hr => exact stretch2_readout (W4 m ρ c)
  case hU =>
    exact (comb1_raw m ρ c).trans
      (congrArg (fun x : S100000x128.Idx → EReal => combine (toMat (n := 100000) (d := 128) x) (toMat (n := 100000) (d := 128) (W5 m ρ c main_v38 : S100000x128.Idx → EReal))
        (toRow1 (d := 128) (W5 m ρ c main_v40 : S1x128.Idx → EReal))) e_in)
  case hs1 => exact (sum1_raw m ρ c).trans (congrArg colSum (comb1_raw m ρ c).symm)
  case hs2 =>
    exact (sumsq1_raw m ρ c).trans
      (congrArg (fun U : Mat 100000 128 => colSum (fun i j => U i j * U i j)) (comb1_raw m ρ c).symm)
  case hmean => exact stretch3_mean (W6 m ρ c)
  case hinv => exact stretch3_inv (W6 m ρ c)
  case hg =>
    exact (stretch3_gamma (W6 m ρ c)).trans
      (congrArg (fun x : S3x128.Idx → EReal => toMat (n := 3) (d := 128) x 1) (keep_main_arg2_6 m ρ c))
  case hb =>
    exact (stretch3_beta (W6 m ρ c)).trans
      (congrArg (fun x : S3x128.Idx → EReal => toMat (n := 3) (d := 128) x 1) (keep_main_arg3_6 m ρ c))
  case hout =>
    exact (norm1_raw m ρ c).trans
      (congrArg (fun x : S100000x128.Idx → EReal => normalize (toMat (n := 100000) (d := 128) x) (toRow1 (d := 128) (W7 m ρ c main_v43 : S1x128.Idx → EReal))
        (toRow1 (d := 128) (W7 m ρ c main_v50 : S1x128.Idx → EReal)) (toRow1 (d := 128) (W7 m ρ c main_v51 : S1x128.Idx → EReal)) (toRow1 (d := 128) (W7 m ρ c main_v52 : S1x128.Idx → EReal))) e_o3)

/-- Layer 2, region 4: the combined features and the two accumulated rows, as region 4 leaves them. -/
theorem comb2_raw : toMat (n := 100000) (d := 128) (W10 m ρ c main_v66_0 : S100000x128.Idx → EReal) = u4 (V9 m ρ) c :=
  (congrArg (toMat (n := 100000) (d := 128)) (W10_arr m ρ c 3)).trans (final4_3 (V9 m ρ) c)
theorem sum2_raw : toRow1 (d := 128) (W10 m ρ c main_v66_1 : S1x128.Idx → EReal) = colSum (u4 (V9 m ρ) c) :=
  (congrArg (toRow1 (d := 128)) (W10_arr m ρ c 4)).trans (final4_4 (V9 m ρ) c)
theorem sumsq2_raw : toRow1 (d := 128) (W10 m ρ c main_v66_2 : S1x128.Idx → EReal)
    = colSum (fun i j => u4 (V9 m ρ) c i j * u4 (V9 m ρ) c i j) :=
  (congrArg (toRow1 (d := 128)) (W10_arr m ρ c 5)).trans (final4_5 (V9 m ρ) c)
/-- Layer 2, region 5: the normalised features, as region 5 leaves them. -/
theorem norm2_raw : toMat (n := 100000) (d := 128) (W12 m ρ c main_v78 : S100000x128.Idx → EReal)
    = normalize (toMat (n := 100000) (d := 128) (W11 m ρ c main_v66_0 : S100000x128.Idx → EReal)) (toRow1 (d := 128) (W11 m ρ c main_v68 : S1x128.Idx → EReal))
        (toRow1 (d := 128) (W11 m ρ c main_v75 : S1x128.Idx → EReal)) (toRow1 (d := 128) (W11 m ρ c main_v76 : S1x128.Idx → EReal)) (toRow1 (d := 128) (W11 m ρ c main_v77 : S1x128.Idx → EReal)) :=
  (congrArg (toMat (n := 100000) (d := 128)) (W12_arr m ρ c 5)).trans (final5_5 (V11 m ρ) c)

/-- Layer 2 whole: what leaves region 5 is the kernel's arrangement of the layer applied to what entered stretch 4. -/
theorem layer2 : toMat (n := 100000) (d := 128) (W12 m ρ c main_v78 : S100000x128.Idx → EReal)
    = layerWith varK cE eE (toMat (n := 100000) (d := 128) (W8 m ρ c main_v53 : S100000x128.Idx → EReal))
        (AggOf (dstOf (m ((c : Thread nD τ).loc main_arg1))) (srcOf (m ((c : Thread nD τ).loc main_arg1))) (toMat (n := 100000) (d := 128) (W8 m ρ c main_v53 : S100000x128.Idx → EReal)))
        (toMat (n := 3) (d := 128) (m ((c : Thread nD τ).loc main_arg2)) 2) (toMat (n := 3) (d := 128) (m ((c : Thread nD τ).loc main_arg3)) 2) := by
  have e_in : (W9 m ρ c main_v53 : S100000x128.Idx → EReal) = W8 m ρ c main_v53 := W9_of m ρ c main_v53 (by decide)
  have e_o3 : (W11 m ρ c main_v66_0 : S100000x128.Idx → EReal) = W10 m ρ c main_v66_0 := W11_of m ρ c main_v66_0 (by decide)
  refine layer_math cE eE (toMat (n := 100000) (d := 128) (W8 m ρ c main_v53 : S100000x128.Idx → EReal)) (toMat (n := 100000) (d := 128) (W9 m ρ c main_v63 : S100000x128.Idx → EReal)) _
    (toRow1 (d := 128) (W9 m ρ c main_v65 : S1x128.Idx → EReal)) (toMat (n := 100000) (d := 128) (W10 m ρ c main_v66_0 : S100000x128.Idx → EReal))
    (toRow1 (d := 128) (W10 m ρ c main_v66_1 : S1x128.Idx → EReal)) (toRow1 (d := 128) (W10 m ρ c main_v66_2 : S1x128.Idx → EReal))
    (toRow1 (d := 128) (W11 m ρ c main_v68 : S1x128.Idx → EReal)) (toRow1 (d := 128) (W11 m ρ c main_v75 : S1x128.Idx → EReal))
    (toRow1 (d := 128) (W11 m ρ c main_v76 : S1x128.Idx → EReal)) (toRow1 (d := 128) (W11 m ρ c main_v77 : S1x128.Idx → EReal)) _ _ _
    ?hA ?hr ?hU ?hs1 ?hs2 ?hmean ?hinv ?hg ?hb ?hout
  case hA => exact (stretch4_agg (W8 m ρ c)).trans (by rw [keep_main_v1_8 m ρ c, keep_main_v3_8 m ρ c])
  case hr => exact stretch4_readout (W8 m ρ c)
  case hU =>
    exact (comb2_raw m ρ c).trans
      (congrArg (fun x : S100000x128.Idx → EReal => combine (toMat (n := 100000) (d := 128) x) (toMat (n := 100000) (d := 128) (W9 m ρ c main_v63 : S100000x128.Idx → EReal))
        (toRow1 (d := 128) (W9 m ρ c main_v65 : S1x128.Idx → EReal))) e_in)
  case hs1 => exact (sum2_raw m ρ c).trans (congrArg colSum (comb2_raw m ρ c).symm)
  case hs2 =>
    exact (sumsq2_raw m ρ c).trans
      (congrArg (fun U : Mat 100000 128 => colSum (fun i j => U i j * U i j)) (comb2_raw m ρ c).symm)
  case hmean => exact stretch5_mean (W10 m ρ c)
  case hinv => exact stretch5_inv (W10 m ρ c)
  case hg =>
    exact (stretch5_gamma (W10 m ρ c)).trans
      (congrArg (fun x : S3x128.Idx → EReal => toMat (n := 3) (d := 128) x 2) (keep_main_arg2_10 m ρ c))
  case hb =>
    exact (stretch5_beta (W10 m ρ c)).trans
      (congrArg (fun x : S3x128.Idx → EReal => toMat (n := 3) (d := 128) x 2) (keep_main_arg3_10 m ρ c))
  case hout =>
    exact (norm2_raw m ρ c).trans
      (congrArg (fun x : S100000x128.Idx → EReal => normalize (toMat (n := 100000) (d := 128) x) (toRow1 (d := 128) (W11 m ρ c main_v68 : S1x128.Idx → EReal))
        (toRow1 (d := 128) (W11 m ρ c main_v75 : S1x128.Idx → EReal)) (toRow1 (d := 128) (W11 m ρ c main_v76 : S1x128.Idx → EReal)) (toRow1 (d := 128) (W11 m ρ c main_v77 : S1x128.Idx → EReal))) e_o3)

/-! ## The head and the whole program -/

/-- The kernel program's result, read as a matrix, is the three-layer network in the kernel's arrangement of the
    variance, applied to the launch arguments. -/
theorem kernel_value :
    toMat (n := 100000) (d := 64) ((dat6 (F := Ideal) (V13 m ρ) c).arrAt 3 cfg6.N)
      = Cert.Net3.net varK cE eE (AggOf (dstOf (m ((c : Thread nD τ).loc main_arg1))) (srcOf (m ((c : Thread nD τ).loc main_arg1))))
          (toMat (n := 100000) (d := 128) (m ((c : Thread nD τ).loc main_arg0))) (toMat (n := 3) (d := 128) (m ((c : Thread nD τ).loc main_arg2)))
          (toMat (n := 3) (d := 128) (m ((c : Thread nD τ).loc main_arg3))) (toMat (n := 128) (d := 64) (m ((c : Thread nD τ).loc main_arg4)))
          (toRow (d := 64) (m ((c : Thread nD τ).loc main_arg5))) := by
  have e_h : (W13 m ρ c main_v78 : S100000x128.Idx → EReal) = W12 m ρ c main_v78 := W13_of m ρ c main_v78 (by decide)
  have e_b : toRow1 (d := 64) (W13 m ρ c main_v79 : S1x64.Idx → EReal) = toRow (d := 64) (m ((c : Thread nD τ).loc main_arg5)) :=
    (stretch6_bias (W12 m ρ c)).trans (congrArg (toRow (d := 64)) (keep_main_arg5_12 m ρ c))
  have l0 := layer0 m ρ c
  have l1 := layer1 m ρ c
  have l2 := layer2 m ρ c
  rw [l0] at l1
  rw [l1] at l2
  refine (final6_3 (V13 m ρ) c).trans ?_
  show head (toMat (n := 100000) (d := 128) (W13 m ρ c main_v78 : S100000x128.Idx → EReal)) (toMat (n := 128) (d := 64) (W13 m ρ c main_arg4 : S128x64.Idx → EReal))
      (toRow1 (d := 64) (W13 m ρ c main_v79 : S1x64.Idx → EReal)) = _
  rw [e_h, l2, keep_main_arg4_13 m ρ c, e_b]
  rfl

end Cert.KernelIdeal.HandV

end
-- ==== Proof.Ref.Run.lean ====
/- The reference program's run, read back.

   The reference's @main is a straight line of host operations: three rounds of (gather the neighbours' rows,
   add them up per destination row, add the column sums of the input, subtract the column mean, divide by the
   root of the mean squared deviation plus a small constant, scale, shift, clamp at zero), then one matrix
   product plus a bias row. The functions @main calls (the variance, its guarded selection, the clamp)
   are listed inline at their call sites, each over that call's own buffers: calling a function is running its
   body on the operands. The line is stated in three consecutive stretches and the whole is their
   concatenation. Every weakly fair execution terminates with each buffer at the fold of the operations over
   the launch contents; no operation writes one of the six arguments, so they keep their contents. -/
import proofs.«107997_j14224931684915_1_alg».proof.ReferenceIdeal
import proofs.«107997_j14224931684915_1_alg».proof.Proof.Gen.ReferenceIdeal
import proofs.«107997_j14224931684915_1_alg».proof.Defs
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- Operations 1 … 83 of 218, the first stretch of @main, the called functions' operations inline. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v3 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v3 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v3 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v1 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x00000000#32),
    StableHlo.binary main_arg0 main_cst_1 main_v14 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_v14 main_v15 (broadcastInDim S1x128 ![1] bcast_S128_S1x128_1 : (⟨S128, .f32⟩ : BufTy).Contents (Elt F) → (⟨S1x128, .f32⟩ : BufTy).Contents (Elt F)),
    StableHlo.binary main_arg0 main_v13 main_v16 (addf : (⟨S100000x128, .f32⟩ : BufTy).Contents (Elt F) → (⟨S100000x128, .f32⟩ : BufTy).Contents (Elt F) → (⟨S100000x128, .f32⟩ : BufTy).Contents (Elt F)),
    StableHlo.unary main_v15 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v18 main_cst_2 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (StableHlo.TRef.of main_v18 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (StableHlo.TRef.of main_v18 : StableHlo.TRef sig ⟨S100000x128, .f32⟩) main_call0.v4 main_call0.v5 subf,
    StableHlo.TRef.binary main_call0.v5 main_call0.v5 main_call0.v6 mulf,
    StableHlo.TRef.unary (StableHlo.TRef.of main_c_4 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v24 main_v25 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v30 main_v31 (mulf : (⟨S100000x128, .f32⟩ : BufTy).Contents (Elt F) → (⟨S100000x128, .f32⟩ : BufTy).Contents (Elt F) → (⟨S100000x128, .f32⟩ : BufTy).Contents (Elt F)),
    StableHlo.unary main_arg2 main_v32 ((extractStridedSlice S1x128 ![0, 0] · slices_S3x128_S1x128_0_0) : (⟨S3x128, .f32⟩ : BufTy).Contents (Elt F) → (⟨S1x128, .f32⟩ : BufTy).Contents (Elt F)),
    StableHlo.reshape main_v32 main_v33 rfl shapeCasts_S1x128_S128,
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v35 main_v36 (mulf : (⟨S100000x128, .f32⟩ : BufTy).Contents (Elt F) → (⟨S100000x128, .f32⟩ : BufTy).Contents (Elt F) → (⟨S100000x128, .f32⟩ : BufTy).Contents (Elt F)),
    StableHlo.unary main_arg3 main_v37 ((extractStridedSlice S1x128 ![0, 0] · slices_S3x128_S1x128_0_0) : (⟨S3x128, .f32⟩ : BufTy).Contents (Elt F) → (⟨S1x128, .f32⟩ : BufTy).Contents (Elt F)),
    StableHlo.reshape main_v37 main_v38 rfl shapeCasts_S1x128_S128,
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v40 main_v41 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v41 : StableHlo.TRef sig ⟨S100000x128, .f32⟩) main_call1.v0 main_call1.v1 maximumf,
    StableHlo.nullary main_c_6 (constantI S_ 32 0#32),
    StableHlo.unary main_c_6 main_v43 (broadcastInDim S1600000 ![] bcast_S_S1600000 : (⟨S_, .i32⟩ : BufTy).Contents (Elt F) → (⟨S1600000, .i32⟩ : BufTy).Contents (Elt F)),
    StableHlo.binary main_v3 main_v43 main_v44 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v45 (broadcastInDim S1600000 ![] bcast_S_S1600000 : (⟨S_, .i32⟩ : BufTy).Contents (Elt F) → (⟨S1600000, .i32⟩ : BufTy).Contents (Elt F)),
    StableHlo.binary main_v3 main_v45 main_v46 (addi : (⟨S1600000, .i32⟩ : BufTy).Contents (Elt F) → (⟨S1600000, .i32⟩ : BufTy).Contents (Elt F) → (⟨S1600000, .i32⟩ : BufTy).Contents (Elt F)),
    StableHlo.ternary main_v44 main_v46 main_v3 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v47 main_v48 (broadcastInDim S1600000x1 ![0] bcast_S1600000_S1600000x1_0 : (⟨S1600000, .i32⟩ : BufTy).Contents (Elt F) → (⟨S1600000x1, .i32⟩ : BufTy).Contents (Elt F)),
    StableHlo.binary main_v42 main_v48 main_v49 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ]

/-- Operations 84 … 166 of 218, the second stretch of @main, the called functions' operations inline. -/
abbrev ops1 : List (HloOp τ sig (Elt F)) :=
  [ StableHlo.nullary main_cst_8 (constant S_ .f32 0x00000000#32),
    StableHlo.unary main_cst_8 main_v50 (broadcastInDim S100000x128 ![] bcast_S_S100000x128 : (⟨S_, .f32⟩ : BufTy).Contents (Elt F) → (⟨S100000x128, .f32⟩ : BufTy).Contents (Elt F)),
    StableHlo.unary main_v1 main_v51 (broadcastInDim S1600000x1 ![0] bcast_S1600000_S1600000x1_0 : (⟨S1600000, .i32⟩ : BufTy).Contents (Elt F) → (⟨S1600000x1, .i32⟩ : BufTy).Contents (Elt F)),
    StableHlo.ternary main_v50 main_v51 main_v49 main_v52 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_9 (constant S_ .f32 0x00000000#32),
    StableHlo.binary main_v42 main_cst_9 main_v53 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_v53 main_v54 (broadcastInDim S1x128 ![1] bcast_S128_S1x128_1 : (⟨S128, .f32⟩ : BufTy).Contents (Elt F) → (⟨S1x128, .f32⟩ : BufTy).Contents (Elt F)),
    StableHlo.binary main_v42 main_v52 main_v55 (addf : (⟨S100000x128, .f32⟩ : BufTy).Contents (Elt F) → (⟨S100000x128, .f32⟩ : BufTy).Contents (Elt F) → (⟨S100000x128, .f32⟩ : BufTy).Contents (Elt F)),
    StableHlo.unary main_v54 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v56 main_v57 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.binary main_v57 main_cst_10 main_v58 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v59 (broadcastInDim S128 ![] bcast_S_S128 : (⟨S_, .f32⟩ : BufTy).Contents (Elt F) → (⟨S128, .f32⟩ : BufTy).Contents (Elt F)),
    StableHlo.binary main_v58 main_v59 main_v60 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call2.cst (constant S_ .f32 0x00000000#32),
    StableHlo.TRef.binary (StableHlo.TRef.of main_v57 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v57 : StableHlo.TRef sig ⟨S100000x128, .f32⟩) main_call2.v4 main_call2.v5 subf,
    StableHlo.TRef.binary main_call2.v5 main_call2.v5 main_call2.v6 mulf,
    StableHlo.TRef.unary (StableHlo.TRef.of main_c_12 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v60 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v63 main_v64 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v65 (broadcastInDim S128 ![] bcast_S_S128 : (⟨S_, .f32⟩ : BufTy).Contents (Elt F) → (⟨S128, .f32⟩ : BufTy).Contents (Elt F)),
    StableHlo.binary main_v61 main_v65 main_v66 (addf : (⟨S128, .f32⟩ : BufTy).Contents (Elt F) → (⟨S128, .f32⟩ : BufTy).Contents (Elt F) → (⟨S128, .f32⟩ : BufTy).Contents (Elt F)),
    StableHlo.unary main_v66 main_v67 (Host.rsqrt : (⟨S128, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v69 main_v70 (mulf : (⟨S100000x128, .f32⟩ : BufTy).Contents (Elt F) → (⟨S100000x128, .f32⟩ : BufTy).Contents (Elt F) → (⟨S100000x128, .f32⟩ : BufTy).Contents (Elt F)),
    StableHlo.unary main_arg2 main_v71 ((extractStridedSlice S1x128 ![1, 0] · slices_S3x128_S1x128_1_0) : (⟨S3x128, .f32⟩ : BufTy).Contents (Elt F) → (⟨S1x128, .f32⟩ : BufTy).Contents (Elt F)),
    StableHlo.reshape main_v71 main_v72 rfl shapeCasts_S1x128_S128,
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v74 main_v75 (mulf : (⟨S100000x128, .f32⟩ : BufTy).Contents (Elt F) → (⟨S100000x128, .f32⟩ : BufTy).Contents (Elt F) → (⟨S100000x128, .f32⟩ : BufTy).Contents (Elt F)),
    StableHlo.unary main_arg3 main_v76 ((extractStridedSlice S1x128 ![1, 0] · slices_S3x128_S1x128_1_0) : (⟨S3x128, .f32⟩ : BufTy).Contents (Elt F) → (⟨S1x128, .f32⟩ : BufTy).Contents (Elt F)),
    StableHlo.reshape main_v76 main_v77 rfl shapeCasts_S1x128_S128,
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v79 main_v80 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (StableHlo.TRef.of main_v80 : StableHlo.TRef sig ⟨S100000x128, .f32⟩) main_call3.v0 main_call3.v1 maximumf,
    StableHlo.nullary main_c_14 (constantI S_ 32 0#32),
    StableHlo.unary main_c_14 main_v82 (broadcastInDim S1600000 ![] bcast_S_S1600000 : (⟨S_, .i32⟩ : BufTy).Contents (Elt F) → (⟨S1600000, .i32⟩ : BufTy).Contents (Elt F)),
    StableHlo.binary main_v3 main_v82 main_v83 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v84 (broadcastInDim S1600000 ![] bcast_S_S1600000 : (⟨S_, .i32⟩ : BufTy).Contents (Elt F) → (⟨S1600000, .i32⟩ : BufTy).Contents (Elt F)),
    StableHlo.binary main_v3 main_v84 main_v85 (addi : (⟨S1600000, .i32⟩ : BufTy).Contents (Elt F) → (⟨S1600000, .i32⟩ : BufTy).Contents (Elt F) → (⟨S1600000, .i32⟩ : BufTy).Contents (Elt F)),
    StableHlo.ternary main_v83 main_v85 main_v3 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v86 main_v87 (broadcastInDim S1600000x1 ![0] bcast_S1600000_S1600000x1_0 : (⟨S1600000, .i32⟩ : BufTy).Contents (Elt F) → (⟨S1600000x1, .i32⟩ : BufTy).Contents (Elt F)),
    StableHlo.binary main_v81 main_v87 main_v88 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v89 (broadcastInDim S100000x128 ![] bcast_S_S100000x128 : (⟨S_, .f32⟩ : BufTy).Contents (Elt F) → (⟨S100000x128, .f32⟩ : BufTy).Contents (Elt F)),
    StableHlo.unary main_v1 main_v90 (broadcastInDim S1600000x1 ![0] bcast_S1600000_S1600000x1_0 : (⟨S1600000, .i32⟩ : BufTy).Contents (Elt F) → (⟨S1600000x1, .i32⟩ : BufTy).Contents (Elt F)),
    StableHlo.ternary main_v89 main_v90 main_v88 main_v91 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_17 (constant S_ .f32 0x00000000#32),
    StableHlo.binary main_v81 main_cst_17 main_v92 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_v92 main_v93 (broadcastInDim S1x128 ![1] bcast_S128_S1x128_1 : (⟨S128, .f32⟩ : BufTy).Contents (Elt F) → (⟨S1x128, .f32⟩ : BufTy).Contents (Elt F)),
    StableHlo.binary main_v81 main_v91 main_v94 (addf : (⟨S100000x128, .f32⟩ : BufTy).Contents (Elt F) → (⟨S100000x128, .f32⟩ : BufTy).Contents (Elt F) → (⟨S100000x128, .f32⟩ : BufTy).Contents (Elt F)),
    StableHlo.unary main_v93 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v95 main_v96 (addf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x00000000#32),
    StableHlo.binary main_v96 main_cst_18 main_v97 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32) ]

/-- Operations 167 … 218 of 218, the third stretch of @main, the called functions' operations inline. -/
abbrev ops2 : List (HloOp τ sig (Elt F)) :=
  [ StableHlo.unary main_cst_19 main_v98 (broadcastInDim S128 ![] bcast_S_S128 : (⟨S_, .f32⟩ : BufTy).Contents (Elt F) → (⟨S128, .f32⟩ : BufTy).Contents (Elt F)),
    StableHlo.binary main_v97 main_v98 main_v99 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call4.cst (constant S_ .f32 0x00000000#32),
    StableHlo.TRef.binary (StableHlo.TRef.of main_v96 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (StableHlo.TRef.of main_v96 : StableHlo.TRef sig ⟨S100000x128, .f32⟩) main_call4.v4 main_call4.v5 subf,
    StableHlo.TRef.binary main_call4.v5 main_call4.v5 main_call4.v6 mulf,
    StableHlo.TRef.unary (StableHlo.TRef.of main_c_20 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v99 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v102 main_v103 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v104 (broadcastInDim S128 ![] bcast_S_S128 : (⟨S_, .f32⟩ : BufTy).Contents (Elt F) → (⟨S128, .f32⟩ : BufTy).Contents (Elt F)),
    StableHlo.binary main_v100 main_v104 main_v105 (addf : (⟨S128, .f32⟩ : BufTy).Contents (Elt F) → (⟨S128, .f32⟩ : BufTy).Contents (Elt F) → (⟨S128, .f32⟩ : BufTy).Contents (Elt F)),
    StableHlo.unary main_v105 main_v106 (Host.rsqrt : (⟨S128, .f32⟩ : BufTy).Contents (Elt F) → (⟨S128, .f32⟩ : BufTy).Contents (Elt F)),
    StableHlo.unary main_v106 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v103 main_v108 main_v109 (mulf : (⟨S100000x128, .f32⟩ : BufTy).Contents (Elt F) → (⟨S100000x128, .f32⟩ : BufTy).Contents (Elt F) → (⟨S100000x128, .f32⟩ : BufTy).Contents (Elt F)),
    StableHlo.unary main_arg2 main_v110 ((extractStridedSlice S1x128 ![2, 0] · slices_S3x128_S1x128_2_0) : (⟨S3x128, .f32⟩ : BufTy).Contents (Elt F) → (⟨S1x128, .f32⟩ : BufTy).Contents (Elt F)),
    StableHlo.reshape main_v110 main_v111 rfl shapeCasts_S1x128_S128,
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v109 main_v113 main_v114 (mulf : (⟨S100000x128, .f32⟩ : BufTy).Contents (Elt F) → (⟨S100000x128, .f32⟩ : BufTy).Contents (Elt F) → (⟨S100000x128, .f32⟩ : BufTy).Contents (Elt F)),
    StableHlo.unary main_arg3 main_v115 ((extractStridedSlice S1x128 ![2, 0] · slices_S3x128_S1x128_2_0) : (⟨S3x128, .f32⟩ : BufTy).Contents (Elt F) → (⟨S1x128, .f32⟩ : BufTy).Contents (Elt F)),
    StableHlo.reshape main_v115 main_v116 rfl shapeCasts_S1x128_S128,
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v118 main_v119 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (StableHlo.TRef.of main_v119 : StableHlo.TRef sig ⟨S100000x128, .f32⟩) main_call5.v0 main_call5.v1 maximumf,
    StableHlo.binary main_v120 main_arg4 main_v121 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg5 main_v122 (broadcastInDim S1x64 ![1] bcast_S64_S1x64_1 : (⟨S64, .f32⟩ : BufTy).Contents (Elt F) → (⟨S1x64, .f32⟩ : BufTy).Contents (Elt F)),
    StableHlo.unary main_v122 main_v123 (broadcastInDim S100000x64 ![0, 1] bcast_S1x64_S100000x64_0_1 : (⟨S1x64, .f32⟩ : BufTy).Contents (Elt F) → (⟨S100000x64, .f32⟩ : BufTy).Contents (Elt F)),
    StableHlo.binary main_v121 main_v123 main_v124 (addf : (⟨S100000x64, .f32⟩ : BufTy).Contents (Elt F) → (⟨S100000x64, .f32⟩ : BufTy).Contents (Elt F) → (⟨S100000x64, .f32⟩ : BufTy).Contents (Elt F)) ]

/-- @main's 218 operations in execution order. -/
abbrev ops : List (HloOp τ sig (Elt F)) := ops0 ++ (ops1 ++ ops2)

/-! ## The program is that line -/

/-- The first stretch of @main is the line `ops0`: the called functions' definitions unfolded at their calls
    and sequencing re-associated, both sides are the same chain of steps. -/
theorem main_part0_eq (c : Dev nD) : main_part0 (F := F) c = seq ops0 := by
  simp only [main_part0, fn_var.body, fn_where.body, fn_relu.body, seq, bind_assoc, pure_bind] <;> rfl

/-- The second stretch of @main is the line `ops1`: the called functions' definitions unfolded at their calls
    and sequencing re-associated, both sides are the same chain of steps. -/
theorem main_part1_eq (c : Dev nD) : main_part1 (F := F) c = seq ops1 := by
  simp only [main_part1, fn_var.body, fn_where.body, fn_relu.body, seq, bind_assoc, pure_bind] <;> rfl

/-- The third stretch of @main is the line `ops2`: the called functions' definitions unfolded at their calls
    and sequencing re-associated, both sides are the same chain of steps. -/
theorem main_part2_eq (c : Dev nD) : main_part2 (F := F) c = seq ops2 := by
  simp only [main_part2, fn_var.body, fn_where.body, fn_relu.body, seq, bind_assoc, pure_bind] <;> rfl

/-- @main runs its three stretches in order, which is running their concatenation (`seq_append`). -/
theorem main_eq (c : Dev nD) : main (F := F) c = seq ops := by
  show main (F := F) c = seq (ops0 ++ (ops1 ++ ops2))
  rw [seq_append, seq_append, ← main_part0_eq c, ← main_part1_eq c, ← main_part2_eq c]
  rfl

/-! ## The fold, stretch by stretch -/

/-- Folding over a concatenation is folding over the first list, then over the second from there. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after the whole line are those after the third stretch from those after the second from those
    after the first. -/
theorem after_ops (V : Valuation τ sig (Elt F)) :
    after (ops (F := F)) V = after ops2 (after ops1 (after ops0 V)) :=
  (after_append ops0 (ops1 ++ ops2) V).trans (after_append ops1 ops2 _)

/-! ## Side conditions of the run: nothing is scoped, every operation touches TensorCore buffers only and
    determines what it writes -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    binary_bufs_sub .., unary_bufs_sub .., binary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., reshape_bufs_sub .., unary_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem ops1_sub : (ops1 : List (HloOp τ sig (Elt F))).Forall fun op => op.bufs ⊆ tcRefs τ sig :=
  ⟨nullary_bufs_sub .., unary_bufs_sub .., unary_bufs_sub .., ternary_bufs_sub .., nullary_bufs_sub .., binary_bufs_sub ..,
    unary_bufs_sub .., binary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., unary_bufs_sub ..,
    reshape_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., binary_bufs_sub .., unary_bufs_sub .., binary_bufs_sub ..,
    unary_bufs_sub .., binary_bufs_sub .., nullary_bufs_sub .., binary_bufs_sub .., nullary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem ops2_sub : (ops2 : List (HloOp τ sig (Elt F))).Forall fun op => op.bufs ⊆ tcRefs τ sig :=
  ⟨unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    reshape_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub ..,
    binary_bufs_sub .., unary_bufs_sub .., unary_bufs_sub .., binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h,
    List.forall_iff_forall_mem.mp ops2_fresh op h]

/-! ## What each stretch writes, and that it leaves the rest alone -/

/-- The references the first stretch's operations write, in order. -/
abbrev W0 : List (Ref sig .tc) :=
  [main_v0, main_v1, main_v2, main_v3, main_c, main_v4, main_v5, main_c_0,
   main_v6, main_v7, main_v8, main_v9, main_v10, main_cst, main_v11, main_v12,
   main_v13, main_cst_1, main_v14, main_v15, main_v16, main_v17, main_v18, main_cst_2,
   main_v19, main_cst_3, main_v20, main_v21, main_c_4, main_call0_cst, main_call0_v0, main_call0_v1,
   main_call0_cst_0, main_call0_v2, main_call0_v3, main_call0_v4, main_call0_v5, main_call0_v6, main_call0_v7, main_call0_cst_1,
   main_call0_v8, main_call0_cst_2, main_call0_v9, main_call0_v10, main_call0_v11, main_call0_cst_3, main_call0_v12, main_call0_cst_4,
   main_call0_call0_v0, main_call0_call0_v1, main_v22, main_v23, main_v24, main_v25, main_cst_5, main_v26,
   main_v27, main_v28, main_v29, main_v30, main_v31, main_v32, main_v33, main_v34,
   main_v35, main_v36, main_v37, main_v38, main_v39, main_v40, main_v41, main_call1_cst,
   main_call1_v0, main_v42, main_c_6, main_v43, main_v44, main_c_7, main_v45, main_v46,
   main_v47, main_v48, main_v49]

theorem ops0_writes : (ops0 : List (HloOp τ sig (Elt F))).Forall fun op =>
    op.writes ⊆ (W0.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference the first stretch does not write keeps its contents through it. -/
theorem keep0 (V : Valuation τ sig (Elt F)) (r : Ref sig .tc) (h : r ∉ W0) :
    after ops0 V (Proc.devRef .tc r) = V (Proc.devRef .tc r) :=
  after_of_writes_sub ops0 V ops0_writes h

/-- The references the second stretch's operations write, in order. -/
abbrev W1 : List (Ref sig .tc) :=
  [main_cst_8, main_v50, main_v51, main_v52, main_cst_9, main_v53, main_v54, main_v55,
   main_v56, main_v57, main_cst_10, main_v58, main_cst_11, main_v59, main_v60, main_c_12,
   main_call2_cst, main_call2_v0, main_call2_v1, main_call2_cst_0, main_call2_v2, main_call2_v3, main_call2_v4, main_call2_v5,
   main_call2_v6, main_call2_v7, main_call2_cst_1, main_call2_v8, main_call2_cst_2, main_call2_v9, main_call2_v10, main_call2_v11,
   main_call2_cst_3, main_call2_v12, main_call2_cst_4, main_call2_call0_v0, main_call2_call0_v1, main_v61, main_v62, main_v63,
   main_v64, main_cst_13, main_v65, main_v66, main_v67, main_v68, main_v69, main_v70,
   main_v71, main_v72, main_v73, main_v74, main_v75, main_v76, main_v77, main_v78,
   main_v79, main_v80, main_call3_cst, main_call3_v0, main_v81, main_c_14, main_v82, main_v83,
   main_c_15, main_v84, main_v85, main_v86, main_v87, main_v88, main_cst_16, main_v89,
   main_v90, main_v91, main_cst_17, main_v92, main_v93, main_v94, main_v95, main_v96,
   main_cst_18, main_v97, main_cst_19]

theorem ops1_writes : (ops1 : List (HloOp τ sig (Elt F))).Forall fun op =>
    op.writes ⊆ (W1.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference the second stretch does not write keeps its contents through it. -/
theorem keep1 (V : Valuation τ sig (Elt F)) (r : Ref sig .tc) (h : r ∉ W1) :
    after ops1 V (Proc.devRef .tc r) = V (Proc.devRef .tc r) :=
  after_of_writes_sub ops1 V ops1_writes h

/-- The references the third stretch's operations write, in order. -/
abbrev W2 : List (Ref sig .tc) :=
  [main_v98, main_v99, main_c_20, main_call4_cst, main_call4_v0, main_call4_v1, main_call4_cst_0, main_call4_v2,
   main_call4_v3, main_call4_v4, main_call4_v5, main_call4_v6, main_call4_v7, main_call4_cst_1, main_call4_v8, main_call4_cst_2,
   main_call4_v9, main_call4_v10, main_call4_v11, main_call4_cst_3, main_call4_v12, main_call4_cst_4, main_call4_call0_v0, main_call4_call0_v1,
   main_v100, main_v101, main_v102, main_v103, main_cst_21, main_v104, main_v105, main_v106,
   main_v107, main_v108, main_v109, main_v110, main_v111, main_v112, main_v113, main_v114,
   main_v115, main_v116, main_v117, main_v118, main_v119, main_call5_cst, main_call5_v0, main_v120,
   main_v121, main_v122, main_v123, main_v124]

theorem ops2_writes : (ops2 : List (HloOp τ sig (Elt F))).Forall fun op =>
    op.writes ⊆ (W2.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference the third stretch does not write keeps its contents through it. -/
theorem keep2 (V : Valuation τ sig (Elt F)) (r : Ref sig .tc) (h : r ∉ W2) :
    after ops2 V (Proc.devRef .tc r) = V (Proc.devRef .tc r) :=
  after_of_writes_sub ops2 V ops2_writes h

/-- A reference no stretch writes keeps its contents through the whole line. -/
theorem keep (V : Valuation τ sig (Elt F)) (r : Ref sig .tc) (h0 : r ∉ W0) (h1 : r ∉ W1) (h2 : r ∉ W2) :
    after ops V (Proc.devRef .tc r) = V (Proc.devRef .tc r) := by
  rw [after_ops, keep2 _ r h2, keep1 _ r h1, keep0 _ r h0]

/-! ## The run -/

/-- On every device, for any float values, from any memory with zero counters: every weakly fair execution of
    @main terminates with the result buffer at the fold of the 218 operations over the launch contents, and the
    six arguments unchanged (no operation writes them). -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v124) = after ops (fun b => m (c, b)) (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h c main_v124,
      (h c main_arg0).trans (keep _ main_arg0 (by decide) (by decide) (by decide)),
      (h c main_arg1).trans (keep _ main_arg1 (by decide) (by decide) (by decide)),
      (h c main_arg2).trans (keep _ main_arg2 (by decide) (by decide) (by decide)),
      (h c main_arg3).trans (keep _ main_arg3 (by decide) (by decide) (by decide)),
      (h c main_arg4).trans (keep _ main_arg4 (by decide) (by decide) (by decide)),
      (h c main_arg5).trans (keep _ main_arg5 (by decide) (by decide) (by decide))⟩)
    (run_seq scopedRefs_eq scopedSems_eq defs main (fun _ => ops) main_eq (fun _ => ops_sub) m ρ (fun _ => ops_fresh))

/-- The reference's frame: its run, the result's value dropped. The stated side conditions are propositions,
    so any two witnesses of them give the same program. -/
theorem frame (hF : Cert.ReferenceIdeal.Facts) (hP : Cert.Pre_finite_inputs.Facts) :
    Cert.frame_ReferenceIdeal (hReferenceIdeal := hF) (hPre_finite_inputs := hP) :=
  fun m ρ _ => (θ_run defs _ _).mono (fun _ h c => (h c).2) (run m ρ)

end Cert.ReferenceIdeal.Hand

end
-- ==== Proof.Ref.Layer.lean ====
/-
  One layer of the reference as a function of the arrays it starts from, and the reference's line cut at the
  layers' ends.

  The reference is a straight line of host operations: the two rows of the edge list are cut out, then three
  rounds of one layer run, then the node-task head. One round takes the entering features h, adds to every node
  the sum of its in-neighbours' rows and the column sums of h, subtracts the column means, multiplies by the
  reciprocal root of the mean squared deviation plus ε, scales and shifts by one row of each parameter array, and
  clamps at zero. A round's operations are the same text three times over different buffers. So the round is
  written once as a function of the arrays it starts from and read at an index once: it is the layer of the
  mathematics, with the variance taken as the mean of the squared deviations. The line is then cut at the rounds'
  ends; each stretch is read back as that function of what it finds in the buffers, and a buffer a stretch does
  not write passes through it unchanged.
-/
import proofs.«107997_j14224931684915_1_alg».proof.Proof.Ref.Run
import proofs.«107997_j14224931684915_1_alg».proof.Proof.HostSpec
import Idealize.ShloMosaic.Lib.StackMember

-- one declaration at a time: the stretches' read-backs are large terms, and elaborated side by side they add up
set_option Elab.async false

noncomputable section

namespace Cert.ReferenceIdeal.HandV

open Cert.ReferenceIdeal Cert.ReferenceIdeal.Facts₀ Idealize.ShloMosaic Idealize.ShloMosaic.ValueIdx
  Idealize.ShloMosaic.StableHlo Idealize.SL.Sem Cert.Spec Cert.Conv Cert.HostSpec

/-! ## One layer's operations as a function, and its reading -/

/-- A row `[128]` spread over every node. -/
def rowB (v : FVec Ideal S128 .f32) : FVec Ideal S100000x128 .f32 :=
  broadcastInDim S100000x128 ![0, 1] bcast_S1x128_S100000x128_0_1 (broadcastInDim S1x128 ![1] bcast_S128_S1x128_1 v)

theorem rowB_apply (v : FVec Ideal S128 .f32) (i : Fin 100000) (j : Fin 128) : rowB v (ix2 i j) = v (ix1 j) := by
  unfold rowB
  rw [Cert.Net.broadcastInDim_1b_ab_apply, bcast_b_1b_apply]

/-- The neighbour aggregate as the program spells it, from the entering features and the two rows of the edge list. -/
def aggC (h : FVec Ideal S100000x128 .f32) (d1 s3 : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d1)
    (Host.gather gather_S100000x128_S1600000x1_S1600000x128_1_0_n_n_0_1_1128 h
      (broadcastInDim S1600000x1 ![0] bcast_S1600000_S1600000x1_0
        (select (cmpi .slt s3 (broadcastInDim S1600000 ![] bcast_S_S1600000 (constantI S_ 32 0#32)))
          (addi s3 (broadcastInDim S1600000 ![] bcast_S_S1600000 (constantI S_ 32 100000#32))) s3)))

theorem aggC_toMat (h : FVec Ideal S100000x128 .f32) (d1 s3 : IVec S1600000 32) :
    toMat (aggC h d1 s3) = AggOf d1 s3 (toMat h) :=
  agg_chain _ _ _ _ _ _ _ h d1 s3

/-- Self plus aggregate plus the column sums of the entering features, spread over the nodes. -/
def uC (h a : FVec Ideal S100000x128 .f32) : FVec Ideal S100000x128 .f32 :=
  addf (addf h a) (rowB (Host.reduceAdd h (constant S_ .f32 0x00000000#32) reducesTo_S100000x128_S128_d0 h_S_))

theorem uC_toMat (h a : FVec Ideal S100000x128 .f32) :
    toMat (uC h a) = combine (toMat h) (toMat a) (colSum (toMat h)) := by
  funext i j
  show uC h a (ix2 i j) = _
  unfold uC
  rw [addf_apply, addf_apply, rowB_apply, reduceRows_apply h _ _ (by decide) h_S_, constant_apply,
    Ideal.ofBits_zero_f32, zero_add]
  rfl

/-- The column means: the column sums over the node count. -/
def meanC (u : FVec Ideal S100000x128 .f32) : FVec Ideal S128 .f32 :=
  Host.divf (Host.reduceAdd u (constant S_ .f32 0x00000000#32) reducesTo_S100000x128_S128_d0 h_S_)
    (broadcastInDim S128 ![] bcast_S_S128 (constant S_ .f32 0x47C35000#32))

theorem meanC_apply (u : FVec Ideal S100000x128 .f32) (j : Fin 128) : meanC u (ix1 j) = meanOf cE (toMat u) j := by
  unfold meanC
  rw [divN_apply, reduceRows_apply u _ _ (by decide) h_S_, constant_apply, Ideal.ofBits_zero_f32, zero_add]
  rfl

/-- The count the variance divides by: the node count less the (zero) correction, converted from an integer. -/
def cntC : FVec Ideal S_ .f32 :=
  subf (constant S_ .f32 0x47C35000#32) (sitofp .f32 (constantI S_ 32 0#32))

theorem cntC_apply (i : S_.Idx) : cntC i = cE := by
  show Ideal.ofBits .f32 0x47C35000#32 - ((((0#32 : BitVec 32).toInt : ℤ) : ℝ) : EReal) = cE
  have h0 : (0#32 : BitVec 32).toInt = 0 := by decide
  rw [ofBits_n, h0, Int.cast_zero, EReal.coe_zero, sub_zero]

/-- The features less their column means, the means taken as the variance function takes them (kept as one row). -/
def cenC (u : FVec Ideal S100000x128 .f32) : FVec Ideal S100000x128 .f32 :=
  subf u (broadcastInDim S100000x128 ![0, 1] bcast_S1x128_S100000x128_0_1
    (Host.divf
      (broadcastInDim S1x128 ![1] bcast_S128_S1x128_1
        (Host.reduceAdd u (constant S_ .f32 0x00000000#32) reducesTo_S100000x128_S128_d0 h_S_))
      (broadcastInDim S1x128 ![] bcast_S_S1x128 (constant S_ .f32 0x47C35000#32))))

theorem cenC_apply (u : FVec Ideal S100000x128 .f32) (i : Fin 100000) (j : Fin 128) :
    cenC u (ix2 i j) = toMat u i j - meanOf cE (toMat u) j := by
  unfold cenC
  rw [subf_apply, Cert.Net.broadcastInDim_1b_ab_apply, divN_apply, bcast_b_1b_apply,
    reduceRows_apply u _ _ (by decide) h_S_, constant_apply, Ideal.ofBits_zero_f32, zero_add]
  rfl

/-- The variance as the reference's helper takes it: the mean squared deviation, kept when the count is positive. -/
def varC (u : FVec Ideal S100000x128 .f32) : FVec Ideal S128 .f32 :=
  select (broadcastInDim S128 ![] bcast_S_S128 (cmpf .ogt cntC (constant S_ .f32 0x00000000#32)))
    (Host.divf
      (Host.reduceAdd (mulf (cenC u) (cenC u)) (constant S_ .f32 0x00000000#32) reducesTo_S100000x128_S128_d0 h_S_)
      (broadcastInDim S128 ![] bcast_S_S128 cntC))
    (broadcastInDim S128 ![] bcast_S_S128 (id (constant S_ .f32 0x7FC00000#32)))

theorem varC_apply (u : FVec Ideal S100000x128 .f32) (j : Fin 128) : varC u (ix1 j) = varR cE (toMat u) j := by
  have hpos : (0 : EReal) < cE := by
    show (0 : EReal) < (((100000 : ℕ) : ℝ) : EReal)
    exact_mod_cast (by norm_num : (0 : ℝ) < ((100000 : ℕ) : ℝ))
  have hbit : cmpf .ogt cntC (constant (F := Ideal) S_ .f32 0x00000000#32) ix0 = 1#1 := by
    rw [cmpf_apply, cntC_apply, constant_apply, Ideal.ofBits_zero_f32]
    show Ideal.cmp .ogt cE 0 = 1#1
    unfold Ideal.cmp
    simp [hpos]
  unfold varC
  rw [select_apply, broadcastInDim_scalar_apply, hbit, select_one, hostDivf_apply, broadcastInDim_scalar_apply,
    cntC_apply, reduceRows_apply _ _ _ (by decide) h_S_, constant_apply, Ideal.ofBits_zero_f32, zero_add]
  simp only [varR, colSum]
  refine congrArg (fun s => Ideal.div s cE) (Finset.sum_congr rfl fun i _ => ?_)
  rw [mulf_apply, cenC_apply]

/-- The reciprocal root of the variance plus ε. -/
def invC (u : FVec Ideal S100000x128 .f32) : FVec Ideal S128 .f32 :=
  Host.rsqrt (addf (varC u) (broadcastInDim S128 ![] bcast_S_S128 (constant S_ .f32 0x3727C5AC#32)))

theorem invC_apply (u : FVec Ideal S100000x128 .f32) (j : Fin 128) :
    invC u (ix1 j) = Ideal.rsqrt (varR cE (toMat u) j + eE) := by
  unfold invC
  rw [hostRsqrt_apply, addEps_apply, varC_apply]

/-- Row `off 0` of a parameter array, flattened and spread over every node. -/
def parC (X : FVec Ideal S3x128 .f32) (off : Fin 2 → ℕ) (hs : S3x128.Slices off S1x128) : FVec Ideal S100000x128 .f32 :=
  rowB (shapeCast S128 (extractStridedSlice S1x128 off X hs) shapeCasts_S1x128_S128)

theorem parC_apply (X : FVec Ideal S3x128 .f32) (k : Fin 3) (hs : S3x128.Slices ![k.val, 0] S1x128)
    (i : Fin 100000) (j : Fin 128) : parC X ![k.val, 0] hs (ix2 i j) = toMat X k j := by
  unfold parC
  rw [rowB_apply, shapeCast_1a_a_apply, sliceRow_apply]
  rfl

/-- Normalise, scale, shift and clamp at zero: the layer's result from the combined features. -/
def bnC (u : FVec Ideal S100000x128 .f32) (G B : FVec Ideal S3x128 .f32) (off : Fin 2 → ℕ)
    (hs : S3x128.Slices off S1x128) : FVec Ideal S100000x128 .f32 :=
  maximumf
    (addf (mulf (mulf (subf u (rowB (meanC u))) (rowB (invC u))) (parC G off hs)) (parC B off hs))
    (broadcastInDim S100000x128 ![] bcast_S_S100000x128 (constant S_ .f32 0x00000000#32))

/-- One layer: aggregate, combine, normalise. -/
def layerC (h : FVec Ideal S100000x128 .f32) (d1 s3 : IVec S1600000 32) (G B : FVec Ideal S3x128 .f32)
    (off : Fin 2 → ℕ) (hs : S3x128.Slices off S1x128) : FVec Ideal S100000x128 .f32 :=
  bnC (uC h (aggC h d1 s3)) G B off hs

/-- The layer's operations compute the layer. -/
theorem layerC_toMat (h : FVec Ideal S100000x128 .f32) (d1 s3 : IVec S1600000 32) (G B : FVec Ideal S3x128 .f32)
    (k : Fin 3) (hs : S3x128.Slices ![k.val, 0] S1x128) :
    toMat (layerC h d1 s3 G B ![k.val, 0] hs)
      = layerR cE eE (toMat h) (AggOf d1 s3 (toMat h)) (toMat G k) (toMat B k) := by
  funext i j
  have hu := uC_toMat h (aggC h d1 s3)
  rw [aggC_toMat] at hu
  show bnC (uC h (aggC h d1 s3)) G B ![k.val, 0] hs (ix2 i j) = _
  generalize uC h (aggC h d1 s3) = u at hu ⊢
  unfold bnC layerR layerWith Cert.Spec.normalize
  rw [← hu, maximumf_apply, addf_apply, mulf_apply, mulf_apply, subf_apply, rowB_apply, rowB_apply, meanC_apply,
    invC_apply, parC_apply, parC_apply, broadcastInDim_scalar_apply, constant_apply, Ideal.ofBits_zero_f32]
  rfl

/-- The node-task head as the program spells it. -/
def headC (h : FVec Ideal S100000x128 .f32) (Wt : FVec Ideal S128x64 .f32) (b : FVec Ideal S64 .f32) :
    FVec Ideal S100000x64 .f32 :=
  addf (Host.dotGeneral dot_S100000x128_S128x64_S100000x64_1_0_0_1_n_n none h Wt)
    (broadcastInDim S100000x64 ![0, 1] bcast_S1x64_S100000x64_0_1 (broadcastInDim S1x64 ![1] bcast_S64_S1x64_1 b))

theorem headC_toMat (h : FVec Ideal S100000x128 .f32) (Wt : FVec Ideal S128x64 .f32) (b : FVec Ideal S64 .f32) :
    toMat (headC h Wt b) = head (toMat h) (toMat Wt) (toRow b) := by
  funext i q
  show headC h Wt b (ix2 i q) = _
  unfold headC
  rw [addf_apply, Cert.Net.broadcastInDim_1b_ab_apply, bcast_b_1b_apply]
  have hd : Host.dotGeneral dot_S100000x128_S128x64_S100000x64_1_0_0_1_n_n none h Wt (ix2 i q)
      = ∑ c : Fin 128, h (ix2 i c) * Wt (ix2 c q) :=
    Idealize.ShloMosaic.StackMember.dotGeneral_plain_apply (m := 100000) (n := 64) (k := 128) none h Wt i q
  rw [hd]
  rfl

/-! ## The line cut at the layers' ends -/

section Line

variable {F : FTy → Type} [FloatOps F]

/-- The two rows of the edge list, each cut out and flattened: operations 1 … 4. -/
abbrev pre : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- The first layer: operations 5 … 74, the variance and clamp functions' operations inline. -/
abbrev L0 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v3 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v3 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v3 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v1 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x00000000#32),
    StableHlo.binary main_arg0 main_cst_1 main_v14 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_v14 main_v15 (broadcastInDim S1x128 ![1] bcast_S128_S1x128_1 : (⟨S128, .f32⟩ : BufTy).Contents (Elt F) → (⟨S1x128, .f32⟩ : BufTy).Contents (Elt F)),
    StableHlo.binary main_arg0 main_v13 main_v16 (addf : (⟨S100000x128, .f32⟩ : BufTy).Contents (Elt F) → (⟨S100000x128, .f32⟩ : BufTy).Contents (Elt F) → (⟨S100000x128, .f32⟩ : BufTy).Contents (Elt F)),
    StableHlo.unary main_v15 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v18 main_cst_2 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (StableHlo.TRef.of main_v18 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (StableHlo.TRef.of main_v18 : StableHlo.TRef sig ⟨S100000x128, .f32⟩) main_call0.v4 main_call0.v5 subf,
    StableHlo.TRef.binary main_call0.v5 main_call0.v5 main_call0.v6 mulf,
    StableHlo.TRef.unary (StableHlo.TRef.of main_c_4 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v24 main_v25 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v30 main_v31 (mulf : (⟨S100000x128, .f32⟩ : BufTy).Contents (Elt F) → (⟨S100000x128, .f32⟩ : BufTy).Contents (Elt F) → (⟨S100000x128, .f32⟩ : BufTy).Contents (Elt F)),
    StableHlo.unary main_arg2 main_v32 ((extractStridedSlice S1x128 ![0, 0] · slices_S3x128_S1x128_0_0) : (⟨S3x128, .f32⟩ : BufTy).Contents (Elt F) → (⟨S1x128, .f32⟩ : BufTy).Contents (Elt F)),
    StableHlo.reshape main_v32 main_v33 rfl shapeCasts_S1x128_S128,
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v35 main_v36 (mulf : (⟨S100000x128, .f32⟩ : BufTy).Contents (Elt F) → (⟨S100000x128, .f32⟩ : BufTy).Contents (Elt F) → (⟨S100000x128, .f32⟩ : BufTy).Contents (Elt F)),
    StableHlo.unary main_arg3 main_v37 ((extractStridedSlice S1x128 ![0, 0] · slices_S3x128_S1x128_0_0) : (⟨S3x128, .f32⟩ : BufTy).Contents (Elt F) → (⟨S1x128, .f32⟩ : BufTy).Contents (Elt F)),
    StableHlo.reshape main_v37 main_v38 rfl shapeCasts_S1x128_S128,
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v40 main_v41 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v41 : StableHlo.TRef sig ⟨S100000x128, .f32⟩) main_call1.v0 main_call1.v1 maximumf ]

/-- The second layer: operations 75 … 144. -/
abbrev L1 : List (HloOp τ sig (Elt F)) :=
  [ StableHlo.nullary main_c_6 (constantI S_ 32 0#32),
    StableHlo.unary main_c_6 main_v43 (broadcastInDim S1600000 ![] bcast_S_S1600000 : (⟨S_, .i32⟩ : BufTy).Contents (Elt F) → (⟨S1600000, .i32⟩ : BufTy).Contents (Elt F)),
    StableHlo.binary main_v3 main_v43 main_v44 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v45 (broadcastInDim S1600000 ![] bcast_S_S1600000 : (⟨S_, .i32⟩ : BufTy).Contents (Elt F) → (⟨S1600000, .i32⟩ : BufTy).Contents (Elt F)),
    StableHlo.binary main_v3 main_v45 main_v46 (addi : (⟨S1600000, .i32⟩ : BufTy).Contents (Elt F) → (⟨S1600000, .i32⟩ : BufTy).Contents (Elt F) → (⟨S1600000, .i32⟩ : BufTy).Contents (Elt F)),
    StableHlo.ternary main_v44 main_v46 main_v3 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v47 main_v48 (broadcastInDim S1600000x1 ![0] bcast_S1600000_S1600000x1_0 : (⟨S1600000, .i32⟩ : BufTy).Contents (Elt F) → (⟨S1600000x1, .i32⟩ : BufTy).Contents (Elt F)),
    StableHlo.binary main_v42 main_v48 main_v49 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v50 (broadcastInDim S100000x128 ![] bcast_S_S100000x128 : (⟨S_, .f32⟩ : BufTy).Contents (Elt F) → (⟨S100000x128, .f32⟩ : BufTy).Contents (Elt F)),
    StableHlo.unary main_v1 main_v51 (broadcastInDim S1600000x1 ![0] bcast_S1600000_S1600000x1_0 : (⟨S1600000, .i32⟩ : BufTy).Contents (Elt F) → (⟨S1600000x1, .i32⟩ : BufTy).Contents (Elt F)),
    StableHlo.ternary main_v50 main_v51 main_v49 main_v52 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_9 (constant S_ .f32 0x00000000#32),
    StableHlo.binary main_v42 main_cst_9 main_v53 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_v53 main_v54 (broadcastInDim S1x128 ![1] bcast_S128_S1x128_1 : (⟨S128, .f32⟩ : BufTy).Contents (Elt F) → (⟨S1x128, .f32⟩ : BufTy).Contents (Elt F)),
    StableHlo.binary main_v42 main_v52 main_v55 (addf : (⟨S100000x128, .f32⟩ : BufTy).Contents (Elt F) → (⟨S100000x128, .f32⟩ : BufTy).Contents (Elt F) → (⟨S100000x128, .f32⟩ : BufTy).Contents (Elt F)),
    StableHlo.unary main_v54 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v56 main_v57 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.binary main_v57 main_cst_10 main_v58 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v59 (broadcastInDim S128 ![] bcast_S_S128 : (⟨S_, .f32⟩ : BufTy).Contents (Elt F) → (⟨S128, .f32⟩ : BufTy).Contents (Elt F)),
    StableHlo.binary main_v58 main_v59 main_v60 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call2.cst (constant S_ .f32 0x00000000#32),
    StableHlo.TRef.binary (StableHlo.TRef.of main_v57 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v57 : StableHlo.TRef sig ⟨S100000x128, .f32⟩) main_call2.v4 main_call2.v5 subf,
    StableHlo.TRef.binary main_call2.v5 main_call2.v5 main_call2.v6 mulf,
    StableHlo.TRef.unary (StableHlo.TRef.of main_c_12 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v60 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v63 main_v64 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v65 (broadcastInDim S128 ![] bcast_S_S128 : (⟨S_, .f32⟩ : BufTy).Contents (Elt F) → (⟨S128, .f32⟩ : BufTy).Contents (Elt F)),
    StableHlo.binary main_v61 main_v65 main_v66 (addf : (⟨S128, .f32⟩ : BufTy).Contents (Elt F) → (⟨S128, .f32⟩ : BufTy).Contents (Elt F) → (⟨S128, .f32⟩ : BufTy).Contents (Elt F)),
    StableHlo.unary main_v66 main_v67 (Host.rsqrt : (⟨S128, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v69 main_v70 (mulf : (⟨S100000x128, .f32⟩ : BufTy).Contents (Elt F) → (⟨S100000x128, .f32⟩ : BufTy).Contents (Elt F) → (⟨S100000x128, .f32⟩ : BufTy).Contents (Elt F)),
    StableHlo.unary main_arg2 main_v71 ((extractStridedSlice S1x128 ![1, 0] · slices_S3x128_S1x128_1_0) : (⟨S3x128, .f32⟩ : BufTy).Contents (Elt F) → (⟨S1x128, .f32⟩ : BufTy).Contents (Elt F)),
    StableHlo.reshape main_v71 main_v72 rfl shapeCasts_S1x128_S128,
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v74 main_v75 (mulf : (⟨S100000x128, .f32⟩ : BufTy).Contents (Elt F) → (⟨S100000x128, .f32⟩ : BufTy).Contents (Elt F) → (⟨S100000x128, .f32⟩ : BufTy).Contents (Elt F)),
    StableHlo.unary main_arg3 main_v76 ((extractStridedSlice S1x128 ![1, 0] · slices_S3x128_S1x128_1_0) : (⟨S3x128, .f32⟩ : BufTy).Contents (Elt F) → (⟨S1x128, .f32⟩ : BufTy).Contents (Elt F)),
    StableHlo.reshape main_v76 main_v77 rfl shapeCasts_S1x128_S128,
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v79 main_v80 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (StableHlo.TRef.of main_v80 : StableHlo.TRef sig ⟨S100000x128, .f32⟩) main_call3.v0 main_call3.v1 maximumf ]

/-- The third layer: operations 145 … 214. -/
abbrev L2 : List (HloOp τ sig (Elt F)) :=
  [ StableHlo.nullary main_c_14 (constantI S_ 32 0#32),
    StableHlo.unary main_c_14 main_v82 (broadcastInDim S1600000 ![] bcast_S_S1600000 : (⟨S_, .i32⟩ : BufTy).Contents (Elt F) → (⟨S1600000, .i32⟩ : BufTy).Contents (Elt F)),
    StableHlo.binary main_v3 main_v82 main_v83 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v84 (broadcastInDim S1600000 ![] bcast_S_S1600000 : (⟨S_, .i32⟩ : BufTy).Contents (Elt F) → (⟨S1600000, .i32⟩ : BufTy).Contents (Elt F)),
    StableHlo.binary main_v3 main_v84 main_v85 (addi : (⟨S1600000, .i32⟩ : BufTy).Contents (Elt F) → (⟨S1600000, .i32⟩ : BufTy).Contents (Elt F) → (⟨S1600000, .i32⟩ : BufTy).Contents (Elt F)),
    StableHlo.ternary main_v83 main_v85 main_v3 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v86 main_v87 (broadcastInDim S1600000x1 ![0] bcast_S1600000_S1600000x1_0 : (⟨S1600000, .i32⟩ : BufTy).Contents (Elt F) → (⟨S1600000x1, .i32⟩ : BufTy).Contents (Elt F)),
    StableHlo.binary main_v81 main_v87 main_v88 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v89 (broadcastInDim S100000x128 ![] bcast_S_S100000x128 : (⟨S_, .f32⟩ : BufTy).Contents (Elt F) → (⟨S100000x128, .f32⟩ : BufTy).Contents (Elt F)),
    StableHlo.unary main_v1 main_v90 (broadcastInDim S1600000x1 ![0] bcast_S1600000_S1600000x1_0 : (⟨S1600000, .i32⟩ : BufTy).Contents (Elt F) → (⟨S1600000x1, .i32⟩ : BufTy).Contents (Elt F)),
    StableHlo.ternary main_v89 main_v90 main_v88 main_v91 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_17 (constant S_ .f32 0x00000000#32),
    StableHlo.binary main_v81 main_cst_17 main_v92 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_v92 main_v93 (broadcastInDim S1x128 ![1] bcast_S128_S1x128_1 : (⟨S128, .f32⟩ : BufTy).Contents (Elt F) → (⟨S1x128, .f32⟩ : BufTy).Contents (Elt F)),
    StableHlo.binary main_v81 main_v91 main_v94 (addf : (⟨S100000x128, .f32⟩ : BufTy).Contents (Elt F) → (⟨S100000x128, .f32⟩ : BufTy).Contents (Elt F) → (⟨S100000x128, .f32⟩ : BufTy).Contents (Elt F)),
    StableHlo.unary main_v93 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v95 main_v96 (addf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x00000000#32),
    StableHlo.binary main_v96 main_cst_18 main_v97 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v98 (broadcastInDim S128 ![] bcast_S_S128 : (⟨S_, .f32⟩ : BufTy).Contents (Elt F) → (⟨S128, .f32⟩ : BufTy).Contents (Elt F)),
    StableHlo.binary main_v97 main_v98 main_v99 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call4.cst (constant S_ .f32 0x00000000#32),
    StableHlo.TRef.binary (StableHlo.TRef.of main_v96 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (StableHlo.TRef.of main_v96 : StableHlo.TRef sig ⟨S100000x128, .f32⟩) main_call4.v4 main_call4.v5 subf,
    StableHlo.TRef.binary main_call4.v5 main_call4.v5 main_call4.v6 mulf,
    StableHlo.TRef.unary (StableHlo.TRef.of main_c_20 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v99 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v102 main_v103 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v104 (broadcastInDim S128 ![] bcast_S_S128 : (⟨S_, .f32⟩ : BufTy).Contents (Elt F) → (⟨S128, .f32⟩ : BufTy).Contents (Elt F)),
    StableHlo.binary main_v100 main_v104 main_v105 (addf : (⟨S128, .f32⟩ : BufTy).Contents (Elt F) → (⟨S128, .f32⟩ : BufTy).Contents (Elt F) → (⟨S128, .f32⟩ : BufTy).Contents (Elt F)),
    StableHlo.unary main_v105 main_v106 (Host.rsqrt : (⟨S128, .f32⟩ : BufTy).Contents (Elt F) → (⟨S128, .f32⟩ : BufTy).Contents (Elt F)),
    StableHlo.unary main_v106 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v103 main_v108 main_v109 (mulf : (⟨S100000x128, .f32⟩ : BufTy).Contents (Elt F) → (⟨S100000x128, .f32⟩ : BufTy).Contents (Elt F) → (⟨S100000x128, .f32⟩ : BufTy).Contents (Elt F)),
    StableHlo.unary main_arg2 main_v110 ((extractStridedSlice S1x128 ![2, 0] · slices_S3x128_S1x128_2_0) : (⟨S3x128, .f32⟩ : BufTy).Contents (Elt F) → (⟨S1x128, .f32⟩ : BufTy).Contents (Elt F)),
    StableHlo.reshape main_v110 main_v111 rfl shapeCasts_S1x128_S128,
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v109 main_v113 main_v114 (mulf : (⟨S100000x128, .f32⟩ : BufTy).Contents (Elt F) → (⟨S100000x128, .f32⟩ : BufTy).Contents (Elt F) → (⟨S100000x128, .f32⟩ : BufTy).Contents (Elt F)),
    StableHlo.unary main_arg3 main_v115 ((extractStridedSlice S1x128 ![2, 0] · slices_S3x128_S1x128_2_0) : (⟨S3x128, .f32⟩ : BufTy).Contents (Elt F) → (⟨S1x128, .f32⟩ : BufTy).Contents (Elt F)),
    StableHlo.reshape main_v115 main_v116 rfl shapeCasts_S1x128_S128,
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v118 main_v119 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (StableHlo.TRef.of main_v119 : StableHlo.TRef sig ⟨S100000x128, .f32⟩) main_call5.v0 main_call5.v1 maximumf ]

/-- The head: operations 215 … 218. -/
abbrev tl : List (HloOp τ sig (Elt F)) :=
  [ StableHlo.binary main_v120 main_arg4 main_v121 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg5 main_v122 (broadcastInDim S1x64 ![1] bcast_S64_S1x64_1 : (⟨S64, .f32⟩ : BufTy).Contents (Elt F) → (⟨S1x64, .f32⟩ : BufTy).Contents (Elt F)),
    StableHlo.unary main_v122 main_v123 (broadcastInDim S100000x64 ![0, 1] bcast_S1x64_S100000x64_0_1 : (⟨S1x64, .f32⟩ : BufTy).Contents (Elt F) → (⟨S100000x64, .f32⟩ : BufTy).Contents (Elt F)),
    StableHlo.binary main_v121 main_v123 main_v124 (addf : (⟨S100000x64, .f32⟩ : BufTy).Contents (Elt F) → (⟨S100000x64, .f32⟩ : BufTy).Contents (Elt F) → (⟨S100000x64, .f32⟩ : BufTy).Contents (Elt F)) ]

/-- The reference's line is these five stretches in order: the same operations, listed again. -/
theorem ops_split : (Hand.ops (F := F)) = pre ++ (L0 ++ (L1 ++ (L2 ++ tl))) := rfl

/-- So the contents after the line are those after the head from those after the three layers in turn. -/
theorem after_split (V : Valuation τ sig (Elt F)) :
    after (Hand.ops (F := F)) V = after tl (after L2 (after L1 (after L0 (after pre V)))) := by
  rw [ops_split, Hand.after_append, Hand.after_append, Hand.after_append, Hand.after_append]

/-- What the first four operations write. -/
abbrev Wpre : List (Ref sig .tc) :=
  [main_v0, main_v1, main_v2, main_v3]

theorem pre_writes : (pre : List (HloOp τ sig (Elt F))).Forall fun op =>
    op.writes ⊆ (Wpre.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference the first four operations do not write keeps its contents through them. -/
theorem keepPre (V : Valuation τ sig (Elt F)) (r : Ref sig .tc) (h : r ∉ Wpre) :
    after pre V (Proc.devRef .tc r) = V (Proc.devRef .tc r) :=
  after_of_writes_sub pre V pre_writes h

/-- What the first layer's operations write. -/
abbrev WL0 : List (Ref sig .tc) :=
  [main_c, main_v4, main_v5, main_c_0, main_v6, main_v7, main_v8, main_v9,
   main_v10, main_cst, main_v11, main_v12, main_v13, main_cst_1, main_v14, main_v15,
   main_v16, main_v17, main_v18, main_cst_2, main_v19, main_cst_3, main_v20, main_v21,
   main_c_4, main_call0_cst, main_call0_v0, main_call0_v1, main_call0_cst_0, main_call0_v2, main_call0_v3, main_call0_v4,
   main_call0_v5, main_call0_v6, main_call0_v7, main_call0_cst_1, main_call0_v8, main_call0_cst_2, main_call0_v9, main_call0_v10,
   main_call0_v11, main_call0_cst_3, main_call0_v12, main_call0_cst_4, main_call0_call0_v0, main_call0_call0_v1, main_v22, main_v23,
   main_v24, main_v25, main_cst_5, main_v26, main_v27, main_v28, main_v29, main_v30,
   main_v31, main_v32, main_v33, main_v34, main_v35, main_v36, main_v37, main_v38,
   main_v39, main_v40, main_v41, main_call1_cst, main_call1_v0, main_v42]

theorem L0_writes : (L0 : List (HloOp τ sig (Elt F))).Forall fun op =>
    op.writes ⊆ (WL0.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference the first layer does not write keeps its contents through it. -/
theorem keepL0 (V : Valuation τ sig (Elt F)) (r : Ref sig .tc) (h : r ∉ WL0) :
    after L0 V (Proc.devRef .tc r) = V (Proc.devRef .tc r) :=
  after_of_writes_sub L0 V L0_writes h

/-- What the second layer's operations write. -/
abbrev WL1 : List (Ref sig .tc) :=
  [main_c_6, main_v43, main_v44, main_c_7, main_v45, main_v46, main_v47, main_v48,
   main_v49, main_cst_8, main_v50, main_v51, main_v52, main_cst_9, main_v53, main_v54,
   main_v55, main_v56, main_v57, main_cst_10, main_v58, main_cst_11, main_v59, main_v60,
   main_c_12, main_call2_cst, main_call2_v0, main_call2_v1, main_call2_cst_0, main_call2_v2, main_call2_v3, main_call2_v4,
   main_call2_v5, main_call2_v6, main_call2_v7, main_call2_cst_1, main_call2_v8, main_call2_cst_2, main_call2_v9, main_call2_v10,
   main_call2_v11, main_call2_cst_3, main_call2_v12, main_call2_cst_4, main_call2_call0_v0, main_call2_call0_v1, main_v61, main_v62,
   main_v63, main_v64, main_cst_13, main_v65, main_v66, main_v67, main_v68, main_v69,
   main_v70, main_v71, main_v72, main_v73, main_v74, main_v75, main_v76, main_v77,
   main_v78, main_v79, main_v80, main_call3_cst, main_call3_v0, main_v81]

theorem L1_writes : (L1 : List (HloOp τ sig (Elt F))).Forall fun op =>
    op.writes ⊆ (WL1.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference the second layer does not write keeps its contents through it. -/
theorem keepL1 (V : Valuation τ sig (Elt F)) (r : Ref sig .tc) (h : r ∉ WL1) :
    after L1 V (Proc.devRef .tc r) = V (Proc.devRef .tc r) :=
  after_of_writes_sub L1 V L1_writes h

/-- What the third layer's operations write. -/
abbrev WL2 : List (Ref sig .tc) :=
  [main_c_14, main_v82, main_v83, main_c_15, main_v84, main_v85, main_v86, main_v87,
   main_v88, main_cst_16, main_v89, main_v90, main_v91, main_cst_17, main_v92, main_v93,
   main_v94, main_v95, main_v96, main_cst_18, main_v97, main_cst_19, main_v98, main_v99,
   main_c_20, main_call4_cst, main_call4_v0, main_call4_v1, main_call4_cst_0, main_call4_v2, main_call4_v3, main_call4_v4,
   main_call4_v5, main_call4_v6, main_call4_v7, main_call4_cst_1, main_call4_v8, main_call4_cst_2, main_call4_v9, main_call4_v10,
   main_call4_v11, main_call4_cst_3, main_call4_v12, main_call4_cst_4, main_call4_call0_v0, main_call4_call0_v1, main_v100, main_v101,
   main_v102, main_v103, main_cst_21, main_v104, main_v105, main_v106, main_v107, main_v108,
   main_v109, main_v110, main_v111, main_v112, main_v113, main_v114, main_v115, main_v116,
   main_v117, main_v118, main_v119, main_call5_cst, main_call5_v0, main_v120]

theorem L2_writes : (L2 : List (HloOp τ sig (Elt F))).Forall fun op =>
    op.writes ⊆ (WL2.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference the third layer does not write keeps its contents through it. -/
theorem keepL2 (V : Valuation τ sig (Elt F)) (r : Ref sig .tc) (h : r ∉ WL2) :
    after L2 V (Proc.devRef .tc r) = V (Proc.devRef .tc r) :=
  after_of_writes_sub L2 V L2_writes h

end Line

/-! ## Each stretch read back -/

/-- Row 0 of the edge list, flattened: the destinations. -/
theorem pre_v1 (V : Valuation τ sig (Elt Ideal)) :
    after (pre (F := Ideal)) V (Proc.devRef .tc main_v1) = dstOf (V (Proc.devRef .tc main_arg1)) := by
  after_results
  exact edgeRow_apply _ 0 _ _

/-- Row 1 of the edge list, flattened: the sources. -/
theorem pre_v3 (V : Valuation τ sig (Elt Ideal)) :
    after (pre (F := Ideal)) V (Proc.devRef .tc main_v3) = srcOf (V (Proc.devRef .tc main_arg1)) := by
  after_results
  exact edgeRow_apply _ 1 _ _

/-- Layer 0's operations compute the layer's chain from what they read. -/
theorem L0_val (V : Valuation τ sig (Elt Ideal)) :
    after (L0 (F := Ideal)) V (Proc.devRef .tc main_v42)
      = layerC (V (Proc.devRef .tc main_arg0)) (V (Proc.devRef .tc main_v1)) (V (Proc.devRef .tc main_v3))
          (V (Proc.devRef .tc main_arg2)) (V (Proc.devRef .tc main_arg3)) ![(0 : Fin 3).val, 0] slices_S3x128_S1x128_0_0 := by
  after_results_simp
  rfl

/-- Layer 1's operations compute the layer's chain from what they read. -/
theorem L1_val (V : Valuation τ sig (Elt Ideal)) :
    after (L1 (F := Ideal)) V (Proc.devRef .tc main_v81)
      = layerC (V (Proc.devRef .tc main_v42)) (V (Proc.devRef .tc main_v1)) (V (Proc.devRef .tc main_v3))
          (V (Proc.devRef .tc main_arg2)) (V (Proc.devRef .tc main_arg3)) ![(1 : Fin 3).val, 0] slices_S3x128_S1x128_1_0 := by
  after_results_simp
  rfl

/-- Layer 2's operations compute the layer's chain from what they read. -/
theorem L2_val (V : Valuation τ sig (Elt Ideal)) :
    after (L2 (F := Ideal)) V (Proc.devRef .tc main_v120)
      = layerC (V (Proc.devRef .tc main_v81)) (V (Proc.devRef .tc main_v1)) (V (Proc.devRef .tc main_v3))
          (V (Proc.devRef .tc main_arg2)) (V (Proc.devRef .tc main_arg3)) ![(2 : Fin 3).val, 0] slices_S3x128_S1x128_2_0 := by
  after_results_simp
  rfl

/-- The last four operations compute the head from the third layer's result. -/
theorem tl_val (V : Valuation τ sig (Elt Ideal)) :
    after (tl (F := Ideal)) V (Proc.devRef .tc main_v124)
      = headC (V (Proc.devRef .tc main_v120)) (V (Proc.devRef .tc main_arg4)) (V (Proc.devRef .tc main_arg5)) := by
  after_results
  rfl

end Cert.ReferenceIdeal.HandV

end
-- ==== Proof.Ref.Value.lean ====
/-
  The reference program's result as one function of its six arguments, over the extended reals: the node-task
  head applied to three layers of the entering features, each layer aggregating along the edge list and using its
  own row of the scales and of the shifts.

  The line is cut at the layers' ends. What the layers read besides the features — the two rows of the edge list
  and the four parameter arrays — is in place once the first four operations have run, and no layer writes it: so
  it is carried along the line as one fact about the buffers' contents. Each layer's stretch then turns the
  features it finds into the layer of the mathematics applied to them, and the head's stretch is the head.
-/
import proofs.«107997_j14224931684915_1_alg».proof.Proof.Ref.Layer

noncomputable section

namespace Cert.ReferenceIdeal.HandV

open Cert.ReferenceIdeal Cert.ReferenceIdeal.Facts₀ Idealize.ShloMosaic Idealize.ShloMosaic.ValueIdx
  Idealize.ShloMosaic.StableHlo Idealize.SL.Sem Cert.Spec Cert.Conv Cert.HostSpec

/-- One layer of the reference over the arguments' contents `W`: layer `k` aggregates along the edge list and
    uses row `k` of the scales and of the shifts. -/
def layerRef (W : Valuation τ sig (Elt Ideal)) (k : Fin 3) (h : Mat 100000 128) : Mat 100000 128 :=
  layerR cE eE h
    (AggOf (dstOf (W (Proc.devRef .tc main_arg1))) (srcOf (W (Proc.devRef .tc main_arg1))) h)
    (toMat (W (Proc.devRef .tc main_arg2)) k) (toMat (W (Proc.devRef .tc main_arg3)) k)

/-- The buffers' contents `V` hold what the layers and the head read of the arguments' contents `W`: the
    flattened rows of the edge list, and the four parameter arrays. -/
structure Holds (W V : Valuation τ sig (Elt Ideal)) : Prop where
  dst : V (Proc.devRef .tc main_v1) = dstOf (W (Proc.devRef .tc main_arg1))
  src : V (Proc.devRef .tc main_v3) = srcOf (W (Proc.devRef .tc main_arg1))
  a2 : V (Proc.devRef .tc main_arg2) = W (Proc.devRef .tc main_arg2)
  a3 : V (Proc.devRef .tc main_arg3) = W (Proc.devRef .tc main_arg3)
  a4 : V (Proc.devRef .tc main_arg4) = W (Proc.devRef .tc main_arg4)
  a5 : V (Proc.devRef .tc main_arg5) = W (Proc.devRef .tc main_arg5)

/-- After the first four operations the buffers hold it. -/
theorem holds_pre (W : Valuation τ sig (Elt Ideal)) : Holds W (after (pre (F := Ideal)) W) where
  dst := pre_v1 W
  src := pre_v3 W
  a2 := keepPre W main_arg2 (by decide)
  a3 := keepPre W main_arg3 (by decide)
  a4 := keepPre W main_arg4 (by decide)
  a5 := keepPre W main_arg5 (by decide)

/-- No layer writes it. -/
theorem Holds.L0 {W V : Valuation τ sig (Elt Ideal)} (h : Holds W V) : Holds W (after (L0 (F := Ideal)) V) where
  dst := (keepL0 V main_v1 (by decide)).trans h.dst
  src := (keepL0 V main_v3 (by decide)).trans h.src
  a2 := (keepL0 V main_arg2 (by decide)).trans h.a2
  a3 := (keepL0 V main_arg3 (by decide)).trans h.a3
  a4 := (keepL0 V main_arg4 (by decide)).trans h.a4
  a5 := (keepL0 V main_arg5 (by decide)).trans h.a5

theorem Holds.L1 {W V : Valuation τ sig (Elt Ideal)} (h : Holds W V) : Holds W (after (L1 (F := Ideal)) V) where
  dst := (keepL1 V main_v1 (by decide)).trans h.dst
  src := (keepL1 V main_v3 (by decide)).trans h.src
  a2 := (keepL1 V main_arg2 (by decide)).trans h.a2
  a3 := (keepL1 V main_arg3 (by decide)).trans h.a3
  a4 := (keepL1 V main_arg4 (by decide)).trans h.a4
  a5 := (keepL1 V main_arg5 (by decide)).trans h.a5

theorem Holds.L2 {W V : Valuation τ sig (Elt Ideal)} (h : Holds W V) : Holds W (after (L2 (F := Ideal)) V) where
  dst := (keepL2 V main_v1 (by decide)).trans h.dst
  src := (keepL2 V main_v3 (by decide)).trans h.src
  a2 := (keepL2 V main_arg2 (by decide)).trans h.a2
  a3 := (keepL2 V main_arg3 (by decide)).trans h.a3
  a4 := (keepL2 V main_arg4 (by decide)).trans h.a4
  a5 := (keepL2 V main_arg5 (by decide)).trans h.a5

/-- The first layer's stretch turns the features in the first argument's buffer into layer 0 of them. -/
theorem layer0 {W V : Valuation τ sig (Elt Ideal)} (h : Holds W V) :
    toMat (after (L0 (F := Ideal)) V (Proc.devRef .tc main_v42)) = layerRef W 0 (toMat (V (Proc.devRef .tc main_arg0))) := by
  rw [L0_val, layerC_toMat _ _ _ _ _ 0, h.dst, h.src, h.a2, h.a3]
  rfl

/-- The second layer's stretch turns the first layer's result into layer 1 of it. -/
theorem layer1 {W V : Valuation τ sig (Elt Ideal)} (h : Holds W V) :
    toMat (after (L1 (F := Ideal)) V (Proc.devRef .tc main_v81)) = layerRef W 1 (toMat (V (Proc.devRef .tc main_v42))) := by
  rw [L1_val, layerC_toMat _ _ _ _ _ 1, h.dst, h.src, h.a2, h.a3]
  rfl

/-- The third layer's stretch turns the second layer's result into layer 2 of it. -/
theorem layer2 {W V : Valuation τ sig (Elt Ideal)} (h : Holds W V) :
    toMat (after (L2 (F := Ideal)) V (Proc.devRef .tc main_v120)) = layerRef W 2 (toMat (V (Proc.devRef .tc main_v81))) := by
  rw [L2_val, layerC_toMat _ _ _ _ _ 2, h.dst, h.src, h.a2, h.a3]
  rfl

/-- The head's stretch is the head of the third layer's result. -/
theorem head3 {W V : Valuation τ sig (Elt Ideal)} (h : Holds W V) :
    toMat (after (tl (F := Ideal)) V (Proc.devRef .tc main_v124))
      = head (toMat (V (Proc.devRef .tc main_v120))) (toMat (W (Proc.devRef .tc main_arg4))) (toRow (W (Proc.devRef .tc main_arg5))) := by
  rw [tl_val, headC_toMat, h.a4, h.a5]

/-- The reference's result is the head applied to three layers of the entering features. -/
theorem ref_value (W : Valuation τ sig (Elt Ideal)) :
    toMat (after Hand.ops W (Proc.devRef .tc main_v124))
      = head (layerRef W 2 (layerRef W 1 (layerRef W 0 (toMat (W (Proc.devRef .tc main_arg0))))))
          (toMat (W (Proc.devRef .tc main_arg4))) (toRow (W (Proc.devRef .tc main_arg5))) := by
  have h0 := holds_pre W
  have h1 := h0.L0
  have h2 := h1.L1
  have h3 := h2.L2
  rw [after_split, head3 h3, layer2 h2, layer1 h1, layer0 h0, keepPre W main_arg0 (by decide)]

end Cert.ReferenceIdeal.HandV

end
-- ==== Proof.PreFin.lean ====
/-
  The precondition, read back: the printed predicate compares |x| with +∞ at every entry of each float
  argument, takes the conjunction over each array and then over the arrays, and the claim's hypothesis says
  the result is 1. So every comparison is 1, and an extended real whose absolute value max x (−x) lies
  strictly below +∞ is neither +∞ nor −∞: every entry of every float argument is a real number.
-/
import proofs.«107997_j14224931684915_1_alg».proof.Defs
import proofs.«107997_j14224931684915_1_alg».proof.Proof.Gen.KernelIdeal
import proofs.«107997_j14224931684915_1_alg».proof.Proof.Gen.Pre_finite_inputs
import proofs.«107997_j14224931684915_1_alg».proof.Proof.Conv
import Idealize.ShloMosaic.Lib.ReduceAll
import Idealize.ShloMosaic.Lib.ValueIdx

noncomputable section

namespace Cert.PreFin

open Idealize.ShloMosaic Idealize.SL.Sem Cert.Pre_finite_inputs Cert.Spec

/-- The pattern 0x7F800000 (sign 0, exponent all ones, fraction 0) denotes +∞. -/
theorem inf_pattern : Ideal.ofBits .f32 0x7F800000#32 = (⊤ : EReal) := by
  simp [Ideal.ofBits, Ideal.ieee]

/-- |x| < +∞ leaves only the real numbers: at either infinity max x (−x) is +∞. -/
theorem abs_lt_top (x : EReal) (h : max x (-x) < ⊤) : Fin' x := by
  induction x using EReal.rec with
  | bot => simp at h
  | coe r => exact fin'_coe r
  | top => simp at h

/-- The rank-0 shape has a single index. -/
instance : Subsingleton S_.Idx := ⟨fun a b => funext fun d => d.elim0⟩

/-- One entry of the comparison `|a| < +∞` being 1 says that entry of `a` is finite. -/
theorem elem_fin {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    Fin' (a i) := by
  apply abs_lt_top
  have h' : Ideal.cmp .olt (max (a i) (-(a i))) (Ideal.ofBits .f32 0x7F800000#32) = 1#1 := h
  rw [inf_pattern] at h'
  by_cases hp : max (a i) (-(a i)) < ⊤
  · exact hp
  · exfalso
    have h2 : Ideal.cmp .olt (max (a i) (-(a i))) ⊤ = 0#1 := by
      unfold Ideal.cmp
      simp only [decide_eq_false hp]
      rfl
    rw [h2] at h'
    exact absurd h' (by decide)

/-- The predicate being 1 on six arrays makes every entry of the five float arrays finite. -/
theorem fn_fin [Cert.Pre_finite_inputs.Facts] (a0 : FVec Ideal S100000x128 .f32) (a1 : IVec S2x1600000 32)
    (a2 a3 : FVec Ideal S3x128 .f32) (a4 : FVec Ideal S128x64 .f32) (a5 : FVec Ideal S64 .f32)
    (h : Cert.Pre_finite_inputs.fn (F := Ideal) a0 a1 a2 a3 a4 a5 = fun _ => 1#1) :
    (∀ i, Fin' (a0 i)) ∧ (∀ i, Fin' (a2 i)) ∧ (∀ i, Fin' (a3 i)) ∧ (∀ i, Fin' (a4 i)) ∧ (∀ i, Fin' (a5 i)) := by
  have h0 := congrFun h ValueIdx.ix0
  dsimp only [Cert.Pre_finite_inputs.fn, Cert.Pre_finite_inputs.fn_part1, andi] at h0
  rw [IntOp.andi_eq_one, IntOp.andi_eq_one, IntOp.andi_eq_one, IntOp.andi_eq_one] at h0
  obtain ⟨⟨⟨⟨e0, e2⟩, e3⟩, e4⟩, e5⟩ := h0
  refine ⟨fun i => ?_, fun i => ?_, fun i => ?_, fun i => ?_, fun i => ?_⟩
  · exact elem_fin _ a0 i (Host.reduce_andi_all _ _ _ _ _ e0 i)
  · exact elem_fin _ a2 i (Host.reduce_andi_all _ _ _ _ _ e2 i)
  · exact elem_fin _ a3 i (Host.reduce_andi_all _ _ _ _ _ e3 i)
  · exact elem_fin _ a4 i (Host.reduce_andi_all _ _ _ _ _ e4 i)
  · exact elem_fin _ a5 i (Host.reduce_andi_all _ _ _ _ _ e5 i)

section KernelIdeal

variable [Cert.Pre_finite_inputs.Facts]
  (m : (ℓ : Loc Cert.KernelIdeal.nD Cert.KernelIdeal.τ Cert.KernelIdeal.sig) → Buf (Elt Ideal) ℓ)
  (hpre : Cert.Pre_KernelIdeal m) (c : Dev Cert.KernelIdeal.nD)

include hpre

/-- The node features are finite. -/
theorem x_fin : Cert.Spec.MatFin (Cert.Conv.toMat (n := 100000) (d := 128)
    (m ((c.tc : Thread Cert.KernelIdeal.nD Cert.KernelIdeal.τ).loc Cert.KernelIdeal.main_arg0))) :=
  fun i j => (fn_fin _ _ _ _ _ _ (hpre c)).1 (ValueIdx.ix2 i j)

/-- The three layers' scale rows are finite. -/
theorem gamma_fin : Cert.Spec.MatFin (Cert.Conv.toMat (n := 3) (d := 128)
    (m ((c.tc : Thread Cert.KernelIdeal.nD Cert.KernelIdeal.τ).loc Cert.KernelIdeal.main_arg2))) :=
  fun i j => (fn_fin _ _ _ _ _ _ (hpre c)).2.1 (ValueIdx.ix2 i j)

/-- The three layers' shift rows are finite. -/
theorem beta_fin : Cert.Spec.MatFin (Cert.Conv.toMat (n := 3) (d := 128)
    (m ((c.tc : Thread Cert.KernelIdeal.nD Cert.KernelIdeal.τ).loc Cert.KernelIdeal.main_arg3))) :=
  fun i j => (fn_fin _ _ _ _ _ _ (hpre c)).2.2.1 (ValueIdx.ix2 i j)

/-- The head's weights are finite. -/
theorem w_fin : Cert.Spec.MatFin (Cert.Conv.toMat (n := 128) (d := 64)
    (m ((c.tc : Thread Cert.KernelIdeal.nD Cert.KernelIdeal.τ).loc Cert.KernelIdeal.main_arg4))) :=
  fun i j => (fn_fin _ _ _ _ _ _ (hpre c)).2.2.2.1 (ValueIdx.ix2 i j)

/-- The head's bias is finite. -/
theorem b_fin : Cert.Spec.RowFin (Cert.Conv.toRow (d := 64)
    (m ((c.tc : Thread Cert.KernelIdeal.nD Cert.KernelIdeal.τ).loc Cert.KernelIdeal.main_arg5))) :=
  fun j => (fn_fin _ _ _ _ _ _ (hpre c)).2.2.2.2 (ValueIdx.ix1 j)

end KernelIdeal

end Cert.PreFin

end
-- ==== Proof.lean ====
/-
  The certificate's claim. The kernel program computes three rounds of message passing — each node's features plus
  the sum over its incoming edges plus the sum over all nodes, then batch normalisation over the nodes and a clamp at
  zero — followed by a linear head, with the dense part of every round in two kernels (combine and accumulate the
  column sums of the values and of their squares; normalise) and the head in a third; the reference computes the
  same on the host. The two differ in one place only: the kernel program takes the variance of a column as
  E[u²] − (E[u])², the reference as E[(u − E[u])²]. Over the extended reals these agree when every entry is a real
  number, which the precondition gives for the inputs and each round preserves (the variance is non-negative, the
  added ε positive, so the reciprocal square root is finite). Sums over the nodes are taken tile by tile on one side
  and at once on the other: the same finite sum. The changes of float format before the head's product are the
  identity at this instance.

  The three frames: each program's run is read whole (the kernel programs' as seven host stretches alternating with
  seven regions, each region from its pipeline's proof data; the reference's as its list of host operations), and
  no operation or region writes an argument array.
-/
import proofs.«107997_j14224931684915_1_alg».proof.Defs
import proofs.«107997_j14224931684915_1_alg».proof.Proof.Gen.Kernel
import proofs.«107997_j14224931684915_1_alg».proof.Proof.Gen.KernelIdeal
import proofs.«107997_j14224931684915_1_alg».proof.Proof.Gen.ReferenceIdeal
import proofs.«107997_j14224931684915_1_alg».proof.Proof.Gen.Pre_finite_inputs
import proofs.«107997_j14224931684915_1_alg».proof.Proof.K.Run
import proofs.«107997_j14224931684915_1_alg».proof.Proof.KI.Run
import proofs.«107997_j14224931684915_1_alg».proof.Proof.KI.Value
import proofs.«107997_j14224931684915_1_alg».proof.Proof.Ref.Run
import proofs.«107997_j14224931684915_1_alg».proof.Proof.Ref.Value
import proofs.«107997_j14224931684915_1_alg».proof.Proof.Net
import proofs.«107997_j14224931684915_1_alg».proof.Proof.PreFin
import proofs.«107997_j14224931684915_1_alg».proof.Proof.HostSpec
import Idealize.ShloMosaic.Adequacy
import Idealize.ShloMosaic.Init

noncomputable section

namespace Cert.Proof

open Idealize.ShloMosaic Idealize.ShloMosaic.TcCoe Idealize.SL.Sem

/-- The word-level program runs to the end and leaves its arguments: its whole run with the result dropped. -/
theorem frame_k [Cert.Kernel.Facts] [Cert.Pre_finite_inputs.Facts] : Cert.frame_Kernel := fun m ρ _ =>
  (θ_run Cert.Kernel.defs _ _).mono (fun _ h c => (h c).2) (Cert.Kernel.Hand.run (F := Bits) m ρ)

/-- The idealized program likewise. -/
theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Hand.run (F := Ideal) m ρ)

/-- Both idealized programs end with the same result array: the network of three rounds and the head, in the
    kernel program's arrangement of the variance on one side and the reference's on the other, equal on finite inputs. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => (Cert.KernelIdeal.Hand.dat6 (F := Ideal) (Cert.KernelIdeal.Hand.V13 m ρ) c).arrAt 3 Cert.KernelIdeal.cfg6.N,
    Cert.KernelIdeal.Hand.run (F := Ideal) m ρ, ?_⟩
  refine (θ_run Cert.ReferenceIdeal.defs _ _).mono (fun r h c => ⟨(h c).1.trans ?_, (h c).2⟩)
    (Cert.ReferenceIdeal.Hand.run (F := Ideal) m' ρ')
  obtain ⟨a0, a1, a2, a3, a4, a5⟩ := hagree c
  -- the reference's result is the network with the variance as the mean of the centred squares, over its own arguments
  have hR : Cert.Conv.toMat (n := 100000) (d := 64)
        (StableHlo.after Cert.ReferenceIdeal.Hand.ops (fun b => m' (c, b)) (Proc.devRef .tc Cert.ReferenceIdeal.main_v124))
      = Cert.Net3.net (n := 100000) (d := 128) (o := 64) Cert.Spec.varR Cert.HostSpec.cE Cert.HostSpec.eE
        (Cert.HostSpec.AggOf (Cert.HostSpec.dstOf (m' ((c.tc : Thread Cert.ReferenceIdeal.nD Cert.ReferenceIdeal.τ).loc Cert.ReferenceIdeal.main_arg1))) (Cert.HostSpec.srcOf (m' ((c.tc : Thread Cert.ReferenceIdeal.nD Cert.ReferenceIdeal.τ).loc Cert.ReferenceIdeal.main_arg1))))
        (Cert.Conv.toMat (n := 100000) (d := 128) (m' ((c.tc : Thread Cert.ReferenceIdeal.nD Cert.ReferenceIdeal.τ).loc Cert.ReferenceIdeal.main_arg0))) (Cert.Conv.toMat (n := 3) (d := 128) (m' ((c.tc : Thread Cert.ReferenceIdeal.nD Cert.ReferenceIdeal.τ).loc Cert.ReferenceIdeal.main_arg2)))
        (Cert.Conv.toMat (n := 3) (d := 128) (m' ((c.tc : Thread Cert.ReferenceIdeal.nD Cert.ReferenceIdeal.τ).loc Cert.ReferenceIdeal.main_arg3))) (Cert.Conv.toMat (n := 128) (d := 64) (m' ((c.tc : Thread Cert.ReferenceIdeal.nD Cert.ReferenceIdeal.τ).loc Cert.ReferenceIdeal.main_arg4)))
        (Cert.Conv.toRow (d := 64) (m' ((c.tc : Thread Cert.ReferenceIdeal.nD Cert.ReferenceIdeal.τ).loc Cert.ReferenceIdeal.main_arg5))) :=
    Cert.ReferenceIdeal.HandV.ref_value (fun b => m' (c, b))
  -- the same network over the kernel program's arguments: the two memories agree on the arguments
  have hA : Cert.Net3.net (n := 100000) (d := 128) (o := 64) Cert.Spec.varR Cert.HostSpec.cE Cert.HostSpec.eE
        (Cert.HostSpec.AggOf (Cert.HostSpec.dstOf (m' ((c.tc : Thread Cert.ReferenceIdeal.nD Cert.ReferenceIdeal.τ).loc Cert.ReferenceIdeal.main_arg1))) (Cert.HostSpec.srcOf (m' ((c.tc : Thread Cert.ReferenceIdeal.nD Cert.ReferenceIdeal.τ).loc Cert.ReferenceIdeal.main_arg1))))
        (Cert.Conv.toMat (n := 100000) (d := 128) (m' ((c.tc : Thread Cert.ReferenceIdeal.nD Cert.ReferenceIdeal.τ).loc Cert.ReferenceIdeal.main_arg0))) (Cert.Conv.toMat (n := 3) (d := 128) (m' ((c.tc : Thread Cert.ReferenceIdeal.nD Cert.ReferenceIdeal.τ).loc Cert.ReferenceIdeal.main_arg2)))
        (Cert.Conv.toMat (n := 3) (d := 128) (m' ((c.tc : Thread Cert.ReferenceIdeal.nD Cert.ReferenceIdeal.τ).loc Cert.ReferenceIdeal.main_arg3))) (Cert.Conv.toMat (n := 128) (d := 64) (m' ((c.tc : Thread Cert.ReferenceIdeal.nD Cert.ReferenceIdeal.τ).loc Cert.ReferenceIdeal.main_arg4)))
        (Cert.Conv.toRow (d := 64) (m' ((c.tc : Thread Cert.ReferenceIdeal.nD Cert.ReferenceIdeal.τ).loc Cert.ReferenceIdeal.main_arg5)))
      = Cert.Net3.net (n := 100000) (d := 128) (o := 64) Cert.Spec.varR Cert.HostSpec.cE Cert.HostSpec.eE
        (Cert.HostSpec.AggOf (Cert.HostSpec.dstOf (m ((c.tc : Thread Cert.KernelIdeal.nD Cert.KernelIdeal.τ).loc Cert.KernelIdeal.main_arg1))) (Cert.HostSpec.srcOf (m ((c.tc : Thread Cert.KernelIdeal.nD Cert.KernelIdeal.τ).loc Cert.KernelIdeal.main_arg1))))
        (Cert.Conv.toMat (n := 100000) (d := 128) (m ((c.tc : Thread Cert.KernelIdeal.nD Cert.KernelIdeal.τ).loc Cert.KernelIdeal.main_arg0))) (Cert.Conv.toMat (n := 3) (d := 128) (m ((c.tc : Thread Cert.KernelIdeal.nD Cert.KernelIdeal.τ).loc Cert.KernelIdeal.main_arg2)))
        (Cert.Conv.toMat (n := 3) (d := 128) (m ((c.tc : Thread Cert.KernelIdeal.nD Cert.KernelIdeal.τ).loc Cert.KernelIdeal.main_arg3))) (Cert.Conv.toMat (n := 128) (d := 64) (m ((c.tc : Thread Cert.KernelIdeal.nD Cert.KernelIdeal.τ).loc Cert.KernelIdeal.main_arg4)))
        (Cert.Conv.toRow (d := 64) (m ((c.tc : Thread Cert.KernelIdeal.nD Cert.KernelIdeal.τ).loc Cert.KernelIdeal.main_arg5))) := by
    rw [a0, a1, a2, a3, a4, a5]
  -- the kernel program's result is the network with the variance as the mean of the squares minus the squared mean
  have hK : Cert.Conv.toMat (n := 100000) (d := 64)
        ((Cert.KernelIdeal.Hand.dat6 (F := Ideal) (Cert.KernelIdeal.Hand.V13 m ρ) c).arrAt 3 Cert.KernelIdeal.cfg6.N)
      = Cert.Net3.net (n := 100000) (d := 128) (o := 64) Cert.Spec.varK Cert.HostSpec.cE Cert.HostSpec.eE
        (Cert.HostSpec.AggOf (Cert.HostSpec.dstOf (m ((c.tc : Thread Cert.KernelIdeal.nD Cert.KernelIdeal.τ).loc Cert.KernelIdeal.main_arg1))) (Cert.HostSpec.srcOf (m ((c.tc : Thread Cert.KernelIdeal.nD Cert.KernelIdeal.τ).loc Cert.KernelIdeal.main_arg1))))
        (Cert.Conv.toMat (n := 100000) (d := 128) (m ((c.tc : Thread Cert.KernelIdeal.nD Cert.KernelIdeal.τ).loc Cert.KernelIdeal.main_arg0))) (Cert.Conv.toMat (n := 3) (d := 128) (m ((c.tc : Thread Cert.KernelIdeal.nD Cert.KernelIdeal.τ).loc Cert.KernelIdeal.main_arg2)))
        (Cert.Conv.toMat (n := 3) (d := 128) (m ((c.tc : Thread Cert.KernelIdeal.nD Cert.KernelIdeal.τ).loc Cert.KernelIdeal.main_arg3))) (Cert.Conv.toMat (n := 128) (d := 64) (m ((c.tc : Thread Cert.KernelIdeal.nD Cert.KernelIdeal.τ).loc Cert.KernelIdeal.main_arg4)))
        (Cert.Conv.toRow (d := 64) (m ((c.tc : Thread Cert.KernelIdeal.nD Cert.KernelIdeal.τ).loc Cert.KernelIdeal.main_arg5))) :=
    Cert.KernelIdeal.HandV.kernel_value m ρ c
  -- the two arrangements agree on finite arguments
  have hN : Cert.Net3.net (n := 100000) (d := 128) (o := 64) Cert.Spec.varK Cert.HostSpec.cE Cert.HostSpec.eE
        (Cert.HostSpec.AggOf (Cert.HostSpec.dstOf (m ((c.tc : Thread Cert.KernelIdeal.nD Cert.KernelIdeal.τ).loc Cert.KernelIdeal.main_arg1))) (Cert.HostSpec.srcOf (m ((c.tc : Thread Cert.KernelIdeal.nD Cert.KernelIdeal.τ).loc Cert.KernelIdeal.main_arg1))))
        (Cert.Conv.toMat (n := 100000) (d := 128) (m ((c.tc : Thread Cert.KernelIdeal.nD Cert.KernelIdeal.τ).loc Cert.KernelIdeal.main_arg0))) (Cert.Conv.toMat (n := 3) (d := 128) (m ((c.tc : Thread Cert.KernelIdeal.nD Cert.KernelIdeal.τ).loc Cert.KernelIdeal.main_arg2)))
        (Cert.Conv.toMat (n := 3) (d := 128) (m ((c.tc : Thread Cert.KernelIdeal.nD Cert.KernelIdeal.τ).loc Cert.KernelIdeal.main_arg3))) (Cert.Conv.toMat (n := 128) (d := 64) (m ((c.tc : Thread Cert.KernelIdeal.nD Cert.KernelIdeal.τ).loc Cert.KernelIdeal.main_arg4)))
        (Cert.Conv.toRow (d := 64) (m ((c.tc : Thread Cert.KernelIdeal.nD Cert.KernelIdeal.τ).loc Cert.KernelIdeal.main_arg5)))
      = Cert.Net3.net (n := 100000) (d := 128) (o := 64) Cert.Spec.varR Cert.HostSpec.cE Cert.HostSpec.eE
        (Cert.HostSpec.AggOf (Cert.HostSpec.dstOf (m ((c.tc : Thread Cert.KernelIdeal.nD Cert.KernelIdeal.τ).loc Cert.KernelIdeal.main_arg1))) (Cert.HostSpec.srcOf (m ((c.tc : Thread Cert.KernelIdeal.nD Cert.KernelIdeal.τ).loc Cert.KernelIdeal.main_arg1))))
        (Cert.Conv.toMat (n := 100000) (d := 128) (m ((c.tc : Thread Cert.KernelIdeal.nD Cert.KernelIdeal.τ).loc Cert.KernelIdeal.main_arg0))) (Cert.Conv.toMat (n := 3) (d := 128) (m ((c.tc : Thread Cert.KernelIdeal.nD Cert.KernelIdeal.τ).loc Cert.KernelIdeal.main_arg2)))
        (Cert.Conv.toMat (n := 3) (d := 128) (m ((c.tc : Thread Cert.KernelIdeal.nD Cert.KernelIdeal.τ).loc Cert.KernelIdeal.main_arg3))) (Cert.Conv.toMat (n := 128) (d := 64) (m ((c.tc : Thread Cert.KernelIdeal.nD Cert.KernelIdeal.τ).loc Cert.KernelIdeal.main_arg4)))
        (Cert.Conv.toRow (d := 64) (m ((c.tc : Thread Cert.KernelIdeal.nD Cert.KernelIdeal.τ).loc Cert.KernelIdeal.main_arg5))) :=
    Cert.Net3.net_eq (n := 100000) (d := 128) (o := 64) (by norm_num) Cert.HostSpec.epsR Cert.HostSpec.epsR_pos
      (Cert.HostSpec.AggOf (Cert.HostSpec.dstOf (m ((c.tc : Thread Cert.KernelIdeal.nD Cert.KernelIdeal.τ).loc Cert.KernelIdeal.main_arg1))) (Cert.HostSpec.srcOf (m ((c.tc : Thread Cert.KernelIdeal.nD Cert.KernelIdeal.τ).loc Cert.KernelIdeal.main_arg1))))
      (fun h hh => Cert.HostSpec.AggOf_fin _ _ h hh)
      (Cert.Conv.toMat (n := 100000) (d := 128) (m ((c.tc : Thread Cert.KernelIdeal.nD Cert.KernelIdeal.τ).loc Cert.KernelIdeal.main_arg0))) (Cert.Conv.toMat (n := 3) (d := 128) (m ((c.tc : Thread Cert.KernelIdeal.nD Cert.KernelIdeal.τ).loc Cert.KernelIdeal.main_arg2)))
      (Cert.Conv.toMat (n := 3) (d := 128) (m ((c.tc : Thread Cert.KernelIdeal.nD Cert.KernelIdeal.τ).loc Cert.KernelIdeal.main_arg3))) (Cert.Conv.toMat (n := 128) (d := 64) (m ((c.tc : Thread Cert.KernelIdeal.nD Cert.KernelIdeal.τ).loc Cert.KernelIdeal.main_arg4)))
      (Cert.Conv.toRow (d := 64) (m ((c.tc : Thread Cert.KernelIdeal.nD Cert.KernelIdeal.τ).loc Cert.KernelIdeal.main_arg5)))
      (Cert.PreFin.x_fin m hpre c) (Cert.PreFin.gamma_fin m hpre c) (Cert.PreFin.beta_fin m hpre c)
  exact Cert.Conv.toMat_inj (n := 100000) (d := 64) (hR.trans (hA.trans (hN.symm.trans hK.symm)))

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame Cert.ReferenceIdeal.Gen.facts Cert.Pre_finite_inputs.Gen.facts,
    trivial, algebraic⟩

end Cert.Proof

end
